-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v214)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v214) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v320) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x100000 : Shape := ⟨2, ![2, 100000]⟩
abbrev S2x1000000 : Shape := ⟨2, ![2, 1000000]⟩
abbrev S2x4x128x128 : Shape := ⟨4, ![2, 4, 128, 128]⟩
abbrev S2x4x128 : Shape := ⟨3, ![2, 4, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S2x4x128x128 : S_.BroadcastsInDim S2x4x128x128 (![] : Fin 0 → Fin S2x4x128x128.rank)
  reducesTo_S2x4x128x128_S_d0_1_2_3 : S2x4x128x128.ReducesTo [0, 1, 2, 3] S_
  bcast_S_S2x4x128 : S_.BroadcastsInDim S2x4x128 (![] : Fin 0 → Fin S2x4x128.rank)
  reducesTo_S2x4x128_S_d0_1_2 : S2x4x128.ReducesTo [0, 1, 2] S_

variable [Facts]

def fn_part1 {F : FTy → Type} [FloatOps F] (main_arg8 : FVec F S2x4x128x128 .f32) (main_v13 : IVec S_ 1) (main_v16 : IVec S2x4x128 1) : IVec S_ 1 :=
  let main_c_5 : IVec S_ 1 := constantI S_ 1 1#1
  let main_v17 : IVec S_ 1 := (fun x v => Host.reduce IntOp.andi x v reducesTo_S2x4x128_S_d0_1_2 h_S_) main_v16 main_c_5
  let main_v18 : IVec S_ 1 := andi main_v13 main_v17
  let main_v19 : FVec F S2x4x128x128 .f32 := Host.absf main_arg8
  let main_cst_6 : FVec F S_ .f32 := constant S_ .f32 0x7F800000#32
  let main_v20 : FVec F S2x4x128x128 .f32 := broadcastInDim S2x4x128x128 ![] bcast_S_S2x4x128x128 main_cst_6
  let main_v21 : IVec S2x4x128x128 1 := cmpf .olt main_v19 main_v20
  let main_c_7 : IVec S_ 1 := constantI S_ 1 1#1
  let main_v22 : IVec S_ 1 := (fun x v => Host.reduce IntOp.andi x v reducesTo_S2x4x128x128_S_d0_1_2_3 h_S_) main_v21 main_c_7
  let main_v23 : IVec S_ 1 := andi main_v18 main_v22
  main_v23

def fn {F : FTy → Type} [FloatOps F] (main_arg0 : FVec F S100000x128 .f32) (main_arg1 : FVec F S100000x128 .f32) (main_arg2 : IVec S2x100000 32) (main_arg3 : IVec S2x100000 32) (main_arg4 : IVec S2x1000000 32) (main_arg5 : IVec S2x1000000 32) (main_arg6 : FVec F S2x4x128x128 .f32) (main_arg7 : FVec F S2x4x128 .f32) (main_arg8 : FVec F S2x4x128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S2x4x128x128 .f32 := Host.absf main_arg6
  let main_cst_2 : FVec F S_ .f32 := constant S_ .f32 0x7F800000#32
  let main_v10 : FVec F S2x4x128x128 .f32 := broadcastInDim S2x4x128x128 ![] bcast_S_S2x4x128x128 main_cst_2
  let main_v11 : IVec S2x4x128x128 1 := cmpf .olt main_v9 main_v10
  let main_c_3 : IVec S_ 1 := constantI S_ 1 1#1
  let main_v12 : IVec S_ 1 := (fun x v => Host.reduce IntOp.andi x v reducesTo_S2x4x128x128_S_d0_1_2_3 h_S_) main_v11 main_c_3
  let main_v13 : IVec S_ 1 := andi main_v8 main_v12
  let main_v14 : FVec F S2x4x128 .f32 := Host.absf main_arg7
  let main_cst_4 : FVec F S_ .f32 := constant S_ .f32 0x7F800000#32
  let main_v15 : FVec F S2x4x128 .f32 := broadcastInDim S2x4x128 ![] bcast_S_S2x4x128 main_cst_4
  let main_v16 : IVec S2x4x128 1 := cmpf .olt main_v14 main_v15
  fn_part1 (F := F) main_arg8 main_v13 main_v16
-- ==== Kernel.lean ====
abbrev S100000x128 : Shape := ⟨2, ![100000, 128]⟩
abbrev S2x100000 : Shape := ⟨2, ![2, 100000]⟩
abbrev S2x1000000 : Shape := ⟨2, ![2, 1000000]⟩
abbrev S2x4x128x128 : Shape := ⟨4, ![2, 4, 128, 128]⟩
abbrev S2x4x128 : Shape := ⟨3, ![2, 4, 128]⟩
abbrev S_ : Shape := ⟨0, ![]⟩
abbrev S100000 : Shape := ⟨1, ![100000]⟩
abbrev S1x100000 : Shape := ⟨2, ![1, 100000]⟩
abbrev S100000x1 : Shape := ⟨2, ![100000, 1]⟩
abbrev S1000000 : Shape := ⟨1, ![1000000]⟩
abbrev S1x1000000 : Shape := ⟨2, ![1, 1000000]⟩
abbrev S1000000x1 : Shape := ⟨2, ![1000000, 1]⟩
abbrev S100000x4 : Shape := ⟨2, ![100000, 4]⟩
abbrev S2x1x128x128 : Shape := ⟨4, ![2, 1, 128, 128]⟩
abbrev S2x128x128 : Shape := ⟨3, ![2, 128, 128]⟩
abbrev S2x1x128 : Shape := ⟨3, ![2, 1, 128]⟩
abbrev S2x128 : Shape := ⟨2, ![2, 128]⟩
abbrev S1000000x128 : Shape := ⟨2, ![1000000, 128]⟩
abbrev S1x1x128x128 : Shape := ⟨4, ![1, 1, 128, 128]⟩
abbrev S128x128 : Shape := ⟨2, ![128, 128]⟩
abbrev S1x128x128 : Shape := ⟨3, ![1, 128, 128]⟩
abbrev S1x1x128 : Shape := ⟨3, ![1, 1, 128]⟩
abbrev S1x128 : Shape := ⟨2, ![1, 128]⟩
abbrev S2000x128 : Shape := ⟨2, ![2000, 128]⟩
abbrev S2000x4 : Shape := ⟨2, ![2000, 4]⟩
abbrev S2000x1 : Shape := ⟨2, ![2000, 1]⟩
abbrev S2x100000x128 : Shape := ⟨3, ![2, 100000, 128]⟩
abbrev S2x2000x128 : Shape := ⟨3, ![2, 2000, 128]⟩
abbrev S1x2000x128 : Shape := ⟨3, ![1, 2000, 128]⟩

abbrev nBuf : Space → Nat
  | .hbm => 265
  | .vmem => 50
  | .smem => 0
  | _ => 0

abbrev hbmTy0_0 (i : Nat) : BufTy := match i % 128 with
  | 0 => ⟨S100000x128, .f32⟩
  | 1 => ⟨S100000x128, .f32⟩
  | 2 => ⟨S2x100000, .i32⟩
  | 3 => ⟨S2x100000, .i32⟩
  | 4 => ⟨S2x1000000, .i32⟩
  | 5 => ⟨S2x1000000, .i32⟩
  | 6 => ⟨S2x4x128x128, .f32⟩
  | 7 => ⟨S2x4x128, .f32⟩
  | 8 => ⟨S2x4x128x128, .f32⟩
  | 9 => ⟨S2x4x128x128, .f32⟩
  | 10 => ⟨S2x4x128x128, .f32⟩
  | 11 => ⟨S_, .f32⟩
  | 12 => ⟨S100000, .f32⟩
  | 13 => ⟨S1x100000, .i32⟩
  | 14 => ⟨S100000, .i32⟩
  | 15 => ⟨S_, .f32⟩
  | 16 => ⟨S100000, .f32⟩
  | 17 => ⟨S100000x1, .i32⟩
  | 18 => ⟨S100000, .f32⟩
  | 19 => ⟨S_, .f32⟩
  | 20 => ⟨S100000, .f32⟩
  | 21 => ⟨S100000, .f32⟩
  | 22 => ⟨S_, .f32⟩
  | 23 => ⟨S100000, .f32⟩
  | 24 => ⟨S100000, .f32⟩
  | 25 => ⟨S_, .f32⟩
  | 26 => ⟨S1000000, .f32⟩
  | 27 => ⟨S1x1000000, .i32⟩
  | 28 => ⟨S1000000, .i32⟩
  | 29 => ⟨S_, .f32⟩
  | 30 => ⟨S100000, .f32⟩
  | 31 => ⟨S1000000x1, .i32⟩
  | 32 => ⟨S100000, .f32⟩
  | 33 => ⟨S_, .f32⟩
  | 34 => ⟨S100000, .f32⟩
  | 35 => ⟨S100000, .f32⟩
  | 36 => ⟨S_, .f32⟩
  | 37 => ⟨S100000, .f32⟩
  | 38 => ⟨S100000, .f32⟩
  | 39 => ⟨S_, .f32⟩
  | 40 => ⟨S100000, .f32⟩
  | 41 => ⟨S1x100000, .i32⟩
  | 42 => ⟨S100000, .i32⟩
  | 43 => ⟨S_, .f32⟩
  | 44 => ⟨S100000, .f32⟩
  | 45 => ⟨S100000x1, .i32⟩
  | 46 => ⟨S100000, .f32⟩
  | 47 => ⟨S_, .f32⟩
  | 48 => ⟨S100000, .f32⟩
  | 49 => ⟨S100000, .f32⟩
  | 50 => ⟨S_, .f32⟩
  | 51 => ⟨S100000, .f32⟩
  | 52 => ⟨S100000, .f32⟩
  | 53 => ⟨S_, .f32⟩
  | 54 => ⟨S1000000, .f32⟩
  | 55 => ⟨S1x1000000, .i32⟩
  | 56 => ⟨S1000000, .i32⟩
  | 57 => ⟨S_, .f32⟩
  | 58 => ⟨S100000, .f32⟩
  | 59 => ⟨S1000000x1, .i32⟩
  | 60 => ⟨S100000, .f32⟩
  | 61 => ⟨S_, .f32⟩
  | 62 => ⟨S100000, .f32⟩
  | 63 => ⟨S100000, .f32⟩
  | 64 => ⟨S_, .f32⟩
  | 65 => ⟨S100000, .f32⟩
  | 66 => ⟨S100000, .f32⟩
  | 67 => ⟨S100000x1, .f32⟩
  | 68 => ⟨S100000x1, .f32⟩
  | 69 => ⟨S100000x1, .f32⟩
  | 70 => ⟨S100000x1, .f32⟩
  | 71 => ⟨S100000x4, .f32⟩
  | 72 => ⟨S2x1x128x128, .f32⟩
  | 73 => ⟨S2x128x128, .f32⟩
  | 74 => ⟨S2x1x128x128, .f32⟩
  | 75 => ⟨S2x128x128, .f32⟩
  | 76 => ⟨S2x128x128, .f32⟩
  | 77 => ⟨S2x1x128x128, .f32⟩
  | 78 => ⟨S2x128x128, .f32⟩
  | 79 => ⟨S2x1x128x128, .f32⟩
  | 80 => ⟨S2x128x128, .f32⟩
  | 81 => ⟨S2x128x128, .f32⟩
  | 82 => ⟨S2x1x128, .f32⟩
  | 83 => ⟨S2x128, .f32⟩
  | 84 => ⟨S2x1x128, .f32⟩
  | 85 => ⟨S2x128, .f32⟩
  | 86 => ⟨S2x128, .f32⟩
  | 87 => ⟨S2x1x128, .f32⟩
  | 88 => ⟨S2x1x128, .f32⟩
  | 89 => ⟨S2x128, .f32⟩
  | 90 => ⟨S2x1x128, .f32⟩
  | 91 => ⟨S2x128, .f32⟩
  | 92 => ⟨S2x128, .f32⟩
  | 93 => ⟨S2x1x128, .f32⟩
  | 94 => ⟨S1x100000, .i32⟩
  | 95 => ⟨S100000, .i32⟩
  | 96 => ⟨S_, .i32⟩
  | 97 => ⟨S100000, .i32⟩
  | 98 => ⟨S100000, .i1⟩
  | 99 => ⟨S_, .i32⟩
  | 100 => ⟨S100000, .i32⟩
  | 101 => ⟨S100000, .i32⟩
  | 102 => ⟨S100000, .i32⟩
  | 103 => ⟨S100000x1, .i32⟩
  | 104 => ⟨S100000x128, .f32⟩
  | 105 => ⟨S1x100000, .i32⟩
  | 106 => ⟨S100000, .i32⟩
  | 107 => ⟨S_, .f32⟩
  | 108 => ⟨S100000x128, .f32⟩
  | 109 => ⟨S100000x1, .i32⟩
  | 110 => ⟨S100000x128, .f32⟩
  | 111 => ⟨S1x1000000, .i32⟩
  | 112 => ⟨S1000000, .i32⟩
  | 113 => ⟨S_, .i32⟩
  | 114 => ⟨S1000000, .i32⟩
  | 115 => ⟨S1000000, .i1⟩
  | 116 => ⟨S_, .i32⟩
  | 117 => ⟨S1000000, .i32⟩
  | 118 => ⟨S1000000, .i32⟩
  | 119 => ⟨S1000000, .i32⟩
  | 120 => ⟨S1000000x1, .i32⟩
  | 121 => ⟨S1000000x128, .f32⟩
  | 122 => ⟨S1x1000000, .i32⟩
  | 123 => ⟨S1000000, .i32⟩
  | 124 => ⟨S_, .f32⟩
  | 125 => ⟨S100000x128, .f32⟩
  | 126 => ⟨S1000000x1, .i32⟩
  | 127 => ⟨S100000x128, .f32⟩
  | _ => ⟨S100000x128, .f32⟩

abbrev hbmTy0_1 (i : Nat) : BufTy := match i % 128 with
  | 0 => ⟨S1x100000, .i32⟩
  | 1 => ⟨S100000, .i32⟩
  | 2 => ⟨S_, .i32⟩
  | 3 => ⟨S100000, .i32⟩
  | 4 => ⟨S100000, .i1⟩
  | 5 => ⟨S_, .i32⟩
  | 6 => ⟨S100000, .i32⟩
  | 7 => ⟨S100000, .i32⟩
  | 8 => ⟨S100000, .i32⟩
  | 9 => ⟨S100000x1, .i32⟩
  | 10 => ⟨S100000x128, .f32⟩
  | 11 => ⟨S1x100000, .i32⟩
  | 12 => ⟨S100000, .i32⟩
  | 13 => ⟨S_, .f32⟩
  | 14 => ⟨S100000x128, .f32⟩
  | 15 => ⟨S100000x1, .i32⟩
  | 16 => ⟨S100000x128, .f32⟩
  | 17 => ⟨S1x1000000, .i32⟩
  | 18 => ⟨S1000000, .i32⟩
  | 19 => ⟨S_, .i32⟩
  | 20 => ⟨S1000000, .i32⟩
  | 21 => ⟨S1000000, .i1⟩
  | 22 => ⟨S_, .i32⟩
  | 23 => ⟨S1000000, .i32⟩
  | 24 => ⟨S1000000, .i32⟩
  | 25 => ⟨S1000000, .i32⟩
  | 26 => ⟨S1000000x1, .i32⟩
  | 27 => ⟨S1000000x128, .f32⟩
  | 28 => ⟨S1x1000000, .i32⟩
  | 29 => ⟨S1000000, .i32⟩
  | 30 => ⟨S_, .f32⟩
  | 31 => ⟨S100000x128, .f32⟩
  | 32 => ⟨S1000000x1, .i32⟩
  | 33 => ⟨S100000x128, .f32⟩
  | 34 => ⟨S1x1x128x128, .f32⟩
  | 35 => ⟨S128x128, .f32⟩
  | 36 => ⟨S1x1x128x128, .f32⟩
  | 37 => ⟨S128x128, .f32⟩
  | 38 => ⟨S1x1x128x128, .f32⟩
  | 39 => ⟨S128x128, .f32⟩
  | 40 => ⟨S1x1x128x128, .f32⟩
  | 41 => ⟨S128x128, .f32⟩
  | 42 => ⟨S1x128x128, .f32⟩
  | 43 => ⟨S128x128, .f32⟩
  | 44 => ⟨S1x128x128, .f32⟩
  | 45 => ⟨S128x128, .f32⟩
  | 46 => ⟨S1x1x128, .f32⟩
  | 47 => ⟨S1x128, .f32⟩
  | 48 => ⟨S1x1x128, .f32⟩
  | 49 => ⟨S1x128, .f32⟩
  | 50 => ⟨S100000x128, .f32⟩
  | 51 => ⟨S100000x128, .f32⟩
  | 52 => ⟨S1x100000, .i32⟩
  | 53 => ⟨S100000, .i32⟩
  | 54 => ⟨S_, .i32⟩
  | 55 => ⟨S100000, .i32⟩
  | 56 => ⟨S100000, .i1⟩
  | 57 => ⟨S_, .i32⟩
  | 58 => ⟨S100000, .i32⟩
  | 59 => ⟨S100000, .i32⟩
  | 60 => ⟨S100000, .i32⟩
  | 61 => ⟨S100000x1, .i32⟩
  | 62 => ⟨S100000x128, .f32⟩
  | 63 => ⟨S1x100000, .i32⟩
  | 64 => ⟨S100000, .i32⟩
  | 65 => ⟨S_, .f32⟩
  | 66 => ⟨S100000x128, .f32⟩
  | 67 => ⟨S100000x1, .i32⟩
  | 68 => ⟨S100000x128, .f32⟩
  | 69 => ⟨S1x1000000, .i32⟩
  | 70 => ⟨S1000000, .i32⟩
  | 71 => ⟨S_, .i32⟩
  | 72 => ⟨S1000000, .i32⟩
  | 73 => ⟨S1000000, .i1⟩
  | 74 => ⟨S_, .i32⟩
  | 75 => ⟨S1000000, .i32⟩
  | 76 => ⟨S1000000, .i32⟩
  | 77 => ⟨S1000000, .i32⟩
  | 78 => ⟨S1000000x1, .i32⟩
  | 79 => ⟨S1000000x128, .f32⟩
  | 80 => ⟨S1x1000000, .i32⟩
  | 81 => ⟨S1000000, .i32⟩
  | 82 => ⟨S_, .f32⟩
  | 83 => ⟨S100000x128, .f32⟩
  | 84 => ⟨S1000000x1, .i32⟩
  | 85 => ⟨S100000x128, .f32⟩
  | 86 => ⟨S1x100000, .i32⟩
  | 87 => ⟨S100000, .i32⟩
  | 88 => ⟨S_, .i32⟩
  | 89 => ⟨S100000, .i32⟩
  | 90 => ⟨S100000, .i1⟩
  | 91 => ⟨S_, .i32⟩
  | 92 => ⟨S100000, .i32⟩
  | 93 => ⟨S100000, .i32⟩
  | 94 => ⟨S100000, .i32⟩
  | 95 => ⟨S100000x1, .i32⟩
  | 96 => ⟨S100000x128, .f32⟩
  | 97 => ⟨S1x100000, .i32⟩
  | 98 => ⟨S100000, .i32⟩
  | 99 => ⟨S_, .f32⟩
  | 100 => ⟨S100000x128, .f32⟩
  | 101 => ⟨S100000x1, .i32⟩
  | 102 => ⟨S100000x128, .f32⟩
  | 103 => ⟨S1x1000000, .i32⟩
  | 104 => ⟨S1000000, .i32⟩
  | 105 => ⟨S_, .i32⟩
  | 106 => ⟨S1000000, .i32⟩
  | 107 => ⟨S1000000, .i1⟩
  | 108 => ⟨S_, .i32⟩
  | 109 => ⟨S1000000, .i32⟩
  | 110 => ⟨S1000000, .i32⟩
  | 111 => ⟨S1000000, .i32⟩
  | 112 => ⟨S1000000x1, .i32⟩
  | 113 => ⟨S1000000x128, .f32⟩
  | 114 => ⟨S1x1000000, .i32⟩
  | 115 => ⟨S1000000, .i32⟩
  | 116 => ⟨S_, .f32⟩
  | 117 => ⟨S100000x128, .f32⟩
  | 118 => ⟨S1000000x1, .i32⟩
  | 119 => ⟨S100000x128, .f32⟩
  | 120 => ⟨S1x1x128x128, .f32⟩
  | 121 => ⟨S128x128, .f32⟩
  | 122 => ⟨S1x1x128x128, .f32⟩
  | 123 => ⟨S128x128, .f32⟩
  | 124 => ⟨S1x1x128x128, .f32⟩
  | 125 => ⟨S128x128, .f32⟩
  | 126 => ⟨S1x1x128x128, .f32⟩
  | 127 => ⟨S128x128, .f32⟩
  | _ => ⟨S100000x128, .f32⟩

abbrev hbmTy0_2 (i : Nat) : BufTy := match i % 128 with
  | 0 => ⟨S1x128x128, .f32⟩
  | 1 => ⟨S128x128, .f32⟩
  | 2 => ⟨S1x128x128, .f32⟩
  | 3 => ⟨S128x128, .f32⟩
  | 4 => ⟨S1x1x128, .f32⟩
  | 5 => ⟨S1x128, .f32⟩
  | 6 => ⟨S1x1x128, .f32⟩
  | 7 => ⟨S1x128, .f32⟩
  | 8 => ⟨S2x100000x128, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x4, .f32⟩
  | .local _ .vmem, ⟨13, _⟩ => ⟨S2000x4, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S128x128, .f32⟩
  | .local _ .vmem, ⟨19, _⟩ => ⟨S128x128, .f32⟩
  | .local _ .vmem, ⟨20, _⟩ => ⟨S1x128, .f32⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S2000x4, .f32⟩
  | .local _ .vmem, ⟨39, _⟩ => ⟨S2000x4, .f32⟩
  | .local _ .vmem, ⟨40, _⟩ => ⟨S128x128, .f32⟩
  | .local _ .vmem, ⟨41, _⟩ => ⟨S128x128, .f32⟩
  | .local _ .vmem, ⟨42, _⟩ => ⟨S128x128, .f32⟩
  | .local _ .vmem, ⟨43, _⟩ => ⟨S128x128, .f32⟩
  | .local _ .vmem, ⟨44, _⟩ => ⟨S128x128, .f32⟩
  | .local _ .vmem, ⟨45, _⟩ => ⟨S128x128, .f32⟩
  | .local _ .vmem, ⟨46, _⟩ => ⟨S1x128, .f32⟩
  | .local _ .vmem, ⟨47, _⟩ => ⟨S1x128, .f32⟩
  | .local _ .vmem, ⟨48, _⟩ => ⟨S2x2000x128, .f32⟩
  | .local _ .vmem, ⟨49, _⟩ => ⟨S2x2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_5 : Ref sig .tc := ⟨.hbm, 33, rfl⟩
abbrev main_v18 : Ref sig .tc := ⟨.hbm, 34, rfl⟩
abbrev main_v19 : Ref sig .tc := ⟨.hbm, 35, rfl⟩
abbrev main_cst_6 : Ref sig .tc := ⟨.hbm, 36, rfl⟩
abbrev main_v20 : Ref sig .tc := ⟨.hbm, 37, rfl⟩
abbrev main_v21 : Ref sig .tc := ⟨.hbm, 38, rfl⟩
abbrev main_cst_7 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_8 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_9 : Ref sig .tc := ⟨.hbm, 47, rfl⟩
abbrev main_v28 : Ref sig .tc := ⟨.hbm, 48, rfl⟩
abbrev main_v29 : Ref sig .tc := ⟨.hbm, 49, rfl⟩
abbrev main_cst_10 : Ref sig .tc := ⟨.hbm, 50, rfl⟩
abbrev main_v30 : Ref sig .tc := ⟨.hbm, 51, rfl⟩
abbrev main_v31 : Ref sig .tc := ⟨.hbm, 52, rfl⟩
abbrev main_cst_11 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_12 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_13 : Ref sig .tc := ⟨.hbm, 61, rfl⟩
abbrev main_v38 : Ref sig .tc := ⟨.hbm, 62, rfl⟩
abbrev main_v39 : Ref sig .tc := ⟨.hbm, 63, rfl⟩
abbrev main_cst_14 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_c : Ref sig .tc := ⟨.hbm, 96, rfl⟩
abbrev main_v71 : Ref sig .tc := ⟨.hbm, 97, rfl⟩
abbrev main_v72 : Ref sig .tc := ⟨.hbm, 98, rfl⟩
abbrev main_c_15 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_16 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_c_17 : Ref sig .tc := ⟨.hbm, 113, rfl⟩
abbrev main_v85 : Ref sig .tc := ⟨.hbm, 114, rfl⟩
abbrev main_v86 : Ref sig .tc := ⟨.hbm, 115, rfl⟩
abbrev main_c_18 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_cst_19 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_c_20 : Ref sig .tc := ⟨.hbm, 130, rfl⟩
abbrev main_v99 : Ref sig .tc := ⟨.hbm, 131, rfl⟩
abbrev main_v100 : Ref sig .tc := ⟨.hbm, 132, rfl⟩
abbrev main_c_21 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_cst_22 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_c_23 : Ref sig .tc := ⟨.hbm, 147, rfl⟩
abbrev main_v113 : Ref sig .tc := ⟨.hbm, 148, rfl⟩
abbrev main_v114 : Ref sig .tc := ⟨.hbm, 149, rfl⟩
abbrev main_c_24 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_cst_25 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141_0 : Ref sig .tc := ⟨.hbm, 178, rfl⟩
abbrev main_v141_1 : Ref sig .tc := ⟨.hbm, 179, rfl⟩
abbrev main_v142 : Ref sig .tc := ⟨.hbm, 180, rfl⟩
abbrev main_v143 : Ref sig .tc := ⟨.hbm, 181, rfl⟩
abbrev main_c_26 : Ref sig .tc := ⟨.hbm, 182, rfl⟩
abbrev main_v144 : Ref sig .tc := ⟨.hbm, 183, rfl⟩
abbrev main_v145 : Ref sig .tc := ⟨.hbm, 184, rfl⟩
abbrev main_c_27 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_cst_28 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_c_29 : Ref sig .tc := ⟨.hbm, 199, rfl⟩
abbrev main_v158 : Ref sig .tc := ⟨.hbm, 200, rfl⟩
abbrev main_v159 : Ref sig .tc := ⟨.hbm, 201, rfl⟩
abbrev main_c_30 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_cst_31 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_c_32 : Ref sig .tc := ⟨.hbm, 216, rfl⟩
abbrev main_v172 : Ref sig .tc := ⟨.hbm, 217, rfl⟩
abbrev main_v173 : Ref sig .tc := ⟨.hbm, 218, rfl⟩
abbrev main_c_33 : Ref sig .tc := ⟨.hbm, 219, rfl⟩
abbrev main_v174 : Ref sig .tc := ⟨.hbm, 220, rfl⟩
abbrev main_v175 : Ref sig .tc := ⟨.hbm, 221, rfl⟩
abbrev main_v176 : Ref sig .tc := ⟨.hbm, 222, rfl⟩
abbrev main_v177 : Ref sig .tc := ⟨.hbm, 223, rfl⟩
abbrev main_v178 : Ref sig .tc := ⟨.hbm, 224, rfl⟩
abbrev main_v179 : Ref sig .tc := ⟨.hbm, 225, rfl⟩
abbrev main_v180 : Ref sig .tc := ⟨.hbm, 226, rfl⟩
abbrev main_cst_34 : Ref sig .tc := ⟨.hbm, 227, rfl⟩
abbrev main_v181 : Ref sig .tc := ⟨.hbm, 228, rfl⟩
abbrev main_v182 : Ref sig .tc := ⟨.hbm, 229, rfl⟩
abbrev main_v183 : Ref sig .tc := ⟨.hbm, 230, rfl⟩
abbrev main_v184 : Ref sig .tc := ⟨.hbm, 231, rfl⟩
abbrev main_v185 : Ref sig .tc := ⟨.hbm, 232, rfl⟩
abbrev main_c_35 : Ref sig .tc := ⟨.hbm, 233, rfl⟩
abbrev main_v186 : Ref sig .tc := ⟨.hbm, 234, rfl⟩
abbrev main_v187 : Ref sig .tc := ⟨.hbm, 235, rfl⟩
abbrev main_c_36 : Ref sig .tc := ⟨.hbm, 236, rfl⟩
abbrev main_v188 : Ref sig .tc := ⟨.hbm, 237, rfl⟩
abbrev main_v189 : Ref sig .tc := ⟨.hbm, 238, rfl⟩
abbrev main_v190 : Ref sig .tc := ⟨.hbm, 239, rfl⟩
abbrev main_v191 : Ref sig .tc := ⟨.hbm, 240, rfl⟩
abbrev main_v192 : Ref sig .tc := ⟨.hbm, 241, rfl⟩
abbrev main_v193 : Ref sig .tc := ⟨.hbm, 242, rfl⟩
abbrev main_v194 : Ref sig .tc := ⟨.hbm, 243, rfl⟩
abbrev main_cst_37 : Ref sig .tc := ⟨.hbm, 244, rfl⟩
abbrev main_v195 : Ref sig .tc := ⟨.hbm, 245, rfl⟩
abbrev main_v196 : Ref sig .tc := ⟨.hbm, 246, rfl⟩
abbrev main_v197 : Ref sig .tc := ⟨.hbm, 247, rfl⟩
abbrev main_v198 : Ref sig .tc := ⟨.hbm, 248, rfl⟩
abbrev main_v199 : Ref sig .tc := ⟨.hbm, 249, rfl⟩
abbrev main_v200 : Ref sig .tc := ⟨.hbm, 250, rfl⟩
abbrev main_v201 : Ref sig .tc := ⟨.hbm, 251, rfl⟩
abbrev main_v202 : Ref sig .tc := ⟨.hbm, 252, rfl⟩
abbrev main_v203 : Ref sig .tc := ⟨.hbm, 253, rfl⟩
abbrev main_v204 : Ref sig .tc := ⟨.hbm, 254, rfl⟩
abbrev main_v205 : Ref sig .tc := ⟨.hbm, 255, rfl⟩
abbrev main_v206 : Ref sig .tc := ⟨.hbm, 256, rfl⟩
abbrev main_v207 : Ref sig .tc := ⟨.hbm, 257, rfl⟩
abbrev main_v208 : Ref sig .tc := ⟨.hbm, 258, rfl⟩
abbrev main_v209 : Ref sig .tc := ⟨.hbm, 259, rfl⟩
abbrev main_v210 : Ref sig .tc := ⟨.hbm, 260, rfl⟩
abbrev main_v211 : Ref sig .tc := ⟨.hbm, 261, rfl⟩
abbrev main_v212 : Ref sig .tc := ⟨.hbm, 262, rfl⟩
abbrev main_v213 : Ref sig .tc := ⟨.hbm, 263, rfl⟩
abbrev main_v214 : Ref sig .tc := ⟨.hbm, 264, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc1_stg0_0 : Ref sig .tc := ⟨.vmem, 26, rfl⟩
abbrev cc1_stg0_1 : Ref sig .tc := ⟨.vmem, 27, rfl⟩
abbrev cc1_stg1_0 : Ref sig .tc := ⟨.vmem, 28, rfl⟩
abbrev cc1_stg1_1 : Ref sig .tc := ⟨.vmem, 29, rfl⟩
abbrev cc1_stg2_0 : Ref sig .tc := ⟨.vmem, 30, rfl⟩
abbrev cc1_stg2_1 : Ref sig .tc := ⟨.vmem, 31, rfl⟩
abbrev cc1_stg3_0 : Ref sig .tc := ⟨.vmem, 32, rfl⟩
abbrev cc1_stg3_1 : Ref sig .tc := ⟨.vmem, 33, rfl⟩
abbrev cc1_stg4_0 : Ref sig .tc := ⟨.vmem, 34, rfl⟩
abbrev cc1_stg4_1 : Ref sig .tc := ⟨.vmem, 35, rfl⟩
abbrev cc1_stg5_0 : Ref sig .tc := ⟨.vmem, 36, rfl⟩
abbrev cc1_stg5_1 : Ref sig .tc := ⟨.vmem, 37, rfl⟩
abbrev cc1_stg6_0 : Ref sig .tc := ⟨.vmem, 38, rfl⟩
abbrev cc1_stg6_1 : Ref sig .tc := ⟨.vmem, 39, rfl⟩
abbrev cc1_stg7_0 : Ref sig .tc := ⟨.vmem, 40, rfl⟩
abbrev cc1_stg8_0 : Ref sig .tc := ⟨.vmem, 41, rfl⟩
abbrev cc1_stg9_0 : Ref sig .tc := ⟨.vmem, 42, rfl⟩
abbrev cc1_stg10_0 : Ref sig .tc := ⟨.vmem, 43, rfl⟩
abbrev cc1_stg11_0 : Ref sig .tc := ⟨.vmem, 44, rfl⟩
abbrev cc1_stg12_0 : Ref sig .tc := ⟨.vmem, 45, rfl⟩
abbrev cc1_stg13_0 : Ref sig .tc := ⟨.vmem, 46, rfl⟩
abbrev cc1_stg14_0 : Ref sig .tc := ⟨.vmem, 47, rfl⟩
abbrev cc1_stg15_0 : Ref sig .tc := ⟨.vmem, 48, rfl⟩
abbrev cc1_stg15_1 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem15_1 : DmaSem sig := 23
abbrev cc0_sem16_0 : DmaSem sig := 24
abbrev cc0_sem16_1 : DmaSem sig := 25
abbrev cc1_sem0_0 : DmaSem sig := 26
abbrev cc1_sem0_1 : DmaSem sig := 27
abbrev cc1_sem1_0 : DmaSem sig := 28
abbrev cc1_sem1_1 : DmaSem sig := 29
abbrev cc1_sem2_0 : DmaSem sig := 30
abbrev cc1_sem2_1 : DmaSem sig := 31
abbrev cc1_sem3_0 : DmaSem sig := 32
abbrev cc1_sem3_1 : DmaSem sig := 33
abbrev cc1_sem4_0 : DmaSem sig := 34
abbrev cc1_sem4_1 : DmaSem sig := 35
abbrev cc1_sem5_0 : DmaSem sig := 36
abbrev cc1_sem5_1 : DmaSem sig := 37
abbrev cc1_sem6_0 : DmaSem sig := 38
abbrev cc1_sem6_1 : DmaSem sig := 39
abbrev cc1_sem7_0 : DmaSem sig := 40
abbrev cc1_sem8_0 : DmaSem sig := 41
abbrev cc1_sem9_0 : DmaSem sig := 42
abbrev cc1_sem10_0 : DmaSem sig := 43
abbrev cc1_sem11_0 : DmaSem sig := 44
abbrev cc1_sem12_0 : DmaSem sig := 45
abbrev cc1_sem13_0 : DmaSem sig := 46
abbrev cc1_sem14_0 : DmaSem sig := 47
abbrev cc1_sem15_0 : DmaSem sig := 48
abbrev cc1_sem15_1 : DmaSem sig := 49

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x4 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S2000x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2000x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2000x4 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S128x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S128x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S128x128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x128 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x128 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 2 → Memref sig .tc .vmem S2x2000x128 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

class Facts₀ : Prop where
  transposes_S2x4x128x128_S2x4x128x128_0_1_3_2 : S2x4x128x128.Transposes [0, 1, 3, 2] S2x4x128x128
  bcast_S_S100000 : S_.BroadcastsInDim S100000 (![] : Fin 0 → Fin S100000.rank)
  slices_S2x100000_S1x100000_1_0 : S2x100000.Slices ![1, 0] S1x100000
  shapeCasts_S1x100000_S100000 : S1x100000.ShapeCasts S100000
  bcast_S100000_S100000x1_0 : S100000.BroadcastsInDim S100000x1 (![0] : Fin 1 → Fin S100000x1.rank)
  bcast_S_S1000000 : S_.BroadcastsInDim S1000000 (![] : Fin 0 → Fin S1000000.rank)
  slices_S2x1000000_S1x1000000_1_0 : S2x1000000.Slices ![1, 0] S1x1000000
  shapeCasts_S1x1000000_S1000000 : S1x1000000.ShapeCasts S1000000
  bcast_S1000000_S1000000x1_0 : S1000000.BroadcastsInDim S1000000x1 (![0] : Fin 1 → Fin S1000000x1.rank)
  concatenates_S100000x1_S100000x1_S100000x1_S100000x1_S100000x4_d1 : Shape.Concatenates [S100000x1, S100000x1, S100000x1, S100000x1] S100000x4 1
  slices_S2x4x128x128_S2x1x128x128_0_0_0_0 : S2x4x128x128.Slices ![0, 0, 0, 0] S2x1x128x128
  shapeCasts_S2x1x128x128_S2x128x128 : S2x1x128x128.ShapeCasts S2x128x128
  slices_S2x4x128x128_S2x1x128x128_0_3_0_0 : S2x4x128x128.Slices ![0, 3, 0, 0] S2x1x128x128
  slices_S2x4x128x128_S2x1x128x128_0_1_0_0 : S2x4x128x128.Slices ![0, 1, 0, 0] S2x1x128x128
  slices_S2x4x128x128_S2x1x128x128_0_2_0_0 : S2x4x128x128.Slices ![0, 2, 0, 0] S2x1x128x128
  slices_S2x4x128_S2x1x128_0_0_0 : S2x4x128.Slices ![0, 0, 0] S2x1x128
  shapeCasts_S2x1x128_S2x128 : S2x1x128.ShapeCasts S2x128
  slices_S2x4x128_S2x1x128_0_3_0 : S2x4x128.Slices ![0, 3, 0] S2x1x128
  shapeCasts_S2x128_S2x1x128 : S2x128.ShapeCasts S2x1x128
  slices_S2x4x128_S2x1x128_0_1_0 : S2x4x128.Slices ![0, 1, 0] S2x1x128
  slices_S2x4x128_S2x1x128_0_2_0 : S2x4x128.Slices ![0, 2, 0] S2x1x128
  slices_S2x100000_S1x100000_0_0 : S2x100000.Slices ![0, 0] S1x100000
  bcast_S_S100000x128 : S_.BroadcastsInDim S100000x128 (![] : Fin 0 → Fin S100000x128.rank)
  slices_S2x1000000_S1x1000000_0_0 : S2x1000000.Slices ![0, 0] S1x1000000
  slices_S2x4x128x128_S1x1x128x128_0_0_0_0 : S2x4x128x128.Slices ![0, 0, 0, 0] S1x1x128x128
  shapeCasts_S1x1x128x128_S128x128 : S1x1x128x128.ShapeCasts S128x128
  slices_S2x4x128x128_S1x1x128x128_0_3_0_0 : S2x4x128x128.Slices ![0, 3, 0, 0] S1x1x128x128
  slices_S2x4x128x128_S1x1x128x128_0_1_0_0 : S2x4x128x128.Slices ![0, 1, 0, 0] S1x1x128x128
  slices_S2x4x128x128_S1x1x128x128_0_2_0_0 : S2x4x128x128.Slices ![0, 2, 0, 0] S1x1x128x128
  slices_S2x128x128_S1x128x128_0_0_0 : S2x128x128.Slices ![0, 0, 0] S1x128x128
  shapeCasts_S1x128x128_S128x128 : S1x128x128.ShapeCasts S128x128
  slices_S2x1x128_S1x1x128_0_0_0 : S2x1x128.Slices ![0, 0, 0] S1x1x128
  shapeCasts_S1x1x128_S1x128 : S1x1x128.ShapeCasts S1x128
  inb_S2000x4_S2000x4_0_0 : ∀ a, (![0, 0] : Fin 2 → Nat) a + S2000x4.size a ≤ S2000x4.size a
  h_S2000x4 : 0 < S2000x4.numel
  shapeCasts_S2000x4_S2000x4 : S2000x4.ShapeCasts S2000x4
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  slices_S2000x4_o0_0_S2000x1 : S2000x4.Slices ![0, 0] S2000x1
  broadcasts_S2000x1_S2000x128 : S2000x1.Broadcasts S2000x128
  bitsLt_bf16_f32 : FTy.bits .bf16 < FTy.bits .f32
  slices_S2000x4_o0_1_S2000x1 : S2000x4.Slices ![0, 1] S2000x1
  slices_S2000x4_o0_2_S2000x1 : S2000x4.Slices ![0, 2] S2000x1
  slices_S2000x4_o0_3_S2000x1 : S2000x4.Slices ![0, 3] S2000x1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S2x4x128x128_S1x1x128x128_1_0_0_0 : S2x4x128x128.Slices ![1, 0, 0, 0] S1x1x128x128
  slices_S2x4x128x128_S1x1x128x128_1_3_0_0 : S2x4x128x128.Slices ![1, 3, 0, 0] S1x1x128x128
  slices_S2x4x128x128_S1x1x128x128_1_1_0_0 : S2x4x128x128.Slices ![1, 1, 0, 0] S1x1x128x128
  slices_S2x4x128x128_S1x1x128x128_1_2_0_0 : S2x4x128x128.Slices ![1, 2, 0, 0] S1x1x128x128
  slices_S2x128x128_S1x128x128_1_0_0 : S2x128x128.Slices ![1, 0, 0] S1x128x128
  slices_S2x1x128_S1x1x128_1_0_0 : S2x1x128.Slices ![1, 0, 0] S1x1x128
  inb_S2x2000x128_S1x2000x128_0_0_0 : ∀ a, (![0, 0, 0] : Fin 3 → Nat) a + S1x2000x128.size a ≤ S2x2000x128.size a
  h_S1x2000x128 : 0 < S1x2000x128.numel
  shapeCasts_S1x2000x128_S2000x128 : S1x2000x128.ShapeCasts S2000x128
  shapeCasts_S2000x128_S1x2000x128 : S2000x128.ShapeCasts S1x2000x128
  inb_S2x2000x128_S1x2000x128_1_0_0 : ∀ a, (![1, 0, 0] : Fin 3 → Nat) a + S1x2000x128.size a ≤ S2x2000x128.size a
  scatter_S100000_S100000x1_S100000_n_0_0_1_wf : ScatterDims.WF S100000 S100000x1 S100000 [] [0] [0] 1
  scatter_S100000_S1000000x1_S1000000_n_0_0_1_wf : ScatterDims.WF S100000 S1000000x1 S1000000 [] [0] [0] 1
  gather_S100000x128_S100000x1_S100000x128_1_0_n_n_0_1_1128_wf : GatherDims.WF S100000x128 S100000x1 S100000x128 [1] [0] [] [0] [] 1 ![1, 128]
  scatter_S100000x128_S100000x1_S100000x128_1_0_0_1_wf : ScatterDims.WF S100000x128 S100000x1 S100000x128 [1] [0] [0] 1
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S100000x128.size a
  hwx0_4 : ∀ i : grid0.Coords, EltTy.bits .f32 = 32 ∨ (Rect.block (s := S100000x128) S2000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x4.size a ≤ S100000x4.size a
  hwx0_6 : ∀ i : grid0.Coords, EltTy.bits .f32 = 32 ∨ (Rect.block (s := S100000x4) S2000x4.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x128.size a ≤ S128x128.size a
  hwx0_10 : ∀ i : grid0.Coords, EltTy.bits .f32 = 32 ∨ (Rect.block (s := S128x128) S128x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S128x128.size a
  hwx0_11 : ∀ i : grid0.Coords, EltTy.bits .f32 = 32 ∨ (Rect.block (s := S128x128) S128x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x128.size a ≤ S128x128.size a
  hwx0_12 : ∀ i : grid0.Coords, EltTy.bits .f32 = 32 ∨ (Rect.block (s := S128x128) S128x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x128.size a ≤ S1x128.size a
  hwx0_13 : ∀ i : grid0.Coords, EltTy.bits .f32 = 32 ∨ (Rect.block (s := S1x128) S1x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x128.size a ≤ S1x128.size a
  hwx0_14 : ∀ i : grid0.Coords, EltTy.bits .f32 = 32 ∨ (Rect.block (s := S1x128) S1x128.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S2000x128.size a ≤ S100000x128.size a
  hwx0_15 : ∀ i : grid0.Coords, EltTy.bits .f32 = 32 ∨ (Rect.block (s := S100000x128) S2000x128.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S2000x128.size a ≤ S100000x128.size a
  hwx0_16 : ∀ i : grid0.Coords, EltTy.bits .f32 = 32 ∨ (Rect.block (s := S100000x128) S2000x128.size (cc0_transform_16 i) (hinb0_16 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S100000x128.size a
  hwx1_3 : ∀ i : grid1.Coords, EltTy.bits .f32 = 32 ∨ (Rect.block (s := S100000x128) S2000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S100000x128.size a
  hwx1_4 : ∀ i : grid1.Coords, EltTy.bits .f32 = 32 ∨ (Rect.block (s := S100000x128) S2000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x4.size a ≤ S100000x4.size a
  hwx1_6 : ∀ i : grid1.Coords, EltTy.bits .f32 = 32 ∨ (Rect.block (s := S100000x4) S2000x4.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x128.size a ≤ S128x128.size a
  hwx1_8 : ∀ i : grid1.Coords, EltTy.bits .f32 = 32 ∨ (Rect.block (s := S128x128) S128x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128x128.size a ≤ S128x128.size a
  hwx1_9 : ∀ i : grid1.Coords, EltTy.bits .f32 = 32 ∨ (Rect.block (s := S128x128) S128x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S128x128.size a ≤ S128x128.size a
  hwx1_10 : ∀ i : grid1.Coords, EltTy.bits .f32 = 32 ∨ (Rect.block (s := S128x128) S128x128.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S128x128.size a ≤ S128x128.size a
  hwx1_11 : ∀ i : grid1.Coords, EltTy.bits .f32 = 32 ∨ (Rect.block (s := S128x128) S128x128.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S128x128.size a ≤ S128x128.size a
  hwx1_12 : ∀ i : grid1.Coords, EltTy.bits .f32 = 32 ∨ (Rect.block (s := S128x128) S128x128.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S1x128.size a ≤ S1x128.size a
  hwx1_13 : ∀ i : grid1.Coords, EltTy.bits .f32 = 32 ∨ (Rect.block (s := S1x128) S1x128.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S1x128.size a ≤ S1x128.size a
  hwx1_14 : ∀ i : grid1.Coords, EltTy.bits .f32 = 32 ∨ (Rect.block (s := S1x128) S1x128.size (cc1_transform_14 i) (hinb1_14 i)).WholeWords (EltTy.packing .f32)
  hstage1_15 : ∀ j, (stage1_15 j).IsWhole
  nbuf1_15 : grid1.bufCount reads1_15 false = 2
  hreads1_15 : ∀ i i' : grid1.Coords, (∀ a, reads1_15 a = true → i a = i' a) → cc1_transform_15 i = cc1_transform_15 i'
  hinb1_15 : ∀ (i : grid1.Coords) a, (cc1_transform_15 i a + 1) * S2x2000x128.size a ≤ S2x100000x128.size a
  hwx1_15 : ∀ i : grid1.Coords, EltTy.bits .f32 = 32 ∨ (Rect.block (s := S2x100000x128) S2x2000x128.size (cc1_transform_15 i) (hinb1_15 i)).WholeWords (EltTy.packing .f32)

variable [Facts₀]

def scatter_S100000_S100000x1_S100000_n_0_0_1 : ScatterDims S100000 S100000x1 S100000 where
  updateWindowDims := []
  insertedWindowDims := [0]
  scatterDimsToOperandDims := [0]
  indexVectorDim := 1
  wf := scatter_S100000_S100000x1_S100000_n_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def scatter_S100000x128_S100000x1_S100000x128_1_0_0_1 : ScatterDims S100000x128 S100000x1 S100000x128 where
  updateWindowDims := [1]
  insertedWindowDims := [0]
  scatterDimsToOperandDims := [0]
  indexVectorDim := 1
  wf := scatter_S100000x128_S100000x1_S100000x128_1_0_0_1_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v82) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v96) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v110) S2000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v124) S2000x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg1) S2000x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v46) S2000x4.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v126) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v128) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v130) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v132) S128x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v134) S128x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v136) S128x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v138) S1x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v140) S1x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v141_0) S2000x128.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v141_1) S2000x128.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

abbrev win1_0 : Pipeline.Window sig grid1 :=
  Pipeline.Window.ofSpec (Memref.whole main_v155) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v169) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v141_0) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v183) S2000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v197) S2000x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v141_1) S2000x128.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v46) S2000x4.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v199) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v201) S128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v203) S128x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v205) S128x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v207) S128x128.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v209) S128x128.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v211) S1x128.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v213) S1x128.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_v214) S2x2000x128.size cc1_transform_15 reads1_15 true false 2 stage1_15 sem1_15
    hrank1 hreads1_15 hinb1_15 nbuf1_15 (Memref.isWhole_whole _) hwx1_15 hstage1_15

abbrev win1 : Fin 16 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | ⟨_ + 16, h⟩ => absurd h (Nat.not_lt.2 (Nat.le_add_left _ _))
abbrev spec1 : Fin 16 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x100000 : Shape := ⟨2, ![2, 100000]⟩
abbrev S2x1000000 : Shape := ⟨2, ![2, 1000000]⟩
abbrev S2x4x128x128 : Shape := ⟨4, ![2, 4, 128, 128]⟩
abbrev S2x4x128 : Shape := ⟨3, ![2, 4, 128]⟩
abbrev S1x1x128x128 : Shape := ⟨4, ![1, 1, 128, 128]⟩
abbrev S128x128 : Shape := ⟨2, ![128, 128]⟩
abbrev S1x1x128 : Shape := ⟨3, ![1, 1, 128]⟩
abbrev S128 : Shape := ⟨1, ![128]⟩
abbrev S1x100000 : Shape := ⟨2, ![1, 100000]⟩
abbrev S100000 : Shape := ⟨1, ![100000]⟩
abbrev S_ : Shape := ⟨0, ![]⟩
abbrev S100000x1 : Shape := ⟨2, ![100000, 1]⟩
abbrev S1x128 : Shape := ⟨2, ![1, 128]⟩
abbrev S1x1000000 : Shape := ⟨2, ![1, 1000000]⟩
abbrev S1000000 : Shape := ⟨1, ![1000000]⟩
abbrev S1000000x1 : Shape := ⟨2, ![1000000, 1]⟩
abbrev S1000000x128 : Shape := ⟨2, ![1000000, 128]⟩
abbrev S1x100000x128 : Shape := ⟨3, ![1, 100000, 128]⟩
abbrev S2x100000x128 : Shape := ⟨3, ![2, 100000, 128]⟩

abbrev nBuf : Space → Nat
  | .hbm => 382
  | .vmem => 0
  | .smem => 0
  | _ => 0

abbrev hbmTy0_0 (i : Nat) : BufTy := match i % 128 with
  | 0 => ⟨S100000x128, .f32⟩
  | 1 => ⟨S100000x128, .f32⟩
  | 2 => ⟨S2x100000, .i32⟩
  | 3 => ⟨S2x100000, .i32⟩
  | 4 => ⟨S2x1000000, .i32⟩
  | 5 => ⟨S2x1000000, .i32⟩
  | 6 => ⟨S2x4x128x128, .f32⟩
  | 7 => ⟨S2x4x128, .f32⟩
  | 8 => ⟨S2x4x128x128, .f32⟩
  | 9 => ⟨S1x1x128x128, .f32⟩
  | 10 => ⟨S128x128, .f32⟩
  | 11 => ⟨S1x1x128, .f32⟩
  | 12 => ⟨S128, .f32⟩
  | 13 => ⟨S1x1x128x128, .f32⟩
  | 14 => ⟨S128x128, .f32⟩
  | 15 => ⟨S1x100000, .i32⟩
  | 16 => ⟨S100000, .i32⟩
  | 17 => ⟨S_, .i32⟩
  | 18 => ⟨S100000, .i32⟩
  | 19 => ⟨S100000, .i1⟩
  | 20 => ⟨S_, .i32⟩
  | 21 => ⟨S100000, .i32⟩
  | 22 => ⟨S100000, .i32⟩
  | 23 => ⟨S100000, .i32⟩
  | 24 => ⟨S100000x1, .i32⟩
  | 25 => ⟨S100000x128, .f32⟩
  | 26 => ⟨S1x100000, .i32⟩
  | 27 => ⟨S100000, .i32⟩
  | 28 => ⟨S_, .f32⟩
  | 29 => ⟨S100000x128, .f32⟩
  | 30 => ⟨S100000x1, .i32⟩
  | 31 => ⟨S100000x128, .f32⟩
  | 32 => ⟨S_, .f32⟩
  | 33 => ⟨S100000, .f32⟩
  | 34 => ⟨S1x100000, .i32⟩
  | 35 => ⟨S100000, .i32⟩
  | 36 => ⟨S_, .f32⟩
  | 37 => ⟨S100000, .f32⟩
  | 38 => ⟨S100000x1, .i32⟩
  | 39 => ⟨S100000, .f32⟩
  | 40 => ⟨S_, .f32⟩
  | 41 => ⟨S100000, .f32⟩
  | 42 => ⟨S100000, .f32⟩
  | 43 => ⟨S100000x1, .f32⟩
  | 44 => ⟨S100000x128, .f32⟩
  | 45 => ⟨S100000x128, .f32⟩
  | 46 => ⟨S128x128, .f32⟩
  | 47 => ⟨S100000x128, .f32⟩
  | 48 => ⟨S1x128, .f32⟩
  | 49 => ⟨S100000x128, .f32⟩
  | 50 => ⟨S100000x128, .f32⟩
  | 51 => ⟨S128x128, .f32⟩
  | 52 => ⟨S100000x128, .f32⟩
  | 53 => ⟨S100000x128, .f32⟩
  | 54 => ⟨S1x1x128x128, .f32⟩
  | 55 => ⟨S128x128, .f32⟩
  | 56 => ⟨S1x1x128, .f32⟩
  | 57 => ⟨S128, .f32⟩
  | 58 => ⟨S1x1x128x128, .f32⟩
  | 59 => ⟨S128x128, .f32⟩
  | 60 => ⟨S1x1000000, .i32⟩
  | 61 => ⟨S1000000, .i32⟩
  | 62 => ⟨S_, .i32⟩
  | 63 => ⟨S1000000, .i32⟩
  | 64 => ⟨S1000000, .i1⟩
  | 65 => ⟨S_, .i32⟩
  | 66 => ⟨S1000000, .i32⟩
  | 67 => ⟨S1000000, .i32⟩
  | 68 => ⟨S1000000, .i32⟩
  | 69 => ⟨S1000000x1, .i32⟩
  | 70 => ⟨S1000000x128, .f32⟩
  | 71 => ⟨S1x1000000, .i32⟩
  | 72 => ⟨S1000000, .i32⟩
  | 73 => ⟨S_, .f32⟩
  | 74 => ⟨S100000x128, .f32⟩
  | 75 => ⟨S1000000x1, .i32⟩
  | 76 => ⟨S100000x128, .f32⟩
  | 77 => ⟨S_, .f32⟩
  | 78 => ⟨S1000000, .f32⟩
  | 79 => ⟨S1x1000000, .i32⟩
  | 80 => ⟨S1000000, .i32⟩
  | 81 => ⟨S_, .f32⟩
  | 82 => ⟨S100000, .f32⟩
  | 83 => ⟨S1000000x1, .i32⟩
  | 84 => ⟨S100000, .f32⟩
  | 85 => ⟨S_, .f32⟩
  | 86 => ⟨S100000, .f32⟩
  | 87 => ⟨S100000, .f32⟩
  | 88 => ⟨S100000x1, .f32⟩
  | 89 => ⟨S100000x128, .f32⟩
  | 90 => ⟨S100000x128, .f32⟩
  | 91 => ⟨S128x128, .f32⟩
  | 92 => ⟨S100000x128, .f32⟩
  | 93 => ⟨S1x128, .f32⟩
  | 94 => ⟨S100000x128, .f32⟩
  | 95 => ⟨S100000x128, .f32⟩
  | 96 => ⟨S128x128, .f32⟩
  | 97 => ⟨S100000x128, .f32⟩
  | 98 => ⟨S100000x128, .f32⟩
  | 99 => ⟨S100000x128, .f32⟩
  | 100 => ⟨S1x1x128x128, .f32⟩
  | 101 => ⟨S128x128, .f32⟩
  | 102 => ⟨S1x1x128, .f32⟩
  | 103 => ⟨S128, .f32⟩
  | 104 => ⟨S1x1x128x128, .f32⟩
  | 105 => ⟨S128x128, .f32⟩
  | 106 => ⟨S1x100000, .i32⟩
  | 107 => ⟨S100000, .i32⟩
  | 108 => ⟨S_, .i32⟩
  | 109 => ⟨S100000, .i32⟩
  | 110 => ⟨S100000, .i1⟩
  | 111 => ⟨S_, .i32⟩
  | 112 => ⟨S100000, .i32⟩
  | 113 => ⟨S100000, .i32⟩
  | 114 => ⟨S100000, .i32⟩
  | 115 => ⟨S100000x1, .i32⟩
  | 116 => ⟨S100000x128, .f32⟩
  | 117 => ⟨S1x100000, .i32⟩
  | 118 => ⟨S100000, .i32⟩
  | 119 => ⟨S_, .f32⟩
  | 120 => ⟨S100000x128, .f32⟩
  | 121 => ⟨S100000x1, .i32⟩
  | 122 => ⟨S100000x128, .f32⟩
  | 123 => ⟨S_, .f32⟩
  | 124 => ⟨S100000, .f32⟩
  | 125 => ⟨S1x100000, .i32⟩
  | 126 => ⟨S100000, .i32⟩
  | 127 => ⟨S_, .f32⟩
  | _ => ⟨S100000x128, .f32⟩

abbrev hbmTy0_1 (i : Nat) : BufTy := match i % 128 with
  | 0 => ⟨S100000, .f32⟩
  | 1 => ⟨S100000x1, .i32⟩
  | 2 => ⟨S100000, .f32⟩
  | 3 => ⟨S_, .f32⟩
  | 4 => ⟨S100000, .f32⟩
  | 5 => ⟨S100000, .f32⟩
  | 6 => ⟨S100000x1, .f32⟩
  | 7 => ⟨S100000x128, .f32⟩
  | 8 => ⟨S100000x128, .f32⟩
  | 9 => ⟨S128x128, .f32⟩
  | 10 => ⟨S100000x128, .f32⟩
  | 11 => ⟨S1x128, .f32⟩
  | 12 => ⟨S100000x128, .f32⟩
  | 13 => ⟨S100000x128, .f32⟩
  | 14 => ⟨S128x128, .f32⟩
  | 15 => ⟨S100000x128, .f32⟩
  | 16 => ⟨S100000x128, .f32⟩
  | 17 => ⟨S1x1x128x128, .f32⟩
  | 18 => ⟨S128x128, .f32⟩
  | 19 => ⟨S1x1x128, .f32⟩
  | 20 => ⟨S128, .f32⟩
  | 21 => ⟨S1x1x128x128, .f32⟩
  | 22 => ⟨S128x128, .f32⟩
  | 23 => ⟨S1x1000000, .i32⟩
  | 24 => ⟨S1000000, .i32⟩
  | 25 => ⟨S_, .i32⟩
  | 26 => ⟨S1000000, .i32⟩
  | 27 => ⟨S1000000, .i1⟩
  | 28 => ⟨S_, .i32⟩
  | 29 => ⟨S1000000, .i32⟩
  | 30 => ⟨S1000000, .i32⟩
  | 31 => ⟨S1000000, .i32⟩
  | 32 => ⟨S1000000x1, .i32⟩
  | 33 => ⟨S1000000x128, .f32⟩
  | 34 => ⟨S1x1000000, .i32⟩
  | 35 => ⟨S1000000, .i32⟩
  | 36 => ⟨S_, .f32⟩
  | 37 => ⟨S100000x128, .f32⟩
  | 38 => ⟨S1000000x1, .i32⟩
  | 39 => ⟨S100000x128, .f32⟩
  | 40 => ⟨S_, .f32⟩
  | 41 => ⟨S1000000, .f32⟩
  | 42 => ⟨S1x1000000, .i32⟩
  | 43 => ⟨S1000000, .i32⟩
  | 44 => ⟨S_, .f32⟩
  | 45 => ⟨S100000, .f32⟩
  | 46 => ⟨S1000000x1, .i32⟩
  | 47 => ⟨S100000, .f32⟩
  | 48 => ⟨S_, .f32⟩
  | 49 => ⟨S100000, .f32⟩
  | 50 => ⟨S100000, .f32⟩
  | 51 => ⟨S100000x1, .f32⟩
  | 52 => ⟨S100000x128, .f32⟩
  | 53 => ⟨S100000x128, .f32⟩
  | 54 => ⟨S128x128, .f32⟩
  | 55 => ⟨S100000x128, .f32⟩
  | 56 => ⟨S1x128, .f32⟩
  | 57 => ⟨S100000x128, .f32⟩
  | 58 => ⟨S100000x128, .f32⟩
  | 59 => ⟨S128x128, .f32⟩
  | 60 => ⟨S100000x128, .f32⟩
  | 61 => ⟨S100000x128, .f32⟩
  | 62 => ⟨S100000x128, .f32⟩
  | 63 => ⟨S_, .f32⟩
  | 64 => ⟨S100000x128, .f32⟩
  | 65 => ⟨S100000x128, .f32⟩
  | 66 => ⟨S_, .f32⟩
  | 67 => ⟨S100000x128, .f32⟩
  | 68 => ⟨S100000x128, .f32⟩
  | 69 => ⟨S1x1x128x128, .f32⟩
  | 70 => ⟨S128x128, .f32⟩
  | 71 => ⟨S1x1x128, .f32⟩
  | 72 => ⟨S128, .f32⟩
  | 73 => ⟨S1x1x128x128, .f32⟩
  | 74 => ⟨S128x128, .f32⟩
  | 75 => ⟨S1x100000, .i32⟩
  | 76 => ⟨S100000, .i32⟩
  | 77 => ⟨S_, .i32⟩
  | 78 => ⟨S100000, .i32⟩
  | 79 => ⟨S100000, .i1⟩
  | 80 => ⟨S_, .i32⟩
  | 81 => ⟨S100000, .i32⟩
  | 82 => ⟨S100000, .i32⟩
  | 83 => ⟨S100000, .i32⟩
  | 84 => ⟨S100000x1, .i32⟩
  | 85 => ⟨S100000x128, .f32⟩
  | 86 => ⟨S1x100000, .i32⟩
  | 87 => ⟨S100000, .i32⟩
  | 88 => ⟨S_, .f32⟩
  | 89 => ⟨S100000x128, .f32⟩
  | 90 => ⟨S100000x1, .i32⟩
  | 91 => ⟨S100000x128, .f32⟩
  | 92 => ⟨S_, .f32⟩
  | 93 => ⟨S100000, .f32⟩
  | 94 => ⟨S1x100000, .i32⟩
  | 95 => ⟨S100000, .i32⟩
  | 96 => ⟨S_, .f32⟩
  | 97 => ⟨S100000, .f32⟩
  | 98 => ⟨S100000x1, .i32⟩
  | 99 => ⟨S100000, .f32⟩
  | 100 => ⟨S_, .f32⟩
  | 101 => ⟨S100000, .f32⟩
  | 102 => ⟨S100000, .f32⟩
  | 103 => ⟨S100000x1, .f32⟩
  | 104 => ⟨S100000x128, .f32⟩
  | 105 => ⟨S100000x128, .f32⟩
  | 106 => ⟨S128x128, .f32⟩
  | 107 => ⟨S100000x128, .f32⟩
  | 108 => ⟨S1x128, .f32⟩
  | 109 => ⟨S100000x128, .f32⟩
  | 110 => ⟨S100000x128, .f32⟩
  | 111 => ⟨S128x128, .f32⟩
  | 112 => ⟨S100000x128, .f32⟩
  | 113 => ⟨S100000x128, .f32⟩
  | 114 => ⟨S1x1x128x128, .f32⟩
  | 115 => ⟨S128x128, .f32⟩
  | 116 => ⟨S1x1x128, .f32⟩
  | 117 => ⟨S128, .f32⟩
  | 118 => ⟨S1x1x128x128, .f32⟩
  | 119 => ⟨S128x128, .f32⟩
  | 120 => ⟨S1x1000000, .i32⟩
  | 121 => ⟨S1000000, .i32⟩
  | 122 => ⟨S_, .i32⟩
  | 123 => ⟨S1000000, .i32⟩
  | 124 => ⟨S1000000, .i1⟩
  | 125 => ⟨S_, .i32⟩
  | 126 => ⟨S1000000, .i32⟩
  | 127 => ⟨S1000000, .i32⟩
  | _ => ⟨S100000x128, .f32⟩

abbrev hbmTy0_2 (i : Nat) : BufTy := match i % 128 with
  | 0 => ⟨S1000000, .i32⟩
  | 1 => ⟨S1000000x1, .i32⟩
  | 2 => ⟨S1000000x128, .f32⟩
  | 3 => ⟨S1x1000000, .i32⟩
  | 4 => ⟨S1000000, .i32⟩
  | 5 => ⟨S_, .f32⟩
  | 6 => ⟨S100000x128, .f32⟩
  | 7 => ⟨S1000000x1, .i32⟩
  | 8 => ⟨S100000x128, .f32⟩
  | 9 => ⟨S_, .f32⟩
  | 10 => ⟨S1000000, .f32⟩
  | 11 => ⟨S1x1000000, .i32⟩
  | 12 => ⟨S1000000, .i32⟩
  | 13 => ⟨S_, .f32⟩
  | 14 => ⟨S100000, .f32⟩
  | 15 => ⟨S1000000x1, .i32⟩
  | 16 => ⟨S100000, .f32⟩
  | 17 => ⟨S_, .f32⟩
  | 18 => ⟨S100000, .f32⟩
  | 19 => ⟨S100000, .f32⟩
  | 20 => ⟨S100000x1, .f32⟩
  | 21 => ⟨S100000x128, .f32⟩
  | 22 => ⟨S100000x128, .f32⟩
  | 23 => ⟨S128x128, .f32⟩
  | 24 => ⟨S100000x128, .f32⟩
  | 25 => ⟨S1x128, .f32⟩
  | 26 => ⟨S100000x128, .f32⟩
  | 27 => ⟨S100000x128, .f32⟩
  | 28 => ⟨S128x128, .f32⟩
  | 29 => ⟨S100000x128, .f32⟩
  | 30 => ⟨S100000x128, .f32⟩
  | 31 => ⟨S100000x128, .f32⟩
  | 32 => ⟨S1x1x128x128, .f32⟩
  | 33 => ⟨S128x128, .f32⟩
  | 34 => ⟨S1x1x128, .f32⟩
  | 35 => ⟨S128, .f32⟩
  | 36 => ⟨S1x1x128x128, .f32⟩
  | 37 => ⟨S128x128, .f32⟩
  | 38 => ⟨S1x100000, .i32⟩
  | 39 => ⟨S100000, .i32⟩
  | 40 => ⟨S_, .i32⟩
  | 41 => ⟨S100000, .i32⟩
  | 42 => ⟨S100000, .i1⟩
  | 43 => ⟨S_, .i32⟩
  | 44 => ⟨S100000, .i32⟩
  | 45 => ⟨S100000, .i32⟩
  | 46 => ⟨S100000, .i32⟩
  | 47 => ⟨S100000x1, .i32⟩
  | 48 => ⟨S100000x128, .f32⟩
  | 49 => ⟨S1x100000, .i32⟩
  | 50 => ⟨S100000, .i32⟩
  | 51 => ⟨S_, .f32⟩
  | 52 => ⟨S100000x128, .f32⟩
  | 53 => ⟨S100000x1, .i32⟩
  | 54 => ⟨S100000x128, .f32⟩
  | 55 => ⟨S_, .f32⟩
  | 56 => ⟨S100000, .f32⟩
  | 57 => ⟨S1x100000, .i32⟩
  | 58 => ⟨S100000, .i32⟩
  | 59 => ⟨S_, .f32⟩
  | 60 => ⟨S100000, .f32⟩
  | 61 => ⟨S100000x1, .i32⟩
  | 62 => ⟨S100000, .f32⟩
  | 63 => ⟨S_, .f32⟩
  | 64 => ⟨S100000, .f32⟩
  | 65 => ⟨S100000, .f32⟩
  | 66 => ⟨S100000x1, .f32⟩
  | 67 => ⟨S100000x128, .f32⟩
  | 68 => ⟨S100000x128, .f32⟩
  | 69 => ⟨S128x128, .f32⟩
  | 70 => ⟨S100000x128, .f32⟩
  | 71 => ⟨S1x128, .f32⟩
  | 72 => ⟨S100000x128, .f32⟩
  | 73 => ⟨S100000x128, .f32⟩
  | 74 => ⟨S128x128, .f32⟩
  | 75 => ⟨S100000x128, .f32⟩
  | 76 => ⟨S100000x128, .f32⟩
  | 77 => ⟨S1x1x128x128, .f32⟩
  | 78 => ⟨S128x128, .f32⟩
  | 79 => ⟨S1x1x128, .f32⟩
  | 80 => ⟨S128, .f32⟩
  | 81 => ⟨S1x1x128x128, .f32⟩
  | 82 => ⟨S128x128, .f32⟩
  | 83 => ⟨S1x1000000, .i32⟩
  | 84 => ⟨S1000000, .i32⟩
  | 85 => ⟨S_, .i32⟩
  | 86 => ⟨S1000000, .i32⟩
  | 87 => ⟨S1000000, .i1⟩
  | 88 => ⟨S_, .i32⟩
  | 89 => ⟨S1000000, .i32⟩
  | 90 => ⟨S1000000, .i32⟩
  | 91 => ⟨S1000000, .i32⟩
  | 92 => ⟨S1000000x1, .i32⟩
  | 93 => ⟨S1000000x128, .f32⟩
  | 94 => ⟨S1x1000000, .i32⟩
  | 95 => ⟨S1000000, .i32⟩
  | 96 => ⟨S_, .f32⟩
  | 97 => ⟨S100000x128, .f32⟩
  | 98 => ⟨S1000000x1, .i32⟩
  | 99 => ⟨S100000x128, .f32⟩
  | 100 => ⟨S_, .f32⟩
  | 101 => ⟨S1000000, .f32⟩
  | 102 => ⟨S1x1000000, .i32⟩
  | 103 => ⟨S1000000, .i32⟩
  | 104 => ⟨S_, .f32⟩
  | 105 => ⟨S100000, .f32⟩
  | 106 => ⟨S1000000x1, .i32⟩
  | 107 => ⟨S100000, .f32⟩
  | 108 => ⟨S_, .f32⟩
  | 109 => ⟨S100000, .f32⟩
  | 110 => ⟨S100000, .f32⟩
  | 111 => ⟨S100000x1, .f32⟩
  | 112 => ⟨S100000x128, .f32⟩
  | 113 => ⟨S100000x128, .f32⟩
  | 114 => ⟨S128x128, .f32⟩
  | 115 => ⟨S100000x128, .f32⟩
  | 116 => ⟨S1x128, .f32⟩
  | 117 => ⟨S100000x128, .f32⟩
  | 118 => ⟨S100000x128, .f32⟩
  | 119 => ⟨S128x128, .f32⟩
  | 120 => ⟨S100000x128, .f32⟩
  | 121 => ⟨S100000x128, .f32⟩
  | 122 => ⟨S100000x128, .f32⟩
  | 123 => ⟨S1x100000x128, .f32⟩
  | 124 => ⟨S1x100000x128, .f32⟩
  | 125 => ⟨S2x100000x128, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_c_4 : Ref sig .tc := ⟨.hbm, 62, rfl⟩
abbrev main_v47 : Ref sig .tc := ⟨.hbm, 63, rfl⟩
abbrev main_v48 : Ref sig .tc := ⟨.hbm, 64, rfl⟩
abbrev main_c_5 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_6 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_7 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_8 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_9 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_c_10 : Ref sig .tc := ⟨.hbm, 108, rfl⟩
abbrev main_v87 : Ref sig .tc := ⟨.hbm, 109, rfl⟩
abbrev main_v88 : Ref sig .tc := ⟨.hbm, 110, rfl⟩
abbrev main_c_11 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_cst_12 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_cst_13 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_cst_14 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_cst_15 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_c_16 : Ref sig .tc := ⟨.hbm, 153, rfl⟩
abbrev main_v126 : Ref sig .tc := ⟨.hbm, 154, rfl⟩
abbrev main_v127 : Ref sig .tc := ⟨.hbm, 155, rfl⟩
abbrev main_c_17 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_cst_18 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_cst_19 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_cst_20 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_cst_21 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_call0_cst : Ref sig .tc := ⟨.hbm, 191, rfl⟩
abbrev main_call0_v0 : Ref sig .tc := ⟨.hbm, 192, rfl⟩
abbrev main_v158 : Ref sig .tc := ⟨.hbm, 193, rfl⟩
abbrev main_call1_cst : Ref sig .tc := ⟨.hbm, 194, rfl⟩
abbrev main_call1_v0 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_c_22 : Ref sig .tc := ⟨.hbm, 205, rfl⟩
abbrev main_v168 : Ref sig .tc := ⟨.hbm, 206, rfl⟩
abbrev main_v169 : Ref sig .tc := ⟨.hbm, 207, rfl⟩
abbrev main_c_23 : Ref sig .tc := ⟨.hbm, 208, rfl⟩
abbrev main_v170 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_v176 : Ref sig .tc := ⟨.hbm, 215, rfl⟩
abbrev main_cst_24 : Ref sig .tc := ⟨.hbm, 216, rfl⟩
abbrev main_v177 : Ref sig .tc := ⟨.hbm, 217, rfl⟩
abbrev main_v178 : Ref sig .tc := ⟨.hbm, 218, rfl⟩
abbrev main_v179 : Ref sig .tc := ⟨.hbm, 219, rfl⟩
abbrev main_cst_25 : Ref sig .tc := ⟨.hbm, 220, rfl⟩
abbrev main_v180 : Ref sig .tc := ⟨.hbm, 221, rfl⟩
abbrev main_v181 : Ref sig .tc := ⟨.hbm, 222, rfl⟩
abbrev main_v182 : Ref sig .tc := ⟨.hbm, 223, rfl⟩
abbrev main_cst_26 : Ref sig .tc := ⟨.hbm, 224, rfl⟩
abbrev main_v183 : Ref sig .tc := ⟨.hbm, 225, rfl⟩
abbrev main_v184 : Ref sig .tc := ⟨.hbm, 226, rfl⟩
abbrev main_v185 : Ref sig .tc := ⟨.hbm, 227, rfl⟩
abbrev main_cst_27 : Ref sig .tc := ⟨.hbm, 228, rfl⟩
abbrev main_v186 : Ref sig .tc := ⟨.hbm, 229, rfl⟩
abbrev main_v187 : Ref sig .tc := ⟨.hbm, 230, rfl⟩
abbrev main_v188 : Ref sig .tc := ⟨.hbm, 231, rfl⟩
abbrev main_v189 : Ref sig .tc := ⟨.hbm, 232, rfl⟩
abbrev main_v190 : Ref sig .tc := ⟨.hbm, 233, rfl⟩
abbrev main_v191 : Ref sig .tc := ⟨.hbm, 234, rfl⟩
abbrev main_v192 : Ref sig .tc := ⟨.hbm, 235, rfl⟩
abbrev main_v193 : Ref sig .tc := ⟨.hbm, 236, rfl⟩
abbrev main_v194 : Ref sig .tc := ⟨.hbm, 237, rfl⟩
abbrev main_v195 : Ref sig .tc := ⟨.hbm, 238, rfl⟩
abbrev main_v196 : Ref sig .tc := ⟨.hbm, 239, rfl⟩
abbrev main_v197 : Ref sig .tc := ⟨.hbm, 240, rfl⟩
abbrev main_v198 : Ref sig .tc := ⟨.hbm, 241, rfl⟩
abbrev main_v199 : Ref sig .tc := ⟨.hbm, 242, rfl⟩
abbrev main_v200 : Ref sig .tc := ⟨.hbm, 243, rfl⟩
abbrev main_v201 : Ref sig .tc := ⟨.hbm, 244, rfl⟩
abbrev main_v202 : Ref sig .tc := ⟨.hbm, 245, rfl⟩
abbrev main_v203 : Ref sig .tc := ⟨.hbm, 246, rfl⟩
abbrev main_v204 : Ref sig .tc := ⟨.hbm, 247, rfl⟩
abbrev main_v205 : Ref sig .tc := ⟨.hbm, 248, rfl⟩
abbrev main_v206 : Ref sig .tc := ⟨.hbm, 249, rfl⟩
abbrev main_c_28 : Ref sig .tc := ⟨.hbm, 250, rfl⟩
abbrev main_v207 : Ref sig .tc := ⟨.hbm, 251, rfl⟩
abbrev main_v208 : Ref sig .tc := ⟨.hbm, 252, rfl⟩
abbrev main_c_29 : Ref sig .tc := ⟨.hbm, 253, rfl⟩
abbrev main_v209 : Ref sig .tc := ⟨.hbm, 254, rfl⟩
abbrev main_v210 : Ref sig .tc := ⟨.hbm, 255, rfl⟩
abbrev main_v211 : Ref sig .tc := ⟨.hbm, 256, rfl⟩
abbrev main_v212 : Ref sig .tc := ⟨.hbm, 257, rfl⟩
abbrev main_v213 : Ref sig .tc := ⟨.hbm, 258, rfl⟩
abbrev main_v214 : Ref sig .tc := ⟨.hbm, 259, rfl⟩
abbrev main_v215 : Ref sig .tc := ⟨.hbm, 260, rfl⟩
abbrev main_cst_30 : Ref sig .tc := ⟨.hbm, 261, rfl⟩
abbrev main_v216 : Ref sig .tc := ⟨.hbm, 262, rfl⟩
abbrev main_v217 : Ref sig .tc := ⟨.hbm, 263, rfl⟩
abbrev main_v218 : Ref sig .tc := ⟨.hbm, 264, rfl⟩
abbrev main_cst_31 : Ref sig .tc := ⟨.hbm, 265, rfl⟩
abbrev main_v219 : Ref sig .tc := ⟨.hbm, 266, rfl⟩
abbrev main_v220 : Ref sig .tc := ⟨.hbm, 267, rfl⟩
abbrev main_v221 : Ref sig .tc := ⟨.hbm, 268, rfl⟩
abbrev main_cst_32 : Ref sig .tc := ⟨.hbm, 269, rfl⟩
abbrev main_v222 : Ref sig .tc := ⟨.hbm, 270, rfl⟩
abbrev main_v223 : Ref sig .tc := ⟨.hbm, 271, rfl⟩
abbrev main_v224 : Ref sig .tc := ⟨.hbm, 272, rfl⟩
abbrev main_cst_33 : Ref sig .tc := ⟨.hbm, 273, rfl⟩
abbrev main_v225 : Ref sig .tc := ⟨.hbm, 274, rfl⟩
abbrev main_v226 : Ref sig .tc := ⟨.hbm, 275, rfl⟩
abbrev main_v227 : Ref sig .tc := ⟨.hbm, 276, rfl⟩
abbrev main_v228 : Ref sig .tc := ⟨.hbm, 277, rfl⟩
abbrev main_v229 : Ref sig .tc := ⟨.hbm, 278, rfl⟩
abbrev main_v230 : Ref sig .tc := ⟨.hbm, 279, rfl⟩
abbrev main_v231 : Ref sig .tc := ⟨.hbm, 280, rfl⟩
abbrev main_v232 : Ref sig .tc := ⟨.hbm, 281, rfl⟩
abbrev main_v233 : Ref sig .tc := ⟨.hbm, 282, rfl⟩
abbrev main_v234 : Ref sig .tc := ⟨.hbm, 283, rfl⟩
abbrev main_v235 : Ref sig .tc := ⟨.hbm, 284, rfl⟩
abbrev main_v236 : Ref sig .tc := ⟨.hbm, 285, rfl⟩
abbrev main_v237 : Ref sig .tc := ⟨.hbm, 286, rfl⟩
abbrev main_v238 : Ref sig .tc := ⟨.hbm, 287, rfl⟩
abbrev main_v239 : Ref sig .tc := ⟨.hbm, 288, rfl⟩
abbrev main_v240 : Ref sig .tc := ⟨.hbm, 289, rfl⟩
abbrev main_v241 : Ref sig .tc := ⟨.hbm, 290, rfl⟩
abbrev main_v242 : Ref sig .tc := ⟨.hbm, 291, rfl⟩
abbrev main_v243 : Ref sig .tc := ⟨.hbm, 292, rfl⟩
abbrev main_v244 : Ref sig .tc := ⟨.hbm, 293, rfl⟩
abbrev main_v245 : Ref sig .tc := ⟨.hbm, 294, rfl⟩
abbrev main_v246 : Ref sig .tc := ⟨.hbm, 295, rfl⟩
abbrev main_c_34 : Ref sig .tc := ⟨.hbm, 296, rfl⟩
abbrev main_v247 : Ref sig .tc := ⟨.hbm, 297, rfl⟩
abbrev main_v248 : Ref sig .tc := ⟨.hbm, 298, rfl⟩
abbrev main_c_35 : Ref sig .tc := ⟨.hbm, 299, rfl⟩
abbrev main_v249 : Ref sig .tc := ⟨.hbm, 300, rfl⟩
abbrev main_v250 : Ref sig .tc := ⟨.hbm, 301, rfl⟩
abbrev main_v251 : Ref sig .tc := ⟨.hbm, 302, rfl⟩
abbrev main_v252 : Ref sig .tc := ⟨.hbm, 303, rfl⟩
abbrev main_v253 : Ref sig .tc := ⟨.hbm, 304, rfl⟩
abbrev main_v254 : Ref sig .tc := ⟨.hbm, 305, rfl⟩
abbrev main_v255 : Ref sig .tc := ⟨.hbm, 306, rfl⟩
abbrev main_cst_36 : Ref sig .tc := ⟨.hbm, 307, rfl⟩
abbrev main_v256 : Ref sig .tc := ⟨.hbm, 308, rfl⟩
abbrev main_v257 : Ref sig .tc := ⟨.hbm, 309, rfl⟩
abbrev main_v258 : Ref sig .tc := ⟨.hbm, 310, rfl⟩
abbrev main_cst_37 : Ref sig .tc := ⟨.hbm, 311, rfl⟩
abbrev main_v259 : Ref sig .tc := ⟨.hbm, 312, rfl⟩
abbrev main_v260 : Ref sig .tc := ⟨.hbm, 313, rfl⟩
abbrev main_v261 : Ref sig .tc := ⟨.hbm, 314, rfl⟩
abbrev main_cst_38 : Ref sig .tc := ⟨.hbm, 315, rfl⟩
abbrev main_v262 : Ref sig .tc := ⟨.hbm, 316, rfl⟩
abbrev main_v263 : Ref sig .tc := ⟨.hbm, 317, rfl⟩
abbrev main_v264 : Ref sig .tc := ⟨.hbm, 318, rfl⟩
abbrev main_cst_39 : Ref sig .tc := ⟨.hbm, 319, rfl⟩
abbrev main_v265 : Ref sig .tc := ⟨.hbm, 320, rfl⟩
abbrev main_v266 : Ref sig .tc := ⟨.hbm, 321, rfl⟩
abbrev main_v267 : Ref sig .tc := ⟨.hbm, 322, rfl⟩
abbrev main_v268 : Ref sig .tc := ⟨.hbm, 323, rfl⟩
abbrev main_v269 : Ref sig .tc := ⟨.hbm, 324, rfl⟩
abbrev main_v270 : Ref sig .tc := ⟨.hbm, 325, rfl⟩
abbrev main_v271 : Ref sig .tc := ⟨.hbm, 326, rfl⟩
abbrev main_v272 : Ref sig .tc := ⟨.hbm, 327, rfl⟩
abbrev main_v273 : Ref sig .tc := ⟨.hbm, 328, rfl⟩
abbrev main_v274 : Ref sig .tc := ⟨.hbm, 329, rfl⟩
abbrev main_v275 : Ref sig .tc := ⟨.hbm, 330, rfl⟩
abbrev main_v276 : Ref sig .tc := ⟨.hbm, 331, rfl⟩
abbrev main_v277 : Ref sig .tc := ⟨.hbm, 332, rfl⟩
abbrev main_v278 : Ref sig .tc := ⟨.hbm, 333, rfl⟩
abbrev main_v279 : Ref sig .tc := ⟨.hbm, 334, rfl⟩
abbrev main_v280 : Ref sig .tc := ⟨.hbm, 335, rfl⟩
abbrev main_v281 : Ref sig .tc := ⟨.hbm, 336, rfl⟩
abbrev main_v282 : Ref sig .tc := ⟨.hbm, 337, rfl⟩
abbrev main_v283 : Ref sig .tc := ⟨.hbm, 338, rfl⟩
abbrev main_v284 : Ref sig .tc := ⟨.hbm, 339, rfl⟩
abbrev main_v285 : Ref sig .tc := ⟨.hbm, 340, rfl⟩
abbrev main_c_40 : Ref sig .tc := ⟨.hbm, 341, rfl⟩
abbrev main_v286 : Ref sig .tc := ⟨.hbm, 342, rfl⟩
abbrev main_v287 : Ref sig .tc := ⟨.hbm, 343, rfl⟩
abbrev main_c_41 : Ref sig .tc := ⟨.hbm, 344, rfl⟩
abbrev main_v288 : Ref sig .tc := ⟨.hbm, 345, rfl⟩
abbrev main_v289 : Ref sig .tc := ⟨.hbm, 346, rfl⟩
abbrev main_v290 : Ref sig .tc := ⟨.hbm, 347, rfl⟩
abbrev main_v291 : Ref sig .tc := ⟨.hbm, 348, rfl⟩
abbrev main_v292 : Ref sig .tc := ⟨.hbm, 349, rfl⟩
abbrev main_v293 : Ref sig .tc := ⟨.hbm, 350, rfl⟩
abbrev main_v294 : Ref sig .tc := ⟨.hbm, 351, rfl⟩
abbrev main_cst_42 : Ref sig .tc := ⟨.hbm, 352, rfl⟩
abbrev main_v295 : Ref sig .tc := ⟨.hbm, 353, rfl⟩
abbrev main_v296 : Ref sig .tc := ⟨.hbm, 354, rfl⟩
abbrev main_v297 : Ref sig .tc := ⟨.hbm, 355, rfl⟩
abbrev main_cst_43 : Ref sig .tc := ⟨.hbm, 356, rfl⟩
abbrev main_v298 : Ref sig .tc := ⟨.hbm, 357, rfl⟩
abbrev main_v299 : Ref sig .tc := ⟨.hbm, 358, rfl⟩
abbrev main_v300 : Ref sig .tc := ⟨.hbm, 359, rfl⟩
abbrev main_cst_44 : Ref sig .tc := ⟨.hbm, 360, rfl⟩
abbrev main_v301 : Ref sig .tc := ⟨.hbm, 361, rfl⟩
abbrev main_v302 : Ref sig .tc := ⟨.hbm, 362, rfl⟩
abbrev main_v303 : Ref sig .tc := ⟨.hbm, 363, rfl⟩
abbrev main_cst_45 : Ref sig .tc := ⟨.hbm, 364, rfl⟩
abbrev main_v304 : Ref sig .tc := ⟨.hbm, 365, rfl⟩
abbrev main_v305 : Ref sig .tc := ⟨.hbm, 366, rfl⟩
abbrev main_v306 : Ref sig .tc := ⟨.hbm, 367, rfl⟩
abbrev main_v307 : Ref sig .tc := ⟨.hbm, 368, rfl⟩
abbrev main_v308 : Ref sig .tc := ⟨.hbm, 369, rfl⟩
abbrev main_v309 : Ref sig .tc := ⟨.hbm, 370, rfl⟩
abbrev main_v310 : Ref sig .tc := ⟨.hbm, 371, rfl⟩
abbrev main_v311 : Ref sig .tc := ⟨.hbm, 372, rfl⟩
abbrev main_v312 : Ref sig .tc := ⟨.hbm, 373, rfl⟩
abbrev main_v313 : Ref sig .tc := ⟨.hbm, 374, rfl⟩
abbrev main_v314 : Ref sig .tc := ⟨.hbm, 375, rfl⟩
abbrev main_v315 : Ref sig .tc := ⟨.hbm, 376, rfl⟩
abbrev main_v316 : Ref sig .tc := ⟨.hbm, 377, rfl⟩
abbrev main_v317 : Ref sig .tc := ⟨.hbm, 378, rfl⟩
abbrev main_v318 : Ref sig .tc := ⟨.hbm, 379, rfl⟩
abbrev main_v319 : Ref sig .tc := ⟨.hbm, 380, rfl⟩
abbrev main_v320 : Ref sig .tc := ⟨.hbm, 381, rfl⟩

abbrev nD : Nat := 1
abbrev τ : Topo := Topo.v7x

variable {F : FTy → Type} [FloatOps F]

class Facts₀ : Prop where
  slices_S2x4x128x128_S1x1x128x128_0_0_0_0 : S2x4x128x128.Slices ![0, 0, 0, 0] S1x1x128x128
  shapeCasts_S1x1x128x128_S128x128 : S1x1x128x128.ShapeCasts S128x128
  slices_S2x4x128_S1x1x128_0_0_0 : S2x4x128.Slices ![0, 0, 0] S1x1x128
  shapeCasts_S1x1x128_S128 : S1x1x128.ShapeCasts S128
  slices_S2x100000_S1x100000_0_0 : S2x100000.Slices ![0, 0] S1x100000
  shapeCasts_S1x100000_S100000 : S1x100000.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  slices_S2x100000_S1x100000_1_0 : S2x100000.Slices ![1, 0] S1x100000
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S2x4x128x128_S1x1x128x128_0_3_0_0 : S2x4x128x128.Slices ![0, 3, 0, 0] S1x1x128x128
  slices_S2x4x128_S1x1x128_0_3_0 : S2x4x128.Slices ![0, 3, 0] S1x1x128
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S2x1000000_S1x1000000_1_0 : S2x1000000.Slices ![1, 0] S1x1000000
  slices_S2x4x128x128_S1x1x128x128_0_1_0_0 : S2x4x128x128.Slices ![0, 1, 0, 0] S1x1x128x128
  slices_S2x4x128_S1x1x128_0_1_0 : S2x4x128.Slices ![0, 1, 0] S1x1x128
  slices_S2x4x128x128_S1x1x128x128_0_2_0_0 : S2x4x128x128.Slices ![0, 2, 0, 0] S1x1x128x128
  slices_S2x4x128_S1x1x128_0_2_0 : S2x4x128.Slices ![0, 2, 0] S1x1x128
  slices_S2x4x128x128_S1x1x128x128_1_0_0_0 : S2x4x128x128.Slices ![1, 0, 0, 0] S1x1x128x128
  slices_S2x4x128_S1x1x128_1_0_0 : S2x4x128.Slices ![1, 0, 0] S1x1x128
  slices_S2x4x128x128_S1x1x128x128_1_3_0_0 : S2x4x128x128.Slices ![1, 3, 0, 0] S1x1x128x128
  slices_S2x4x128_S1x1x128_1_3_0 : S2x4x128.Slices ![1, 3, 0] S1x1x128
  slices_S2x4x128x128_S1x1x128x128_1_1_0_0 : S2x4x128x128.Slices ![1, 1, 0, 0] S1x1x128x128
  slices_S2x4x128_S1x1x128_1_1_0 : S2x4x128.Slices ![1, 1, 0] S1x1x128
  slices_S2x4x128x128_S1x1x128x128_1_2_0_0 : S2x4x128x128.Slices ![1, 2, 0, 0] S1x1x128x128
  slices_S2x4x128_S1x1x128_1_2_0 : S2x4x128.Slices ![1, 2, 0] S1x1x128
  bcast_S100000x128_S1x100000x128_1_2 : S100000x128.BroadcastsInDim S1x100000x128 (![1, 2] : Fin 2 → Fin S1x100000x128.rank)
  concatenates_S1x100000x128_S1x100000x128_S2x100000x128_d0 : Shape.Concatenates [S1x100000x128, S1x100000x128] S2x100000x128 0
  gather_S100000x128_S100000x1_S100000x128_1_0_n_n_0_1_1128_wf : GatherDims.WF S100000x128 S100000x1 S100000x128 [1] [0] [] [0] [] 1 ![1, 128]
  scatter_S100000x128_S100000x1_S100000x128_1_0_0_1_wf : ScatterDims.WF S100000x128 S100000x1 S100000x128 [1] [0] [0] 1
  scatter_S100000_S100000x1_S100000_n_0_0_1_wf : ScatterDims.WF S100000 S100000x1 S100000 [] [0] [0] 1
  dot_S100000x128_S128x128_S100000x128_1_0_0_1_n_n_wf : DotDims.WF S100000x128 S128x128 S100000x128 [1] [0] [0] [1] [] []
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  scatter_S100000_S1000000x1_S1000000_n_0_0_1_wf : ScatterDims.WF S100000 S1000000x1 S1000000 [] [0] [0] 1

variable [Facts₀]

def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def scatter_S100000x128_S100000x1_S100000x128_1_0_0_1 : ScatterDims S100000x128 S100000x1 S100000x128 where
  updateWindowDims := [1]
  insertedWindowDims := [0]
  scatterDimsToOperandDims := [0]
  indexVectorDim := 1
  wf := scatter_S100000x128_S100000x1_S100000x128_1_0_0_1_wf
def scatter_S100000_S100000x1_S100000_n_0_0_1 : ScatterDims S100000 S100000x1 S100000 where
  updateWindowDims := []
  insertedWindowDims := [0]
  scatterDimsToOperandDims := [0]
  indexVectorDim := 1
  wf := scatter_S100000_S100000x1_S100000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf

class Facts : Prop extends Facts₀ where

variable [Facts]
-- ==== Proof.BitsRegionData.lean ====
/-
  The two kernel regions' proof data, at any float instance `F`.

  Each region reads fifteen arrays block by block — four neighbour sums and the two node-feature
  arrays (blocks of 2000 rows), the packed per-row reciprocal counts (2000 × 4), six 128 × 128 weight
  matrices and two 1 × 128 bias rows (whole, at every point) — and writes, at grid point t, rows
  2000·t … 2000·t + 1999 of its result(s).  The first region writes the two new feature arrays, the second
  the stacked 2 × 100000 × 128 result, one slab after the other.  What a point leaves in an output's
  staging buffer is the body's stored value, a pure function of the point's input blocks.
-/
import proofs.«123560_j36206574305716_2_alg».proof.Proof.Gen.Kernel.Launch
import proofs.«123560_j36206574305716_2_alg».proof.Proof.Gen.Kernel.Skeleton
import proofs.«123560_j36206574305716_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The whole 2000 × 128 block, the whole 2000 × 4 block, a whole weight matrix, a whole bias row, and
    the two 1 × 2000 × 128 slabs of the stacked output block: the rectangles the bodies load and store through. -/
abbrev rA : Rect S2000x128 := Rect.unit (s := S2000x128) ![0, 0] S2000x128.size inb_S2000x128_S2000x128_0_0
abbrev rI : Rect S2000x4 := Rect.unit (s := S2000x4) ![0, 0] S2000x4.size inb_S2000x4_S2000x4_0_0
abbrev rW : Rect S128x128 := Rect.unit (s := S128x128) ![0, 0] S128x128.size inb_S128x128_S128x128_0_0
abbrev rB : Rect S1x128 := Rect.unit (s := S1x128) ![0, 0] S1x128.size inb_S1x128_S1x128_0_0
abbrev rS0 : Rect S2x2000x128 := Rect.unit (s := S2x2000x128) ![0, 0, 0] S1x2000x128.size inb_S2x2000x128_S1x2000x128_0_0_0
abbrev rS1 : Rect S2x2000x128 := Rect.unit (s := S2x2000x128) ![1, 0, 0] S1x2000x128.size inb_S2x2000x128_S1x2000x128_1_0_0

/-! ## What a point leaves in each output's staging buffer -/

/-- First region, first output (window 15): the stored value over the blocks of windows 0, 1, 2 (two
    neighbour sums and the node features), 6 (reciprocal counts), 7, 8, 11 (weights) and 13 (bias row). -/
noncomputable def out0_15 (x0 x1 x2 : Vec F S2000x128 .f32) (x6 : Vec F S2000x4 .f32) (x7 x8 x11 : Vec F S128x128 .f32)
    (x13 : Vec F S1x128 .f32) : Vec F S2000x128 .f32 :=
  View.canon [⟨rA, k0_pay1 (k0_pay4 (View.ld x6 rI) (View.ld x0 rA)) (k0_pay5 (View.ld x6 rI) (View.ld x1 rA))
    (k0_pay8 (View.ld x2 rA)) (k0_pay10 (View.ld x7 rW)) (k0_pay11 (View.ld x8 rW)) (View.ld x11 rW) (View.ld x13 rB)⟩]

/-- First region, second output (window 16): the same over windows 3, 4, 5, 6, 9, 10, 12 and 14. -/
noncomputable def out0_16 (x3 x4 x5 : Vec F S2000x128 .f32) (x6 : Vec F S2000x4 .f32) (x9 x10 x12 : Vec F S128x128 .f32)
    (x14 : Vec F S1x128 .f32) : Vec F S2000x128 .f32 :=
  View.canon [⟨rA, k0_pay2 (k0_pay6 (View.ld x6 rI) (View.ld x3 rA)) (k0_pay7 (View.ld x6 rI) (View.ld x4 rA))
    (k0_pay9 (View.ld x5 rA)) (k0_pay12 (View.ld x9 rW)) (View.ld x10 rW) (View.ld x12 rW) (View.ld x14 rB)⟩]

/-- Second region, its one output (window 15): two slabs, the later store first. -/
noncomputable def out1_15 (x0 : Vec F S2000x128 .f32) (x1 : Vec F S2000x128 .f32) (x2 : Vec F S2000x128 .f32) (x3 : Vec F S2000x128 .f32) (x4 : Vec F S2000x128 .f32) (x5 : Vec F S2000x128 .f32) (x6 : Vec F S2000x4 .f32) (x7 : Vec F S128x128 .f32) (x8 : Vec F S128x128 .f32) (x9 : Vec F S128x128 .f32) (x10 : Vec F S128x128 .f32) (x11 : Vec F S128x128 .f32) (x12 : Vec F S128x128 .f32) (x13 : Vec F S1x128 .f32) (x14 : Vec F S1x128 .f32) : Vec F S2x2000x128 .f32 :=
  View.canon [⟨rS1, k1_pay11 (k1_pay4 (View.ld x6 rI) (View.ld x3 rA)) (k1_pay5 (View.ld x6 rI) (View.ld x4 rA))
      (k1_pay7 (View.ld x5 rA)) (View.ld x9 rW) (View.ld x10 rW) (View.ld x12 rW) (View.ld x14 rB)⟩,
    ⟨rS0, k1_pay10 (k1_pay2 (View.ld x6 rI) (View.ld x0 rA)) (k1_pay3 (View.ld x6 rI) (View.ld x1 rA))
      (k1_pay6 (View.ld x2 rA)) (k1_pay8 (View.ld x7 rW)) (k1_pay9 (View.ld x8 rW)) (View.ld x11 rW) (View.ld x13 rB)⟩]

section AtEntry
-- the TensorCore's buffer contents when a region is entered
variable (V : (c : Dev nD) → (b : Ref sig .tc) → Buf (Elt F) ((c : Thread nD τ).loc b))

/-- Window `w`'s block at point `t` of the first region, read off its array as the region finds it. -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The same for the second region. -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first region's proof data on core `c`: the arrays as the region finds them; after the body at point `t`
    each input's buffer at its block and each output's at the stored value of the input blocks; the scoped rest
    and the generator register untouched; nothing owed; full shares. -/
noncomputable def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => iblk0 V c 14 t
    | ⟨15, _⟩ => out0_15 (iblk0 V c 0 t) (iblk0 V c 1 t) (iblk0 V c 2 t) (iblk0 V c 6 t) (iblk0 V c 7 t) (iblk0 V c 8 t) (iblk0 V c 11 t) (iblk0 V c 13 t)
    | ⟨16, _⟩ => out0_16 (iblk0 V c 3 t) (iblk0 V c 4 t) (iblk0 V c 5 t) (iblk0 V c 6 t) (iblk0 V c 9 t) (iblk0 V c 10 t) (iblk0 V c 12 t) (iblk0 V c 14 t)
    | ⟨_ + 17, h⟩ => absurd h (Nat.not_lt.2 (Nat.le_add_left _ _))
  Φ _ := Pipeline.ΦA spec0 c
  q _ := fullShare
  owed _ := 0

/-- The second region's proof data, likewise. -/
noncomputable def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => out1_15 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t)
    | ⟨_ + 16, h⟩ => absurd h (Nat.not_lt.2 (Nat.le_add_left _ _))
  Φ _ := Pipeline.ΦA spec1 c
  q _ := fullShare
  owed _ := 0

end AtEntry

end Cert.Kernel.Regions

end
-- ==== Proof.BitsRegionBodies.lean ====
/-
  The two kernel bodies, each run once on whole staging buffers, and what the pipeline asks of a body at a grid point.

  At every grid point an input buffer holds its window's block of the array as the region found it: rows
  2000·t … 2000·t + 1999 of a row-blocked array (the four neighbour sums, the two feature arrays, the reciprocal
  counts), or the whole of a weight matrix or bias row.  The whole-array windows are brought in at the first point
  only; their block index never moves, so the buffer still holds the block at every later point.  A body loads
  whole buffers, computes, and stores: it leaves every input buffer as it was and every output buffer at the value
  its stores put there, whatever the buffer held before (each body also loads its output buffer just before storing
  into it; nothing is done with the value).  One store fills a 2000 × 128 output buffer; the two slabs
  (row 0 and row 1 of the leading axis) fill the 2 × 2000 × 128 one.
-/
import proofs.«123560_j36206574305716_2_alg».proof.Proof.BitsRegionData

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The stores fill the output buffers -/

/-- The one store through the whole-block rectangle covers a 2000 × 128 buffer (first region, first output). -/
theorem cover0_15 (p0 : Vec F S2000x128 .f32) (y : S2000x128.Idx) :
    ∃ pc ∈ ([⟨rA, p0⟩] : List (View.Piece (Elt F) S2000x128 .f32)), y ∈ pc.1.set :=
  View.cover_of_tiled [⟨rA, p0⟩] S2000x128.size (by rfl) y

/-- The same for the first region's second output. -/
theorem cover0_16 (p0 : Vec F S2000x128 .f32) (y : S2000x128.Idx) :
    ∃ pc ∈ ([⟨rA, p0⟩] : List (View.Piece (Elt F) S2000x128 .f32)), y ∈ pc.1.set :=
  cover0_15 p0 y

/-- The two slabs, at leading index 1 and at leading index 0, tile the 2 × 2000 × 128 buffer (second region). -/
theorem cover1_15 (p0 : Vec F S1x2000x128 .f32) (p1 : Vec F S1x2000x128 .f32) (y : S2x2000x128.Idx) :
    ∃ pc ∈ ([⟨rS1, p0⟩, ⟨rS0, p1⟩] : List (View.Piece (Elt F) S2x2000x128 .f32)), y ∈ pc.1.set :=
  View.cover_of_tiled [⟨rS1, p0⟩, ⟨rS0, p1⟩] S1x2000x128.size (by rfl) y

/-! ## The first body on whole buffers -/

set_option maxHeartbeats 4000000 in
/-- The first region's body at any grid coordinate, its fifteen input buffers at read contents `x0 … x14` and its output
    buffers at anything, runs to a continuation that holds the inputs as they were and each output at its stored value
    (`out0_15`, `out0_16`): the body is its loads, pure arithmetic and stores, run in order. -/
theorem sound_kernel0 (c : Dev nD) (E : Set ℕ) (i : grid0.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S2000x128 .f32) (harg6 : arg6.IsWhole) (arg7 : Memref sig .tc .vmem S2000x4 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S2000x128 .f32) (harg16 : arg16.IsWhole) (arg17 : Memref sig .tc .vmem S2000x128 .f32) (harg17 : arg17.IsWhole)
    (x0 x1 x2 x3 x4 x5 : Vec F S2000x128 .f32) (x6 : Vec F S2000x4 .f32) (x7 x8 x9 x10 x11 x12 : Vec F S128x128 .f32) (x13 x14 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare (out0_15 x0 x1 x2 x6 x7 x8 x11 x13) ∗ owns (c : Thread nD τ) arg17 fullShare (out0_16 x3 x4 x5 x6 x9 x10 x12 x14)) -∗ K ⟨⟩))
      ⊢ wp frame (wpE (defs₀ (F := F)) Variants.none c none) E (cc0__combine_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__combine_kernel_eq_skeleton]; unfold cc0__combine_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, Hk⟩
  subst hf0 hf1 hf2 hf3 hf4 hf5 hf6 hf7 hf8 hf9 hf10 hf11 hf12 hf13 hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists _; isplitr
    swap; · iexact H15
    ipureintro
    try dsimp only
    exact View.read_writes_eq_canon _ _ _ (cover0_15 _)
  iexists _; isplitr
  swap; · iexact H16
  ipureintro
  try dsimp only
  exact View.read_writes_eq_canon _ _ _ (cover0_16 _)

/-! ## The second body on whole buffers -/

set_option maxHeartbeats 4000000 in
/-- The second region's body at any grid coordinate, its fifteen input buffers at read contents `x0 … x14` and its output
    buffer at anything, runs to a continuation that holds the inputs as they were and the output at its two stored slabs
    (`out1_15`): the body is its loads, pure arithmetic and stores, run in order. -/
theorem sound_kernel1 (c : Dev nD) (E : Set ℕ) (i : grid1.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S2000x128 .f32) (harg6 : arg6.IsWhole) (arg7 : Memref sig .tc .vmem S2000x4 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S2x2000x128 .f32) (harg16 : arg16.IsWhole)
    (x0 x1 x2 x3 x4 x5 : Vec F S2000x128 .f32) (x6 : Vec F S2000x4 .f32) (x7 x8 x9 x10 x11 x12 : Vec F S128x128 .f32) (x13 x14 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare (out1_15 x0 x1 x2 x3 x4 x5 x6 x7 x8 x9 x10 x11 x12 x13 x14)) -∗ K ⟨⟩))
      ⊢ wp frame (wpE (defs₀ (F := F)) Variants.none c none) E (cc1__combine_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc1__combine_kernel_eq_skeleton]; unfold cc1__combine_kernel_skel
  simp only [k1_part2_eq_skeleton]; unfold k1_part2_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, Hk⟩
  subst hf0 hf1 hf2 hf3 hf4 hf5 hf6 hf7 hf8 hf9 hf10 hf11 hf12 hf13 hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  iexists _; isplitr
  swap; · iexact H15
  ipureintro
  try dsimp only
  exact View.read_writes_eq_canon _ _ _ (cover1_15 _ _)

section AtEntry
-- the TensorCore's buffer contents when a region is entered
variable (V : (c : Dev nD) → (b : Ref sig .tc) → Buf (Elt F) ((c : Thread nD τ).loc b))

/-! ## The first region: what its body finds and leaves at a grid point -/

/-- The proof data's arrays are the contents the region is entered with. -/
theorem A_eq0 (c : Dev nD) (w : Fin cfg0.W) : (dat0 V c).A w = V c (Pipeline.arrRef spec0 w) := by
  dsimp only [dat0]

/-- What the body leaves, window by window: an input's block, an output's stored value. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = iblk0 V c 13 t := by dsimp only [dat0]
theorem after0_14 (c : Dev nD) (t : Fin cfg0.N) : (dat0 V c).after 14 t = iblk0 V c 14 t := by dsimp only [dat0]
theorem after0_15 (c : Dev nD) (t : Fin cfg0.N) : (dat0 V c).after 15 t = out0_15 (iblk0 V c 0 t) (iblk0 V c 1 t) (iblk0 V c 2 t) (iblk0 V c 6 t) (iblk0 V c 7 t) (iblk0 V c 8 t) (iblk0 V c 11 t) (iblk0 V c 13 t) := by dsimp only [dat0]
theorem after0_16 (c : Dev nD) (t : Fin cfg0.N) : (dat0 V c).after 16 t = out0_16 (iblk0 V c 3 t) (iblk0 V c 4 t) (iblk0 V c 5 t) (iblk0 V c 6 t) (iblk0 V c 9 t) (iblk0 V c 10 t) (iblk0 V c 12 t) (iblk0 V c 14 t) := by dsimp only [dat0]

/-- Input window 0 (rows 2000·t … of its array): at every point its current buffer holds its block, fetched there or not — an unfetched
    point has the block index of the point before, and the body left that block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_0 (c : Dev nD) (t : Fin cfg0.N) (d) : (dat0 V c).before 0 t d = iblk0 V c 0 t :=
  before0_0_of V (dat0 V c) (A_eq0 V c 0) (after0_0 V c) t d

/-- Input window 1 (rows 2000·t … of its array): at every point its current buffer holds its block, fetched there or not — an unfetched
    point has the block index of the point before, and the body left that block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_1 (c : Dev nD) (t : Fin cfg0.N) (d) : (dat0 V c).before 1 t d = iblk0 V c 1 t :=
  before0_1_of V (dat0 V c) (A_eq0 V c 1) (after0_1 V c) t d

/-- Input window 2 (rows 2000·t … of its array): at every point its current buffer holds its block, fetched there or not — an unfetched
    point has the block index of the point before, and the body left that block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_2 (c : Dev nD) (t : Fin cfg0.N) (d) : (dat0 V c).before 2 t d = iblk0 V c 2 t :=
  before0_2_of V (dat0 V c) (A_eq0 V c 2) (after0_2 V c) t d

/-- Input window 3 (rows 2000·t … of its array): at every point its current buffer holds its block, fetched there or not — an unfetched
    point has the block index of the point before, and the body left that block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_3 (c : Dev nD) (t : Fin cfg0.N) (d) : (dat0 V c).before 3 t d = iblk0 V c 3 t :=
  before0_3_of V (dat0 V c) (A_eq0 V c 3) (after0_3 V c) t d

/-- Input window 4 (rows 2000·t … of its array): at every point its current buffer holds its block, fetched there or not — an unfetched
    point has the block index of the point before, and the body left that block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_4 (c : Dev nD) (t : Fin cfg0.N) (d) : (dat0 V c).before 4 t d = iblk0 V c 4 t :=
  before0_4_of V (dat0 V c) (A_eq0 V c 4) (after0_4 V c) t d

/-- Input window 5 (rows 2000·t … of its array): at every point its current buffer holds its block, fetched there or not — an unfetched
    point has the block index of the point before, and the body left that block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_5 (c : Dev nD) (t : Fin cfg0.N) (d) : (dat0 V c).before 5 t d = iblk0 V c 5 t :=
  before0_5_of V (dat0 V c) (A_eq0 V c 5) (after0_5 V c) t d

/-- Input window 6 (rows 2000·t … of the reciprocal counts): at every point its current buffer holds its block, fetched there or not — an unfetched
    point has the block index of the point before, and the body left that block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_6 (c : Dev nD) (t : Fin cfg0.N) (d) : (dat0 V c).before 6 t d = iblk0 V c 6 t :=
  before0_6_of V (dat0 V c) (A_eq0 V c 6) (after0_6 V c) t d

/-- Input window 7 (the whole weight matrix, brought in once): at every point its current buffer holds its block, fetched there or not — an unfetched
    point has the block index of the point before, and the body left that block in place. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_7 (c : Dev nD) (t : Fin cfg0.N) (d) : (dat0 V c).before 7 t d = iblk0 V c 7 t :=
  before0_7_of V (dat0 V c) (A_eq0 V c 7) (after0_7 V c) t d

/-- Input window 8 (the whole weight matrix, brought in once): at every point its current buffer holds its block, fetched there or not — an unfetched
    point has the block index of the point before, and the body left that block in place. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
theorem before0_8 (c : Dev nD) (t : Fin cfg0.N) (d) : (dat0 V c).before 8 t d = iblk0 V c 8 t :=
  before0_8_of V (dat0 V c) (A_eq0 V c 8) (after0_8 V c) t d

/-- Input window 9 (the whole weight matrix, brought in once): at every point its current buffer holds its block, fetched there or not — an unfetched
    point has the block index of the point before, and the body left that block in place. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
theorem before0_9 (c : Dev nD) (t : Fin cfg0.N) (d) : (dat0 V c).before 9 t d = iblk0 V c 9 t :=
  before0_9_of V (dat0 V c) (A_eq0 V c 9) (after0_9 V c) t d

/-- Input window 10 (the whole weight matrix, brought in once): at every point its current buffer holds its block, fetched there or not — an unfetched
    point has the block index of the point before, and the body left that block in place. -/
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)
theorem before0_10 (c : Dev nD) (t : Fin cfg0.N) (d) : (dat0 V c).before 10 t d = iblk0 V c 10 t :=
  before0_10_of V (dat0 V c) (A_eq0 V c 10) (after0_10 V c) t d

/-- Input window 11 (the whole weight matrix, brought in once): at every point its current buffer holds its block, fetched there or not — an unfetched
    point has the block index of the point before, and the body left that block in place. -/
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)
theorem before0_11 (c : Dev nD) (t : Fin cfg0.N) (d) : (dat0 V c).before 11 t d = iblk0 V c 11 t :=
  before0_11_of V (dat0 V c) (A_eq0 V c 11) (after0_11 V c) t d

/-- Input window 12 (the whole weight matrix, brought in once): at every point its current buffer holds its block, fetched there or not — an unfetched
    point has the block index of the point before, and the body left that block in place. -/
theorem before0_12_of {c : Dev nD} (dat : Dat τ (Elt F) Unit ℕ (UR sig nD τ) ℕ cfg0 c) (hA : dat.A 12 = V c (Pipeline.arrRef spec0 12))
    (hafter : ∀ t, dat.after 12 t = iblk0 V c 12 t) (t : Fin cfg0.N) (d) : dat.before 12 t d = iblk0 V c 12 t :=
  (dat.before_in_eq_fetched 12 rfl (fun _ => rfl) (fun _ _ _ => rfl) (fun t => by rw [hafter]; unfold Dat.blockOf iblk0; rw [hA]; try rfl) t d).trans
    (by unfold Dat.fetched Dat.blockOf iblk0; rw [hA]; try rfl)
theorem before0_12 (c : Dev nD) (t : Fin cfg0.N) (d) : (dat0 V c).before 12 t d = iblk0 V c 12 t :=
  before0_12_of V (dat0 V c) (A_eq0 V c 12) (after0_12 V c) t d

/-- Input window 13 (the whole bias row, brought in once): at every point its current buffer holds its block, fetched there or not — an unfetched
    point has the block index of the point before, and the body left that block in place. -/
theorem before0_13_of {c : Dev nD} (dat : Dat τ (Elt F) Unit ℕ (UR sig nD τ) ℕ cfg0 c) (hA : dat.A 13 = V c (Pipeline.arrRef spec0 13))
    (hafter : ∀ t, dat.after 13 t = iblk0 V c 13 t) (t : Fin cfg0.N) (d) : dat.before 13 t d = iblk0 V c 13 t :=
  (dat.before_in_eq_fetched 13 rfl (fun _ => rfl) (fun _ _ _ => rfl) (fun t => by rw [hafter]; unfold Dat.blockOf iblk0; rw [hA]; try rfl) t d).trans
    (by unfold Dat.fetched Dat.blockOf iblk0; rw [hA]; try rfl)
theorem before0_13 (c : Dev nD) (t : Fin cfg0.N) (d) : (dat0 V c).before 13 t d = iblk0 V c 13 t :=
  before0_13_of V (dat0 V c) (A_eq0 V c 13) (after0_13 V c) t d

/-- Input window 14 (the whole bias row, brought in once): at every point its current buffer holds its block, fetched there or not — an unfetched
    point has the block index of the point before, and the body left that block in place. -/
theorem before0_14_of {c : Dev nD} (dat : Dat τ (Elt F) Unit ℕ (UR sig nD τ) ℕ cfg0 c) (hA : dat.A 14 = V c (Pipeline.arrRef spec0 14))
    (hafter : ∀ t, dat.after 14 t = iblk0 V c 14 t) (t : Fin cfg0.N) (d) : dat.before 14 t d = iblk0 V c 14 t :=
  (dat.before_in_eq_fetched 14 rfl (fun _ => rfl) (fun _ _ _ => rfl) (fun t => by rw [hafter]; unfold Dat.blockOf iblk0; rw [hA]; try rfl) t d).trans
    (by unfold Dat.fetched Dat.blockOf iblk0; rw [hA]; try rfl)
theorem before0_14 (c : Dev nD) (t : Fin cfg0.N) (d) : (dat0 V c).before 14 t d = iblk0 V c 14 t :=
  before0_14_of V (dat0 V c) (A_eq0 V c 14) (after0_14 V c) t d

/-- What the pipeline hands the body at point `t`: the region's invariant, the core's debts, and each window's current buffer, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d))
    ∗ (∃ d, owns (c : Thread nD τ) (st0_15 t) fullShare ((dat0 V c).before 15 t d))
    ∗ (∃ d, owns (c : Thread nD τ) (st0_16 t) fullShare ((dat0 V c).before 16 t d)))

/-- and what it wants back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t)
    ∗ owns (c : Thread nD τ) (st0_15 t) fullShare ((dat0 V c).after 15 t)
    ∗ owns (c : Thread nD τ) (st0_16 t) fullShare ((dat0 V c).after 16 t))

set_option maxHeartbeats 4000000 in
/-- The body at any point: the input buffers hold their blocks, so the whole-buffer triple applies; the invariant and
    the debts pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12, before0_13, before0_14]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14, after0_15, after0_16]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (sound_kernel0 c Set.univ (grid0.coords t) _ _ _ _ _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  iintro ⟨H0, H1, H2, H3, H4, H5, H6, H7, H8, H9, H10, H11, H12, H13, H14, H15, H16⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The pipeline's obligation on the body, at every point. -/
theorem body_obligation0 (c : Dev nD) : BodyObligation (dat0 (F := F) V c) (defs₀ (F := F)) Variants.none () Set.univ := fun t => by
  rw [bigSep_W0, bigSep_W0]
  exact sound_body0 V c t

/-! ## The second region: what its body finds and leaves at a grid point -/

/-- The proof data's arrays are the contents the region is entered with. -/
theorem A_eq1 (c : Dev nD) (w : Fin cfg1.W) : (dat1 V c).A w = V c (Pipeline.arrRef spec1 w) := by
  dsimp only [dat1]

/-- What the body leaves, window by window: an input's block, an output's stored value. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = iblk1 V c 14 t := by dsimp only [dat1]
theorem after1_15 (c : Dev nD) (t : Fin cfg1.N) : (dat1 V c).after 15 t = out1_15 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) := by dsimp only [dat1]

/-- Input window 0 (rows 2000·t … of its array): at every point its current buffer holds its block, fetched there or not — an unfetched
    point has the block index of the point before, and the body left that block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_0 (c : Dev nD) (t : Fin cfg1.N) (d) : (dat1 V c).before 0 t d = iblk1 V c 0 t :=
  before1_0_of V (dat1 V c) (A_eq1 V c 0) (after1_0 V c) t d

/-- Input window 1 (rows 2000·t … of its array): at every point its current buffer holds its block, fetched there or not — an unfetched
    point has the block index of the point before, and the body left that block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_1 (c : Dev nD) (t : Fin cfg1.N) (d) : (dat1 V c).before 1 t d = iblk1 V c 1 t :=
  before1_1_of V (dat1 V c) (A_eq1 V c 1) (after1_1 V c) t d

/-- Input window 2 (rows 2000·t … of its array): at every point its current buffer holds its block, fetched there or not — an unfetched
    point has the block index of the point before, and the body left that block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_2 (c : Dev nD) (t : Fin cfg1.N) (d) : (dat1 V c).before 2 t d = iblk1 V c 2 t :=
  before1_2_of V (dat1 V c) (A_eq1 V c 2) (after1_2 V c) t d

/-- Input window 3 (rows 2000·t … of its array): at every point its current buffer holds its block, fetched there or not — an unfetched
    point has the block index of the point before, and the body left that block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_3 (c : Dev nD) (t : Fin cfg1.N) (d) : (dat1 V c).before 3 t d = iblk1 V c 3 t :=
  before1_3_of V (dat1 V c) (A_eq1 V c 3) (after1_3 V c) t d

/-- Input window 4 (rows 2000·t … of its array): at every point its current buffer holds its block, fetched there or not — an unfetched
    point has the block index of the point before, and the body left that block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_4 (c : Dev nD) (t : Fin cfg1.N) (d) : (dat1 V c).before 4 t d = iblk1 V c 4 t :=
  before1_4_of V (dat1 V c) (A_eq1 V c 4) (after1_4 V c) t d

/-- Input window 5 (rows 2000·t … of its array): at every point its current buffer holds its block, fetched there or not — an unfetched
    point has the block index of the point before, and the body left that block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_5 (c : Dev nD) (t : Fin cfg1.N) (d) : (dat1 V c).before 5 t d = iblk1 V c 5 t :=
  before1_5_of V (dat1 V c) (A_eq1 V c 5) (after1_5 V c) t d

/-- Input window 6 (rows 2000·t … of the reciprocal counts): at every point its current buffer holds its block, fetched there or not — an unfetched
    point has the block index of the point before, and the body left that block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_6 (c : Dev nD) (t : Fin cfg1.N) (d) : (dat1 V c).before 6 t d = iblk1 V c 6 t :=
  before1_6_of V (dat1 V c) (A_eq1 V c 6) (after1_6 V c) t d

/-- Input window 7 (the whole weight matrix, brought in once): at every point its current buffer holds its block, fetched there or not — an unfetched
    point has the block index of the point before, and the body left that block in place. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_7 (c : Dev nD) (t : Fin cfg1.N) (d) : (dat1 V c).before 7 t d = iblk1 V c 7 t :=
  before1_7_of V (dat1 V c) (A_eq1 V c 7) (after1_7 V c) t d

/-- Input window 8 (the whole weight matrix, brought in once): at every point its current buffer holds its block, fetched there or not — an unfetched
    point has the block index of the point before, and the body left that block in place. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_8 (c : Dev nD) (t : Fin cfg1.N) (d) : (dat1 V c).before 8 t d = iblk1 V c 8 t :=
  before1_8_of V (dat1 V c) (A_eq1 V c 8) (after1_8 V c) t d

/-- Input window 9 (the whole weight matrix, brought in once): at every point its current buffer holds its block, fetched there or not — an unfetched
    point has the block index of the point before, and the body left that block in place. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
theorem before1_9 (c : Dev nD) (t : Fin cfg1.N) (d) : (dat1 V c).before 9 t d = iblk1 V c 9 t :=
  before1_9_of V (dat1 V c) (A_eq1 V c 9) (after1_9 V c) t d

/-- Input window 10 (the whole weight matrix, brought in once): at every point its current buffer holds its block, fetched there or not — an unfetched
    point has the block index of the point before, and the body left that block in place. -/
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
theorem before1_10 (c : Dev nD) (t : Fin cfg1.N) (d) : (dat1 V c).before 10 t d = iblk1 V c 10 t :=
  before1_10_of V (dat1 V c) (A_eq1 V c 10) (after1_10 V c) t d

/-- Input window 11 (the whole weight matrix, brought in once): at every point its current buffer holds its block, fetched there or not — an unfetched
    point has the block index of the point before, and the body left that block in place. -/
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)
theorem before1_11 (c : Dev nD) (t : Fin cfg1.N) (d) : (dat1 V c).before 11 t d = iblk1 V c 11 t :=
  before1_11_of V (dat1 V c) (A_eq1 V c 11) (after1_11 V c) t d

/-- Input window 12 (the whole weight matrix, brought in once): at every point its current buffer holds its block, fetched there or not — an unfetched
    point has the block index of the point before, and the body left that block in place. -/
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)
theorem before1_12 (c : Dev nD) (t : Fin cfg1.N) (d) : (dat1 V c).before 12 t d = iblk1 V c 12 t :=
  before1_12_of V (dat1 V c) (A_eq1 V c 12) (after1_12 V c) t d

/-- Input window 13 (the whole bias row, brought in once): at every point its current buffer holds its block, fetched there or not — an unfetched
    point has the block index of the point before, and the body left that block in place. -/
theorem before1_13_of {c : Dev nD} (dat : Dat τ (Elt F) Unit ℕ (UR sig nD τ) ℕ cfg1 c) (hA : dat.A 13 = V c (Pipeline.arrRef spec1 13))
    (hafter : ∀ t, dat.after 13 t = iblk1 V c 13 t) (t : Fin cfg1.N) (d) : dat.before 13 t d = iblk1 V c 13 t :=
  (dat.before_in_eq_fetched 13 rfl (fun _ => rfl) (fun _ _ _ => rfl) (fun t => by rw [hafter]; unfold Dat.blockOf iblk1; rw [hA]; try rfl) t d).trans
    (by unfold Dat.fetched Dat.blockOf iblk1; rw [hA]; try rfl)
theorem before1_13 (c : Dev nD) (t : Fin cfg1.N) (d) : (dat1 V c).before 13 t d = iblk1 V c 13 t :=
  before1_13_of V (dat1 V c) (A_eq1 V c 13) (after1_13 V c) t d

/-- Input window 14 (the whole bias row, brought in once): at every point its current buffer holds its block, fetched there or not — an unfetched
    point has the block index of the point before, and the body left that block in place. -/
theorem before1_14_of {c : Dev nD} (dat : Dat τ (Elt F) Unit ℕ (UR sig nD τ) ℕ cfg1 c) (hA : dat.A 14 = V c (Pipeline.arrRef spec1 14))
    (hafter : ∀ t, dat.after 14 t = iblk1 V c 14 t) (t : Fin cfg1.N) (d) : dat.before 14 t d = iblk1 V c 14 t :=
  (dat.before_in_eq_fetched 14 rfl (fun _ => rfl) (fun _ _ _ => rfl) (fun t => by rw [hafter]; unfold Dat.blockOf iblk1; rw [hA]; try rfl) t d).trans
    (by unfold Dat.fetched Dat.blockOf iblk1; rw [hA]; try rfl)
theorem before1_14 (c : Dev nD) (t : Fin cfg1.N) (d) : (dat1 V c).before 14 t d = iblk1 V c 14 t :=
  before1_14_of V (dat1 V c) (A_eq1 V c 14) (after1_14 V c) t d

/-- What the pipeline hands the body at point `t`: the region's invariant, the core's debts, and each window's current buffer, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d))
    ∗ (∃ d, owns (c : Thread nD τ) (st1_15 t) fullShare ((dat1 V c).before 15 t d)))

/-- and what it wants back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t)
    ∗ owns (c : Thread nD τ) (st1_15 t) fullShare ((dat1 V c).after 15 t))

set_option maxHeartbeats 4000000 in
/-- The body at any point: the input buffers hold their blocks, so the whole-buffer triple applies; the invariant and
    the debts pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13, before1_14]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14, after1_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel1 c Set.univ (grid1.coords t) _ _ _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The pipeline's obligation on the body, at every point. -/
theorem body_obligation1 (c : Dev nD) : BodyObligation (dat1 (F := F) V c) (defs₀ (F := F)) Variants.none () Set.univ := fun t => by
  rw [bigSep_W1, bigSep_W1]
  exact sound_body1 V c t

end AtEntry

end Cert.Kernel.Regions

end
-- ==== Proof.BitsRun.lean ====
/-
  The whole run: the host operations before the first region, the first region, the host operations between the
  regions, the second region.

  The TensorCore's buffer contents are followed from boundary to boundary.  A stretch of host operations changes
  exactly what its operations write; a region leaves each of its arrays at what its pipeline's write-backs leave —
  an input array as it was entered, an output array with every block written — and every other buffer as entered.
  No host operation writes an argument array and no region has one as an output, so each argument array ends as
  launched; the stacked result array is the second region's output and ends at what that pipeline leaves in it.
-/
import proofs.«123560_j36206574305716_2_alg».proof.Proof.BitsRegionBodies

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first stretch of host operations: what the first region is entered with. -/
abbrev W1 : Dev nD → Valuation τ sig (Elt F) := fun c => StableHlo.after hostOps0 (W0 m ρ c)
/-- The same, read at the TensorCore's references. -/
abbrev V1 : (c : Dev nD) → (b : Ref sig .tc) → Buf (Elt F) ((c : Thread nD τ).loc b) := fun c b => W1 m ρ c b
/-- When the first region is left: its arrays at what its pipeline leaves after the last point, the rest as entered. -/
noncomputable def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same, read at the TensorCore's references. -/
abbrev V2 : (c : Dev nD) → (b : Ref sig .tc) → Buf (Elt F) ((c : Thread nD τ).loc b) := fun c b => W2 m ρ c b
/-- When the first region is left each of its arrays holds what the pipeline leaves, and every other buffer what
    it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch of host operations: what the second region is entered with. -/
abbrev W3 : Dev nD → Valuation τ sig (Elt F) := fun c => StableHlo.after hostOps1 (W2 m ρ c)
/-- The same, read at the TensorCore's references. -/
abbrev V3 : (c : Dev nD) → (b : Ref sig .tc) → Buf (Elt F) ((c : Thread nD τ).loc b) := fun c b => W3 m ρ c b
/-- When the second region is left: its arrays at what its pipeline leaves after the last point, the rest as entered. -/
noncomputable def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same, read at the TensorCore's references. -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The argument arrays end as launched

No host operation writes one; the second region stages none; the first region stages the two feature arrays as
inputs (windows 2 and 5), which a pipeline leaves as entered, and none of the others. -/

set_option maxHeartbeats 4000000 in
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg0) := (W2_arr m ρ c 2).trans (((dat0 (V1 m ρ) c).arrAt_in 2 rfl _).trans (A_eq0 (V1 m ρ) c 2))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg0) := rfl

set_option maxHeartbeats 4000000 in
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg1) := (W2_arr m ρ c 5).trans (((dat0 (V1 m ρ) c).arrAt_in 5 rfl _).trans (A_eq0 (V1 m ρ) c 5))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg1) := rfl

set_option maxHeartbeats 4000000 in
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg2) := rfl

set_option maxHeartbeats 4000000 in
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg3) := rfl

set_option maxHeartbeats 4000000 in
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg4) := rfl

set_option maxHeartbeats 4000000 in
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg5) := rfl

set_option maxHeartbeats 4000000 in
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg6) := rfl

set_option maxHeartbeats 4000000 in
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg7) := rfl

set_option maxHeartbeats 4000000 in
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg8) := rfl

/-! ## The proof data of the two pipelines, and what rides beside the buffers -/

/-- No pipeline has a prefetched table. -/
abbrev adm : (p : Fin 2) → (pcfgs (F := F) p).Adm := fun p => (cfgs p).toPCfg_adm
/-- Each pipeline's proof data at the contents its region is entered with. -/
noncomputable def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything. -/
abbrev L : GSem nD τ sig → Finset Unit := fun _ => ∅
abbrev lv : GSem nD τ sig → Unit → ℕ := fun _ _ => 0
/-- Beside the buffers, through every segment: the core's generator register at some state, and its debts, none. -/
abbrev R (c : Dev nD) : sProp 𝕄 := iprop((∃ r, prngReg c r) ∗ ∃ W, owes (c : Thread nD τ) (0 : CellTallies nD τ sig Unit) W)
/-- A stretch of host operations as a segment over the unscoped references, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option maxHeartbeats 4000000 in
/-- No operation of the first stretch allocates a buffer. -/
theorem hostOps0_fresh : (hostOps0 : List (HloOp τ sig (Elt F))).Forall fun op => op.fresh = ∅ := by
  simp only [List.Forall]; repeat' constructor
set_option maxHeartbeats 4000000 in
/-- Nor does one of the second. -/
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last boundary's contents, the generator
    register at some state. -/
abbrev Tₙ (c : Dev nD) : sProp 𝕄 := iprop(StableHlo.held (c : Thread nD τ) (Pipeline.ucRefs τ sig) (W4 m ρ c) ∗ ∃ r, prngReg c r)

/-! ## The regions as segments -/

-- unifying a library lemma stated over a pinned configuration with the printed one takes unfolding plain
-- definitions in a metavariable's type
set_option backward.isDefEq.respectTransparency.types false in
/-- The first region as a segment of the run: entered with every unscoped buffer at `W1`, left with them at
    `W2`.  Its arrays are split out of the unscoped buffers at entry and put back at what the pipeline leaves;
    the generator register goes into the region's invariant and comes back; nothing is owed. -/
noncomputable def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over a pinned configuration with the printed one takes unfolding plain
-- definitions in a metavariable's type
set_option backward.isDefEq.respectTransparency.types false in
/-- The second region as a segment of the run: entered with every unscoped buffer at `W3`, left with them at
    `W4`.  Its arrays are split out of the unscoped buffers at entry and put back at what the pipeline leaves;
    the generator register goes into the region's invariant and comes back; nothing is owed. -/
noncomputable def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

/-- The four segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
set_option maxHeartbeats 40000000 in
/-- The program is the run of its segments. -/
theorem main_run (c : Dev nD) : main (F := F) c = Pipeline.Seg.run (segs m ρ) := (main_chain c).trans (by chain_rfl)

set_option maxHeartbeats 4000000 in
set_option backward.isDefEq.respectTransparency.types false in
/-- From any memory with zero counters every weakly fair execution of the program on the TensorCores terminates,
    nothing faulting, and in every final state the stacked result array holds what the second region's pipeline
    leaves in its output array after the last point, and the nine argument arrays are as launched. -/
theorem run : θ_run defs (onTc (τ := τ) (main (F := F))) ⟨m, fun _ => 0, ρ⟩ (fun r => ∀ c : Dev nD,
      r.2.mem ((c.tc : Thread nD τ).loc main_v214) = (dat1 (V3 m ρ) c).arrAt 15 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v214 (by decide))).trans (W4_arr m ρ c 15),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.Kernel.Regions

end
-- ==== Proof.IdealRegionData.lean ====
/-
  The two kernel regions' proof data, at any float instance `F`.

  Each region reads fifteen arrays block by block — four neighbour sums and the two node-feature
  arrays (blocks of 2000 rows), the packed per-row reciprocal counts (2000 × 4), six 128 × 128 weight
  matrices and two 1 × 128 bias rows (whole, at every point) — and writes, at grid point t, rows
  2000·t … 2000·t + 1999 of its result(s).  The first region writes the two new feature arrays, the second
  the stacked 2 × 100000 × 128 result, one slab after the other.  What a point leaves in an output's
  staging buffer is the body's stored value, a pure function of the point's input blocks.
-/
import proofs.«123560_j36206574305716_2_alg».proof.Proof.Gen.KernelIdeal.Launch
import proofs.«123560_j36206574305716_2_alg».proof.Proof.Gen.KernelIdeal.Skeleton
import proofs.«123560_j36206574305716_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The whole 2000 × 128 block, the whole 2000 × 4 block, a whole weight matrix, a whole bias row, and
    the two 1 × 2000 × 128 slabs of the stacked output block: the rectangles the bodies load and store through. -/
abbrev rA : Rect S2000x128 := Rect.unit (s := S2000x128) ![0, 0] S2000x128.size inb_S2000x128_S2000x128_0_0
abbrev rI : Rect S2000x4 := Rect.unit (s := S2000x4) ![0, 0] S2000x4.size inb_S2000x4_S2000x4_0_0
abbrev rW : Rect S128x128 := Rect.unit (s := S128x128) ![0, 0] S128x128.size inb_S128x128_S128x128_0_0
abbrev rB : Rect S1x128 := Rect.unit (s := S1x128) ![0, 0] S1x128.size inb_S1x128_S1x128_0_0
abbrev rS0 : Rect S2x2000x128 := Rect.unit (s := S2x2000x128) ![0, 0, 0] S1x2000x128.size inb_S2x2000x128_S1x2000x128_0_0_0
abbrev rS1 : Rect S2x2000x128 := Rect.unit (s := S2x2000x128) ![1, 0, 0] S1x2000x128.size inb_S2x2000x128_S1x2000x128_1_0_0

/-! ## What a point leaves in each output's staging buffer -/

/-- First region, first output (window 15): the stored value over the blocks of windows 0, 1, 2 (two
    neighbour sums and the node features), 6 (reciprocal counts), 7, 8, 11 (weights) and 13 (bias row). -/
noncomputable def out0_15 (x0 x1 x2 : Vec F S2000x128 .f32) (x6 : Vec F S2000x4 .f32) (x7 x8 x11 : Vec F S128x128 .f32)
    (x13 : Vec F S1x128 .f32) : Vec F S2000x128 .f32 :=
  View.canon [⟨rA, k0_pay1 (k0_pay4 (View.ld x6 rI) (View.ld x0 rA)) (k0_pay5 (View.ld x6 rI) (View.ld x1 rA))
    (k0_pay8 (View.ld x2 rA)) (k0_pay10 (View.ld x7 rW)) (k0_pay11 (View.ld x8 rW)) (View.ld x11 rW) (View.ld x13 rB)⟩]

/-- First region, second output (window 16): the same over windows 3, 4, 5, 6, 9, 10, 12 and 14. -/
noncomputable def out0_16 (x3 x4 x5 : Vec F S2000x128 .f32) (x6 : Vec F S2000x4 .f32) (x9 x10 x12 : Vec F S128x128 .f32)
    (x14 : Vec F S1x128 .f32) : Vec F S2000x128 .f32 :=
  View.canon [⟨rA, k0_pay2 (k0_pay6 (View.ld x6 rI) (View.ld x3 rA)) (k0_pay7 (View.ld x6 rI) (View.ld x4 rA))
    (k0_pay9 (View.ld x5 rA)) (k0_pay12 (View.ld x9 rW)) (View.ld x10 rW) (View.ld x12 rW) (View.ld x14 rB)⟩]

/-- Second region, its one output (window 15): two slabs, the later store first. -/
noncomputable def out1_15 (x0 : Vec F S2000x128 .f32) (x1 : Vec F S2000x128 .f32) (x2 : Vec F S2000x128 .f32) (x3 : Vec F S2000x128 .f32) (x4 : Vec F S2000x128 .f32) (x5 : Vec F S2000x128 .f32) (x6 : Vec F S2000x4 .f32) (x7 : Vec F S128x128 .f32) (x8 : Vec F S128x128 .f32) (x9 : Vec F S128x128 .f32) (x10 : Vec F S128x128 .f32) (x11 : Vec F S128x128 .f32) (x12 : Vec F S128x128 .f32) (x13 : Vec F S1x128 .f32) (x14 : Vec F S1x128 .f32) : Vec F S2x2000x128 .f32 :=
  View.canon [⟨rS1, k1_pay11 (k1_pay4 (View.ld x6 rI) (View.ld x3 rA)) (k1_pay5 (View.ld x6 rI) (View.ld x4 rA))
      (k1_pay7 (View.ld x5 rA)) (View.ld x9 rW) (View.ld x10 rW) (View.ld x12 rW) (View.ld x14 rB)⟩,
    ⟨rS0, k1_pay10 (k1_pay2 (View.ld x6 rI) (View.ld x0 rA)) (k1_pay3 (View.ld x6 rI) (View.ld x1 rA))
      (k1_pay6 (View.ld x2 rA)) (k1_pay8 (View.ld x7 rW)) (k1_pay9 (View.ld x8 rW)) (View.ld x11 rW) (View.ld x13 rB)⟩]

section AtEntry
-- the TensorCore's buffer contents when a region is entered
variable (V : (c : Dev nD) → (b : Ref sig .tc) → Buf (Elt F) ((c : Thread nD τ).loc b))

/-- Window `w`'s block at point `t` of the first region, read off its array as the region finds it. -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The same for the second region. -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first region's proof data on core `c`: the arrays as the region finds them; after the body at point `t`
    each input's buffer at its block and each output's at the stored value of the input blocks; the scoped rest
    and the generator register untouched; nothing owed; full shares. -/
noncomputable def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => iblk0 V c 14 t
    | ⟨15, _⟩ => out0_15 (iblk0 V c 0 t) (iblk0 V c 1 t) (iblk0 V c 2 t) (iblk0 V c 6 t) (iblk0 V c 7 t) (iblk0 V c 8 t) (iblk0 V c 11 t) (iblk0 V c 13 t)
    | ⟨16, _⟩ => out0_16 (iblk0 V c 3 t) (iblk0 V c 4 t) (iblk0 V c 5 t) (iblk0 V c 6 t) (iblk0 V c 9 t) (iblk0 V c 10 t) (iblk0 V c 12 t) (iblk0 V c 14 t)
    | ⟨_ + 17, h⟩ => absurd h (Nat.not_lt.2 (Nat.le_add_left _ _))
  Φ _ := Pipeline.ΦA spec0 c
  q _ := fullShare
  owed _ := 0

/-- The second region's proof data, likewise. -/
noncomputable def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => out1_15 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t)
    | ⟨_ + 16, h⟩ => absurd h (Nat.not_lt.2 (Nat.le_add_left _ _))
  Φ _ := Pipeline.ΦA spec1 c
  q _ := fullShare
  owed _ := 0

end AtEntry

end Cert.KernelIdeal.Regions

end
-- ==== Proof.IdealRegionBodies.lean ====
/-
  The two kernel bodies, each run once on whole staging buffers, and what the pipeline asks of a body at a grid point.

  At every grid point an input buffer holds its window's block of the array as the region found it: rows
  2000·t … 2000·t + 1999 of a row-blocked array (the four neighbour sums, the two feature arrays, the reciprocal
  counts), or the whole of a weight matrix or bias row.  The whole-array windows are brought in at the first point
  only; their block index never moves, so the buffer still holds the block at every later point.  A body loads
  whole buffers, computes, and stores: it leaves every input buffer as it was and every output buffer at the value
  its stores put there, whatever the buffer held before (each body also loads its output buffer just before storing
  into it; nothing is done with the value).  One store fills a 2000 × 128 output buffer; the two slabs
  (row 0 and row 1 of the leading axis) fill the 2 × 2000 × 128 one.
-/
import proofs.«123560_j36206574305716_2_alg».proof.Proof.IdealRegionData

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The stores fill the output buffers -/

/-- The one store through the whole-block rectangle covers a 2000 × 128 buffer (first region, first output). -/
theorem cover0_15 (p0 : Vec F S2000x128 .f32) (y : S2000x128.Idx) :
    ∃ pc ∈ ([⟨rA, p0⟩] : List (View.Piece (Elt F) S2000x128 .f32)), y ∈ pc.1.set :=
  View.cover_of_tiled [⟨rA, p0⟩] S2000x128.size (by rfl) y

/-- The same for the first region's second output. -/
theorem cover0_16 (p0 : Vec F S2000x128 .f32) (y : S2000x128.Idx) :
    ∃ pc ∈ ([⟨rA, p0⟩] : List (View.Piece (Elt F) S2000x128 .f32)), y ∈ pc.1.set :=
  cover0_15 p0 y

/-- The two slabs, at leading index 1 and at leading index 0, tile the 2 × 2000 × 128 buffer (second region). -/
theorem cover1_15 (p0 : Vec F S1x2000x128 .f32) (p1 : Vec F S1x2000x128 .f32) (y : S2x2000x128.Idx) :
    ∃ pc ∈ ([⟨rS1, p0⟩, ⟨rS0, p1⟩] : List (View.Piece (Elt F) S2x2000x128 .f32)), y ∈ pc.1.set :=
  View.cover_of_tiled [⟨rS1, p0⟩, ⟨rS0, p1⟩] S1x2000x128.size (by rfl) y

/-! ## The first body on whole buffers -/

set_option maxHeartbeats 4000000 in
/-- The first region's body at any grid coordinate, its fifteen input buffers at read contents `x0 … x14` and its output
    buffers at anything, runs to a continuation that holds the inputs as they were and each output at its stored value
    (`out0_15`, `out0_16`): the body is its loads, pure arithmetic and stores, run in order. -/
theorem sound_kernel0 (c : Dev nD) (E : Set ℕ) (i : grid0.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S2000x128 .f32) (harg6 : arg6.IsWhole) (arg7 : Memref sig .tc .vmem S2000x4 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S2000x128 .f32) (harg16 : arg16.IsWhole) (arg17 : Memref sig .tc .vmem S2000x128 .f32) (harg17 : arg17.IsWhole)
    (x0 x1 x2 x3 x4 x5 : Vec F S2000x128 .f32) (x6 : Vec F S2000x4 .f32) (x7 x8 x9 x10 x11 x12 : Vec F S128x128 .f32) (x13 x14 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare (out0_15 x0 x1 x2 x6 x7 x8 x11 x13) ∗ owns (c : Thread nD τ) arg17 fullShare (out0_16 x3 x4 x5 x6 x9 x10 x12 x14)) -∗ K ⟨⟩))
      ⊢ wp frame (wpE (defs₀ (F := F)) Variants.none c none) E (cc0__combine_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__combine_kernel_eq_skeleton]; unfold cc0__combine_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, Hk⟩
  subst hf0 hf1 hf2 hf3 hf4 hf5 hf6 hf7 hf8 hf9 hf10 hf11 hf12 hf13 hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists _; isplitr
    swap; · iexact H15
    ipureintro
    try dsimp only
    exact View.read_writes_eq_canon _ _ _ (cover0_15 _)
  iexists _; isplitr
  swap; · iexact H16
  ipureintro
  try dsimp only
  exact View.read_writes_eq_canon _ _ _ (cover0_16 _)

/-! ## The second body on whole buffers -/

set_option maxHeartbeats 4000000 in
/-- The second region's body at any grid coordinate, its fifteen input buffers at read contents `x0 … x14` and its output
    buffer at anything, runs to a continuation that holds the inputs as they were and the output at its two stored slabs
    (`out1_15`): the body is its loads, pure arithmetic and stores, run in order. -/
theorem sound_kernel1 (c : Dev nD) (E : Set ℕ) (i : grid1.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S2000x128 .f32) (harg5 : arg5.IsWhole) (arg6 : Memref sig .tc .vmem S2000x128 .f32) (harg6 : arg6.IsWhole) (arg7 : Memref sig .tc .vmem S2000x4 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S2x2000x128 .f32) (harg16 : arg16.IsWhole)
    (x0 x1 x2 x3 x4 x5 : Vec F S2000x128 .f32) (x6 : Vec F S2000x4 .f32) (x7 x8 x9 x10 x11 x12 : Vec F S128x128 .f32) (x13 x14 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare (out1_15 x0 x1 x2 x3 x4 x5 x6 x7 x8 x9 x10 x11 x12 x13 x14)) -∗ K ⟨⟩))
      ⊢ wp frame (wpE (defs₀ (F := F)) Variants.none c none) E (cc1__combine_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc1__combine_kernel_eq_skeleton]; unfold cc1__combine_kernel_skel
  simp only [k1_part2_eq_skeleton]; unfold k1_part2_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, Hk⟩
  subst hf0 hf1 hf2 hf3 hf4 hf5 hf6 hf7 hf8 hf9 hf10 hf11 hf12 hf13 hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  iexists _; isplitr
  swap; · iexact H15
  ipureintro
  try dsimp only
  exact View.read_writes_eq_canon _ _ _ (cover1_15 _ _)

section AtEntry
-- the TensorCore's buffer contents when a region is entered
variable (V : (c : Dev nD) → (b : Ref sig .tc) → Buf (Elt F) ((c : Thread nD τ).loc b))

/-! ## The first region: what its body finds and leaves at a grid point -/

/-- The proof data's arrays are the contents the region is entered with. -/
theorem A_eq0 (c : Dev nD) (w : Fin cfg0.W) : (dat0 V c).A w = V c (Pipeline.arrRef spec0 w) := by
  dsimp only [dat0]

/-- What the body leaves, window by window: an input's block, an output's stored value. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = iblk0 V c 13 t := by dsimp only [dat0]
theorem after0_14 (c : Dev nD) (t : Fin cfg0.N) : (dat0 V c).after 14 t = iblk0 V c 14 t := by dsimp only [dat0]
theorem after0_15 (c : Dev nD) (t : Fin cfg0.N) : (dat0 V c).after 15 t = out0_15 (iblk0 V c 0 t) (iblk0 V c 1 t) (iblk0 V c 2 t) (iblk0 V c 6 t) (iblk0 V c 7 t) (iblk0 V c 8 t) (iblk0 V c 11 t) (iblk0 V c 13 t) := by dsimp only [dat0]
theorem after0_16 (c : Dev nD) (t : Fin cfg0.N) : (dat0 V c).after 16 t = out0_16 (iblk0 V c 3 t) (iblk0 V c 4 t) (iblk0 V c 5 t) (iblk0 V c 6 t) (iblk0 V c 9 t) (iblk0 V c 10 t) (iblk0 V c 12 t) (iblk0 V c 14 t) := by dsimp only [dat0]

/-- Input window 0 (rows 2000·t … of its array): at every point its current buffer holds its block, fetched there or not — an unfetched
    point has the block index of the point before, and the body left that block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_0 (c : Dev nD) (t : Fin cfg0.N) (d) : (dat0 V c).before 0 t d = iblk0 V c 0 t :=
  before0_0_of V (dat0 V c) (A_eq0 V c 0) (after0_0 V c) t d

/-- Input window 1 (rows 2000·t … of its array): at every point its current buffer holds its block, fetched there or not — an unfetched
    point has the block index of the point before, and the body left that block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_1 (c : Dev nD) (t : Fin cfg0.N) (d) : (dat0 V c).before 1 t d = iblk0 V c 1 t :=
  before0_1_of V (dat0 V c) (A_eq0 V c 1) (after0_1 V c) t d

/-- Input window 2 (rows 2000·t … of its array): at every point its current buffer holds its block, fetched there or not — an unfetched
    point has the block index of the point before, and the body left that block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_2 (c : Dev nD) (t : Fin cfg0.N) (d) : (dat0 V c).before 2 t d = iblk0 V c 2 t :=
  before0_2_of V (dat0 V c) (A_eq0 V c 2) (after0_2 V c) t d

/-- Input window 3 (rows 2000·t … of its array): at every point its current buffer holds its block, fetched there or not — an unfetched
    point has the block index of the point before, and the body left that block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_3 (c : Dev nD) (t : Fin cfg0.N) (d) : (dat0 V c).before 3 t d = iblk0 V c 3 t :=
  before0_3_of V (dat0 V c) (A_eq0 V c 3) (after0_3 V c) t d

/-- Input window 4 (rows 2000·t … of its array): at every point its current buffer holds its block, fetched there or not — an unfetched
    point has the block index of the point before, and the body left that block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_4 (c : Dev nD) (t : Fin cfg0.N) (d) : (dat0 V c).before 4 t d = iblk0 V c 4 t :=
  before0_4_of V (dat0 V c) (A_eq0 V c 4) (after0_4 V c) t d

/-- Input window 5 (rows 2000·t … of its array): at every point its current buffer holds its block, fetched there or not — an unfetched
    point has the block index of the point before, and the body left that block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_5 (c : Dev nD) (t : Fin cfg0.N) (d) : (dat0 V c).before 5 t d = iblk0 V c 5 t :=
  before0_5_of V (dat0 V c) (A_eq0 V c 5) (after0_5 V c) t d

/-- Input window 6 (rows 2000·t … of the reciprocal counts): at every point its current buffer holds its block, fetched there or not — an unfetched
    point has the block index of the point before, and the body left that block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_6 (c : Dev nD) (t : Fin cfg0.N) (d) : (dat0 V c).before 6 t d = iblk0 V c 6 t :=
  before0_6_of V (dat0 V c) (A_eq0 V c 6) (after0_6 V c) t d

/-- Input window 7 (the whole weight matrix, brought in once): at every point its current buffer holds its block, fetched there or not — an unfetched
    point has the block index of the point before, and the body left that block in place. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_7 (c : Dev nD) (t : Fin cfg0.N) (d) : (dat0 V c).before 7 t d = iblk0 V c 7 t :=
  before0_7_of V (dat0 V c) (A_eq0 V c 7) (after0_7 V c) t d

/-- Input window 8 (the whole weight matrix, brought in once): at every point its current buffer holds its block, fetched there or not — an unfetched
    point has the block index of the point before, and the body left that block in place. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
theorem before0_8 (c : Dev nD) (t : Fin cfg0.N) (d) : (dat0 V c).before 8 t d = iblk0 V c 8 t :=
  before0_8_of V (dat0 V c) (A_eq0 V c 8) (after0_8 V c) t d

/-- Input window 9 (the whole weight matrix, brought in once): at every point its current buffer holds its block, fetched there or not — an unfetched
    point has the block index of the point before, and the body left that block in place. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
theorem before0_9 (c : Dev nD) (t : Fin cfg0.N) (d) : (dat0 V c).before 9 t d = iblk0 V c 9 t :=
  before0_9_of V (dat0 V c) (A_eq0 V c 9) (after0_9 V c) t d

/-- Input window 10 (the whole weight matrix, brought in once): at every point its current buffer holds its block, fetched there or not — an unfetched
    point has the block index of the point before, and the body left that block in place. -/
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)
theorem before0_10 (c : Dev nD) (t : Fin cfg0.N) (d) : (dat0 V c).before 10 t d = iblk0 V c 10 t :=
  before0_10_of V (dat0 V c) (A_eq0 V c 10) (after0_10 V c) t d

/-- Input window 11 (the whole weight matrix, brought in once): at every point its current buffer holds its block, fetched there or not — an unfetched
    point has the block index of the point before, and the body left that block in place. -/
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)
theorem before0_11 (c : Dev nD) (t : Fin cfg0.N) (d) : (dat0 V c).before 11 t d = iblk0 V c 11 t :=
  before0_11_of V (dat0 V c) (A_eq0 V c 11) (after0_11 V c) t d

/-- Input window 12 (the whole weight matrix, brought in once): at every point its current buffer holds its block, fetched there or not — an unfetched
    point has the block index of the point before, and the body left that block in place. -/
theorem before0_12_of {c : Dev nD} (dat : Dat τ (Elt F) Unit ℕ (UR sig nD τ) ℕ cfg0 c) (hA : dat.A 12 = V c (Pipeline.arrRef spec0 12))
    (hafter : ∀ t, dat.after 12 t = iblk0 V c 12 t) (t : Fin cfg0.N) (d) : dat.before 12 t d = iblk0 V c 12 t :=
  (dat.before_in_eq_fetched 12 rfl (fun _ => rfl) (fun _ _ _ => rfl) (fun t => by rw [hafter]; unfold Dat.blockOf iblk0; rw [hA]; try rfl) t d).trans
    (by unfold Dat.fetched Dat.blockOf iblk0; rw [hA]; try rfl)
theorem before0_12 (c : Dev nD) (t : Fin cfg0.N) (d) : (dat0 V c).before 12 t d = iblk0 V c 12 t :=
  before0_12_of V (dat0 V c) (A_eq0 V c 12) (after0_12 V c) t d

/-- Input window 13 (the whole bias row, brought in once): at every point its current buffer holds its block, fetched there or not — an unfetched
    point has the block index of the point before, and the body left that block in place. -/
theorem before0_13_of {c : Dev nD} (dat : Dat τ (Elt F) Unit ℕ (UR sig nD τ) ℕ cfg0 c) (hA : dat.A 13 = V c (Pipeline.arrRef spec0 13))
    (hafter : ∀ t, dat.after 13 t = iblk0 V c 13 t) (t : Fin cfg0.N) (d) : dat.before 13 t d = iblk0 V c 13 t :=
  (dat.before_in_eq_fetched 13 rfl (fun _ => rfl) (fun _ _ _ => rfl) (fun t => by rw [hafter]; unfold Dat.blockOf iblk0; rw [hA]; try rfl) t d).trans
    (by unfold Dat.fetched Dat.blockOf iblk0; rw [hA]; try rfl)
theorem before0_13 (c : Dev nD) (t : Fin cfg0.N) (d) : (dat0 V c).before 13 t d = iblk0 V c 13 t :=
  before0_13_of V (dat0 V c) (A_eq0 V c 13) (after0_13 V c) t d

/-- Input window 14 (the whole bias row, brought in once): at every point its current buffer holds its block, fetched there or not — an unfetched
    point has the block index of the point before, and the body left that block in place. -/
theorem before0_14_of {c : Dev nD} (dat : Dat τ (Elt F) Unit ℕ (UR sig nD τ) ℕ cfg0 c) (hA : dat.A 14 = V c (Pipeline.arrRef spec0 14))
    (hafter : ∀ t, dat.after 14 t = iblk0 V c 14 t) (t : Fin cfg0.N) (d) : dat.before 14 t d = iblk0 V c 14 t :=
  (dat.before_in_eq_fetched 14 rfl (fun _ => rfl) (fun _ _ _ => rfl) (fun t => by rw [hafter]; unfold Dat.blockOf iblk0; rw [hA]; try rfl) t d).trans
    (by unfold Dat.fetched Dat.blockOf iblk0; rw [hA]; try rfl)
theorem before0_14 (c : Dev nD) (t : Fin cfg0.N) (d) : (dat0 V c).before 14 t d = iblk0 V c 14 t :=
  before0_14_of V (dat0 V c) (A_eq0 V c 14) (after0_14 V c) t d

/-- What the pipeline hands the body at point `t`: the region's invariant, the core's debts, and each window's current buffer, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d))
    ∗ (∃ d, owns (c : Thread nD τ) (st0_15 t) fullShare ((dat0 V c).before 15 t d))
    ∗ (∃ d, owns (c : Thread nD τ) (st0_16 t) fullShare ((dat0 V c).before 16 t d)))

/-- and what it wants back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t)
    ∗ owns (c : Thread nD τ) (st0_15 t) fullShare ((dat0 V c).after 15 t)
    ∗ owns (c : Thread nD τ) (st0_16 t) fullShare ((dat0 V c).after 16 t))

set_option maxHeartbeats 4000000 in
/-- The body at any point: the input buffers hold their blocks, so the whole-buffer triple applies; the invariant and
    the debts pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12, before0_13, before0_14]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14, after0_15, after0_16]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (sound_kernel0 c Set.univ (grid0.coords t) _ _ _ _ _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  iintro ⟨H0, H1, H2, H3, H4, H5, H6, H7, H8, H9, H10, H11, H12, H13, H14, H15, H16⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The pipeline's obligation on the body, at every point. -/
theorem body_obligation0 (c : Dev nD) : BodyObligation (dat0 (F := F) V c) (defs₀ (F := F)) Variants.none () Set.univ := fun t => by
  rw [bigSep_W0, bigSep_W0]
  exact sound_body0 V c t

/-! ## The second region: what its body finds and leaves at a grid point -/

/-- The proof data's arrays are the contents the region is entered with. -/
theorem A_eq1 (c : Dev nD) (w : Fin cfg1.W) : (dat1 V c).A w = V c (Pipeline.arrRef spec1 w) := by
  dsimp only [dat1]

/-- What the body leaves, window by window: an input's block, an output's stored value. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = iblk1 V c 14 t := by dsimp only [dat1]
theorem after1_15 (c : Dev nD) (t : Fin cfg1.N) : (dat1 V c).after 15 t = out1_15 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) := by dsimp only [dat1]

/-- Input window 0 (rows 2000·t … of its array): at every point its current buffer holds its block, fetched there or not — an unfetched
    point has the block index of the point before, and the body left that block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_0 (c : Dev nD) (t : Fin cfg1.N) (d) : (dat1 V c).before 0 t d = iblk1 V c 0 t :=
  before1_0_of V (dat1 V c) (A_eq1 V c 0) (after1_0 V c) t d

/-- Input window 1 (rows 2000·t … of its array): at every point its current buffer holds its block, fetched there or not — an unfetched
    point has the block index of the point before, and the body left that block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_1 (c : Dev nD) (t : Fin cfg1.N) (d) : (dat1 V c).before 1 t d = iblk1 V c 1 t :=
  before1_1_of V (dat1 V c) (A_eq1 V c 1) (after1_1 V c) t d

/-- Input window 2 (rows 2000·t … of its array): at every point its current buffer holds its block, fetched there or not — an unfetched
    point has the block index of the point before, and the body left that block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_2 (c : Dev nD) (t : Fin cfg1.N) (d) : (dat1 V c).before 2 t d = iblk1 V c 2 t :=
  before1_2_of V (dat1 V c) (A_eq1 V c 2) (after1_2 V c) t d

/-- Input window 3 (rows 2000·t … of its array): at every point its current buffer holds its block, fetched there or not — an unfetched
    point has the block index of the point before, and the body left that block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_3 (c : Dev nD) (t : Fin cfg1.N) (d) : (dat1 V c).before 3 t d = iblk1 V c 3 t :=
  before1_3_of V (dat1 V c) (A_eq1 V c 3) (after1_3 V c) t d

/-- Input window 4 (rows 2000·t … of its array): at every point its current buffer holds its block, fetched there or not — an unfetched
    point has the block index of the point before, and the body left that block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_4 (c : Dev nD) (t : Fin cfg1.N) (d) : (dat1 V c).before 4 t d = iblk1 V c 4 t :=
  before1_4_of V (dat1 V c) (A_eq1 V c 4) (after1_4 V c) t d

/-- Input window 5 (rows 2000·t … of its array): at every point its current buffer holds its block, fetched there or not — an unfetched
    point has the block index of the point before, and the body left that block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_5 (c : Dev nD) (t : Fin cfg1.N) (d) : (dat1 V c).before 5 t d = iblk1 V c 5 t :=
  before1_5_of V (dat1 V c) (A_eq1 V c 5) (after1_5 V c) t d

/-- Input window 6 (rows 2000·t … of the reciprocal counts): at every point its current buffer holds its block, fetched there or not — an unfetched
    point has the block index of the point before, and the body left that block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_6 (c : Dev nD) (t : Fin cfg1.N) (d) : (dat1 V c).before 6 t d = iblk1 V c 6 t :=
  before1_6_of V (dat1 V c) (A_eq1 V c 6) (after1_6 V c) t d

/-- Input window 7 (the whole weight matrix, brought in once): at every point its current buffer holds its block, fetched there or not — an unfetched
    point has the block index of the point before, and the body left that block in place. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_7 (c : Dev nD) (t : Fin cfg1.N) (d) : (dat1 V c).before 7 t d = iblk1 V c 7 t :=
  before1_7_of V (dat1 V c) (A_eq1 V c 7) (after1_7 V c) t d

/-- Input window 8 (the whole weight matrix, brought in once): at every point its current buffer holds its block, fetched there or not — an unfetched
    point has the block index of the point before, and the body left that block in place. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_8 (c : Dev nD) (t : Fin cfg1.N) (d) : (dat1 V c).before 8 t d = iblk1 V c 8 t :=
  before1_8_of V (dat1 V c) (A_eq1 V c 8) (after1_8 V c) t d

/-- Input window 9 (the whole weight matrix, brought in once): at every point its current buffer holds its block, fetched there or not — an unfetched
    point has the block index of the point before, and the body left that block in place. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
theorem before1_9 (c : Dev nD) (t : Fin cfg1.N) (d) : (dat1 V c).before 9 t d = iblk1 V c 9 t :=
  before1_9_of V (dat1 V c) (A_eq1 V c 9) (after1_9 V c) t d

/-- Input window 10 (the whole weight matrix, brought in once): at every point its current buffer holds its block, fetched there or not — an unfetched
    point has the block index of the point before, and the body left that block in place. -/
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
theorem before1_10 (c : Dev nD) (t : Fin cfg1.N) (d) : (dat1 V c).before 10 t d = iblk1 V c 10 t :=
  before1_10_of V (dat1 V c) (A_eq1 V c 10) (after1_10 V c) t d

/-- Input window 11 (the whole weight matrix, brought in once): at every point its current buffer holds its block, fetched there or not — an unfetched
    point has the block index of the point before, and the body left that block in place. -/
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)
theorem before1_11 (c : Dev nD) (t : Fin cfg1.N) (d) : (dat1 V c).before 11 t d = iblk1 V c 11 t :=
  before1_11_of V (dat1 V c) (A_eq1 V c 11) (after1_11 V c) t d

/-- Input window 12 (the whole weight matrix, brought in once): at every point its current buffer holds its block, fetched there or not — an unfetched
    point has the block index of the point before, and the body left that block in place. -/
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)
theorem before1_12 (c : Dev nD) (t : Fin cfg1.N) (d) : (dat1 V c).before 12 t d = iblk1 V c 12 t :=
  before1_12_of V (dat1 V c) (A_eq1 V c 12) (after1_12 V c) t d

/-- Input window 13 (the whole bias row, brought in once): at every point its current buffer holds its block, fetched there or not — an unfetched
    point has the block index of the point before, and the body left that block in place. -/
theorem before1_13_of {c : Dev nD} (dat : Dat τ (Elt F) Unit ℕ (UR sig nD τ) ℕ cfg1 c) (hA : dat.A 13 = V c (Pipeline.arrRef spec1 13))
    (hafter : ∀ t, dat.after 13 t = iblk1 V c 13 t) (t : Fin cfg1.N) (d) : dat.before 13 t d = iblk1 V c 13 t :=
  (dat.before_in_eq_fetched 13 rfl (fun _ => rfl) (fun _ _ _ => rfl) (fun t => by rw [hafter]; unfold Dat.blockOf iblk1; rw [hA]; try rfl) t d).trans
    (by unfold Dat.fetched Dat.blockOf iblk1; rw [hA]; try rfl)
theorem before1_13 (c : Dev nD) (t : Fin cfg1.N) (d) : (dat1 V c).before 13 t d = iblk1 V c 13 t :=
  before1_13_of V (dat1 V c) (A_eq1 V c 13) (after1_13 V c) t d

/-- Input window 14 (the whole bias row, brought in once): at every point its current buffer holds its block, fetched there or not — an unfetched
    point has the block index of the point before, and the body left that block in place. -/
theorem before1_14_of {c : Dev nD} (dat : Dat τ (Elt F) Unit ℕ (UR sig nD τ) ℕ cfg1 c) (hA : dat.A 14 = V c (Pipeline.arrRef spec1 14))
    (hafter : ∀ t, dat.after 14 t = iblk1 V c 14 t) (t : Fin cfg1.N) (d) : dat.before 14 t d = iblk1 V c 14 t :=
  (dat.before_in_eq_fetched 14 rfl (fun _ => rfl) (fun _ _ _ => rfl) (fun t => by rw [hafter]; unfold Dat.blockOf iblk1; rw [hA]; try rfl) t d).trans
    (by unfold Dat.fetched Dat.blockOf iblk1; rw [hA]; try rfl)
theorem before1_14 (c : Dev nD) (t : Fin cfg1.N) (d) : (dat1 V c).before 14 t d = iblk1 V c 14 t :=
  before1_14_of V (dat1 V c) (A_eq1 V c 14) (after1_14 V c) t d

/-- What the pipeline hands the body at point `t`: the region's invariant, the core's debts, and each window's current buffer, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d))
    ∗ (∃ d, owns (c : Thread nD τ) (st1_15 t) fullShare ((dat1 V c).before 15 t d)))

/-- and what it wants back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t)
    ∗ owns (c : Thread nD τ) (st1_15 t) fullShare ((dat1 V c).after 15 t))

set_option maxHeartbeats 4000000 in
/-- The body at any point: the input buffers hold their blocks, so the whole-buffer triple applies; the invariant and
    the debts pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13, before1_14]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14, after1_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel1 c Set.univ (grid1.coords t) _ _ _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The pipeline's obligation on the body, at every point. -/
theorem body_obligation1 (c : Dev nD) : BodyObligation (dat1 (F := F) V c) (defs₀ (F := F)) Variants.none () Set.univ := fun t => by
  rw [bigSep_W1, bigSep_W1]
  exact sound_body1 V c t

end AtEntry

end Cert.KernelIdeal.Regions

end
-- ==== Proof.IdealRun.lean ====
/-
  The whole run: the host operations before the first region, the first region, the host operations between the
  regions, the second region.

  The TensorCore's buffer contents are followed from boundary to boundary.  A stretch of host operations changes
  exactly what its operations write; a region leaves each of its arrays at what its pipeline's write-backs leave —
  an input array as it was entered, an output array with every block written — and every other buffer as entered.
  No host operation writes an argument array and no region has one as an output, so each argument array ends as
  launched; the stacked result array is the second region's output and ends at what that pipeline leaves in it.
-/
import proofs.«123560_j36206574305716_2_alg».proof.Proof.IdealRegionBodies

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first stretch of host operations: what the first region is entered with. -/
abbrev W1 : Dev nD → Valuation τ sig (Elt F) := fun c => StableHlo.after hostOps0 (W0 m ρ c)
/-- The same, read at the TensorCore's references. -/
abbrev V1 : (c : Dev nD) → (b : Ref sig .tc) → Buf (Elt F) ((c : Thread nD τ).loc b) := fun c b => W1 m ρ c b
/-- When the first region is left: its arrays at what its pipeline leaves after the last point, the rest as entered. -/
noncomputable def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same, read at the TensorCore's references. -/
abbrev V2 : (c : Dev nD) → (b : Ref sig .tc) → Buf (Elt F) ((c : Thread nD τ).loc b) := fun c b => W2 m ρ c b
/-- When the first region is left each of its arrays holds what the pipeline leaves, and every other buffer what
    it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch of host operations: what the second region is entered with. -/
abbrev W3 : Dev nD → Valuation τ sig (Elt F) := fun c => StableHlo.after hostOps1 (W2 m ρ c)
/-- The same, read at the TensorCore's references. -/
abbrev V3 : (c : Dev nD) → (b : Ref sig .tc) → Buf (Elt F) ((c : Thread nD τ).loc b) := fun c b => W3 m ρ c b
/-- When the second region is left: its arrays at what its pipeline leaves after the last point, the rest as entered. -/
noncomputable def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same, read at the TensorCore's references. -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The argument arrays end as launched

No host operation writes one; the second region stages none; the first region stages the two feature arrays as
inputs (windows 2 and 5), which a pipeline leaves as entered, and none of the others. -/

set_option maxHeartbeats 4000000 in
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg0) := (W2_arr m ρ c 2).trans (((dat0 (V1 m ρ) c).arrAt_in 2 rfl _).trans (A_eq0 (V1 m ρ) c 2))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg0) := rfl

set_option maxHeartbeats 4000000 in
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg1) := (W2_arr m ρ c 5).trans (((dat0 (V1 m ρ) c).arrAt_in 5 rfl _).trans (A_eq0 (V1 m ρ) c 5))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg1) := rfl

set_option maxHeartbeats 4000000 in
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg2) := rfl

set_option maxHeartbeats 4000000 in
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg3) := rfl

set_option maxHeartbeats 4000000 in
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg4) := rfl

set_option maxHeartbeats 4000000 in
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg5) := rfl

set_option maxHeartbeats 4000000 in
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg6) := rfl

set_option maxHeartbeats 4000000 in
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg7) := rfl

set_option maxHeartbeats 4000000 in
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg8) := rfl

/-! ## The proof data of the two pipelines, and what rides beside the buffers -/

/-- No pipeline has a prefetched table. -/
abbrev adm : (p : Fin 2) → (pcfgs (F := F) p).Adm := fun p => (cfgs p).toPCfg_adm
/-- Each pipeline's proof data at the contents its region is entered with. -/
noncomputable def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything. -/
abbrev L : GSem nD τ sig → Finset Unit := fun _ => ∅
abbrev lv : GSem nD τ sig → Unit → ℕ := fun _ _ => 0
/-- Beside the buffers, through every segment: the core's generator register at some state, and its debts, none. -/
abbrev R (c : Dev nD) : sProp 𝕄 := iprop((∃ r, prngReg c r) ∗ ∃ W, owes (c : Thread nD τ) (0 : CellTallies nD τ sig Unit) W)
/-- A stretch of host operations as a segment over the unscoped references, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option maxHeartbeats 4000000 in
/-- No operation of the first stretch allocates a buffer. -/
theorem hostOps0_fresh : (hostOps0 : List (HloOp τ sig (Elt F))).Forall fun op => op.fresh = ∅ := by
  simp only [List.Forall]; repeat' constructor
set_option maxHeartbeats 4000000 in
/-- Nor does one of the second. -/
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last boundary's contents, the generator
    register at some state. -/
abbrev Tₙ (c : Dev nD) : sProp 𝕄 := iprop(StableHlo.held (c : Thread nD τ) (Pipeline.ucRefs τ sig) (W4 m ρ c) ∗ ∃ r, prngReg c r)

/-! ## The regions as segments -/

-- unifying a library lemma stated over a pinned configuration with the printed one takes unfolding plain
-- definitions in a metavariable's type
set_option backward.isDefEq.respectTransparency.types false in
/-- The first region as a segment of the run: entered with every unscoped buffer at `W1`, left with them at
    `W2`.  Its arrays are split out of the unscoped buffers at entry and put back at what the pipeline leaves;
    the generator register goes into the region's invariant and comes back; nothing is owed. -/
noncomputable def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over a pinned configuration with the printed one takes unfolding plain
-- definitions in a metavariable's type
set_option backward.isDefEq.respectTransparency.types false in
/-- The second region as a segment of the run: entered with every unscoped buffer at `W3`, left with them at
    `W4`.  Its arrays are split out of the unscoped buffers at entry and put back at what the pipeline leaves;
    the generator register goes into the region's invariant and comes back; nothing is owed. -/
noncomputable def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

/-- The four segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
set_option maxHeartbeats 40000000 in
/-- The program is the run of its segments. -/
theorem main_run (c : Dev nD) : main (F := F) c = Pipeline.Seg.run (segs m ρ) := (main_chain c).trans (by chain_rfl)

set_option maxHeartbeats 4000000 in
set_option backward.isDefEq.respectTransparency.types false in
/-- From any memory with zero counters every weakly fair execution of the program on the TensorCores terminates,
    nothing faulting, and in every final state the stacked result array holds what the second region's pipeline
    leaves in its output array after the last point, and the nine argument arrays are as launched. -/
theorem run : θ_run defs (onTc (τ := τ) (main (F := F))) ⟨m, fun _ => 0, ρ⟩ (fun r => ∀ c : Dev nD,
      r.2.mem ((c.tc : Thread nD τ).loc main_v214) = (dat1 (V3 m ρ) c).arrAt 15 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v214 (by decide))).trans (W4_arr m ρ c 15),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.Regions

end
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.LibMatProd.lean ====
/-
  Dense matrix products on the extended reals, as functions of whole arrays.

  `matProd A B` is the product of an m×k by a k×n array: entry (a, b) is the sum over c of A(a, c) · B(c, b). A plain
  product accumulated into zeros (the left operand's columns contracted with the right operand's rows, no batch axes)
  is this function; the host's dot_general with the same dimension numbers is the same sum with no accumulator, so it
  is this function too; and an entry of a product depends on one row of the left operand and one column of the right,
  so the product of a block of rows of A with B is those rows of `matProd A B`. Sums on the extended reals are taken
  in any order, so no finiteness is asked. Nothing here mentions a program.
-/
import Idealize.ShloMosaic.PureOps.Ideal.Laws
import Idealize.ShloMosaic.Lib.ValueIdx
import proofs.«123560_j36206574305716_2_alg».proof.Proof.LibBlockReads

open scoped BigOperators

noncomputable section

namespace Cert.Lib.MatProd

open Idealize.ShloMosaic Idealize.ShloMosaic.ValueIdx

variable {m k n : Nat}

/-- The product of an m×k by a k×n array of extended reals. -/
def matProd (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

theorem matProd_apply (A : (⟨2, ![m, k]⟩ : Shape).Idx → EReal) (B : (⟨2, ![k, n]⟩ : Shape).Idx → EReal)
    (a : Fin m) (b : Fin n) : matProd A B (ix2 a b) = ∑ c : Fin k, A (ix2 a c) * B (ix2 c b) := rfl

/-- A plain product into a zero accumulator is `matProd`: entry by entry it is the sum over the contracted
    coordinate. -/
theorem matmul_zero_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (A : FVec Ideal ⟨2, ![m, k]⟩ φ₁) (B : FVec Ideal ⟨2, ![k, n]⟩ φ₂) :
    matmul d prec A B (constant ⟨2, ![m, n]⟩ .f32 0x00000000#32) = matProd A B := by
  funext i
  obtain ⟨a, b, rfl⟩ : ∃ (a : Fin m) (b : Fin n), i = ix2 a b := ⟨i 0, i 1, eq_ix2 i⟩
  exact Cert.Lib.BlockReads.matmul_zero_rows_apply d hlc hrc hln hrn hlb hrb prec A B a b

/-- The host's dot_general is, on the extended reals, the product into a zero accumulator with the same dimension
    numbers: both are the sum over the contracted index of the products of the operands' entries. -/
theorem dotGeneral_eq_matmul_zero {sl sr so : Shape} {φ₁ φ₂ : FTy} (d : DotDims sl sr so)
    (prec prec' : Option ContractPrecision) (sched : HostSchedule) (A : FVec Ideal sl φ₁) (B : FVec Ideal sr φ₂) :
    FloatOps.dotGeneral d prec sched A B = matmul d prec' A B (constant so .f32 0x00000000#32) := by
  funext j
  show _ = FloatOps.matmul d prec' A B _ j
  rw [Ideal.dotGeneral_apply, Ideal.matmul_constant_zero_apply]

/-- So the host's plain dot_general is `matProd`, whatever the precision and the schedule. -/
theorem dotGeneral_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (A : FVec Ideal ⟨2, ![m, k]⟩ φ₁) (B : FVec Ideal ⟨2, ![k, n]⟩ φ₂) :
    FloatOps.dotGeneral d prec sched A B = matProd A B :=
  (dotGeneral_eq_matmul_zero d prec none sched A B).trans (matmul_zero_eq_matProd d hlc hrc hln hrn hlb hrb none A B)

/-- An entry of a product depends on one row of the left operand and one column of the right: if row y of A' is row r
    of A and column b of B' is column b' of B, then `matProd A' B'` at (y, b) is `matProd A B` at (r, b'). So the
    product of a block of rows of A with B is the same rows of `matProd A B`. -/
theorem matProd_block {m' n' : Nat} (A : (⟨2, ![m, k]⟩ : Shape).Idx → EReal) (A' : (⟨2, ![m', k]⟩ : Shape).Idx → EReal)
    (B : (⟨2, ![k, n]⟩ : Shape).Idx → EReal) (B' : (⟨2, ![k, n']⟩ : Shape).Idx → EReal)
    (y : Fin m') (b : Fin n') (r : Fin m) (b' : Fin n)
    (hA : ∀ c : Fin k, A' (ix2 y c) = A (ix2 r c)) (hB : ∀ c : Fin k, B' (ix2 c b) = B (ix2 c b')) :
    matProd A' B' (ix2 y b) = matProd A B (ix2 r b') := by
  rw [matProd_apply, matProd_apply]
  exact Finset.sum_congr rfl fun c _ => by rw [hA c, hB c]

end Cert.Lib.MatProd

end
-- ==== Proof.LibRowReductions.lean ====
/-
  A row-wise reduction of an a×b block read at an index, on the extended reals: the maximum along each row as the
  fold of max over the row's entries (a vector reduction and the reference's one-operand reduce alike), the sum along
  each row as the sum over the row's entries, and the re-shapings and broadcasts that put a column of per-row values
  or a row of per-column values beside the block. Nothing here mentions a program.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout

open scoped BigOperators

namespace Cert.Lib.RowReductions

open Idealize.ShloMosaic Idealize.ShloMosaic.ValueIdx

/-! ## Reductions along each row -/

section Rows
variable {a b : Nat} {φ : FTy}

/-- The row index p with column k put back is (p, k). -/
theorem lift_row (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext ax; apply Fin.ext
  match ax with
  | ⟨0, _⟩ => rfl
  | ⟨1, _⟩ => rfl

/-- The maximum along each row of an a×b block is at p the fold of max, from the accumulator's value, over the
    entries (p, k) of row p. -/
theorem rowmax_apply (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits (F := Ideal) φ acc) (fun k => src (ix2 p k)) := by
  rw [Ideal.multiReduction_maximumf_single]
  have hf : (src ∘ h.lift (ix1 p)) = fun k : Fin b => src (ix2 p k) :=
    funext fun k => congrArg src (lift_row h p k)
  exact congrArg (fun f => Finset.fold max (FloatOps.ofBits (F := Ideal) φ acc) f (Finset.univ : Finset (Fin b))) hf

/-- The sum along each row of an a×b block is at p the sum over k of the block at (p, k). -/
theorem rowsum_apply (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_row h p k)

/-- The reference's one-operand reduce with a maximum body along each row of an a×b block is at p the fold of max,
    from the initial value's element, over the entries (p, k) of row p. -/
theorem host_rowmax_apply {u : Shape} (x : (⟨2, ![a, b]⟩ : Shape).Idx → Ideal .f32) (init : u.Idx → Ideal .f32)
    (h' : (⟨2, ![a, b]⟩ : Shape).ReducesTo [1] ⟨1, ![a]⟩) (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) := by
  have h : (⟨2, ![a, b]⟩ : Shape).Reduces [1] ⟨1, ![a]⟩ := ⟨h'.1, Nat.one_pos, h'.2⟩
  rw [Host.reduce_eq_fold_single FloatOps.maximumf x init h' h hu]
  have hf : (x ∘ h.lift (ix1 p)) = fun k : Fin b => x (ix2 p k) :=
    funext fun k => congrArg x (lift_row h p k)
  exact congrArg (fun f => Finset.fold max (init (Shape.Idx.first hu)) f (Finset.univ : Finset (Fin b))) hf

end Rows

/-! ## Re-shapings and broadcasts of per-row and per-column values -/

section Layout
variable {α : Type} {a b : Nat}

/-- A vector of a entries viewed as an a×1 column reads its entry p at (p, 0). -/
theorem shapeCast_col_apply (x : (⟨1, ![a]⟩ : Shape).Idx → α) (h : (⟨1, ![a]⟩ : Shape).ShapeCasts ⟨2, ![a, 1]⟩)
    (p : Fin a) : shapeCast ⟨2, ![a, 1]⟩ x h (ix2 p 0) = x (ix1 p) := by
  refine shapeCast_apply x h _ _ ?_
  rw [Shape.rowMajor_val_one, Shape.rowMajor_val_two]
  show p.val = p.val * 1 + 0
  omega

/-- An a×1 column broadcast across b columns reads its entry p at every (p, q). -/
theorem broadcast_col_apply (x : (⟨2, ![a, 1]⟩ : Shape).Idx → α) (h : (⟨2, ![a, 1]⟩ : Shape).Broadcasts ⟨2, ![a, b]⟩)
    (p : Fin a) (q : Fin b) : broadcastTo ⟨2, ![a, b]⟩ x h (ix2 p q) = x (ix2 p 0) :=
  broadcastTo_apply x h _ _ fun ax => by
    match ax with
    | ⟨0, _⟩ =>
      show p.val = if a = 1 then 0 else p.val
      split_ifs with ha
      · have := p.isLt; omega
      · rfl
    | ⟨1, _⟩ => rfl

/-- A vector of b entries viewed as a 1×b row reads its entry q at (0, q). -/
theorem shapeCast_rowvec_apply (x : (⟨1, ![b]⟩ : Shape).Idx → α) (h : (⟨1, ![b]⟩ : Shape).ShapeCasts ⟨2, ![1, b]⟩)
    (q : Fin b) : shapeCast ⟨2, ![1, b]⟩ x h (ix2 0 q) = x (ix1 q) := by
  refine shapeCast_apply x h _ _ ?_
  rw [Shape.rowMajor_val_one, Shape.rowMajor_val_two]
  show q.val = (0 : Nat) * b + q.val
  omega

end Layout

/-! ## The accumulator of a maximum -/

/-- The maximum of −∞ and x is x. -/
theorem fold_max_bot (x : EReal) : max (⊥ : EReal) x = x := max_eq_right bot_le

/-- The single-precision bit pattern FF800000 is −∞. -/
theorem ofBits_neg_inf_f32 : Ideal.ofBits .f32 0xFF800000#32 = (⊥ : EReal) := by
  simp [Ideal.ofBits, Ideal.ieee]

/-! ## The reference's broadcasts of per-row values and of a scalar -/

section HostBroadcasts
variable {α : Type} {n c : Nat}

/-- A vector of n entries broadcast into an n×1 column along the rows reads its entry p at (p, 0). -/
theorem bcastInDim_col_apply (x : (⟨1, ![n]⟩ : Shape).Idx → α)
    (h : (⟨1, ![n]⟩ : Shape).BroadcastsInDim ⟨2, ![n, 1]⟩ ![0]) (p : Fin n) :
    broadcastInDim ⟨2, ![n, 1]⟩ ![0] h x (ix2 p 0) = x (ix1 p) :=
  broadcastInDim_apply _ h x _ _ fun ax => by
    match ax with
    | ⟨0, _⟩ =>
      show p.val = if n = 1 then 0 else p.val
      split_ifs with hn
      · have := p.isLt; omega
      · rfl

/-- An n×1 column broadcast into an n×c block, axis for axis, reads its entry p at every (p, q). -/
theorem bcastInDim_cols_apply (x : (⟨2, ![n, 1]⟩ : Shape).Idx → α)
    (h : (⟨2, ![n, 1]⟩ : Shape).BroadcastsInDim ⟨2, ![n, c]⟩ ![0, 1]) (p : Fin n) (q : Fin c) :
    broadcastInDim ⟨2, ![n, c]⟩ ![0, 1] h x (ix2 p q) = x (ix2 p 0) :=
  broadcastInDim_apply _ h x _ _ fun ax => by
    match ax with
    | ⟨0, _⟩ =>
      show p.val = if n = 1 then 0 else p.val
      split_ifs with hn
      · have := p.isLt; omega
      · rfl
    | ⟨1, _⟩ => rfl

/-- A scalar broadcast into an n×c block reads the scalar at every index. -/
theorem bcastInDim_scalar_apply (x : (⟨0, ![]⟩ : Shape).Idx → α)
    (h : (⟨0, ![]⟩ : Shape).BroadcastsInDim ⟨2, ![n, c]⟩ ![]) (i : (⟨2, ![n, c]⟩ : Shape).Idx) :
    broadcastInDim ⟨2, ![n, c]⟩ ![] h x i = x ix0 :=
  broadcastInDim_apply _ h x _ _ fun ax => ax.elim0

end HostBroadcasts

end Cert.Lib.RowReductions
-- ==== Proof.LibScatterScale.lean ====
import Idealize.ShloMosaic.PureOps.Ideal
import Idealize.ShloMosaic.PureOps.Ideal.Laws

/-!
  Scaling an accumulating scatter of extended reals by a real constant.

  Multiplication of extended reals does not distribute over addition in general
  (`0 * (⊤ + ⊥)` against `0 * ⊤ + 0 * ⊥`, or `⊤ * (1 + -1)` against `⊤ * 1 + ⊤ * -1`),
  so `c * ∑ f = ∑ c * f` needs a hypothesis. The one used here: every number involved is
  a real, `IsReal`. The reals inside the extended reals are closed under `+`, `*` and
  finite sums, and on them the coercion `ℝ → EReal` is a ring homomorphism, so the identity
  is the one of `ℝ` pulled back through the coercion.
-/

namespace Cert.LibScatterScale

open Idealize.ShloMosaic
open scoped BigOperators

/-- An extended real that is (the coercion of) a real number: neither `⊤` nor `⊥`. -/
def IsReal (x : EReal) : Prop := ∃ r : ℝ, x = (r : EReal)

/-- The product of two reals is a real: `↑a * ↑b = ↑(a * b)`. -/
theorem IsReal.mul {x y : EReal} : IsReal x → IsReal y → IsReal (x * y) := by
  rintro ⟨a, rfl⟩ ⟨b, rfl⟩
  exact ⟨a * b, (EReal.coe_mul a b).symm⟩

/-- The sum of two reals is a real: `↑a + ↑b = ↑(a + b)`. -/
theorem IsReal.add {x y : EReal} : IsReal x → IsReal y → IsReal (x + y) := by
  rintro ⟨a, rfl⟩ ⟨b, rfl⟩
  exact ⟨a + b, (EReal.coe_add a b).symm⟩

/-- Zero is a real. -/
theorem IsReal.zero : IsReal (0 : EReal) := ⟨0, EReal.coe_zero.symm⟩

/-- A finite sum of reals is a real (induction on the index set, by `IsReal.add`). -/
theorem isReal_sum {ι : Type*} (s : Finset ι) (f : ι → EReal) (h : ∀ j ∈ s, IsReal (f j)) :
    IsReal (∑ j ∈ s, f j) := by
  classical
  induction s using Finset.induction_on with
  | empty => simpa using IsReal.zero
  | insert a s ha ih =>
    rw [Finset.sum_insert ha]
    exact IsReal.add (h a (Finset.mem_insert_self a s))
      (ih fun j hj => h j (Finset.mem_insert_of_mem hj))

/-- A real constant distributes over a finite sum of reals. Induction on the index set; at the
    step `c * (f a + S) = c * f a + c * S` all three of `c`, `f a`, `S` are reals, so both sides
    are the coercion of the same real by `mul_add` in `ℝ`. -/
theorem mul_sum_of_isReal {ι : Type*} (s : Finset ι) (c : EReal) (f : ι → EReal) (hc : IsReal c)
    (h : ∀ j ∈ s, IsReal (f j)) : c * ∑ j ∈ s, f j = ∑ j ∈ s, c * f j := by
  classical
  induction s using Finset.induction_on with
  | empty => simp
  | insert a s ha ih =>
    have hs : ∀ j ∈ s, IsReal (f j) := fun j hj => h j (Finset.mem_insert_of_mem hj)
    rw [Finset.sum_insert ha, Finset.sum_insert ha, ← ih hs]
    obtain ⟨r, rfl⟩ := hc
    obtain ⟨x, hx⟩ := h a (Finset.mem_insert_self a s)
    obtain ⟨y, hy⟩ := isReal_sum s f hs
    rw [hx, hy, ← EReal.coe_add, ← EReal.coe_mul, ← EReal.coe_mul, ← EReal.coe_mul,
      ← EReal.coe_add, mul_add]

/-- An accumulating scatter into zeros of the messages `(c * v j) * g j` is `c` times the
    accumulating scatter into zeros of `v j * g j`, when `c` and every `v j`, `g j` are reals:
    at each result element both sides are sums over the same set of update positions (those whose
    result index is that element), and the real constant moves out of the sum. -/
theorem hostScatterAdd_scale {s si su : Shape} (d : ScatterDims s si su) {w : Nat} (idx : IVec si w)
    (c : EReal) (v g : su.Idx → EReal) (hc : IsReal c) (hv : ∀ j, IsReal (v j))
    (hg : ∀ j, IsReal (g j)) (i : s.Idx) :
    Ideal.hostScatterAdd d (fun _ => (0 : EReal)) idx (fun j => (c * v j) * g j) i
      = c * Ideal.hostScatterAdd d (fun _ => (0 : EReal)) idx (fun j => v j * g j) i := by
  unfold Ideal.hostScatterAdd
  simp only [zero_add]
  rw [mul_sum_of_isReal _ c _ hc (fun j _ => (hv j).mul (hg j))]
  exact Finset.sum_congr rfl fun j _ => mul_assoc _ _ _

/-- An accumulating scatter of reals into reals is a real at every element. -/
theorem isReal_hostScatterAdd {s si su : Shape} (d : ScatterDims s si su) {w : Nat}
    (x : s.Idx → EReal) (idx : IVec si w) (upd : su.Idx → EReal) (hx : ∀ i, IsReal (x i))
    (hu : ∀ j, IsReal (upd j)) (i : s.Idx) : IsReal (Ideal.hostScatterAdd d x idx upd i) := by
  unfold Ideal.hostScatterAdd
  exact (hx i).add (isReal_sum _ _ fun j _ => hu j)

/-- A contraction of real operands onto a zero accumulator is a real at every element: it is a
    finite sum of products of reals. -/
theorem isReal_matmul_zero {sl sr so : Shape} (d : DotDims sl sr so) (lhs : sl.Idx → EReal)
    (rhs : sr.Idx → EReal) (hl : ∀ i, IsReal (lhs i)) (hr : ∀ i, IsReal (rhs i)) (j : so.Idx) :
    IsReal (Ideal.matmul d lhs rhs (fun _ => (0 : EReal)) j) := by
  unfold Ideal.matmul
  exact IsReal.zero.add (isReal_sum _ _ fun k _ => (hl _).mul (hr _))

/-- A contraction of real operands onto a real accumulator is a real at every element. -/
theorem isReal_matmul {sl sr so : Shape} (d : DotDims sl sr so) (lhs : sl.Idx → EReal)
    (rhs : sr.Idx → EReal) (acc : so.Idx → EReal) (hl : ∀ i, IsReal (lhs i))
    (hr : ∀ i, IsReal (rhs i)) (ha : ∀ j, IsReal (acc j)) (j : so.Idx) :
    IsReal (Ideal.matmul d lhs rhs acc j) := by
  unfold Ideal.matmul
  exact (ha j).add (isReal_sum _ _ fun k _ => (hl _).mul (hr _))

end Cert.LibScatterScale
-- ==== Proof.LibSupportScale.lean ====
import Idealize.ShloMosaic.PureOps.Ideal
import Idealize.ShloMosaic.PureOps.Ideal.Laws
import Idealize.ShloMosaic.Lib.ValueIdx
import proofs.«123560_j36206574305716_2_alg».proof.Proof.LibScatterScale
import proofs.«123560_j36206574305716_2_alg».proof.Proof.LibRowReductions
import proofs.«123560_j36206574305716_2_alg».proof.Proof.LibMatProd

/-!
  One support's accumulating scatter, scaled before or after, and reals kept real by re-indexings.

  With `c` a scalar, `vals` a vector of M entries and `g` an M×D block, the messages
  `(c · vals p) · g (p, q)` scattered with accumulation into an N×D block of zeros give `c` times the
  scatter of the messages `vals p · g (p, q)`: at each result element both are sums over the same
  update positions, and a real constant moves out of a finite sum of reals. The array expressions are
  first read at an index (a scalar broadcast reads the scalar, a vector broadcast to a column and
  then across the columns reads its entry `p` at `(p, q)`, a pointwise product is the product of
  the entries), which turns both sides into the form of `hostScatterAdd_scale`.

  A re-indexing of an array of reals (a change of shape, a slice, a gather) is an array of reals, and
  so is a matrix product of arrays of reals.
-/

open scoped BigOperators

noncomputable section

namespace Cert.LibSupportScale

open Idealize.ShloMosaic Idealize.ShloMosaic.ValueIdx Cert.LibScatterScale

/-- A scalar broadcast into a vector of M entries reads the scalar at every index. -/
theorem bcastInDim_scalar_vec_apply {α : Type} {M : Nat} (x : (⟨0, ![]⟩ : Shape).Idx → α)
    (h : (⟨0, ![]⟩ : Shape).BroadcastsInDim ⟨1, ![M]⟩ ![]) (i : (⟨1, ![M]⟩ : Shape).Idx) :
    broadcastInDim ⟨1, ![M]⟩ ![] h x i = x ix0 :=
  broadcastInDim_apply _ h x _ _ fun ax => ax.elim0

/-- A scalar broadcast into an N×D block of the zero pattern is the block of zeros. -/
theorem zeros_eq {N D : Nat} (hz : (⟨0, ![]⟩ : Shape).BroadcastsInDim ⟨2, ![N, D]⟩ ![]) :
    broadcastInDim ⟨2, ![N, D]⟩ ![] hz (constant (F := Ideal) ⟨0, ![]⟩ .f32 0x00000000#32)
      = fun _ => (0 : EReal) := by
  funext i
  rw [Cert.Lib.RowReductions.bcastInDim_scalar_apply]
  exact Ideal.ofBits_zero_f32

/-- The scaled messages read at an index: `(c · vals p) · g (p, q)` at `(p, q)`. -/
theorem scaled_messages_eq {M D : Nat}
    (hS : (⟨0, ![]⟩ : Shape).BroadcastsInDim ⟨1, ![M]⟩ ![])
    (h0 : (⟨1, ![M]⟩ : Shape).BroadcastsInDim ⟨2, ![M, 1]⟩ ![0])
    (h01 : (⟨2, ![M, 1]⟩ : Shape).BroadcastsInDim ⟨2, ![M, D]⟩ ![0, 1])
    (cw : FVec Ideal ⟨0, ![]⟩ .f32) (vals : FVec Ideal ⟨1, ![M]⟩ .f32) (g : FVec Ideal ⟨2, ![M, D]⟩ .f32) :
    mulf (broadcastInDim ⟨2, ![M, D]⟩ ![0, 1] h01 (broadcastInDim ⟨2, ![M, 1]⟩ ![0] h0
        (mulf (broadcastInDim ⟨1, ![M]⟩ ![] hS cw) vals))) g
      = fun j => (cw ix0 * vals (ix1 (n := M) (j 0))) * g j := by
  funext j
  obtain ⟨p, q, rfl⟩ : ∃ (p : Fin M) (q : Fin D), j = ix2 p q := ⟨j 0, j 1, eq_ix2 j⟩
  show _ = (cw ix0 * vals (ix1 p)) * g (ix2 p q)
  rw [mulf_apply, Cert.Lib.RowReductions.bcastInDim_cols_apply,
    Cert.Lib.RowReductions.bcastInDim_col_apply, mulf_apply, bcastInDim_scalar_vec_apply]

/-- The plain messages read at an index: `vals p · g (p, q)` at `(p, q)`. -/
theorem messages_eq {M D : Nat}
    (h0 : (⟨1, ![M]⟩ : Shape).BroadcastsInDim ⟨2, ![M, 1]⟩ ![0])
    (h01 : (⟨2, ![M, 1]⟩ : Shape).BroadcastsInDim ⟨2, ![M, D]⟩ ![0, 1])
    (vals : FVec Ideal ⟨1, ![M]⟩ .f32) (g : FVec Ideal ⟨2, ![M, D]⟩ .f32) :
    mulf (broadcastInDim ⟨2, ![M, D]⟩ ![0, 1] h01 (broadcastInDim ⟨2, ![M, 1]⟩ ![0] h0 vals)) g
      = fun j => vals (ix1 (n := M) (j 0)) * g j := by
  funext j
  obtain ⟨p, q, rfl⟩ : ∃ (p : Fin M) (q : Fin D), j = ix2 p q := ⟨j 0, j 1, eq_ix2 j⟩
  show _ = vals (ix1 p) * g (ix2 p q)
  rw [mulf_apply, Cert.Lib.RowReductions.bcastInDim_cols_apply,
    Cert.Lib.RowReductions.bcastInDim_col_apply]

/-- Scaling each message by `cw · vals p` before an accumulating scatter into zeros is scaling the
    scatter of the messages `vals p · g (p, q)` by `cw` afterwards, when every number is a real. -/
theorem support_eq {N M D : Nat} (d : ScatterDims ⟨2, ![N, D]⟩ ⟨2, ![M, 1]⟩ ⟨2, ![M, D]⟩)
    (hz : (⟨0, ![]⟩ : Shape).BroadcastsInDim ⟨2, ![N, D]⟩ ![]) (hS : (⟨0, ![]⟩ : Shape).BroadcastsInDim ⟨1, ![M]⟩ ![])
    (h0 : (⟨1, ![M]⟩ : Shape).BroadcastsInDim ⟨2, ![M, 1]⟩ ![0]) (h01 : (⟨2, ![M, 1]⟩ : Shape).BroadcastsInDim ⟨2, ![M, D]⟩ ![0, 1])
    (cw : FVec Ideal ⟨0, ![]⟩ .f32) (vals : FVec Ideal ⟨1, ![M]⟩ .f32) (g : FVec Ideal ⟨2, ![M, D]⟩ .f32) (R : IVec ⟨2, ![M, 1]⟩ 32)
    (hc : IsReal (cw ix0)) (hv : ∀ j, IsReal (vals j)) (hg : ∀ j, IsReal (g j)) :
    Host.scatterAdd (F := Ideal) d (broadcastInDim ⟨2, ![N, D]⟩ ![] hz (constant (F := Ideal) ⟨0, ![]⟩ .f32 0x00000000#32)) R
        (mulf (broadcastInDim ⟨2, ![M, D]⟩ ![0, 1] h01 (broadcastInDim ⟨2, ![M, 1]⟩ ![0] h0 (mulf (broadcastInDim ⟨1, ![M]⟩ ![] hS cw) vals))) g)
      = mulf (broadcastInDim ⟨2, ![N, D]⟩ ![] hz cw)
          (Host.scatterAdd (F := Ideal) d (broadcastInDim ⟨2, ![N, D]⟩ ![] hz (constant (F := Ideal) ⟨0, ![]⟩ .f32 0x00000000#32)) R
            (mulf (broadcastInDim ⟨2, ![M, D]⟩ ![0, 1] h01 (broadcastInDim ⟨2, ![M, 1]⟩ ![0] h0 vals)) g)) := by
  funext i
  rw [mulf_apply, Cert.Lib.RowReductions.bcastInDim_scalar_apply, zeros_eq hz,
    scaled_messages_eq hS h0 h01 cw vals g, messages_eq h0 h01 vals g]
  exact hostScatterAdd_scale d R (cw ix0) (fun j => vals (ix1 (n := M) (j 0))) g hc (fun j => hv _) hg i

/-- A change of shape of an array of reals is an array of reals: each entry is an entry of the operand. -/
theorem isReal_shapeCast {s t : Shape} (x : s.Idx → EReal) (h : s.ShapeCasts t) (hx : ∀ i, IsReal (x i))
    (j : t.Idx) : IsReal (shapeCast t x h j) := by
  unfold shapeCast
  exact hx _

/-- A slice of an array of reals is an array of reals: each entry is an entry of the operand. -/
theorem isReal_slice {s t : Shape} (off : Fin s.rank → Nat) (x : s.Idx → EReal) (h : s.Slices off t)
    (hx : ∀ i, IsReal (x i)) (j : t.Idx) : IsReal (extractStridedSlice t off x h j) := by
  unfold extractStridedSlice
  exact hx _

/-- A gather from an array of reals is an array of reals: each entry is an entry of the operand. -/
theorem isReal_gather {s si t : Shape} {w : Nat} (d : GatherDims s si t) (x : s.Idx → EReal) (idx : IVec si w)
    (hx : ∀ i, IsReal (x i)) (j : t.Idx) : IsReal (Host.gather d x idx j) := by
  unfold Host.gather
  exact hx _

/-- A matrix product of arrays of reals is an array of reals: each entry is a finite sum of products
    of reals. -/
theorem isReal_matProd {m k n : Nat} (A : (⟨2, ![m, k]⟩ : Shape).Idx → EReal) (B : (⟨2, ![k, n]⟩ : Shape).Idx → EReal)
    (hA : ∀ i, IsReal (A i)) (hB : ∀ i, IsReal (B i)) (i : (⟨2, ![m, n]⟩ : Shape).Idx) :
    IsReal (Cert.Lib.MatProd.matProd A B i) := by
  unfold Cert.Lib.MatProd.matProd
  exact isReal_sum _ _ fun c _ => (hA _).mul (hB _)

end Cert.LibSupportScale

end
-- ==== Proof.LibColumnBlocks.lean ====
/-
  Index lemmas for arrays handled column by column.

  `slice_col_apply`: column `c` of an R×C array, cut out as an R×1 slice, holds at row `r` the array's entry (r, c).
  `concat16_cols_apply`: sixteen R×1 columns laid side by side into an R×16 array hold at (r, q) column `q`'s entry
  at row `r`; `concat16_vals_apply` is the same with the columns named one by one.
-/
import Idealize.ShloMosaic.Lib.Pipeline.Value
import Idealize.ShloMosaic.Lib.ValueIdx

noncomputable section

namespace ColumnBlocks

open Idealize.ShloMosaic Idealize.ShloMosaic.ValueIdx

variable {α : Type}

/-- Column `c` of an R×C array as an R×1 slice, at row `r`: the array at (r, c). -/
theorem slice_col_apply {R C : Nat} (x : (⟨2, ![R, C]⟩ : Shape).Idx → α) (c : Nat) (hc : c < C)
    (h : (⟨2, ![R, C]⟩ : Shape).Slices ![0, c] ⟨2, ![R, 1]⟩) (r : Fin R) :
    extractStridedSlice ⟨2, ![R, 1]⟩ ![0, c] x h (ix2 r (0 : Fin 1)) = x (ix2 r ⟨c, hc⟩) :=
  extractStridedSlice_apply ![0, c] x h (ix2 r (0 : Fin 1)) (ix2 r ⟨c, hc⟩) fun a => by
    match a with
    | ⟨0, _⟩ => show r.val = 0 + r.val; omega
    | ⟨1, _⟩ => show c = c + 0; rfl

/-- Sixteen R×1 columns side by side, read at (r, q): column `q` at row `r`. -/
theorem concat16_cols_apply {R : Nat} (col : Fin 16 → ((⟨2, ![R, 1]⟩ : Shape).Idx → α))
    (h : Shape.Concatenates [(⟨2, ![R, 1]⟩ : Shape), (⟨2, ![R, 1]⟩ : Shape), (⟨2, ![R, 1]⟩ : Shape), (⟨2, ![R, 1]⟩ : Shape), (⟨2, ![R, 1]⟩ : Shape), (⟨2, ![R, 1]⟩ : Shape), (⟨2, ![R, 1]⟩ : Shape), (⟨2, ![R, 1]⟩ : Shape), (⟨2, ![R, 1]⟩ : Shape), (⟨2, ![R, 1]⟩ : Shape), (⟨2, ![R, 1]⟩ : Shape), (⟨2, ![R, 1]⟩ : Shape), (⟨2, ![R, 1]⟩ : Shape), (⟨2, ![R, 1]⟩ : Shape), (⟨2, ![R, 1]⟩ : Shape), (⟨2, ![R, 1]⟩ : Shape)] ⟨2, ![R, 16]⟩ (1 : Fin 2))
    (r : Fin R) (q : Fin 16) :
    concatenate ⟨2, ![R, 16]⟩ (1 : Fin 2)
      [⟨(⟨2, ![R, 1]⟩ : Shape), col 0⟩, ⟨(⟨2, ![R, 1]⟩ : Shape), col 1⟩, ⟨(⟨2, ![R, 1]⟩ : Shape), col 2⟩, ⟨(⟨2, ![R, 1]⟩ : Shape), col 3⟩, ⟨(⟨2, ![R, 1]⟩ : Shape), col 4⟩, ⟨(⟨2, ![R, 1]⟩ : Shape), col 5⟩, ⟨(⟨2, ![R, 1]⟩ : Shape), col 6⟩, ⟨(⟨2, ![R, 1]⟩ : Shape), col 7⟩, ⟨(⟨2, ![R, 1]⟩ : Shape), col 8⟩, ⟨(⟨2, ![R, 1]⟩ : Shape), col 9⟩, ⟨(⟨2, ![R, 1]⟩ : Shape), col 10⟩, ⟨(⟨2, ![R, 1]⟩ : Shape), col 11⟩, ⟨(⟨2, ![R, 1]⟩ : Shape), col 12⟩, ⟨(⟨2, ![R, 1]⟩ : Shape), col 13⟩, ⟨(⟨2, ![R, 1]⟩ : Shape), col 14⟩, ⟨(⟨2, ![R, 1]⟩ : Shape), col 15⟩] h (ix2 r q)
      = col q (ix2 r (0 : Fin 1)) :=
  concatenate_ofFn_unit_apply (t := ⟨2, ![R, 16]⟩) (s₁ := ⟨2, ![R, 1]⟩) (1 : Fin 2) col h rfl rfl (ix2 r q) q rfl
    (ix2 r (0 : Fin 1)) fun b hb => by
      match b with
      | ⟨0, _⟩ => rfl
      | ⟨1, _⟩ => exact absurd rfl hb

/-- The same with the sixteen columns named one by one: the entry at (r, q) is the `q`-th of the sixteen values the
    columns hold at row `r`. -/
theorem concat16_vals_apply {R : Nat} (c0 c1 c2 c3 c4 c5 c6 c7 c8 c9 c10 c11 c12 c13 c14 c15 : (⟨2, ![R, 1]⟩ : Shape).Idx → α)
    (h : Shape.Concatenates [(⟨2, ![R, 1]⟩ : Shape), (⟨2, ![R, 1]⟩ : Shape), (⟨2, ![R, 1]⟩ : Shape), (⟨2, ![R, 1]⟩ : Shape), (⟨2, ![R, 1]⟩ : Shape), (⟨2, ![R, 1]⟩ : Shape), (⟨2, ![R, 1]⟩ : Shape), (⟨2, ![R, 1]⟩ : Shape), (⟨2, ![R, 1]⟩ : Shape), (⟨2, ![R, 1]⟩ : Shape), (⟨2, ![R, 1]⟩ : Shape), (⟨2, ![R, 1]⟩ : Shape), (⟨2, ![R, 1]⟩ : Shape), (⟨2, ![R, 1]⟩ : Shape), (⟨2, ![R, 1]⟩ : Shape), (⟨2, ![R, 1]⟩ : Shape)] ⟨2, ![R, 16]⟩ (1 : Fin 2))
    (r : Fin R) (q : Fin 16) :
    concatenate ⟨2, ![R, 16]⟩ (1 : Fin 2)
      [⟨(⟨2, ![R, 1]⟩ : Shape), c0⟩, ⟨(⟨2, ![R, 1]⟩ : Shape), c1⟩, ⟨(⟨2, ![R, 1]⟩ : Shape), c2⟩, ⟨(⟨2, ![R, 1]⟩ : Shape), c3⟩, ⟨(⟨2, ![R, 1]⟩ : Shape), c4⟩, ⟨(⟨2, ![R, 1]⟩ : Shape), c5⟩, ⟨(⟨2, ![R, 1]⟩ : Shape), c6⟩, ⟨(⟨2, ![R, 1]⟩ : Shape), c7⟩, ⟨(⟨2, ![R, 1]⟩ : Shape), c8⟩, ⟨(⟨2, ![R, 1]⟩ : Shape), c9⟩, ⟨(⟨2, ![R, 1]⟩ : Shape), c10⟩, ⟨(⟨2, ![R, 1]⟩ : Shape), c11⟩, ⟨(⟨2, ![R, 1]⟩ : Shape), c12⟩, ⟨(⟨2, ![R, 1]⟩ : Shape), c13⟩, ⟨(⟨2, ![R, 1]⟩ : Shape), c14⟩, ⟨(⟨2, ![R, 1]⟩ : Shape), c15⟩] h (ix2 r q)
      = (![c0 (ix2 r (0 : Fin 1)), c1 (ix2 r (0 : Fin 1)), c2 (ix2 r (0 : Fin 1)), c3 (ix2 r (0 : Fin 1)), c4 (ix2 r (0 : Fin 1)), c5 (ix2 r (0 : Fin 1)), c6 (ix2 r (0 : Fin 1)), c7 (ix2 r (0 : Fin 1)), c8 (ix2 r (0 : Fin 1)), c9 (ix2 r (0 : Fin 1)), c10 (ix2 r (0 : Fin 1)), c11 (ix2 r (0 : Fin 1)), c12 (ix2 r (0 : Fin 1)), c13 (ix2 r (0 : Fin 1)), c14 (ix2 r (0 : Fin 1)), c15 (ix2 r (0 : Fin 1))] : Fin 16 → α) q := by
  refine (concat16_cols_apply ![c0, c1, c2, c3, c4, c5, c6, c7, c8, c9, c10, c11, c12, c13, c14, c15] h r q).trans ?_
  fin_cases q <;> rfl

end ColumnBlocks

end
-- ==== Proof.LibRowVector.lean ====
/-
  A vector of n entries as the single row of a 1×n array, and that row repeated down the r rows of an r×n array, read
  at an index: the re-shaping [n]→[1,n], the reference's broadcast of a vector along the columns of a 1×n array, its
  broadcast of a 1×n row into an r×n array, and its broadcast of a scalar into an array of any shape. Nothing here
  mentions a program.
-/
import Idealize.ShloMosaic.Lib.ValueIdx
import Idealize.ShloMosaic.Lib.Pipeline.Value
import Idealize.ShloMosaic.Lib.ValueLayout
import proofs.«123560_j36206574305716_2_alg».proof.Proof.LibRowReductions

namespace Cert.Lib.RowVector

open Idealize.ShloMosaic Idealize.ShloMosaic.ValueIdx

variable {α : Type} {r n : Nat}

/-- A vector of n entries as the single row of a 1×n array: entry (0, q) is entry q. -/
def asRow (x : (⟨1, ![n]⟩ : Shape).Idx → α) : (⟨2, ![1, n]⟩ : Shape).Idx → α := fun i => x (ix1 (i 1))

theorem asRow_apply (x : (⟨1, ![n]⟩ : Shape).Idx → α) (q : Fin n) : asRow x (ix2 0 q) = x (ix1 q) := rfl

/-- Every index of a 1×n array is in row 0. -/
theorem idx_row (i : (⟨2, ![1, n]⟩ : Shape).Idx) : i = ix2 0 (i 1) := by
  funext d
  match d with
  | ⟨0, _⟩ =>
    have h : (i 0).val < 1 := (i 0).isLt
    exact Fin.ext (by show (i 0).val = 0; omega)
  | ⟨1, _⟩ => rfl

/-- The re-shaping [n]→[1,n] is `asRow`. -/
theorem shapeCast_eq_asRow (x : (⟨1, ![n]⟩ : Shape).Idx → α) (h : (⟨1, ![n]⟩ : Shape).ShapeCasts ⟨2, ![1, n]⟩) :
    shapeCast ⟨2, ![1, n]⟩ x h = asRow x := by
  funext i
  rw [idx_row i]
  exact Cert.Lib.RowReductions.shapeCast_rowvec_apply x h (i 1)

/-- The reference's broadcast of a vector along the columns of a 1×n array is `asRow`. -/
theorem bcastInDim_eq_asRow (x : (⟨1, ![n]⟩ : Shape).Idx → α)
    (h : (⟨1, ![n]⟩ : Shape).BroadcastsInDim ⟨2, ![1, n]⟩ ![1]) :
    broadcastInDim ⟨2, ![1, n]⟩ ![1] h x = asRow x := by
  funext i
  rw [idx_row i]
  refine broadcastInDim_apply _ h x _ _ fun ax => ?_
  match ax with
  | ⟨0, _⟩ =>
    show (i 1).val = if n = 1 then 0 else (i 1).val
    have h1 : (i 1).val < n := (i 1).isLt
    split_ifs with hn
    · omega
    · rfl

/-- A 1×n row broadcast into an r×n array, axis for axis, reads its entry q at every (p, q). -/
theorem bcastInDim_rows_apply (x : (⟨2, ![1, n]⟩ : Shape).Idx → α)
    (h : (⟨2, ![1, n]⟩ : Shape).BroadcastsInDim ⟨2, ![r, n]⟩ ![0, 1]) (p : Fin r) (q : Fin n) :
    broadcastInDim ⟨2, ![r, n]⟩ ![0, 1] h x (ix2 p q) = x (ix2 0 q) :=
  broadcastInDim_apply _ h x _ _ fun ax => by
    match ax with
    | ⟨0, _⟩ =>
      show (0 : Nat) = if (1 : Nat) = 1 then 0 else p.val
      rw [if_pos rfl]
    | ⟨1, _⟩ =>
      show q.val = if n = 1 then 0 else q.val
      split_ifs with hn
      · have := q.isLt; omega
      · rfl

/-- A scalar broadcast into an array of any shape reads the scalar at every index. -/
theorem bcastInDim_scalar_apply {s : Shape} (x : (⟨0, ![]⟩ : Shape).Idx → α)
    (h : (⟨0, ![]⟩ : Shape).BroadcastsInDim s ![]) (i : s.Idx) : broadcastInDim s ![] h x i = x ix0 :=
  broadcastInDim_apply _ h x _ _ fun ax => ax.elim0

end Cert.Lib.RowVector
-- ==== Proof.LibMeanAggLayer.lean ====
/-
  One mean-aggregation graph layer on the extended reals, as a function of whole arrays.

  For an r×k array A of summed neighbour features, an r×1 column s of per-row scales, an r×k array X of the rows' own
  features, two k×n weight matrices Wl, Wr and a 1×n bias row b,
      layer A X s Wl b Wr (p, q) = (∑ c, (A(p, c) · s(p, 0)) · Wl(c, q)) + b(0, q) + ∑ c, X(p, c) · Wr(c, q),
  and reluLayer is that joined entry by entry with the zero word. An entry depends on one row of A, X and s, so a block of
  rows of the three gives the same rows of the layer. A kernel body spells the layer with a column broadcast, two
  products into zero accumulators and a row broadcast; a host program spells it with a quotient by the per-row
  divisor, two dot_generals and two broadcast_in_dims. The two agree because, on the extended reals, a quotient by a
  nonzero y is the product with y⁻¹, and so is the product with the quotient 1 / y — whether or not y is finite.
  Nothing here mentions a program.
-/
import Idealize.ShloMosaic.PureOps.Ideal.Laws
import Idealize.ShloMosaic.Lib.ValueIdx
import Idealize.ShloMosaic.Lib.Pipeline.Value
import proofs.«123560_j36206574305716_2_alg».proof.Proof.LibBlockReads
import proofs.«123560_j36206574305716_2_alg».proof.Proof.LibMatProd
import proofs.«123560_j36206574305716_2_alg».proof.Proof.LibRowReductions
import proofs.«123560_j36206574305716_2_alg».proof.Proof.LibRowVector

open scoped BigOperators

noncomputable section

namespace Cert.Sage

open Idealize.ShloMosaic Idealize.ShloMosaic.ValueIdx Cert.Lib.MatProd

variable {r r' k n : Nat}

/-- Every row of A multiplied by that row's scale. -/
def scaleRows (A : (⟨2, ![r, k]⟩ : Shape).Idx → EReal) (s : (⟨2, ![r, 1]⟩ : Shape).Idx → EReal) :
    (⟨2, ![r, k]⟩ : Shape).Idx → EReal :=
  fun j => A j * s (ix2 (⟨(j 0).val, idx2_lt0 j⟩ : Fin r) (0 : Fin 1))

theorem scaleRows_apply (A : (⟨2, ![r, k]⟩ : Shape).Idx → EReal) (s : (⟨2, ![r, 1]⟩ : Shape).Idx → EReal)
    (p : Fin r) (c : Fin k) : scaleRows A s (ix2 p c) = A (ix2 p c) * s (ix2 p 0) := rfl

/-- The layer without the maximum. -/
def layer (A X : (⟨2, ![r, k]⟩ : Shape).Idx → EReal) (s : (⟨2, ![r, 1]⟩ : Shape).Idx → EReal)
    (Wl : (⟨2, ![k, n]⟩ : Shape).Idx → EReal) (b : (⟨2, ![1, n]⟩ : Shape).Idx → EReal)
    (Wr : (⟨2, ![k, n]⟩ : Shape).Idx → EReal) : (⟨2, ![r, n]⟩ : Shape).Idx → EReal :=
  fun i => matProd (scaleRows A s) Wl i + b (ix2 (0 : Fin 1) (⟨(i 1).val, idx2_lt1 i⟩ : Fin n)) + matProd X Wr i

theorem layer_apply (A X : (⟨2, ![r, k]⟩ : Shape).Idx → EReal) (s : (⟨2, ![r, 1]⟩ : Shape).Idx → EReal)
    (Wl : (⟨2, ![k, n]⟩ : Shape).Idx → EReal) (b : (⟨2, ![1, n]⟩ : Shape).Idx → EReal)
    (Wr : (⟨2, ![k, n]⟩ : Shape).Idx → EReal) (p : Fin r) (q : Fin n) :
    layer A X s Wl b Wr (ix2 p q)
      = matProd (scaleRows A s) Wl (ix2 p q) + b (ix2 0 q) + matProd X Wr (ix2 p q) := rfl

/-- The layer joined with the zero word. -/
def reluLayer (A X : (⟨2, ![r, k]⟩ : Shape).Idx → EReal) (s : (⟨2, ![r, 1]⟩ : Shape).Idx → EReal)
    (Wl : (⟨2, ![k, n]⟩ : Shape).Idx → EReal) (b : (⟨2, ![1, n]⟩ : Shape).Idx → EReal)
    (Wr : (⟨2, ![k, n]⟩ : Shape).Idx → EReal) : (⟨2, ![r, n]⟩ : Shape).Idx → EReal :=
  fun i => max (layer A X s Wl b Wr i) (Ideal.ofBits .f32 0x00000000#32)

/-- If row p of A', X', s' is row ρ p of A, X, s, then row p of the layer of the primed arrays is row ρ p of the
    layer of the whole ones. -/
theorem layer_rows (A X : (⟨2, ![r, k]⟩ : Shape).Idx → EReal) (s : (⟨2, ![r, 1]⟩ : Shape).Idx → EReal)
    (A' X' : (⟨2, ![r', k]⟩ : Shape).Idx → EReal) (s' : (⟨2, ![r', 1]⟩ : Shape).Idx → EReal)
    (Wl : (⟨2, ![k, n]⟩ : Shape).Idx → EReal) (b : (⟨2, ![1, n]⟩ : Shape).Idx → EReal)
    (Wr : (⟨2, ![k, n]⟩ : Shape).Idx → EReal) (ρ : Fin r' → Fin r)
    (hA : ∀ (p : Fin r') (c : Fin k), A' (ix2 p c) = A (ix2 (ρ p) c))
    (hX : ∀ (p : Fin r') (c : Fin k), X' (ix2 p c) = X (ix2 (ρ p) c))
    (hs : ∀ p : Fin r', s' (ix2 p 0) = s (ix2 (ρ p) 0)) (p : Fin r') (q : Fin n) :
    layer A' X' s' Wl b Wr (ix2 p q) = layer A X s Wl b Wr (ix2 (ρ p) q) := by
  rw [layer_apply, layer_apply,
    matProd_block (scaleRows A s) (scaleRows A' s') Wl Wl p q (ρ p) q
      (fun c => by rw [scaleRows_apply, scaleRows_apply, hA p c, hs p]) (fun _ => rfl),
    matProd_block X X' Wr Wr p q (ρ p) q (hX p) (fun _ => rfl)]

theorem reluLayer_rows (A X : (⟨2, ![r, k]⟩ : Shape).Idx → EReal) (s : (⟨2, ![r, 1]⟩ : Shape).Idx → EReal)
    (A' X' : (⟨2, ![r', k]⟩ : Shape).Idx → EReal) (s' : (⟨2, ![r', 1]⟩ : Shape).Idx → EReal)
    (Wl : (⟨2, ![k, n]⟩ : Shape).Idx → EReal) (b : (⟨2, ![1, n]⟩ : Shape).Idx → EReal)
    (Wr : (⟨2, ![k, n]⟩ : Shape).Idx → EReal) (ρ : Fin r' → Fin r)
    (hA : ∀ (p : Fin r') (c : Fin k), A' (ix2 p c) = A (ix2 (ρ p) c))
    (hX : ∀ (p : Fin r') (c : Fin k), X' (ix2 p c) = X (ix2 (ρ p) c))
    (hs : ∀ p : Fin r', s' (ix2 p 0) = s (ix2 (ρ p) 0)) (p : Fin r') (q : Fin n) :
    reluLayer A' X' s' Wl b Wr (ix2 p q) = reluLayer A X s Wl b Wr (ix2 (ρ p) q) := by
  show max _ _ = max _ _
  rw [layer_rows A X s A' X' s' Wl b Wr ρ hA hX hs p q]

/-! ## The kernel body's spelling -/

/-- The body: the rows of A times the broadcast column of scales, two products into zero accumulators, the bias row
    broadcast down the rows. -/
theorem body_layer (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (a x : FVec Ideal ⟨2, ![r, k]⟩ .f32) (s : FVec Ideal ⟨2, ![r, 1]⟩ .f32) (wl wr : FVec Ideal ⟨2, ![k, n]⟩ .f32)
    (b : FVec Ideal ⟨2, ![1, n]⟩ .f32) (hs : (⟨2, ![r, 1]⟩ : Shape).Broadcasts ⟨2, ![r, k]⟩)
    (hb : (⟨2, ![1, n]⟩ : Shape).Broadcasts ⟨2, ![r, n]⟩) (h16 : FTy.bf16.bits < FTy.f32.bits) :
    addf (addf (matmul d none (truncf .bf16 (mulf a (broadcastTo ⟨2, ![r, k]⟩ s hs)) h16) (truncf .bf16 wl h16)
        (constant ⟨2, ![r, n]⟩ .f32 0x00000000#32)) (broadcastTo ⟨2, ![r, n]⟩ b hb))
      (matmul d none (truncf .bf16 x h16) (truncf .bf16 wr h16) (constant ⟨2, ![r, n]⟩ .f32 0x00000000#32))
      = layer a x s wl b wr := by
  rw [matmul_zero_eq_matProd d hlc hrc hln hrn hlb hrb, matmul_zero_eq_matProd d hlc hrc hln hrn hlb hrb]
  funext i
  obtain ⟨p, q, rfl⟩ : ∃ (p : Fin r) (q : Fin n), i = ix2 p q := ⟨i 0, i 1, eq_ix2 i⟩
  rw [addf_apply, addf_apply, Cert.Lib.BlockReads.broadcast_row_apply, layer_apply]
  have hA : ∀ c : Fin k, (truncf .bf16 (mulf a (broadcastTo ⟨2, ![r, k]⟩ s hs)) h16 : FVec Ideal _ .bf16) (ix2 p c)
      = scaleRows a s (ix2 p c) := fun c => by
    show a (ix2 p c) * broadcastTo ⟨2, ![r, k]⟩ s hs (ix2 p c) = _
    rw [Cert.Lib.RowReductions.broadcast_col_apply, scaleRows_apply]
  rw [matProd_block (scaleRows a s) _ wl (truncf .bf16 wl h16) p q p q hA (fun _ => rfl),
    matProd_block x (truncf .bf16 x h16) wr (truncf .bf16 wr h16) p q p q (fun _ => rfl) (fun _ => rfl)]

/-- The same joined with a splat of the zero word. -/
theorem body_reluLayer (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (a x : FVec Ideal ⟨2, ![r, k]⟩ .f32) (s : FVec Ideal ⟨2, ![r, 1]⟩ .f32) (wl wr : FVec Ideal ⟨2, ![k, n]⟩ .f32)
    (b : FVec Ideal ⟨2, ![1, n]⟩ .f32) (hs : (⟨2, ![r, 1]⟩ : Shape).Broadcasts ⟨2, ![r, k]⟩)
    (hb : (⟨2, ![1, n]⟩ : Shape).Broadcasts ⟨2, ![r, n]⟩) (h16 : FTy.bf16.bits < FTy.f32.bits) :
    maximumf (addf (addf (matmul d none (truncf .bf16 (mulf a (broadcastTo ⟨2, ![r, k]⟩ s hs)) h16) (truncf .bf16 wl h16)
        (constant ⟨2, ![r, n]⟩ .f32 0x00000000#32)) (broadcastTo ⟨2, ![r, n]⟩ b hb))
      (matmul d none (truncf .bf16 x h16) (truncf .bf16 wr h16) (constant ⟨2, ![r, n]⟩ .f32 0x00000000#32)))
      (broadcast ⟨2, ![r, n]⟩ (Scalar.ofBits (F := Ideal) .f32 0x00000000#32))
      = reluLayer a x s wl b wr := by
  rw [body_layer d hlc hrc hln hrn hlb hrb a x s wl wr b hs hb h16]
  funext i
  rw [maximumf_apply]
  rfl

/-! ## The quotient and the scale -/

/-- A quotient by a nonzero y is the product with the quotient of 1 by y: both are the product with y⁻¹. -/
theorem div_eq_mul_one_div (a y : EReal) (hy : y ≠ 0) : Ideal.div a y = a * Ideal.div 1 y := by
  rw [Ideal.div, Ideal.div, if_neg hy, if_neg hy, one_mul]

/-- The single-precision word 3F800000 is the number 1. -/
theorem one_f32 : Ideal.ofBits .f32 0x3F800000#32 = (1 : EReal) :=
  IdealRules.sign_bit.ideal_onePat .f32

/-- The larger of anything and 1 is not 0. -/
theorem max_one_ne_zero (x : EReal) : max x (1 : EReal) ≠ 0 :=
  ne_of_gt (lt_of_lt_of_le zero_lt_one (le_max_right x 1))

/-! ## The host's spelling -/

/-- The reference: the rows of A divided by the per-row divisor (a vector broadcast to a column and across the
    columns), two dot_generals, the bias vector broadcast to a row and down the rows. When the divisor is nowhere 0
    this is the layer with the scales 1 / divisor, the column a re-shaping of the vector of quotients. -/
theorem host_layer (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (A X : FVec Ideal ⟨2, ![r, k]⟩ .f32) (cm ones : FVec Ideal ⟨1, ![r]⟩ .f32) (Wl Wr : FVec Ideal ⟨2, ![k, n]⟩ .f32)
    (b : FVec Ideal ⟨1, ![n]⟩ .f32)
    (h1 : (⟨1, ![r]⟩ : Shape).BroadcastsInDim ⟨2, ![r, 1]⟩ ![0])
    (h2 : (⟨2, ![r, 1]⟩ : Shape).BroadcastsInDim ⟨2, ![r, k]⟩ ![0, 1])
    (h3 : (⟨1, ![n]⟩ : Shape).BroadcastsInDim ⟨2, ![1, n]⟩ ![1])
    (h4 : (⟨2, ![1, n]⟩ : Shape).BroadcastsInDim ⟨2, ![r, n]⟩ ![0, 1])
    (hc : (⟨1, ![r]⟩ : Shape).ShapeCasts ⟨2, ![r, 1]⟩)
    (hcm : ∀ p : Fin r, cm (ix1 p) ≠ 0) (hones : ∀ p : Fin r, ones (ix1 p) = 1) :
    addf (addf (FloatOps.dotGeneral d prec sched
        (Host.divf A (broadcastInDim ⟨2, ![r, k]⟩ ![0, 1] h2 (broadcastInDim ⟨2, ![r, 1]⟩ ![0] h1 cm))) Wl)
        (broadcastInDim ⟨2, ![r, n]⟩ ![0, 1] h4 (broadcastInDim ⟨2, ![1, n]⟩ ![1] h3 b)))
      (FloatOps.dotGeneral d prec sched X Wr)
      = layer A X (shapeCast ⟨2, ![r, 1]⟩ (Host.divf ones cm) hc) Wl (broadcastInDim ⟨2, ![1, n]⟩ ![1] h3 b) Wr := by
  rw [dotGeneral_eq_matProd d hlc hrc hln hrn hlb hrb, dotGeneral_eq_matProd d hlc hrc hln hrn hlb hrb]
  funext i
  obtain ⟨p, q, rfl⟩ : ∃ (p : Fin r) (q : Fin n), i = ix2 p q := ⟨i 0, i 1, eq_ix2 i⟩
  rw [addf_apply, addf_apply, Cert.Lib.RowVector.bcastInDim_rows_apply, layer_apply]
  have hA : ∀ c : Fin k, (Host.divf A (broadcastInDim ⟨2, ![r, k]⟩ ![0, 1] h2
      (broadcastInDim ⟨2, ![r, 1]⟩ ![0] h1 cm)) : FVec Ideal _ .f32) (ix2 p c)
      = scaleRows A (shapeCast ⟨2, ![r, 1]⟩ (Host.divf ones cm) hc) (ix2 p c) := fun c => by
    show Ideal.div (A (ix2 p c)) (broadcastInDim ⟨2, ![r, k]⟩ ![0, 1] h2
      (broadcastInDim ⟨2, ![r, 1]⟩ ![0] h1 cm) (ix2 p c)) = _
    rw [Cert.Lib.RowReductions.bcastInDim_cols_apply, Cert.Lib.RowReductions.bcastInDim_col_apply, scaleRows_apply,
      Cert.Lib.RowReductions.shapeCast_col_apply]
    show _ = A (ix2 p c) * Ideal.div (ones (ix1 p)) (cm (ix1 p))
    rw [hones p, div_eq_mul_one_div _ _ (hcm p)]
  rw [matProd_block (scaleRows A (shapeCast ⟨2, ![r, 1]⟩ (Host.divf ones cm) hc)) _ Wl _ p q p q hA (fun _ => rfl)]

/-- The reference's maximum with a broadcast zero constant, after the layer. -/
theorem host_reluLayer (A X : (⟨2, ![r, k]⟩ : Shape).Idx → EReal) (s : (⟨2, ![r, 1]⟩ : Shape).Idx → EReal)
    (Wl : (⟨2, ![k, n]⟩ : Shape).Idx → EReal) (b : (⟨2, ![1, n]⟩ : Shape).Idx → EReal)
    (Wr : (⟨2, ![k, n]⟩ : Shape).Idx → EReal) (h0 : (⟨0, ![]⟩ : Shape).BroadcastsInDim ⟨2, ![r, n]⟩ ![]) :
    maximumf (F := Ideal) (s := ⟨2, ![r, n]⟩) (φ := .f32) (layer A X s Wl b Wr)
      (broadcastInDim ⟨2, ![r, n]⟩ ![] h0 (constant (F := Ideal) ⟨0, ![]⟩ .f32 0x00000000#32))
      = reluLayer A X s Wl b Wr := by
  funext i
  rw [maximumf_apply, Cert.Lib.RowReductions.bcastInDim_scalar_apply]
  rfl

/-! ## A block of consecutive rows -/

/-- A block of r' consecutive rows starting at row o: if the primed arrays hold rows o, o+1, … of A, X and s, and the
    same weights and bias, then the layer of the block at y is the layer of the whole arrays at the index i that
    lies o rows below y in the same column. -/
theorem layer_block (A X : (⟨2, ![r, k]⟩ : Shape).Idx → EReal) (s : (⟨2, ![r, 1]⟩ : Shape).Idx → EReal)
    (A' X' : (⟨2, ![r', k]⟩ : Shape).Idx → EReal) (s' : (⟨2, ![r', 1]⟩ : Shape).Idx → EReal)
    (Wl Wl' : (⟨2, ![k, n]⟩ : Shape).Idx → EReal) (b b' : (⟨2, ![1, n]⟩ : Shape).Idx → EReal)
    (Wr Wr' : (⟨2, ![k, n]⟩ : Shape).Idx → EReal) (o : Nat) (ho : o + r' ≤ r)
    (hA : ∀ (p : Fin r') (c : Fin k), A' (ix2 p c) = A (ix2 (⟨o + p.val, by omega⟩ : Fin r) c))
    (hX : ∀ (p : Fin r') (c : Fin k), X' (ix2 p c) = X (ix2 (⟨o + p.val, by omega⟩ : Fin r) c))
    (hs : ∀ p : Fin r', s' (ix2 p 0) = s (ix2 (⟨o + p.val, by omega⟩ : Fin r) 0))
    (hWl : Wl' = Wl) (hb : b' = b) (hWr : Wr' = Wr)
    (y : (⟨2, ![r', n]⟩ : Shape).Idx) (i : (⟨2, ![r, n]⟩ : Shape).Idx)
    (h0 : (i 0).val = o + (y 0).val) (h1 : (i 1).val = (y 1).val) :
    layer A' X' s' Wl' b' Wr' y = layer A X s Wl b Wr i := by
  subst hWl hb hWr
  obtain ⟨p, q, rfl⟩ : ∃ (p : Fin r') (q : Fin n), y = ix2 p q := ⟨y 0, y 1, eq_ix2 y⟩
  have hp : o + p.val < r := by have := p.isLt; omega
  obtain ⟨p', q', rfl⟩ : ∃ (p' : Fin r) (q' : Fin n), i = ix2 p' q' := ⟨i 0, i 1, eq_ix2 i⟩
  have e0 : p' = (⟨o + p.val, hp⟩ : Fin r) := Fin.ext h0
  have e1 : q' = q := Fin.ext h1
  rw [e0, e1]
  exact layer_rows A X s A' X' s' Wl' b' Wr' (fun p => ⟨o + p.val, by have := p.isLt; omega⟩) hA hX hs p q

theorem reluLayer_block (A X : (⟨2, ![r, k]⟩ : Shape).Idx → EReal) (s : (⟨2, ![r, 1]⟩ : Shape).Idx → EReal)
    (A' X' : (⟨2, ![r', k]⟩ : Shape).Idx → EReal) (s' : (⟨2, ![r', 1]⟩ : Shape).Idx → EReal)
    (Wl Wl' : (⟨2, ![k, n]⟩ : Shape).Idx → EReal) (b b' : (⟨2, ![1, n]⟩ : Shape).Idx → EReal)
    (Wr Wr' : (⟨2, ![k, n]⟩ : Shape).Idx → EReal) (o : Nat) (ho : o + r' ≤ r)
    (hA : ∀ (p : Fin r') (c : Fin k), A' (ix2 p c) = A (ix2 (⟨o + p.val, by omega⟩ : Fin r) c))
    (hX : ∀ (p : Fin r') (c : Fin k), X' (ix2 p c) = X (ix2 (⟨o + p.val, by omega⟩ : Fin r) c))
    (hs : ∀ p : Fin r', s' (ix2 p 0) = s (ix2 (⟨o + p.val, by omega⟩ : Fin r) 0))
    (hWl : Wl' = Wl) (hb : b' = b) (hWr : Wr' = Wr)
    (y : (⟨2, ![r', n]⟩ : Shape).Idx) (i : (⟨2, ![r, n]⟩ : Shape).Idx)
    (h0 : (i 0).val = o + (y 0).val) (h1 : (i 1).val = (y 1).val) :
    reluLayer A' X' s' Wl' b' Wr' y = reluLayer A X s Wl b Wr i := by
  show max _ _ = max _ _
  rw [layer_block A X s A' X' s' Wl Wl' b b' Wr Wr' o ho hA hX hs hWl hb hWr y i h0 h1]

end Cert.Sage

end
-- ==== Proof.LibHeteroSage.lean ====
/-
  Two edge types' mean-aggregation convolutions summed into one node type, on the extended reals, as functions
  of whole arrays.

  For r×k arrays A, B of summed neighbour features (one per edge type), an r×k array X of the rows' own features,
  per-row divisors ma, mb, k×n weight matrices and bias vectors,
      conv A X m Wl Wr b (p, q) = (∑ c, (A(p, c) / m(p)) · Wl(c, q)) + b(q) + ∑ c, X(p, c) · Wr(c, q)
  is one convolution and `hetero` the sum of the two into the node type. A fused form keeps the reciprocals of the
  divisors in two columns of an r×4 array s, multiplies instead of dividing, and adds the two own-feature weight
  matrices and the two biases beforehand:
      combine … (p, q) = (∑ c, (A(p, c)·s(p, ja))·Wa(c, q)) + (∑ c, (B(p, c)·s(p, jb))·Wb(c, q)) + (∑ c, X(p, c)·Wc(c, q)) + b(0, q).
  The two agree when X and the own-feature weights are reals: a quotient by a nonzero y is the product with 1 / y on
  all extended reals, sums may be regrouped freely, but x·(u + v) = x·u + x·v needs x, u, v finite. An entry depends
  on one row of A, B, X and s, so a block of rows gives the same rows. Reals in give reals out. A kernel body's and a
  host program's spellings of the two forms are read once. Nothing here mentions a program.
-/
import Idealize.ShloMosaic.PureOps.Ideal.Laws
import Idealize.ShloMosaic.Lib.ValueIdx
import Idealize.ShloMosaic.Lib.Pipeline.Value
import proofs.«123560_j36206574305716_2_alg».proof.Proof.LibBlockReads
import proofs.«123560_j36206574305716_2_alg».proof.Proof.LibMatProd
import proofs.«123560_j36206574305716_2_alg».proof.Proof.LibRowReductions
import proofs.«123560_j36206574305716_2_alg».proof.Proof.LibScatterScale
import proofs.«123560_j36206574305716_2_alg».proof.Proof.LibSupportScale
import proofs.«123560_j36206574305716_2_alg».proof.Proof.LibColumnBlocks
import proofs.«123560_j36206574305716_2_alg».proof.Proof.LibMeanAggLayer

open scoped BigOperators

noncomputable section

namespace Cert.HeteroSage

open Idealize.ShloMosaic Idealize.ShloMosaic.ValueIdx Cert.Lib.MatProd Cert.LibScatterScale

variable {r r' k n : Nat}

/-- An a×b array of extended reals; a vector of a entries. -/
abbrev Mat (a b : Nat) := (⟨2, ![a, b]⟩ : Shape).Idx → EReal
abbrev Vect (a : Nat) := (⟨1, ![a]⟩ : Shape).Idx → EReal

/-- The row and the column of an index of an r×n array. -/
def rowOf (i : (⟨2, ![r, n]⟩ : Shape).Idx) : Fin r := ⟨(i 0).val, idx2_lt0 i⟩
def colOf (i : (⟨2, ![r, n]⟩ : Shape).Idx) : Fin n := ⟨(i 1).val, idx2_lt1 i⟩

/-! ## The two forms -/

/-- Every row of A multiplied by that row's entry in column j of s. -/
def scaleCol (A : Mat r k) (s : Mat r 4) (j : Fin 4) : Mat r k := fun i => A i * s (ix2 (rowOf i) j)

theorem scaleCol_apply (A : Mat r k) (s : Mat r 4) (j : Fin 4) (p : Fin r) (c : Fin k) :
    scaleCol A s j (ix2 p c) = A (ix2 p c) * s (ix2 p j) := rfl

/-- The fused form. -/
def combine (A B X : Mat r k) (s : Mat r 4) (ja jb : Fin 4) (Wa Wb Wc : Mat k n) (b : Mat 1 n) : Mat r n :=
  fun i => ((matProd (scaleCol A s ja) Wa i + matProd (scaleCol B s jb) Wb i) + matProd X Wc i) + b (ix2 0 (colOf i))

theorem combine_apply (A B X : Mat r k) (s : Mat r 4) (ja jb : Fin 4) (Wa Wb Wc : Mat k n) (b : Mat 1 n) (p : Fin r) (q : Fin n) :
    combine A B X s ja jb Wa Wb Wc b (ix2 p q)
      = ((matProd (scaleCol A s ja) Wa (ix2 p q) + matProd (scaleCol B s jb) Wb (ix2 p q)) + matProd X Wc (ix2 p q)) + b (ix2 0 q) := rfl

/-- An array joined entry by entry with the zero word. -/
def relu (Y : Mat r n) : Mat r n := fun i => max (Y i) (Ideal.ofBits .f32 0x00000000#32)

/-- Every row of A divided by that row's divisor. -/
def divRows (A : Mat r k) (m : Vect r) : Mat r k := fun i => Ideal.div (A i) (m (ix1 (rowOf i)))

theorem divRows_apply (A : Mat r k) (m : Vect r) (p : Fin r) (c : Fin k) :
    divRows A m (ix2 p c) = Ideal.div (A (ix2 p c)) (m (ix1 p)) := rfl

/-- One convolution: the mean of the neighbours through Wl, the bias, the row's own features through Wr. -/
def conv (A X : Mat r k) (m : Vect r) (Wl Wr : Mat k n) (b : Vect n) : Mat r n :=
  fun i => (matProd (divRows A m) Wl i + b (ix1 (colOf i))) + matProd X Wr i

theorem conv_apply (A X : Mat r k) (m : Vect r) (Wl Wr : Mat k n) (b : Vect n) (p : Fin r) (q : Fin n) :
    conv A X m Wl Wr b (ix2 p q) = (matProd (divRows A m) Wl (ix2 p q) + b (ix1 q)) + matProd X Wr (ix2 p q) := rfl

/-- The two edge types' convolutions into one node type, added. -/
def hetero (A B X : Mat r k) (ma mb : Vect r) (Wla Wra Wlb Wrb : Mat k n) (ba bb : Vect n) : Mat r n :=
  fun i => conv A X ma Wla Wra ba i + conv B X mb Wlb Wrb bb i

/-! ## The fused form is the sum of the two convolutions -/

/-- Over reals a factor distributes over a sum of two. -/
theorem mul_add_of_isReal {x u v : EReal} (hx : IsReal x) (hu : IsReal u) (hv : IsReal v) : x * (u + v) = x * u + x * v := by
  obtain ⟨a, rfl⟩ := hx; obtain ⟨b, rfl⟩ := hu; obtain ⟨c, rfl⟩ := hv
  rw [← EReal.coe_add, ← EReal.coe_mul, ← EReal.coe_mul, ← EReal.coe_mul, ← EReal.coe_add, mul_add]

theorem combine_eq_hetero (A B X : Mat r k) (s : Mat r 4) (ja jb : Fin 4) (ma mb : Vect r)
    (Wla Wra Wlb Wrb Wc : Mat k n) (ba bb : Vect n) (b : Mat 1 n)
    (hsa : ∀ p : Fin r, s (ix2 p ja) = Ideal.div 1 (ma (ix1 p))) (hsb : ∀ p : Fin r, s (ix2 p jb) = Ideal.div 1 (mb (ix1 p)))
    (hma : ∀ p : Fin r, ma (ix1 p) ≠ 0) (hmb : ∀ p : Fin r, mb (ix1 p) ≠ 0)
    (hX : ∀ i, IsReal (X i)) (hWra : ∀ i, IsReal (Wra i)) (hWrb : ∀ i, IsReal (Wrb i))
    (hWc : ∀ i, Wc i = Wra i + Wrb i) (hb : ∀ q : Fin n, b (ix2 0 q) = ba (ix1 q) + bb (ix1 q)) :
    combine A B X s ja jb Wla Wlb Wc b = hetero A B X ma mb Wla Wra Wlb Wrb ba bb := by
  funext i
  obtain ⟨p, q, rfl⟩ : ∃ (p : Fin r) (q : Fin n), i = ix2 p q := ⟨i 0, i 1, eq_ix2 i⟩
  show ((matProd (scaleCol A s ja) Wla (ix2 p q) + matProd (scaleCol B s jb) Wlb (ix2 p q)) + matProd X Wc (ix2 p q)) + b (ix2 0 q)
    = ((matProd (divRows A ma) Wla (ix2 p q) + ba (ix1 q)) + matProd X Wra (ix2 p q))
      + ((matProd (divRows B mb) Wlb (ix2 p q) + bb (ix1 q)) + matProd X Wrb (ix2 p q))
  have e1 : matProd (scaleCol A s ja) Wla (ix2 p q) = matProd (divRows A ma) Wla (ix2 p q) :=
    matProd_block (divRows A ma) (scaleCol A s ja) Wla Wla p q p q
      (fun c => by rw [scaleCol_apply, divRows_apply, hsa p]; exact (Cert.Sage.div_eq_mul_one_div _ _ (hma p)).symm) (fun _ => rfl)
  have e2 : matProd (scaleCol B s jb) Wlb (ix2 p q) = matProd (divRows B mb) Wlb (ix2 p q) :=
    matProd_block (divRows B mb) (scaleCol B s jb) Wlb Wlb p q p q
      (fun c => by rw [scaleCol_apply, divRows_apply, hsb p]; exact (Cert.Sage.div_eq_mul_one_div _ _ (hmb p)).symm) (fun _ => rfl)
  have e3 : matProd X Wc (ix2 p q) = matProd X Wra (ix2 p q) + matProd X Wrb (ix2 p q) := by
    rw [matProd_apply, matProd_apply, matProd_apply, ← Finset.sum_add_distrib]
    exact Finset.sum_congr rfl fun c _ => by rw [hWc, mul_add_of_isReal (hX _) (hWra _) (hWrb _)]
  rw [e1, e2, e3, hb q]
  abel

/-! ## A block of rows gives the same rows -/

theorem combine_rows (A B X : Mat r k) (s : Mat r 4) (A' B' X' : Mat r' k) (s' : Mat r' 4) (ja jb : Fin 4)
    (Wa Wb Wc : Mat k n) (b : Mat 1 n) (ρ : Fin r' → Fin r)
    (hA : ∀ (p : Fin r') (c : Fin k), A' (ix2 p c) = A (ix2 (ρ p) c))
    (hB : ∀ (p : Fin r') (c : Fin k), B' (ix2 p c) = B (ix2 (ρ p) c))
    (hX : ∀ (p : Fin r') (c : Fin k), X' (ix2 p c) = X (ix2 (ρ p) c))
    (hs : ∀ (p : Fin r') (j : Fin 4), s' (ix2 p j) = s (ix2 (ρ p) j)) (p : Fin r') (q : Fin n) :
    combine A' B' X' s' ja jb Wa Wb Wc b (ix2 p q) = combine A B X s ja jb Wa Wb Wc b (ix2 (ρ p) q) := by
  rw [combine_apply, combine_apply,
    matProd_block (scaleCol A s ja) (scaleCol A' s' ja) Wa Wa p q (ρ p) q
      (fun c => by rw [scaleCol_apply, scaleCol_apply, hA p c, hs p]) (fun _ => rfl),
    matProd_block (scaleCol B s jb) (scaleCol B' s' jb) Wb Wb p q (ρ p) q
      (fun c => by rw [scaleCol_apply, scaleCol_apply, hB p c, hs p]) (fun _ => rfl),
    matProd_block X X' Wc Wc p q (ρ p) q (hX p) (fun _ => rfl)]

/-! ## Reals in, reals out -/

theorem isReal_ofBits_zero : IsReal (Ideal.ofBits .f32 0x00000000#32) := by
  rw [Ideal.ofBits_zero_f32]; exact IsReal.zero

theorem isReal_max {x y : EReal} (hx : IsReal x) (hy : IsReal y) : IsReal (max x y) := by
  rcases le_total x y with h | h
  · rw [max_eq_right h]; exact hy
  · rw [max_eq_left h]; exact hx

theorem isReal_relu (Y : Mat r n) (hY : ∀ i, IsReal (Y i)) (i : (⟨2, ![r, n]⟩ : Shape).Idx) : IsReal (relu Y i) :=
  isReal_max (hY i) isReal_ofBits_zero

theorem isReal_combine (A B X : Mat r k) (s : Mat r 4) (ja jb : Fin 4) (Wa Wb Wc : Mat k n) (b : Mat 1 n)
    (hA : ∀ i, IsReal (A i)) (hB : ∀ i, IsReal (B i)) (hX : ∀ i, IsReal (X i)) (hs : ∀ i, IsReal (s i))
    (hWa : ∀ i, IsReal (Wa i)) (hWb : ∀ i, IsReal (Wb i)) (hWc : ∀ i, IsReal (Wc i)) (hb : ∀ i, IsReal (b i))
    (i : (⟨2, ![r, n]⟩ : Shape).Idx) : IsReal (combine A B X s ja jb Wa Wb Wc b i) := by
  unfold combine
  exact (((Cert.LibSupportScale.isReal_matProd _ _ (fun j => (hA j).mul (hs _)) hWa i).add
    (Cert.LibSupportScale.isReal_matProd _ _ (fun j => (hB j).mul (hs _)) hWb i)).add
    (Cert.LibSupportScale.isReal_matProd _ _ hX hWc i)).add (hb _)

/-- The quotient of 1 by the larger of a real and 1 is a real. -/
theorem isReal_one_div_max_one {x : EReal} (hx : IsReal x) : IsReal (Ideal.div 1 (max x 1)) := by
  obtain ⟨m, hm⟩ : IsReal (max x 1) := isReal_max hx ⟨1, EReal.coe_one.symm⟩
  have hne : max x 1 ≠ 0 := Cert.Sage.max_one_ne_zero _
  rw [Ideal.div, if_neg hne, one_mul, hm]
  exact ⟨m⁻¹, (EReal.coe_inv m).symm⟩

/-! ## A kernel body's spelling of the fused form -/

/-- Two row-scaled blocks (the scales two unit-width column slices of an r×4 block, broadcast along the rows) and
    the own-feature block, each narrowed, through three products into zero accumulators, added, and the bias row
    broadcast down the rows. -/
theorem body_combine (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (a b x : FVec Ideal ⟨2, ![r, k]⟩ .f32) (s : FVec Ideal ⟨2, ![r, 4]⟩ .f32) (wa wb wc : FVec Ideal ⟨2, ![k, n]⟩ .f32)
    (bias : FVec Ideal ⟨2, ![1, n]⟩ .f32) (ja jb : Nat) (hja : ja < 4) (hjb : jb < 4)
    (hsa : (⟨2, ![r, 4]⟩ : Shape).Slices ![0, ja] ⟨2, ![r, 1]⟩) (hsb : (⟨2, ![r, 4]⟩ : Shape).Slices ![0, jb] ⟨2, ![r, 1]⟩)
    (hbc : (⟨2, ![r, 1]⟩ : Shape).Broadcasts ⟨2, ![r, k]⟩) (hbb : (⟨2, ![1, n]⟩ : Shape).Broadcasts ⟨2, ![r, n]⟩)
    (h16 : FTy.bf16.bits < FTy.f32.bits) :
    addf (addf (addf
        (matmul d none (truncf .bf16 (mulf a (broadcastTo ⟨2, ![r, k]⟩ (extractStridedSlice ⟨2, ![r, 1]⟩ ![0, ja] s hsa) hbc)) h16)
          (truncf .bf16 wa h16) (constant ⟨2, ![r, n]⟩ .f32 0x00000000#32))
        (matmul d none (truncf .bf16 (mulf b (broadcastTo ⟨2, ![r, k]⟩ (extractStridedSlice ⟨2, ![r, 1]⟩ ![0, jb] s hsb) hbc)) h16)
          (truncf .bf16 wb h16) (constant ⟨2, ![r, n]⟩ .f32 0x00000000#32)))
        (matmul d none (truncf .bf16 x h16) (truncf .bf16 wc h16) (constant ⟨2, ![r, n]⟩ .f32 0x00000000#32)))
      (broadcastTo ⟨2, ![r, n]⟩ bias hbb)
      = combine a b x s ⟨ja, hja⟩ ⟨jb, hjb⟩ wa wb wc bias := by
  rw [matmul_zero_eq_matProd d hlc hrc hln hrn hlb hrb, matmul_zero_eq_matProd d hlc hrc hln hrn hlb hrb,
    matmul_zero_eq_matProd d hlc hrc hln hrn hlb hrb]
  funext i
  obtain ⟨p, q, rfl⟩ : ∃ (p : Fin r) (q : Fin n), i = ix2 p q := ⟨i 0, i 1, eq_ix2 i⟩
  rw [addf_apply, addf_apply, addf_apply, Cert.Lib.BlockReads.broadcast_row_apply, combine_apply]
  have hA : ∀ c : Fin k, (truncf .bf16 (mulf a (broadcastTo ⟨2, ![r, k]⟩ (extractStridedSlice ⟨2, ![r, 1]⟩ ![0, ja] s hsa) hbc)) h16 :
      FVec Ideal _ .bf16) (ix2 p c) = scaleCol a s ⟨ja, hja⟩ (ix2 p c) := fun c => by
    show a (ix2 p c) * broadcastTo ⟨2, ![r, k]⟩ _ hbc (ix2 p c) = _
    rw [Cert.Lib.RowReductions.broadcast_col_apply, ColumnBlocks.slice_col_apply s ja hja, scaleCol_apply]
  have hB : ∀ c : Fin k, (truncf .bf16 (mulf b (broadcastTo ⟨2, ![r, k]⟩ (extractStridedSlice ⟨2, ![r, 1]⟩ ![0, jb] s hsb) hbc)) h16 :
      FVec Ideal _ .bf16) (ix2 p c) = scaleCol b s ⟨jb, hjb⟩ (ix2 p c) := fun c => by
    show b (ix2 p c) * broadcastTo ⟨2, ![r, k]⟩ _ hbc (ix2 p c) = _
    rw [Cert.Lib.RowReductions.broadcast_col_apply, ColumnBlocks.slice_col_apply s jb hjb, scaleCol_apply]
  rw [matProd_block (scaleCol a s ⟨ja, hja⟩) _ wa (truncf .bf16 wa h16) p q p q hA (fun _ => rfl),
    matProd_block (scaleCol b s ⟨jb, hjb⟩) _ wb (truncf .bf16 wb h16) p q p q hB (fun _ => rfl),
    matProd_block x (truncf .bf16 x h16) wc (truncf .bf16 wc h16) p q p q (fun _ => rfl) (fun _ => rfl)]

end Cert.HeteroSage

end
-- ==== Proof.KernelPayloads.lean ====
/-
  What the two kernel bodies store, as functions of their loaded blocks, on the extended reals.

  The first body stores, for each node type, the fused layer (LibHeteroSage's `combine`) of its blocks joined with
  the zero word; the second body stores the fused layer itself, re-shaped to a 1×2000×128 slab. The node type d uses
  columns 0 and 1 of the reciprocal counts, the node type m columns 2 and 3. A change of float format is the
  identity on the extended reals and a re-shaping to the same shape changes nothing, so each stored value is the
  body's spelling that `body_combine` reads.
-/
import proofs.«123560_j36206574305716_2_alg».proof.Proof.Gen.KernelIdeal.Skeleton
import proofs.«123560_j36206574305716_2_alg».proof.Proof.LibHeteroSage

set_option maxRecDepth 16384

noncomputable section

namespace Cert.KernelIdeal.Payloads

open Cert.KernelIdeal Cert.KernelIdeal.Gen
open Idealize.ShloMosaic Idealize.ShloMosaic.ValueIdx Cert.HeteroSage

/-- Joining with a splat of the zero word is `relu`. -/
theorem max_splat_zero (Y : FVec Ideal S2000x128 .f32) :
    maximumf Y (broadcast S2000x128 (Scalar.ofBits (F := Ideal) .f32 0x00000000#32)) = relu Y := by
  funext j
  rw [maximumf_apply]
  rfl

/-- First body, node type d. -/
theorem pay0_d (s : Vec Ideal S2000x4 .f32) (a b x : Vec Ideal S2000x128 .f32) (wa wb wc : Vec Ideal S128x128 .f32)
    (bias : Vec Ideal S1x128 .f32) :
    k0_pay1 (k0_pay4 s a) (k0_pay5 s b) (k0_pay8 x) (k0_pay10 wa) (k0_pay11 wb) wc bias
      = relu (combine a b x s ⟨0, by decide⟩ ⟨1, by decide⟩ wa wb wc bias) := by
  unfold k0_pay1 k0_pay4 k0_pay5 k0_pay8 k0_pay10 k0_pay11 k0_pay3
  simp only [shapeCast_self]
  rw [← max_splat_zero]
  exact congrArg (fun z => maximumf z _)
    (body_combine dot_S2000x128_S128x128_S2000x128_1_0_0_1_n_n rfl rfl rfl rfl rfl rfl a b x s wa wb wc bias 0 1
      (by decide) (by decide) slices_S2000x4_o0_0_S2000x1 slices_S2000x4_o0_1_S2000x1 broadcasts_S2000x1_S2000x128
      broadcasts_S1x128_S2000x128 bitsLt_bf16_f32)

/-- First body, node type m. -/
theorem pay0_m (s : Vec Ideal S2000x4 .f32) (a b x : Vec Ideal S2000x128 .f32) (wa wb wc : Vec Ideal S128x128 .f32)
    (bias : Vec Ideal S1x128 .f32) :
    k0_pay2 (k0_pay6 s a) (k0_pay7 s b) (k0_pay9 x) (k0_pay12 wa) wb wc bias
      = relu (combine a b x s ⟨2, by decide⟩ ⟨3, by decide⟩ wa wb wc bias) := by
  unfold k0_pay2 k0_pay6 k0_pay7 k0_pay9 k0_pay12 k0_pay3
  simp only [shapeCast_self]
  rw [← max_splat_zero]
  exact congrArg (fun z => maximumf z _)
    (body_combine dot_S2000x128_S128x128_S2000x128_1_0_0_1_n_n rfl rfl rfl rfl rfl rfl a b x s wa wb wc bias 2 3
      (by decide) (by decide) slices_S2000x4_o0_2_S2000x1 slices_S2000x4_o0_3_S2000x1 broadcasts_S2000x1_S2000x128
      broadcasts_S1x128_S2000x128 bitsLt_bf16_f32)

/-- Second body, node type d: the fused layer as a slab. -/
theorem pay1_d (s : Vec Ideal S2000x4 .f32) (a b x : Vec Ideal S2000x128 .f32) (wa wb wc : Vec Ideal S128x128 .f32)
    (bias : Vec Ideal S1x128 .f32) :
    k1_pay10 (k1_pay2 s a) (k1_pay3 s b) (k1_pay6 x) (k1_pay8 wa) (k1_pay9 wb) wc bias
      = shapeCast S1x2000x128 (combine a b x s ⟨0, by decide⟩ ⟨1, by decide⟩ wa wb wc bias) shapeCasts_S2000x128_S1x2000x128 := by
  unfold k1_pay10 k1_pay2 k1_pay3 k1_pay6 k1_pay8 k1_pay9 k1_pay1
  simp only [shapeCast_self]
  exact congrArg (fun z => shapeCast S1x2000x128 z shapeCasts_S2000x128_S1x2000x128)
    (body_combine dot_S2000x128_S128x128_S2000x128_1_0_0_1_n_n rfl rfl rfl rfl rfl rfl a b x s wa wb wc bias 0 1
      (by decide) (by decide) slices_S2000x4_o0_0_S2000x1 slices_S2000x4_o0_1_S2000x1 broadcasts_S2000x1_S2000x128
      broadcasts_S1x128_S2000x128 bitsLt_bf16_f32)

/-- Second body, node type m. -/
theorem pay1_m (s : Vec Ideal S2000x4 .f32) (a b x : Vec Ideal S2000x128 .f32) (wa wb wc : Vec Ideal S128x128 .f32)
    (bias : Vec Ideal S1x128 .f32) :
    k1_pay11 (k1_pay4 s a) (k1_pay5 s b) (k1_pay7 x) wa wb wc bias
      = shapeCast S1x2000x128 (combine a b x s ⟨2, by decide⟩ ⟨3, by decide⟩ wa wb wc bias) shapeCasts_S2000x128_S1x2000x128 := by
  unfold k1_pay11 k1_pay4 k1_pay5 k1_pay7 k1_pay1
  simp only [shapeCast_self]
  exact congrArg (fun z => shapeCast S1x2000x128 z shapeCasts_S2000x128_S1x2000x128)
    (body_combine dot_S2000x128_S128x128_S2000x128_1_0_0_1_n_n rfl rfl rfl rfl rfl rfl a b x s wa wb wc bias 2 3
      (by decide) (by decide) slices_S2000x4_o0_2_S2000x1 slices_S2000x4_o0_3_S2000x1 broadcasts_S2000x1_S2000x128
      broadcasts_S1x128_S2000x128 bitsLt_bf16_f32)

/-- A 2000×128 array re-shaped to a 1×2000×128 slab, read at (0, p, q). -/
theorem slab_apply (Y : (⟨2, ![2000, 128]⟩ : Shape).Idx → EReal) (h : (⟨2, ![2000, 128]⟩ : Shape).ShapeCasts ⟨3, ![1, 2000, 128]⟩)
    (p : Fin 2000) (q : Fin 128) : shapeCast ⟨3, ![1, 2000, 128]⟩ Y h (ix3 (0 : Fin 1) p q) = Y (ix2 p q) :=
  shapeCast_apply Y h _ _ (by
    rw [Shape.rowMajor_val_two, Shape.rowMajor_val_three]
    show p.val * 128 + q.val = (0 * 2000 + p.val) * 128 + q.val
    omega)

end Cert.KernelIdeal.Payloads

end
-- ==== Proof.KernelBlocks0.lean ====
/-
  The first region's two result arrays as whole-array functions of the arrays the region finds.

  Grid point t reads rows 2000·t … 2000·t + 1999 of the four neighbour sums, the two feature arrays and the
  reciprocal counts, the weights and the bias rows whole, and writes the same rows of each result. An entry of the
  fused layer depends on one row of those arrays, so what point t writes back is rows 2000·t … of the fused layer of
  the WHOLE arrays, joined with the zero word; the fifty blocks cover the 100000 rows.
-/
import proofs.«123560_j36206574305716_2_alg».proof.Proof.IdealRegionData
import proofs.«123560_j36206574305716_2_alg».proof.Proof.KernelPayloads

import Idealize.ShloMosaic.Lib.Pipeline.Value

set_option maxRecDepth 16384

noncomputable section

namespace Cert.KernelIdeal.Blocks

open Cert.KernelIdeal Cert.KernelIdeal.Gen Cert.KernelIdeal.Regions Cert.KernelIdeal.Payloads
open Idealize.ShloMosaic Idealize.ShloMosaic.TcCoe Idealize.ShloMosaic.ValueIdx Cert.HeteroSage
open Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

/-- Row p of point t's block is row 2000·t + p of the array. -/
def rowAt (t : Fin 50) (p : Fin 2000) : Fin 100000 := ⟨t.val * 2000 + p.val, by have := t.isLt; have := p.isLt; omega⟩

/-- The printed index maps, decided over the fifty points: the row blocks move with the point, the weights and the
    bias rows stay. -/
theorem idx0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0)
    ∧ (win0_14.index t (0 : Fin 2) = 0 ∧ win0_14.index t (1 : Fin 2) = 0)
    ∧ (win0_15.index t (0 : Fin 2) = t.val ∧ win0_15.index t (1 : Fin 2) = 0)
    ∧ (win0_16.index t (0 : Fin 2) = t.val ∧ win0_16.index t (1 : Fin 2) = 0) :=
  (by decide +kernel : ∀ t : Fin grid0.N, _)

theorem N0 : cfg0.N = 50 := N_0

/-- The two result arrays the first region leaves. -/
abbrev G0d (c : Dev nD) : S100000x128.Idx → EReal := relu (combine (V c main_v82 : S100000x128.Idx → EReal) (V c main_v96 : S100000x128.Idx → EReal) (V c main_arg0 : S100000x128.Idx → EReal) (V c main_v46 : S100000x4.Idx → EReal) ⟨0, by decide⟩ ⟨1, by decide⟩ (V c main_v126 : S128x128.Idx → EReal) (V c main_v128 : S128x128.Idx → EReal) (V c main_v134 : S128x128.Idx → EReal) (V c main_v138 : S1x128.Idx → EReal))
abbrev G0m (c : Dev nD) : S100000x128.Idx → EReal := relu (combine (V c main_v110 : S100000x128.Idx → EReal) (V c main_v124 : S100000x128.Idx → EReal) (V c main_arg1 : S100000x128.Idx → EReal) (V c main_v46 : S100000x4.Idx → EReal) ⟨2, by decide⟩ ⟨3, by decide⟩ (V c main_v130 : S128x128.Idx → EReal) (V c main_v132 : S128x128.Idx → EReal) (V c main_v136 : S128x128.Idx → EReal) (V c main_v140 : S1x128.Idx → EReal))

/-- What point t writes back into the d-type result is its block of `G0d`. -/
theorem flushed0_15 (c : Dev nD) (t : Fin cfg0.N) :
    (dat0 V c).flushed 15 t = ((cfg0.win 15).blk t).view.read (Elt Ideal) (G0d V c) := by
  show (cfg0.win 15).cut (grid0.coords t) ((dat0 V c).after 15 t) = _
  rw [show (dat0 V c).after 15 t = out0_15 (iblk0 V c 0 t) (iblk0 V c 1 t) (iblk0 V c 2 t) (iblk0 V c 6 t) (iblk0 V c 7 t) (iblk0 V c 8 t) (iblk0 V c 11 t) (iblk0 V c 13 t) from by dsimp only [dat0]]
  unfold out0_15
  rw [View.canon_unit_zero hz2]
  simp only [View.ld_unit_zero (S := S2000x128) hz2, View.ld_unit_zero (S := S2000x4) hz2, View.ld_unit_zero (S := S128x128) hz2, View.ld_unit_zero (S := S1x128) hz2]
  rw [pay0_d]
  obtain ⟨h0, h1, h2, h3, h4, h5, h6, h7, h8, h9, h10, h11, h12, h13, h14, h15, h16⟩ := idx0 t
  have ht : t.val < 50 := N0 ▸ t.isLt
  let τt : Fin 50 := ⟨t.val, ht⟩
  have e7 : iblk0 V c 7 t = (V c main_v126 : S128x128.Idx → EReal) := by
    funext y
    show V c main_v126 (((cfg0.win 7).blk t).view.emb y) = _
    refine congrArg _ (funext fun a => Fin.ext ?_)
    match a with
    | ⟨0, _⟩ => show win0_7.index t (0 : Fin 2) * 128 + 1 * (y 0).val = (y 0).val; rw [h7.1]; omega
    | ⟨1, _⟩ => show win0_7.index t (1 : Fin 2) * 128 + 1 * (y 1).val = (y 1).val; rw [h7.2]; omega
  have e8 : iblk0 V c 8 t = (V c main_v128 : S128x128.Idx → EReal) := by
    funext y
    show V c main_v128 (((cfg0.win 8).blk t).view.emb y) = _
    refine congrArg _ (funext fun a => Fin.ext ?_)
    match a with
    | ⟨0, _⟩ => show win0_8.index t (0 : Fin 2) * 128 + 1 * (y 0).val = (y 0).val; rw [h8.1]; omega
    | ⟨1, _⟩ => show win0_8.index t (1 : Fin 2) * 128 + 1 * (y 1).val = (y 1).val; rw [h8.2]; omega
  have e11 : iblk0 V c 11 t = (V c main_v134 : S128x128.Idx → EReal) := by
    funext y
    show V c main_v134 (((cfg0.win 11).blk t).view.emb y) = _
    refine congrArg _ (funext fun a => Fin.ext ?_)
    match a with
    | ⟨0, _⟩ => show win0_11.index t (0 : Fin 2) * 128 + 1 * (y 0).val = (y 0).val; rw [h11.1]; omega
    | ⟨1, _⟩ => show win0_11.index t (1 : Fin 2) * 128 + 1 * (y 1).val = (y 1).val; rw [h11.2]; omega
  have e13 : iblk0 V c 13 t = (V c main_v138 : S1x128.Idx → EReal) := by
    funext y
    show V c main_v138 (((cfg0.win 13).blk t).view.emb y) = _
    refine congrArg _ (funext fun a => Fin.ext ?_)
    match a with
    | ⟨0, _⟩ => show win0_13.index t (0 : Fin 2) * 1 + 1 * (y 0).val = (y 0).val; rw [h13.1]; omega
    | ⟨1, _⟩ => show win0_13.index t (1 : Fin 2) * 128 + 1 * (y 1).val = (y 1).val; rw [h13.2]; omega
  rw [e7, e8, e11, e13]
  funext y
  obtain ⟨p, q, rfl⟩ : ∃ (p : Fin 2000) (q : Fin 128), y = ix2 p q := ⟨y 0, y 1, eq_ix2 y⟩
  have eo : ((cfg0.win 15).blk t).view.emb (ix2 p q) = ix2 (rowAt τt p) q := by
    funext a; apply Fin.ext
    match a with
    | ⟨0, _⟩ => show win0_15.index t (0 : Fin 2) * 2000 + 1 * p.val = t.val * 2000 + p.val; rw [h15.1]; omega
    | ⟨1, _⟩ => show win0_15.index t (1 : Fin 2) * 128 + 1 * q.val = q.val; rw [h15.2]; omega
  show relu (combine (iblk0 V c 0 t) (iblk0 V c 1 t) (iblk0 V c 2 t) (iblk0 V c 6 t) _ _ _ _ _ _) (ix2 p q) = G0d V c (((cfg0.win 15).blk t).view.emb (ix2 p q))
  rw [eo]
  show max _ _ = max _ _
  refine congrArg (fun z => max z _) ?_
  refine combine_rows (V c main_v82 : S100000x128.Idx → EReal) (V c main_v96 : S100000x128.Idx → EReal) (V c main_arg0 : S100000x128.Idx → EReal) (V c main_v46 : S100000x4.Idx → EReal)
    (iblk0 V c 0 t) (iblk0 V c 1 t) (iblk0 V c 2 t) (iblk0 V c 6 t) _ _ _ _ _ _ (rowAt τt) ?_ ?_ ?_ ?_ p q
  · intro p k
    show V c main_v82 (((cfg0.win 0).blk t).view.emb (ix2 p k)) = _
    refine congrArg _ (funext fun a => Fin.ext ?_)
    match a with
    | ⟨0, _⟩ => show win0_0.index t (0 : Fin 2) * 2000 + 1 * p.val = t.val * 2000 + p.val; rw [h0.1]; omega
    | ⟨1, _⟩ => show win0_0.index t (1 : Fin 2) * 128 + 1 * k.val = k.val; rw [h0.2]; omega
  · intro p k
    show V c main_v96 (((cfg0.win 1).blk t).view.emb (ix2 p k)) = _
    refine congrArg _ (funext fun a => Fin.ext ?_)
    match a with
    | ⟨0, _⟩ => show win0_1.index t (0 : Fin 2) * 2000 + 1 * p.val = t.val * 2000 + p.val; rw [h1.1]; omega
    | ⟨1, _⟩ => show win0_1.index t (1 : Fin 2) * 128 + 1 * k.val = k.val; rw [h1.2]; omega
  · intro p k
    show V c main_arg0 (((cfg0.win 2).blk t).view.emb (ix2 p k)) = _
    refine congrArg _ (funext fun a => Fin.ext ?_)
    match a with
    | ⟨0, _⟩ => show win0_2.index t (0 : Fin 2) * 2000 + 1 * p.val = t.val * 2000 + p.val; rw [h2.1]; omega
    | ⟨1, _⟩ => show win0_2.index t (1 : Fin 2) * 128 + 1 * k.val = k.val; rw [h2.2]; omega
  · intro p j
    show V c main_v46 (((cfg0.win 6).blk t).view.emb (ix2 p j)) = _
    refine congrArg _ (funext fun a => Fin.ext ?_)
    match a with
    | ⟨0, _⟩ => show win0_6.index t (0 : Fin 2) * 2000 + 1 * p.val = t.val * 2000 + p.val; rw [h6.1]; omega
    | ⟨1, _⟩ => show win0_6.index t (1 : Fin 2) * 4 + 1 * j.val = j.val; rw [h6.2]; omega

theorem mem_blk0_15 (t : Fin cfg0.N) (i : S100000x128.Idx) :
    i ∈ ((cfg0.win 15).blk t).view.set ↔ ∀ a : Fin 2, win0_15.index t a * S2000x128.size a ≤ (i a).val ∧ (i a).val < win0_15.index t a * S2000x128.size a + S2000x128.size a := by
  show i ∈ ((View.whole main_v141_0).slice (win0_15.rect t)).set ↔ _
  rw [View.set_slice_whole, Rect.mem_set_unit]
  exact Iff.rfl

/-- Every row of the result lies in the block of point ⌊row / 2000⌋. -/
theorem covered0_15 (i : S100000x128.Idx) :
    ∃ t : Fin cfg0.N, (cfg0.win 15).flush t = true ∧ i ∈ ((cfg0.win 15).blk t).view.set := by
  have hi0 : (i 0).val < 100000 := (i 0).isLt
  have hi1 : (i 1).val < 128 := (i 1).isLt
  have hN : (i 0).val / 2000 < cfg0.N := by rw [N0]; omega
  obtain ⟨h0, h1, h2, h3, h4, h5, h6, h7, h8, h9, h10, h11, h12, h13, h14, h15, h16⟩ := idx0 ⟨(i 0).val / 2000, hN⟩
  refine ⟨⟨(i 0).val / 2000, hN⟩, flush0_15 _, ?_⟩
  rw [mem_blk0_15]
  intro a
  match a with
  | ⟨0, _⟩ =>
    show win0_15.index ⟨(i 0).val / 2000, hN⟩ (0 : Fin 2) * 2000 ≤ (i 0).val ∧ (i 0).val < win0_15.index ⟨(i 0).val / 2000, hN⟩ (0 : Fin 2) * 2000 + 2000
    rw [h15.1]; show (i 0).val / 2000 * 2000 ≤ (i 0).val ∧ (i 0).val < (i 0).val / 2000 * 2000 + 2000; omega
  | ⟨1, _⟩ =>
    show win0_15.index ⟨(i 0).val / 2000, hN⟩ (1 : Fin 2) * 128 ≤ (i 1).val ∧ (i 1).val < win0_15.index ⟨(i 0).val / 2000, hN⟩ (1 : Fin 2) * 128 + 128
    rw [h15.2]; omega

/-- So the whole array ends as the layer of the whole arrays. -/
theorem final0_15 (c : Dev nD) : (dat0 V c).arrAt 15 cfg0.N = G0d V c :=
  (dat0 V c).arrAt_eq_of_cover 15 (G0d V c) (fun t _ => flushed0_15 V c t) (covered0_15)

/-- What point t writes back into the m-type result is its block of `G0m`. -/
theorem flushed0_16 (c : Dev nD) (t : Fin cfg0.N) :
    (dat0 V c).flushed 16 t = ((cfg0.win 16).blk t).view.read (Elt Ideal) (G0m V c) := by
  show (cfg0.win 16).cut (grid0.coords t) ((dat0 V c).after 16 t) = _
  rw [show (dat0 V c).after 16 t = out0_16 (iblk0 V c 3 t) (iblk0 V c 4 t) (iblk0 V c 5 t) (iblk0 V c 6 t) (iblk0 V c 9 t) (iblk0 V c 10 t) (iblk0 V c 12 t) (iblk0 V c 14 t) from by dsimp only [dat0]]
  unfold out0_16
  rw [View.canon_unit_zero hz2]
  simp only [View.ld_unit_zero (S := S2000x128) hz2, View.ld_unit_zero (S := S2000x4) hz2, View.ld_unit_zero (S := S128x128) hz2, View.ld_unit_zero (S := S1x128) hz2]
  rw [pay0_m]
  obtain ⟨h0, h1, h2, h3, h4, h5, h6, h7, h8, h9, h10, h11, h12, h13, h14, h15, h16⟩ := idx0 t
  have ht : t.val < 50 := N0 ▸ t.isLt
  let τt : Fin 50 := ⟨t.val, ht⟩
  have e9 : iblk0 V c 9 t = (V c main_v130 : S128x128.Idx → EReal) := by
    funext y
    show V c main_v130 (((cfg0.win 9).blk t).view.emb y) = _
    refine congrArg _ (funext fun a => Fin.ext ?_)
    match a with
    | ⟨0, _⟩ => show win0_9.index t (0 : Fin 2) * 128 + 1 * (y 0).val = (y 0).val; rw [h9.1]; omega
    | ⟨1, _⟩ => show win0_9.index t (1 : Fin 2) * 128 + 1 * (y 1).val = (y 1).val; rw [h9.2]; omega
  have e10 : iblk0 V c 10 t = (V c main_v132 : S128x128.Idx → EReal) := by
    funext y
    show V c main_v132 (((cfg0.win 10).blk t).view.emb y) = _
    refine congrArg _ (funext fun a => Fin.ext ?_)
    match a with
    | ⟨0, _⟩ => show win0_10.index t (0 : Fin 2) * 128 + 1 * (y 0).val = (y 0).val; rw [h10.1]; omega
    | ⟨1, _⟩ => show win0_10.index t (1 : Fin 2) * 128 + 1 * (y 1).val = (y 1).val; rw [h10.2]; omega
  have e12 : iblk0 V c 12 t = (V c main_v136 : S128x128.Idx → EReal) := by
    funext y
    show V c main_v136 (((cfg0.win 12).blk t).view.emb y) = _
    refine congrArg _ (funext fun a => Fin.ext ?_)
    match a with
    | ⟨0, _⟩ => show win0_12.index t (0 : Fin 2) * 128 + 1 * (y 0).val = (y 0).val; rw [h12.1]; omega
    | ⟨1, _⟩ => show win0_12.index t (1 : Fin 2) * 128 + 1 * (y 1).val = (y 1).val; rw [h12.2]; omega
  have e14 : iblk0 V c 14 t = (V c main_v140 : S1x128.Idx → EReal) := by
    funext y
    show V c main_v140 (((cfg0.win 14).blk t).view.emb y) = _
    refine congrArg _ (funext fun a => Fin.ext ?_)
    match a with
    | ⟨0, _⟩ => show win0_14.index t (0 : Fin 2) * 1 + 1 * (y 0).val = (y 0).val; rw [h14.1]; omega
    | ⟨1, _⟩ => show win0_14.index t (1 : Fin 2) * 128 + 1 * (y 1).val = (y 1).val; rw [h14.2]; omega
  rw [e9, e10, e12, e14]
  funext y
  obtain ⟨p, q, rfl⟩ : ∃ (p : Fin 2000) (q : Fin 128), y = ix2 p q := ⟨y 0, y 1, eq_ix2 y⟩
  have eo : ((cfg0.win 16).blk t).view.emb (ix2 p q) = ix2 (rowAt τt p) q := by
    funext a; apply Fin.ext
    match a with
    | ⟨0, _⟩ => show win0_16.index t (0 : Fin 2) * 2000 + 1 * p.val = t.val * 2000 + p.val; rw [h16.1]; omega
    | ⟨1, _⟩ => show win0_16.index t (1 : Fin 2) * 128 + 1 * q.val = q.val; rw [h16.2]; omega
  show relu (combine (iblk0 V c 3 t) (iblk0 V c 4 t) (iblk0 V c 5 t) (iblk0 V c 6 t) _ _ _ _ _ _) (ix2 p q) = G0m V c (((cfg0.win 16).blk t).view.emb (ix2 p q))
  rw [eo]
  show max _ _ = max _ _
  refine congrArg (fun z => max z _) ?_
  refine combine_rows (V c main_v110 : S100000x128.Idx → EReal) (V c main_v124 : S100000x128.Idx → EReal) (V c main_arg1 : S100000x128.Idx → EReal) (V c main_v46 : S100000x4.Idx → EReal)
    (iblk0 V c 3 t) (iblk0 V c 4 t) (iblk0 V c 5 t) (iblk0 V c 6 t) _ _ _ _ _ _ (rowAt τt) ?_ ?_ ?_ ?_ p q
  · intro p k
    show V c main_v110 (((cfg0.win 3).blk t).view.emb (ix2 p k)) = _
    refine congrArg _ (funext fun a => Fin.ext ?_)
    match a with
    | ⟨0, _⟩ => show win0_3.index t (0 : Fin 2) * 2000 + 1 * p.val = t.val * 2000 + p.val; rw [h3.1]; omega
    | ⟨1, _⟩ => show win0_3.index t (1 : Fin 2) * 128 + 1 * k.val = k.val; rw [h3.2]; omega
  · intro p k
    show V c main_v124 (((cfg0.win 4).blk t).view.emb (ix2 p k)) = _
    refine congrArg _ (funext fun a => Fin.ext ?_)
    match a with
    | ⟨0, _⟩ => show win0_4.index t (0 : Fin 2) * 2000 + 1 * p.val = t.val * 2000 + p.val; rw [h4.1]; omega
    | ⟨1, _⟩ => show win0_4.index t (1 : Fin 2) * 128 + 1 * k.val = k.val; rw [h4.2]; omega
  · intro p k
    show V c main_arg1 (((cfg0.win 5).blk t).view.emb (ix2 p k)) = _
    refine congrArg _ (funext fun a => Fin.ext ?_)
    match a with
    | ⟨0, _⟩ => show win0_5.index t (0 : Fin 2) * 2000 + 1 * p.val = t.val * 2000 + p.val; rw [h5.1]; omega
    | ⟨1, _⟩ => show win0_5.index t (1 : Fin 2) * 128 + 1 * k.val = k.val; rw [h5.2]; omega
  · intro p j
    show V c main_v46 (((cfg0.win 6).blk t).view.emb (ix2 p j)) = _
    refine congrArg _ (funext fun a => Fin.ext ?_)
    match a with
    | ⟨0, _⟩ => show win0_6.index t (0 : Fin 2) * 2000 + 1 * p.val = t.val * 2000 + p.val; rw [h6.1]; omega
    | ⟨1, _⟩ => show win0_6.index t (1 : Fin 2) * 4 + 1 * j.val = j.val; rw [h6.2]; omega

theorem mem_blk0_16 (t : Fin cfg0.N) (i : S100000x128.Idx) :
    i ∈ ((cfg0.win 16).blk t).view.set ↔ ∀ a : Fin 2, win0_16.index t a * S2000x128.size a ≤ (i a).val ∧ (i a).val < win0_16.index t a * S2000x128.size a + S2000x128.size a := by
  show i ∈ ((View.whole main_v141_1).slice (win0_16.rect t)).set ↔ _
  rw [View.set_slice_whole, Rect.mem_set_unit]
  exact Iff.rfl

/-- Every row of the result lies in the block of point ⌊row / 2000⌋. -/
theorem covered0_16 (i : S100000x128.Idx) :
    ∃ t : Fin cfg0.N, (cfg0.win 16).flush t = true ∧ i ∈ ((cfg0.win 16).blk t).view.set := by
  have hi0 : (i 0).val < 100000 := (i 0).isLt
  have hi1 : (i 1).val < 128 := (i 1).isLt
  have hN : (i 0).val / 2000 < cfg0.N := by rw [N0]; omega
  obtain ⟨h0, h1, h2, h3, h4, h5, h6, h7, h8, h9, h10, h11, h12, h13, h14, h15, h16⟩ := idx0 ⟨(i 0).val / 2000, hN⟩
  refine ⟨⟨(i 0).val / 2000, hN⟩, flush0_16 _, ?_⟩
  rw [mem_blk0_16]
  intro a
  match a with
  | ⟨0, _⟩ =>
    show win0_16.index ⟨(i 0).val / 2000, hN⟩ (0 : Fin 2) * 2000 ≤ (i 0).val ∧ (i 0).val < win0_16.index ⟨(i 0).val / 2000, hN⟩ (0 : Fin 2) * 2000 + 2000
    rw [h16.1]; show (i 0).val / 2000 * 2000 ≤ (i 0).val ∧ (i 0).val < (i 0).val / 2000 * 2000 + 2000; omega
  | ⟨1, _⟩ =>
    show win0_16.index ⟨(i 0).val / 2000, hN⟩ (1 : Fin 2) * 128 ≤ (i 1).val ∧ (i 1).val < win0_16.index ⟨(i 0).val / 2000, hN⟩ (1 : Fin 2) * 128 + 128
    rw [h16.2]; omega

/-- So the whole array ends as the layer of the whole arrays. -/
theorem final0_16 (c : Dev nD) : (dat0 V c).arrAt 16 cfg0.N = G0m V c :=
  (dat0 V c).arrAt_eq_of_cover 16 (G0m V c) (fun t _ => flushed0_16 V c t) (covered0_16)

end Cert.KernelIdeal.Blocks

end
-- ==== Proof.LibSageParts.lean ====
/-
  A two-layer mean-aggregation network over two node types and four edge types, on the extended reals, as ONE
  function of the argument arrays.

  The node types d and m hold 100000 rows of 128 features each; an edge list is a 2×E array of words, row 0 the source
  rows and row 1 the destination rows. For an edge list e and a feature array x, `segSum` gathers the source rows of x
  (a negative word w read as w + 100000, as array indexing does) and adds them into the destination rows of an array of
  zeros; `counts` adds a 1 per edge into the destination rows of a vector of zeros, and `divisor` is the larger of
  that count and 1. The weights come as 2×4×128×128 arrays (layer, edge type, output feature, input feature) read
  transposed, `wT W l t (k, q) = W(l, t, q, k)`, and the biases as a 2×4×128 array, `bV`. One layer sends
  (x_d, x_m) to the sums of the two convolutions into each node type (LibHeteroSage's `hetero`): into d along the
  edge types dd (0) and md (3), into m along mm (1) and dm (2). The network is the first layer joined with the zero
  word, then the second layer, the two results stacked along a new leading axis. The gather and scatter are taken as
  the host spells them, their dimension records parameters, so that two programs' spellings are compared without ever
  opening them. Reals in give reals out. Nothing here mentions a program.
-/
import Idealize.ShloMosaic.PureOps.Ideal.Laws
import Idealize.ShloMosaic.Lib.ValueIdx
import Idealize.ShloMosaic.Lib.Pipeline.Value
import proofs.«123560_j36206574305716_2_alg».proof.Proof.LibScatterScale
import proofs.«123560_j36206574305716_2_alg».proof.Proof.LibSupportScale
import proofs.«123560_j36206574305716_2_alg».proof.Proof.LibHeteroSage

open scoped BigOperators

noncomputable section

namespace Cert.SageParts

open Idealize.ShloMosaic Idealize.ShloMosaic.ValueIdx Cert.LibScatterScale Cert.HeteroSage

/-! ## Reading the weights and the biases -/

/-- The 128×128 matrix of layer l and edge type t, transposed: input feature by output feature. -/
def wT (W : (⟨4, ![2, 4, 128, 128]⟩ : Shape).Idx → EReal) (l : Fin 2) (t : Fin 4) : Mat 128 128 :=
  fun i => W (ix4 l t (colOf i) (rowOf i))

theorem wT_apply (W : (⟨4, ![2, 4, 128, 128]⟩ : Shape).Idx → EReal) (l : Fin 2) (t : Fin 4) (k q : Fin 128) :
    wT W l t (ix2 k q) = W (ix4 l t q k) := rfl

/-- The bias vector of layer l and edge type t. -/
def bV (B : (⟨3, ![2, 4, 128]⟩ : Shape).Idx → EReal) (l : Fin 2) (t : Fin 4) : Vect 128 :=
  fun i => B (ix3 l t (⟨(i 0).val, (i 0).isLt⟩ : Fin 128))

theorem bV_apply (B : (⟨3, ![2, 4, 128]⟩ : Shape).Idx → EReal) (l : Fin 2) (t : Fin 4) (q : Fin 128) :
    bV B l t (ix1 q) = B (ix3 l t q) := rfl

/-! ## Neighbour sums and neighbour counts along an edge list of E edges -/

section Edges
variable {E : Nat}
variable (gd : GatherDims ⟨2, ![100000, 128]⟩ ⟨2, ![E, 1]⟩ ⟨2, ![E, 128]⟩)
  (sd : ScatterDims ⟨2, ![100000, 128]⟩ ⟨2, ![E, 1]⟩ ⟨2, ![E, 128]⟩)
  (cd : ScatterDims ⟨1, ![100000]⟩ ⟨2, ![E, 1]⟩ ⟨1, ![E]⟩)
  (hs0 : (⟨2, ![2, E]⟩ : Shape).Slices ![0, 0] ⟨2, ![1, E]⟩) (hs1 : (⟨2, ![2, E]⟩ : Shape).Slices ![1, 0] ⟨2, ![1, E]⟩)
  (hc : (⟨2, ![1, E]⟩ : Shape).ShapeCasts ⟨1, ![E]⟩)
  (hbE : (⟨0, ![]⟩ : Shape).BroadcastsInDim ⟨1, ![E]⟩ ![]) (hbN : (⟨0, ![]⟩ : Shape).BroadcastsInDim ⟨1, ![100000]⟩ ![])
  (hbc : (⟨1, ![E]⟩ : Shape).BroadcastsInDim ⟨2, ![E, 1]⟩ ![0])
  (hbz : (⟨0, ![]⟩ : Shape).BroadcastsInDim ⟨2, ![100000, 128]⟩ ![])

/-- Row r of the edge list as a vector of E words. -/
def edgeRow (e : IVec ⟨2, ![2, E]⟩ 32) (r : Nat) (h : (⟨2, ![2, E]⟩ : Shape).Slices ![r, 0] ⟨2, ![1, E]⟩) : IVec ⟨1, ![E]⟩ 32 :=
  shapeCast ⟨1, ![E]⟩ (extractStridedSlice ⟨2, ![1, E]⟩ ![r, 0] e h) hc

/-- The source rows with the negative words wrapped, as an E×1 column of index words. -/
def srcCol (e : IVec ⟨2, ![2, E]⟩ 32) : IVec ⟨2, ![E, 1]⟩ 32 :=
  broadcastInDim ⟨2, ![E, 1]⟩ ![0] hbc
    (select (cmpi .slt (edgeRow hc e 0 hs0) (broadcastInDim ⟨1, ![E]⟩ ![] hbE (constantI ⟨0, ![]⟩ 32 0#32)))
      (addi (edgeRow hc e 0 hs0) (broadcastInDim ⟨1, ![E]⟩ ![] hbE (constantI ⟨0, ![]⟩ 32 100000#32)))
      (edgeRow hc e 0 hs0))

/-- The destination rows as an E×1 column of index words. -/
def dstCol (e : IVec ⟨2, ![2, E]⟩ 32) : IVec ⟨2, ![E, 1]⟩ 32 :=
  broadcastInDim ⟨2, ![E, 1]⟩ ![0] hbc (edgeRow hc e 1 hs1)

/-- The sum, into every destination row, of the source rows of x along the edges. -/
def segSum (e : IVec ⟨2, ![2, E]⟩ 32) (x : FVec Ideal ⟨2, ![100000, 128]⟩ .f32) : FVec Ideal ⟨2, ![100000, 128]⟩ .f32 :=
  Host.scatterAdd (F := Ideal) sd (broadcastInDim ⟨2, ![100000, 128]⟩ ![] hbz (constant (F := Ideal) ⟨0, ![]⟩ .f32 0x00000000#32))
    (dstCol hs1 hc hbc e) (Host.gather gd x (srcCol hs0 hc hbE hbc e))

/-- The number of edges into every destination row. -/
def counts (e : IVec ⟨2, ![2, E]⟩ 32) : FVec Ideal ⟨1, ![100000]⟩ .f32 :=
  Host.scatterAdd (F := Ideal) cd (broadcastInDim ⟨1, ![100000]⟩ ![] hbN (constant (F := Ideal) ⟨0, ![]⟩ .f32 0x00000000#32))
    (dstCol hs1 hc hbc e) (broadcastInDim ⟨1, ![E]⟩ ![] hbE (constant (F := Ideal) ⟨0, ![]⟩ .f32 0x3F800000#32))

/-- The larger of that number and 1: what a mean divides by. -/
def divisor (e : IVec ⟨2, ![2, E]⟩ 32) : FVec Ideal ⟨1, ![100000]⟩ .f32 :=
  maximumf (counts cd hs1 hc hbE hbN hbc e) (broadcastInDim ⟨1, ![100000]⟩ ![] hbN (constant (F := Ideal) ⟨0, ![]⟩ .f32 0x3F800000#32))

/-- A scalar broadcast into a vector reads the scalar. -/
theorem bcast_vec_apply {α : Type} {M : Nat} (x : (⟨0, ![]⟩ : Shape).Idx → α) (h : (⟨0, ![]⟩ : Shape).BroadcastsInDim ⟨1, ![M]⟩ ![])
    (i : (⟨1, ![M]⟩ : Shape).Idx) : broadcastInDim ⟨1, ![M]⟩ ![] h x i = x ix0 :=
  Cert.LibSupportScale.bcastInDim_scalar_vec_apply x h i

theorem divisor_apply (e : IVec ⟨2, ![2, E]⟩ 32) (i : (⟨1, ![100000]⟩ : Shape).Idx) :
    divisor cd hs1 hc hbE hbN hbc e i = max (counts cd hs1 hc hbE hbN hbc e i) 1 := by
  unfold divisor
  rw [maximumf_apply, bcast_vec_apply]
  exact congrArg _ Cert.Sage.one_f32

theorem divisor_ne_zero (e : IVec ⟨2, ![2, E]⟩ 32) (i : (⟨1, ![100000]⟩ : Shape).Idx) :
    divisor cd hs1 hc hbE hbN hbc e i ≠ 0 := by
  rw [divisor_apply]; exact Cert.Sage.max_one_ne_zero _

/-- Sums of rows of reals are reals. -/
theorem isReal_segSum (e : IVec ⟨2, ![2, E]⟩ 32) (x : FVec Ideal ⟨2, ![100000, 128]⟩ .f32) (hx : ∀ i, IsReal (x i))
    (i : (⟨2, ![100000, 128]⟩ : Shape).Idx) : IsReal (segSum gd sd hs0 hs1 hc hbE hbc hbz e x i) := by
  unfold segSum
  refine isReal_hostScatterAdd sd _ _ _ (fun j => ?_) (fun j => Cert.LibSupportScale.isReal_gather gd x _ hx j) i
  rw [Cert.Lib.RowReductions.bcastInDim_scalar_apply]
  exact isReal_ofBits_zero

/-- A count is a real. -/
theorem isReal_counts (e : IVec ⟨2, ![2, E]⟩ 32) (i : (⟨1, ![100000]⟩ : Shape).Idx) :
    IsReal (counts cd hs1 hc hbE hbN hbc e i) := by
  unfold counts
  refine isReal_hostScatterAdd cd _ _ _ (fun j => ?_) (fun j => ?_) i
  · rw [bcast_vec_apply]; exact isReal_ofBits_zero
  · rw [bcast_vec_apply]; exact ⟨1, Cert.Sage.one_f32⟩

/-- So the reciprocal of the divisor is a real. -/
theorem isReal_recip_divisor (e : IVec ⟨2, ![2, E]⟩ 32) (i : (⟨1, ![100000]⟩ : Shape).Idx) :
    IsReal (Ideal.div 1 (divisor cd hs1 hc hbE hbN hbc e i)) := by
  rw [divisor_apply]
  exact isReal_one_div_max_one (isReal_counts cd hs1 hc hbE hbN hbc e i)

end Edges

/-! ## Stacking the two node types' results -/

/-- Two 100000×128 arrays as the two slabs of a 2×100000×128 array. -/
def stack (a b : Mat 100000 128) : (⟨3, ![2, 100000, 128]⟩ : Shape).Idx → EReal :=
  fun i => if (i 0).val = 0 then a (ix2 (⟨(i 1).val, (i 1).isLt⟩ : Fin 100000) (⟨(i 2).val, (i 2).isLt⟩ : Fin 128))
    else b (ix2 (⟨(i 1).val, (i 1).isLt⟩ : Fin 100000) (⟨(i 2).val, (i 2).isLt⟩ : Fin 128))

theorem stack_zero (a b : Mat 100000 128) (p : Fin 100000) (q : Fin 128) : stack a b (ix3 (0 : Fin 2) p q) = a (ix2 p q) := rfl
theorem stack_one (a b : Mat 100000 128) (p : Fin 100000) (q : Fin 128) : stack a b (ix3 (1 : Fin 2) p q) = b (ix2 p q) := rfl

/-! ## The network -/

/-- The dimension records and shape facts of one edge-list length, bundled. -/
structure Recs (E : Nat) where
  gd : GatherDims ⟨2, ![100000, 128]⟩ ⟨2, ![E, 1]⟩ ⟨2, ![E, 128]⟩
  sd : ScatterDims ⟨2, ![100000, 128]⟩ ⟨2, ![E, 1]⟩ ⟨2, ![E, 128]⟩
  cd : ScatterDims ⟨1, ![100000]⟩ ⟨2, ![E, 1]⟩ ⟨1, ![E]⟩
  hs0 : (⟨2, ![2, E]⟩ : Shape).Slices ![0, 0] ⟨2, ![1, E]⟩
  hs1 : (⟨2, ![2, E]⟩ : Shape).Slices ![1, 0] ⟨2, ![1, E]⟩
  hc : (⟨2, ![1, E]⟩ : Shape).ShapeCasts ⟨1, ![E]⟩
  hbE : (⟨0, ![]⟩ : Shape).BroadcastsInDim ⟨1, ![E]⟩ ![]
  hbc : (⟨1, ![E]⟩ : Shape).BroadcastsInDim ⟨2, ![E, 1]⟩ ![0]

section Network
variable {E₁ E₂ : Nat} (S : Recs E₁) (L : Recs E₂)
  (hbN : (⟨0, ![]⟩ : Shape).BroadcastsInDim ⟨1, ![100000]⟩ ![])
  (hbz : (⟨0, ![]⟩ : Shape).BroadcastsInDim ⟨2, ![100000, 128]⟩ ![])

/-- Neighbour sums and divisors along a bundled edge-list length. -/
def Recs.sum {E : Nat} (R : Recs E) (e : IVec ⟨2, ![2, E]⟩ 32) (x : Mat 100000 128) : Mat 100000 128 :=
  segSum R.gd R.sd R.hs0 R.hs1 R.hc R.hbE R.hbc hbz e x
def Recs.div {E : Nat} (R : Recs E) (e : IVec ⟨2, ![2, E]⟩ 32) : Vect 100000 :=
  divisor R.cd R.hs1 R.hc R.hbE hbN R.hbc e

/-- One layer into node type d: along the edge types dd (0, short list) and md (3, long list). -/
def layerD (e_dd : IVec ⟨2, ![2, E₁]⟩ 32) (e_md : IVec ⟨2, ![2, E₂]⟩ 32)
    (Wl : (⟨4, ![2, 4, 128, 128]⟩ : Shape).Idx → EReal) (bl : (⟨3, ![2, 4, 128]⟩ : Shape).Idx → EReal)
    (Wr : (⟨4, ![2, 4, 128, 128]⟩ : Shape).Idx → EReal) (l : Fin 2) (xd xm : Mat 100000 128) : Mat 100000 128 :=
  hetero (S.sum hbz e_dd xd) (L.sum hbz e_md xm) xd (S.div hbN e_dd) (L.div hbN e_md)
    (wT Wl l 0) (wT Wr l 0) (wT Wl l 3) (wT Wr l 3) (bV bl l 0) (bV bl l 3)

/-- One layer into node type m: along the edge types mm (1, short list) and dm (2, long list). -/
def layerM (e_mm : IVec ⟨2, ![2, E₁]⟩ 32) (e_dm : IVec ⟨2, ![2, E₂]⟩ 32)
    (Wl : (⟨4, ![2, 4, 128, 128]⟩ : Shape).Idx → EReal) (bl : (⟨3, ![2, 4, 128]⟩ : Shape).Idx → EReal)
    (Wr : (⟨4, ![2, 4, 128, 128]⟩ : Shape).Idx → EReal) (l : Fin 2) (xd xm : Mat 100000 128) : Mat 100000 128 :=
  hetero (S.sum hbz e_mm xm) (L.sum hbz e_dm xd) xm (S.div hbN e_mm) (L.div hbN e_dm)
    (wT Wl l 1) (wT Wr l 1) (wT Wl l 2) (wT Wr l 2) (bV bl l 1) (bV bl l 2)

/-- The network: the first layer joined with the zero word, the second layer, the two node types stacked. -/
def forward (xd xm : Mat 100000 128) (e_dd e_mm : IVec ⟨2, ![2, E₁]⟩ 32) (e_dm e_md : IVec ⟨2, ![2, E₂]⟩ 32)
    (Wl : (⟨4, ![2, 4, 128, 128]⟩ : Shape).Idx → EReal) (bl : (⟨3, ![2, 4, 128]⟩ : Shape).Idx → EReal)
    (Wr : (⟨4, ![2, 4, 128, 128]⟩ : Shape).Idx → EReal) : (⟨3, ![2, 100000, 128]⟩ : Shape).Idx → EReal :=
  stack
    (layerD S L hbN hbz e_dd e_md Wl bl Wr 1 (relu (layerD S L hbN hbz e_dd e_md Wl bl Wr 0 xd xm)) (relu (layerM S L hbN hbz e_mm e_dm Wl bl Wr 0 xd xm)))
    (layerM S L hbN hbz e_mm e_dm Wl bl Wr 1 (relu (layerD S L hbN hbz e_dd e_md Wl bl Wr 0 xd xm)) (relu (layerM S L hbN hbz e_mm e_dm Wl bl Wr 0 xd xm)))

end Network

/-! ## The fused form of a layer -/

section Fused
variable {E₁ E₂ : Nat} (S : Recs E₁) (L : Recs E₂)
  (hbN : (⟨0, ![]⟩ : Shape).BroadcastsInDim ⟨1, ![100000]⟩ ![])
  (hbz : (⟨0, ![]⟩ : Shape).BroadcastsInDim ⟨2, ![100000, 128]⟩ ![])

theorem Recs.div_ne_zero {E : Nat} (R : Recs E) (e : IVec ⟨2, ![2, E]⟩ 32) (p : Fin 100000) : R.div hbN e (ix1 p) ≠ 0 :=
  divisor_ne_zero R.cd R.hs1 R.hc R.hbE hbN R.hbc e _

theorem Recs.isReal_sum {E : Nat} (R : Recs E) (e : IVec ⟨2, ![2, E]⟩ 32) (x : Mat 100000 128) (hx : ∀ i, IsReal (x i))
    (i : (⟨2, ![100000, 128]⟩ : Shape).Idx) : IsReal (R.sum hbz e x i) :=
  isReal_segSum R.gd R.sd R.hs0 R.hs1 R.hc R.hbE R.hbc hbz e x hx i

theorem Recs.isReal_recip {E : Nat} (R : Recs E) (e : IVec ⟨2, ![2, E]⟩ 32) (p : Fin 100000) :
    IsReal (Ideal.div 1 (R.div hbN e (ix1 p))) :=
  isReal_recip_divisor R.cd R.hs1 R.hc R.hbE hbN R.hbc e _

theorem isReal_wT (W : (⟨4, ![2, 4, 128, 128]⟩ : Shape).Idx → EReal) (hW : ∀ i, IsReal (W i)) (l : Fin 2) (t : Fin 4)
    (i : (⟨2, ![128, 128]⟩ : Shape).Idx) : IsReal (wT W l t i) := hW _

theorem isReal_bV (B : (⟨3, ![2, 4, 128]⟩ : Shape).Idx → EReal) (hB : ∀ i, IsReal (B i)) (l : Fin 2) (t : Fin 4)
    (i : (⟨1, ![128]⟩ : Shape).Idx) : IsReal (bV B l t i) := hB _

/-- The fused layer into node type d is `layerD`, over real features and real own-feature weights. -/
theorem fused_layerD (e_dd : IVec ⟨2, ![2, E₁]⟩ 32) (e_md : IVec ⟨2, ![2, E₂]⟩ 32)
    (Wl : (⟨4, ![2, 4, 128, 128]⟩ : Shape).Idx → EReal) (bl : (⟨3, ![2, 4, 128]⟩ : Shape).Idx → EReal)
    (Wr : (⟨4, ![2, 4, 128, 128]⟩ : Shape).Idx → EReal) (l : Fin 2) (xd xm : Mat 100000 128)
    (s : Mat 100000 4) (Wa Wb Wc : Mat 128 128) (b : Mat 1 128)
    (hs0 : ∀ p : Fin 100000, s (ix2 p 0) = Ideal.div 1 (S.div hbN e_dd (ix1 p)))
    (hs1 : ∀ p : Fin 100000, s (ix2 p 1) = Ideal.div 1 (L.div hbN e_md (ix1 p)))
    (hWa : Wa = wT Wl l 0) (hWb : Wb = wT Wl l 3)
    (hWc : ∀ k q : Fin 128, Wc (ix2 k q) = wT Wr l 0 (ix2 k q) + wT Wr l 3 (ix2 k q))
    (hb : ∀ q : Fin 128, b (ix2 0 q) = bV bl l 0 (ix1 q) + bV bl l 3 (ix1 q))
    (hx : ∀ i, IsReal (xd i)) (hWr : ∀ i, IsReal (Wr i)) :
    combine (S.sum hbz e_dd xd) (L.sum hbz e_md xm) xd s 0 1 Wa Wb Wc b
      = layerD S L hbN hbz e_dd e_md Wl bl Wr l xd xm := by
  subst hWa hWb
  exact combine_eq_hetero _ _ _ s 0 1 _ _ _ _ _ _ Wc _ _ b hs0 hs1 (S.div_ne_zero hbN e_dd) (L.div_ne_zero hbN e_md) hx
    (isReal_wT Wr hWr l 0) (isReal_wT Wr hWr l 3)
    (fun i => by obtain ⟨k, q, rfl⟩ : ∃ (k q : Fin 128), i = ix2 k q := ⟨i 0, i 1, eq_ix2 i⟩; exact hWc k q) hb

/-- The fused layer into node type m is `layerM`. -/
theorem fused_layerM (e_mm : IVec ⟨2, ![2, E₁]⟩ 32) (e_dm : IVec ⟨2, ![2, E₂]⟩ 32)
    (Wl : (⟨4, ![2, 4, 128, 128]⟩ : Shape).Idx → EReal) (bl : (⟨3, ![2, 4, 128]⟩ : Shape).Idx → EReal)
    (Wr : (⟨4, ![2, 4, 128, 128]⟩ : Shape).Idx → EReal) (l : Fin 2) (xd xm : Mat 100000 128)
    (s : Mat 100000 4) (Wa Wb Wc : Mat 128 128) (b : Mat 1 128)
    (hs2 : ∀ p : Fin 100000, s (ix2 p 2) = Ideal.div 1 (S.div hbN e_mm (ix1 p)))
    (hs3 : ∀ p : Fin 100000, s (ix2 p 3) = Ideal.div 1 (L.div hbN e_dm (ix1 p)))
    (hWa : Wa = wT Wl l 1) (hWb : Wb = wT Wl l 2)
    (hWc : ∀ k q : Fin 128, Wc (ix2 k q) = wT Wr l 1 (ix2 k q) + wT Wr l 2 (ix2 k q))
    (hb : ∀ q : Fin 128, b (ix2 0 q) = bV bl l 1 (ix1 q) + bV bl l 2 (ix1 q))
    (hx : ∀ i, IsReal (xm i)) (hWr : ∀ i, IsReal (Wr i)) :
    combine (S.sum hbz e_mm xm) (L.sum hbz e_dm xd) xm s 2 3 Wa Wb Wc b
      = layerM S L hbN hbz e_mm e_dm Wl bl Wr l xd xm := by
  subst hWa hWb
  exact combine_eq_hetero _ _ _ s 2 3 _ _ _ _ _ _ Wc _ _ b hs2 hs3 (S.div_ne_zero hbN e_mm) (L.div_ne_zero hbN e_dm) hx
    (isReal_wT Wr hWr l 1) (isReal_wT Wr hWr l 2)
    (fun i => by obtain ⟨k, q, rfl⟩ : ∃ (k q : Fin 128), i = ix2 k q := ⟨i 0, i 1, eq_ix2 i⟩; exact hWc k q) hb

/-- A fused layer of reals is an array of reals. -/
theorem isReal_fused {E E' : Nat} (R : Recs E) (R' : Recs E') (e : IVec ⟨2, ![2, E]⟩ 32) (e' : IVec ⟨2, ![2, E']⟩ 32)
    (x y z : Mat 100000 128) (s : Mat 100000 4) (ja jb : Fin 4) (Wa Wb Wc : Mat 128 128) (b : Mat 1 128)
    (hx : ∀ i, IsReal (x i)) (hy : ∀ i, IsReal (y i)) (hz : ∀ i, IsReal (z i)) (hs : ∀ i, IsReal (s i))
    (hWa : ∀ i, IsReal (Wa i)) (hWb : ∀ i, IsReal (Wb i)) (hWc : ∀ i, IsReal (Wc i)) (hb : ∀ i, IsReal (b i))
    (i : (⟨2, ![100000, 128]⟩ : Shape).Idx) :
    IsReal (combine (R.sum hbz e x) (R'.sum hbz e' y) z s ja jb Wa Wb Wc b i) :=
  isReal_combine _ _ _ _ _ _ _ _ _ _ (R.isReal_sum hbz e x hx) (R'.isReal_sum hbz e' y hy) hz hs hWa hWb hWc hb i

end Fused

end Cert.SageParts

end
-- ==== Proof.KernelBlocks1.lean ====
/-
  The second region's result as a whole-array function of the arrays the region finds.

  Grid point t writes rows 2000·t … 2000·t + 1999 of both slabs of the stacked 2×100000×128 result: slab 0 the fused
  layer into node type d, slab 1 the fused layer into node type m, each of the point's blocks. As in the first region an
  entry depends on one row of the row-blocked arrays, so the block is that of the fused layers of the WHOLE arrays,
  stacked; the fifty blocks cover the result.
-/
import proofs.«123560_j36206574305716_2_alg».proof.Proof.IdealRegionData
import proofs.«123560_j36206574305716_2_alg».proof.Proof.KernelPayloads
import proofs.«123560_j36206574305716_2_alg».proof.Proof.KernelBlocks0
import proofs.«123560_j36206574305716_2_alg».proof.Proof.LibSageParts
import Idealize.ShloMosaic.Lib.Pipeline.Value

set_option maxRecDepth 16384

noncomputable section

namespace Cert.KernelIdeal.Blocks

open Cert.KernelIdeal Cert.KernelIdeal.Gen Cert.KernelIdeal.Regions Cert.KernelIdeal.Payloads
open Idealize.ShloMosaic Idealize.ShloMosaic.TcCoe Idealize.ShloMosaic.ValueIdx Cert.HeteroSage
open Idealize.SL.Sem
open Idealize.ShloMosaic.Pipeline (Dat Cfg Window)

variable (V : (c : Dev nD) → (b : Ref sig .tc) → Buf (Elt Ideal) ((c : Thread nD τ).loc b))

theorem idx1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0)
    ∧ (win1_4.index t (0 : Fin 2) = t.val ∧ win1_4.index t (1 : Fin 2) = 0)
    ∧ (win1_5.index t (0 : Fin 2) = t.val ∧ win1_5.index t (1 : Fin 2) = 0)
    ∧ (win1_6.index t (0 : Fin 2) = t.val ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = 0 ∧ win1_9.index t (1 : Fin 2) = 0)
    ∧ (win1_10.index t (0 : Fin 2) = 0 ∧ win1_10.index t (1 : Fin 2) = 0)
    ∧ (win1_11.index t (0 : Fin 2) = 0 ∧ win1_11.index t (1 : Fin 2) = 0)
    ∧ (win1_12.index t (0 : Fin 2) = 0 ∧ win1_12.index t (1 : Fin 2) = 0)
    ∧ (win1_13.index t (0 : Fin 2) = 0 ∧ win1_13.index t (1 : Fin 2) = 0)
    ∧ (win1_14.index t (0 : Fin 2) = 0 ∧ win1_14.index t (1 : Fin 2) = 0)
    ∧ (win1_15.index t (0 : Fin 3) = 0 ∧ win1_15.index t (1 : Fin 3) = t.val ∧ win1_15.index t (2 : Fin 3) = 0) :=
  (by decide +kernel : ∀ t : Fin grid1.N, _)

theorem N1 : cfg1.N = 50 := N_1

/-- The second region's two fused layers and their stack. -/
abbrev G1d (c : Dev nD) : S100000x128.Idx → EReal := combine (V c main_v155 : S100000x128.Idx → EReal) (V c main_v169 : S100000x128.Idx → EReal) (V c main_v141_0 : S100000x128.Idx → EReal) (V c main_v46 : S100000x4.Idx → EReal) ⟨0, by decide⟩ ⟨1, by decide⟩ (V c main_v199 : S128x128.Idx → EReal) (V c main_v201 : S128x128.Idx → EReal) (V c main_v207 : S128x128.Idx → EReal) (V c main_v211 : S1x128.Idx → EReal)
abbrev G1m (c : Dev nD) : S100000x128.Idx → EReal := combine (V c main_v183 : S100000x128.Idx → EReal) (V c main_v197 : S100000x128.Idx → EReal) (V c main_v141_1 : S100000x128.Idx → EReal) (V c main_v46 : S100000x4.Idx → EReal) ⟨2, by decide⟩ ⟨3, by decide⟩ (V c main_v203 : S128x128.Idx → EReal) (V c main_v205 : S128x128.Idx → EReal) (V c main_v209 : S128x128.Idx → EReal) (V c main_v213 : S1x128.Idx → EReal)
abbrev G1 (c : Dev nD) : S2x100000x128.Idx → EReal := Cert.SageParts.stack (G1d V c) (G1m V c)

/-- The later store wins where it lands: of two slabs stored one after the other, slab 0 holds the first store's
    value and slab 1 the second's. -/
theorem canon_two_slabs (P1 P0 : S1x2000x128.Idx → EReal) (p : Fin 2000) (q : Fin 128) :
    View.canon (Val := Elt Ideal) (e := EltTy.f32) [⟨(rS1 : Rect S2x2000x128), P1⟩, ⟨(rS0 : Rect S2x2000x128), P0⟩] (ix3 (0 : Fin 2) p q) = P0 (ix3 (0 : Fin 1) p q)
    ∧ View.canon (Val := Elt Ideal) (e := EltTy.f32) [⟨(rS1 : Rect S2x2000x128), P1⟩, ⟨(rS0 : Rect S2x2000x128), P0⟩] (ix3 (1 : Fin 2) p q) = P1 (ix3 (0 : Fin 1) p q) := by
  have hout : ix3 (0 : Fin 2) p q ∉ (rS1 : Rect S2x2000x128).set := fun h =>
    absurd ((Rect.mem_set_unit.1 h (0 : Fin 3)).1) (by show ¬ (1 ≤ 0); omega)
  have hin0 : ix3 (0 : Fin 2) p q = (rS0 : Rect S2x2000x128).emb (ix3 (0 : Fin 1) p q) := by
    funext a; apply Fin.ext
    match a with
    | ⟨0, _⟩ => show 0 = 0 + 1 * 0; rfl
    | ⟨1, _⟩ => show p.val = 0 + 1 * p.val; omega
    | ⟨2, _⟩ => show q.val = 0 + 1 * q.val; omega
  have hin1 : ix3 (1 : Fin 2) p q = (rS1 : Rect S2x2000x128).emb (ix3 (0 : Fin 1) p q) := by
    funext a; apply Fin.ext
    match a with
    | ⟨0, _⟩ => show 1 = 1 + 1 * 0; rfl
    | ⟨1, _⟩ => show p.val = 0 + 1 * p.val; omega
    | ⟨2, _⟩ => show q.val = 0 + 1 * q.val; omega
  constructor
  · rw [View.canon_cons_of_not_mem (Val := Elt Ideal) (e := EltTy.f32) ⟨(rS1 : Rect S2x2000x128), P1⟩ [⟨(rS0 : Rect S2x2000x128), P0⟩] hout]
    have h := View.canon_cons_emb (Val := Elt Ideal) (e := EltTy.f32) (rS0 : Rect S2x2000x128) P0 [] (ix3 (0 : Fin 1) p q)
    rw [← hin0] at h
    exact h
  · have h := View.canon_cons_emb (Val := Elt Ideal) (e := EltTy.f32) (rS1 : Rect S2x2000x128) P1 [(⟨(rS0 : Rect S2x2000x128), P0⟩ : View.Piece (Elt Ideal) S2x2000x128 EltTy.f32)] (ix3 (0 : Fin 1) p q)
    rw [← hin1] at h
    exact h

set_option maxHeartbeats 2000000 in
/-- What point t writes back is its block of the stacked result. -/
theorem flushed1_15 (c : Dev nD) (t : Fin cfg1.N) :
    (dat1 V c).flushed 15 t = ((cfg1.win 15).blk t).view.read (Elt Ideal) (G1 V c) := by
  show (cfg1.win 15).cut (grid1.coords t) ((dat1 V c).after 15 t) = _
  rw [show (dat1 V c).after 15 t = out1_15 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) from by dsimp only [dat1]]
  unfold out1_15
  simp only [View.ld_unit_zero (S := S2000x128) hz2, View.ld_unit_zero (S := S2000x4) hz2, View.ld_unit_zero (S := S128x128) hz2, View.ld_unit_zero (S := S1x128) hz2]
  rw [pay1_m, pay1_d]
  obtain ⟨h0, h1, h2, h3, h4, h5, h6, h7, h8, h9, h10, h11, h12, h13, h14, h15⟩ := idx1 t
  have ht : t.val < 50 := N1 ▸ t.isLt
  let τt : Fin 50 := ⟨t.val, ht⟩
  have e7 : iblk1 V c 7 t = (V c main_v199 : S128x128.Idx → EReal) := by
    funext y
    show V c main_v199 (((cfg1.win 7).blk t).view.emb y) = _
    refine congrArg _ (funext fun a => Fin.ext ?_)
    match a with
    | ⟨0, _⟩ => show win1_7.index t (0 : Fin 2) * 128 + 1 * (y 0).val = (y 0).val; rw [h7.1]; omega
    | ⟨1, _⟩ => show win1_7.index t (1 : Fin 2) * 128 + 1 * (y 1).val = (y 1).val; rw [h7.2]; omega
  have e8 : iblk1 V c 8 t = (V c main_v201 : S128x128.Idx → EReal) := by
    funext y
    show V c main_v201 (((cfg1.win 8).blk t).view.emb y) = _
    refine congrArg _ (funext fun a => Fin.ext ?_)
    match a with
    | ⟨0, _⟩ => show win1_8.index t (0 : Fin 2) * 128 + 1 * (y 0).val = (y 0).val; rw [h8.1]; omega
    | ⟨1, _⟩ => show win1_8.index t (1 : Fin 2) * 128 + 1 * (y 1).val = (y 1).val; rw [h8.2]; omega
  have e9 : iblk1 V c 9 t = (V c main_v203 : S128x128.Idx → EReal) := by
    funext y
    show V c main_v203 (((cfg1.win 9).blk t).view.emb y) = _
    refine congrArg _ (funext fun a => Fin.ext ?_)
    match a with
    | ⟨0, _⟩ => show win1_9.index t (0 : Fin 2) * 128 + 1 * (y 0).val = (y 0).val; rw [h9.1]; omega
    | ⟨1, _⟩ => show win1_9.index t (1 : Fin 2) * 128 + 1 * (y 1).val = (y 1).val; rw [h9.2]; omega
  have e10 : iblk1 V c 10 t = (V c main_v205 : S128x128.Idx → EReal) := by
    funext y
    show V c main_v205 (((cfg1.win 10).blk t).view.emb y) = _
    refine congrArg _ (funext fun a => Fin.ext ?_)
    match a with
    | ⟨0, _⟩ => show win1_10.index t (0 : Fin 2) * 128 + 1 * (y 0).val = (y 0).val; rw [h10.1]; omega
    | ⟨1, _⟩ => show win1_10.index t (1 : Fin 2) * 128 + 1 * (y 1).val = (y 1).val; rw [h10.2]; omega
  have e11 : iblk1 V c 11 t = (V c main_v207 : S128x128.Idx → EReal) := by
    funext y
    show V c main_v207 (((cfg1.win 11).blk t).view.emb y) = _
    refine congrArg _ (funext fun a => Fin.ext ?_)
    match a with
    | ⟨0, _⟩ => show win1_11.index t (0 : Fin 2) * 128 + 1 * (y 0).val = (y 0).val; rw [h11.1]; omega
    | ⟨1, _⟩ => show win1_11.index t (1 : Fin 2) * 128 + 1 * (y 1).val = (y 1).val; rw [h11.2]; omega
  have e12 : iblk1 V c 12 t = (V c main_v209 : S128x128.Idx → EReal) := by
    funext y
    show V c main_v209 (((cfg1.win 12).blk t).view.emb y) = _
    refine congrArg _ (funext fun a => Fin.ext ?_)
    match a with
    | ⟨0, _⟩ => show win1_12.index t (0 : Fin 2) * 128 + 1 * (y 0).val = (y 0).val; rw [h12.1]; omega
    | ⟨1, _⟩ => show win1_12.index t (1 : Fin 2) * 128 + 1 * (y 1).val = (y 1).val; rw [h12.2]; omega
  have e13 : iblk1 V c 13 t = (V c main_v211 : S1x128.Idx → EReal) := by
    funext y
    show V c main_v211 (((cfg1.win 13).blk t).view.emb y) = _
    refine congrArg _ (funext fun a => Fin.ext ?_)
    match a with
    | ⟨0, _⟩ => show win1_13.index t (0 : Fin 2) * 1 + 1 * (y 0).val = (y 0).val; rw [h13.1]; omega
    | ⟨1, _⟩ => show win1_13.index t (1 : Fin 2) * 128 + 1 * (y 1).val = (y 1).val; rw [h13.2]; omega
  have e14 : iblk1 V c 14 t = (V c main_v213 : S1x128.Idx → EReal) := by
    funext y
    show V c main_v213 (((cfg1.win 14).blk t).view.emb y) = _
    refine congrArg _ (funext fun a => Fin.ext ?_)
    match a with
    | ⟨0, _⟩ => show win1_14.index t (0 : Fin 2) * 1 + 1 * (y 0).val = (y 0).val; rw [h14.1]; omega
    | ⟨1, _⟩ => show win1_14.index t (1 : Fin 2) * 128 + 1 * (y 1).val = (y 1).val; rw [h14.2]; omega
  rw [e7, e8, e9, e10, e11, e12, e13, e14]
  funext y
  obtain ⟨s, p, q, rfl⟩ : ∃ (s : Fin 2) (p : Fin 2000) (q : Fin 128), y = ix3 s p q := ⟨y 0, y 1, y 2, eq_ix3 y⟩
  have eo : ((cfg1.win 15).blk t).view.emb (ix3 s p q) = ix3 s (rowAt τt p) q := by
    funext a; apply Fin.ext
    match a with
    | ⟨0, _⟩ => show win1_15.index t (0 : Fin 3) * 2 + 1 * s.val = s.val; rw [h15.1]; omega
    | ⟨1, _⟩ => show win1_15.index t (1 : Fin 3) * 2000 + 1 * p.val = t.val * 2000 + p.val; rw [h15.2.1]; omega
    | ⟨2, _⟩ => show win1_15.index t (2 : Fin 3) * 128 + 1 * q.val = q.val; rw [h15.2.2]; omega
  show View.canon (Val := Elt Ideal) (e := EltTy.f32) _ (ix3 s p q) = G1 V c (((cfg1.win 15).blk t).view.emb (ix3 s p q))
  rw [eo]
  match s with
  | ⟨0, _⟩ =>
    refine ((canon_two_slabs _ _ p q).1).trans ?_
    refine (slab_apply _ _ p q).trans ?_
    show combine _ _ _ _ _ _ _ _ _ _ (ix2 p q) = G1d V c (ix2 (rowAt τt p) q)
    refine combine_rows (V c main_v155 : S100000x128.Idx → EReal) (V c main_v169 : S100000x128.Idx → EReal) (V c main_v141_0 : S100000x128.Idx → EReal) (V c main_v46 : S100000x4.Idx → EReal)
      (iblk1 V c 0 t) (iblk1 V c 1 t) (iblk1 V c 2 t) (iblk1 V c 6 t) _ _ _ _ _ _ (rowAt τt) ?_ ?_ ?_ ?_ p q
    · intro p k
      show V c main_v155 (((cfg1.win 0).blk t).view.emb (ix2 p k)) = _
      refine congrArg _ (funext fun a => Fin.ext ?_)
      match a with
      | ⟨0, _⟩ => show win1_0.index t (0 : Fin 2) * 2000 + 1 * p.val = t.val * 2000 + p.val; rw [h0.1]; omega
      | ⟨1, _⟩ => show win1_0.index t (1 : Fin 2) * 128 + 1 * k.val = k.val; rw [h0.2]; omega
    · intro p k
      show V c main_v169 (((cfg1.win 1).blk t).view.emb (ix2 p k)) = _
      refine congrArg _ (funext fun a => Fin.ext ?_)
      match a with
      | ⟨0, _⟩ => show win1_1.index t (0 : Fin 2) * 2000 + 1 * p.val = t.val * 2000 + p.val; rw [h1.1]; omega
      | ⟨1, _⟩ => show win1_1.index t (1 : Fin 2) * 128 + 1 * k.val = k.val; rw [h1.2]; omega
    · intro p k
      show V c main_v141_0 (((cfg1.win 2).blk t).view.emb (ix2 p k)) = _
      refine congrArg _ (funext fun a => Fin.ext ?_)
      match a with
      | ⟨0, _⟩ => show win1_2.index t (0 : Fin 2) * 2000 + 1 * p.val = t.val * 2000 + p.val; rw [h2.1]; omega
      | ⟨1, _⟩ => show win1_2.index t (1 : Fin 2) * 128 + 1 * k.val = k.val; rw [h2.2]; omega
    · intro p j
      show V c main_v46 (((cfg1.win 6).blk t).view.emb (ix2 p j)) = _
      refine congrArg _ (funext fun a => Fin.ext ?_)
      match a with
      | ⟨0, _⟩ => show win1_6.index t (0 : Fin 2) * 2000 + 1 * p.val = t.val * 2000 + p.val; rw [h6.1]; omega
      | ⟨1, _⟩ => show win1_6.index t (1 : Fin 2) * 4 + 1 * j.val = j.val; rw [h6.2]; omega
  | ⟨1, _⟩ =>
    refine ((canon_two_slabs _ _ p q).2).trans ?_
    refine (slab_apply _ _ p q).trans ?_
    show combine _ _ _ _ _ _ _ _ _ _ (ix2 p q) = G1m V c (ix2 (rowAt τt p) q)
    refine combine_rows (V c main_v183 : S100000x128.Idx → EReal) (V c main_v197 : S100000x128.Idx → EReal) (V c main_v141_1 : S100000x128.Idx → EReal) (V c main_v46 : S100000x4.Idx → EReal)
      (iblk1 V c 3 t) (iblk1 V c 4 t) (iblk1 V c 5 t) (iblk1 V c 6 t) _ _ _ _ _ _ (rowAt τt) ?_ ?_ ?_ ?_ p q
    · intro p k
      show V c main_v183 (((cfg1.win 3).blk t).view.emb (ix2 p k)) = _
      refine congrArg _ (funext fun a => Fin.ext ?_)
      match a with
      | ⟨0, _⟩ => show win1_3.index t (0 : Fin 2) * 2000 + 1 * p.val = t.val * 2000 + p.val; rw [h3.1]; omega
      | ⟨1, _⟩ => show win1_3.index t (1 : Fin 2) * 128 + 1 * k.val = k.val; rw [h3.2]; omega
    · intro p k
      show V c main_v197 (((cfg1.win 4).blk t).view.emb (ix2 p k)) = _
      refine congrArg _ (funext fun a => Fin.ext ?_)
      match a with
      | ⟨0, _⟩ => show win1_4.index t (0 : Fin 2) * 2000 + 1 * p.val = t.val * 2000 + p.val; rw [h4.1]; omega
      | ⟨1, _⟩ => show win1_4.index t (1 : Fin 2) * 128 + 1 * k.val = k.val; rw [h4.2]; omega
    · intro p k
      show V c main_v141_1 (((cfg1.win 5).blk t).view.emb (ix2 p k)) = _
      refine congrArg _ (funext fun a => Fin.ext ?_)
      match a with
      | ⟨0, _⟩ => show win1_5.index t (0 : Fin 2) * 2000 + 1 * p.val = t.val * 2000 + p.val; rw [h5.1]; omega
      | ⟨1, _⟩ => show win1_5.index t (1 : Fin 2) * 128 + 1 * k.val = k.val; rw [h5.2]; omega
    · intro p j
      show V c main_v46 (((cfg1.win 6).blk t).view.emb (ix2 p j)) = _
      refine congrArg _ (funext fun a => Fin.ext ?_)
      match a with
      | ⟨0, _⟩ => show win1_6.index t (0 : Fin 2) * 2000 + 1 * p.val = t.val * 2000 + p.val; rw [h6.1]; omega
      | ⟨1, _⟩ => show win1_6.index t (1 : Fin 2) * 4 + 1 * j.val = j.val; rw [h6.2]; omega

theorem mem_blk1_15 (t : Fin cfg1.N) (i : S2x100000x128.Idx) :
    i ∈ ((cfg1.win 15).blk t).view.set ↔ ∀ a : Fin 3, win1_15.index t a * S2x2000x128.size a ≤ (i a).val ∧ (i a).val < win1_15.index t a * S2x2000x128.size a + S2x2000x128.size a := by
  show i ∈ ((View.whole main_v214).slice (win1_15.rect t)).set ↔ _
  rw [View.set_slice_whole, Rect.mem_set_unit]
  exact Iff.rfl

theorem covered1_15 (i : S2x100000x128.Idx) :
    ∃ t : Fin cfg1.N, (cfg1.win 15).flush t = true ∧ i ∈ ((cfg1.win 15).blk t).view.set := by
  have hi0 : (i 0).val < 2 := (i 0).isLt
  have hi1 : (i 1).val < 100000 := (i 1).isLt
  have hi2 : (i 2).val < 128 := (i 2).isLt
  have hN : (i 1).val / 2000 < cfg1.N := by rw [N1]; omega
  obtain ⟨h0, h1, h2, h3, h4, h5, h6, h7, h8, h9, h10, h11, h12, h13, h14, h15⟩ := idx1 ⟨(i 1).val / 2000, hN⟩
  refine ⟨⟨(i 1).val / 2000, hN⟩, flush1_15 _, ?_⟩
  rw [mem_blk1_15]
  intro a
  match a with
  | ⟨0, _⟩ =>
    show win1_15.index ⟨(i 1).val / 2000, hN⟩ (0 : Fin 3) * 2 ≤ (i 0).val ∧ (i 0).val < win1_15.index ⟨(i 1).val / 2000, hN⟩ (0 : Fin 3) * 2 + 2
    rw [h15.1]; omega
  | ⟨1, _⟩ =>
    show win1_15.index ⟨(i 1).val / 2000, hN⟩ (1 : Fin 3) * 2000 ≤ (i 1).val ∧ (i 1).val < win1_15.index ⟨(i 1).val / 2000, hN⟩ (1 : Fin 3) * 2000 + 2000
    rw [h15.2.1]; show (i 1).val / 2000 * 2000 ≤ (i 1).val ∧ (i 1).val < (i 1).val / 2000 * 2000 + 2000; omega
  | ⟨2, _⟩ =>
    show win1_15.index ⟨(i 1).val / 2000, hN⟩ (2 : Fin 3) * 128 ≤ (i 2).val ∧ (i 2).val < win1_15.index ⟨(i 1).val / 2000, hN⟩ (2 : Fin 3) * 128 + 128
    rw [h15.2.2]; omega

/-- So the stacked result ends as the stack of the two fused layers of the whole arrays. -/
theorem final1_15 (c : Dev nD) : (dat1 V c).arrAt 15 cfg1.N = G1 V c :=
  (dat1 V c).arrAt_eq_of_cover 15 (G1 V c) (fun t _ => flushed1_15 V c t) (covered1_15)

end Cert.KernelIdeal.Blocks

end
-- ==== Proof.KernelRecords.lean ====
/-
  The kernel program's gather and scatter records, bundled, and the value each host operation before the first
  region leaves in the buffers the region reads: the four neighbour sums, the reciprocal counts column by column,
  the transposed weight matrices (two of them sums over a pair of edge types) and the summed bias rows — each a
  reading of the operations' composed term, from any contents `W` of the argument buffers.
-/
import proofs.«123560_j36206574305716_2_alg».proof.Proof.Gen.KernelIdeal
import proofs.«123560_j36206574305716_2_alg».proof.Proof.LibSageParts

set_option maxRecDepth 16384
set_option maxHeartbeats 4000000

noncomputable section

namespace Cert.KernelIdeal.Stages

open Cert.KernelIdeal Cert.KernelIdeal.Gen
open Idealize.ShloMosaic Idealize.ShloMosaic.TcCoe Idealize.ShloMosaic.ValueIdx Idealize.ShloMosaic.StableHlo
open Cert.HeteroSage Cert.SageParts
open Idealize.SL.Sem

/-- The records of the 100000-edge lists and of the 1000000-edge lists. -/
def KS : Recs 100000 :=
  ⟨gather_S100000x128_S100000x1_S100000x128_1_0_n_n_0_1_1128, scatter_S100000x128_S100000x1_S100000x128_1_0_0_1,
    scatter_S100000_S100000x1_S100000_n_0_0_1, slices_S2x100000_S1x100000_0_0, slices_S2x100000_S1x100000_1_0,
    shapeCasts_S1x100000_S100000, bcast_S_S100000, bcast_S100000_S100000x1_0⟩
def KL : Recs 1000000 :=
  ⟨gather_S100000x128_S1000000x1_S1000000x128_1_0_n_n_0_1_1128, scatter_S100000x128_S1000000x1_S1000000x128_1_0_0_1,
    scatter_S100000_S1000000x1_S1000000_n_0_0_1, slices_S2x1000000_S1x1000000_0_0, slices_S2x1000000_S1x1000000_1_0,
    shapeCasts_S1x1000000_S1000000, bcast_S_S1000000, bcast_S1000000_S1000000x1_0⟩

end Cert.KernelIdeal.Stages

end
-- ==== Proof.LibSageReads.lean ====
/-
  The layouts through which a fused two-layer network reads its weights, biases and reciprocal counts, read at
  an index.

  The 2×4×128×128 weights W are transposed in their last two axes once; the matrix of layer l and edge type t is
  then a 1×1×128×128 slice re-shaped to 128×128, whose (k, q) entry is W(l, t, q, k) — LibSageParts' `wT W l t`.
  Two edge types' matrices are added for both layers at once (two 2×1×128×128 slices re-shaped to 2×128×128 and
  added) and layer l cut out afterwards; the biases likewise as 1×128 rows. The four reciprocal-count vectors are
  laid side by side as the columns of a 100000×4 array. Nothing here mentions a program.
-/
import Idealize.ShloMosaic.PureOps.Ideal.Laws
import Idealize.ShloMosaic.Lib.ValueIdx
import Idealize.ShloMosaic.Lib.Pipeline.Value
import proofs.«123560_j36206574305716_2_alg».proof.Proof.LibRowReductions
import proofs.«123560_j36206574305716_2_alg».proof.Proof.LibSageParts

noncomputable section

namespace Cert.SageReads

open Idealize.ShloMosaic Idealize.ShloMosaic.ValueIdx Cert.HeteroSage Cert.SageParts

/-- The transposed weights at (l, t, k, q): the weights at (l, t, q, k). -/
theorem transposed_apply (W : (⟨4, ![2, 4, 128, 128]⟩ : Shape).Idx → EReal)
    (hT : (⟨4, ![2, 4, 128, 128]⟩ : Shape).Transposes [0, 1, 3, 2] ⟨4, ![2, 4, 128, 128]⟩)
    (l : Fin 2) (t : Fin 4) (k q : Fin 128) :
    transpose ⟨4, ![2, 4, 128, 128]⟩ [0, 1, 3, 2] W hT (ix4 l t k q) = W (ix4 l t q k) :=
  transpose_apply [0, 1, 3, 2] W hT (ix4 l t k q) (ix4 l t q k) fun b => by
    match b with
    | ⟨0, _⟩ => rfl
    | ⟨1, _⟩ => rfl
    | ⟨2, _⟩ => rfl
    | ⟨3, _⟩ => rfl

/-- One layer's, one edge type's matrix cut out of the transposed weights. -/
theorem slice_wT (W : (⟨4, ![2, 4, 128, 128]⟩ : Shape).Idx → EReal)
    (hT : (⟨4, ![2, 4, 128, 128]⟩ : Shape).Transposes [0, 1, 3, 2] ⟨4, ![2, 4, 128, 128]⟩)
    (l t : Nat) (hl : l < 2) (ht : t < 4)
    (hs : (⟨4, ![2, 4, 128, 128]⟩ : Shape).Slices ![l, t, 0, 0] ⟨4, ![1, 1, 128, 128]⟩)
    (hc : (⟨4, ![1, 1, 128, 128]⟩ : Shape).ShapeCasts ⟨2, ![128, 128]⟩) :
    shapeCast ⟨2, ![128, 128]⟩ (extractStridedSlice ⟨4, ![1, 1, 128, 128]⟩ ![l, t, 0, 0]
      (transpose ⟨4, ![2, 4, 128, 128]⟩ [0, 1, 3, 2] W hT) hs) hc = wT W ⟨l, hl⟩ ⟨t, ht⟩ := by
  funext i
  obtain ⟨k, q, rfl⟩ : ∃ (k q : Fin 128), i = ix2 k q := ⟨i 0, i 1, eq_ix2 i⟩
  rw [shapeCast_apply _ hc (ix2 k q) (ix4 (0 : Fin 1) (0 : Fin 1) k q) (by
      rw [Shape.rowMajor_val_two, Shape.rowMajor_val_four]
      show ((0 * 1 + 0) * 128 + k.val) * 128 + q.val = k.val * 128 + q.val
      omega),
    extractStridedSlice_apply ![l, t, 0, 0] _ hs (ix4 (0 : Fin 1) (0 : Fin 1) k q) (ix4 (⟨l, hl⟩ : Fin 2) (⟨t, ht⟩ : Fin 4) k q) (fun a => by
      match a with
      | ⟨0, _⟩ => show l = l + 0; rfl
      | ⟨1, _⟩ => show t = t + 0; rfl
      | ⟨2, _⟩ => show k.val = 0 + k.val; omega
      | ⟨3, _⟩ => show q.val = 0 + q.val; omega),
    transposed_apply, wT_apply]

/-- Two edge types' matrices added for both layers, then layer l cut out. -/
theorem slice_wT_sum (W : (⟨4, ![2, 4, 128, 128]⟩ : Shape).Idx → EReal)
    (hT : (⟨4, ![2, 4, 128, 128]⟩ : Shape).Transposes [0, 1, 3, 2] ⟨4, ![2, 4, 128, 128]⟩)
    (l t₁ t₂ : Nat) (hl : l < 2) (ht₁ : t₁ < 4) (ht₂ : t₂ < 4)
    (hs₁ : (⟨4, ![2, 4, 128, 128]⟩ : Shape).Slices ![0, t₁, 0, 0] ⟨4, ![2, 1, 128, 128]⟩)
    (hs₂ : (⟨4, ![2, 4, 128, 128]⟩ : Shape).Slices ![0, t₂, 0, 0] ⟨4, ![2, 1, 128, 128]⟩)
    (hc : (⟨4, ![2, 1, 128, 128]⟩ : Shape).ShapeCasts ⟨3, ![2, 128, 128]⟩)
    (hsl : (⟨3, ![2, 128, 128]⟩ : Shape).Slices ![l, 0, 0] ⟨3, ![1, 128, 128]⟩)
    (hcl : (⟨3, ![1, 128, 128]⟩ : Shape).ShapeCasts ⟨2, ![128, 128]⟩) (k q : Fin 128) :
    shapeCast ⟨2, ![128, 128]⟩ (extractStridedSlice ⟨3, ![1, 128, 128]⟩ ![l, 0, 0]
      (addf (F := Ideal) (φ := .f32)
        (shapeCast ⟨3, ![2, 128, 128]⟩ (extractStridedSlice ⟨4, ![2, 1, 128, 128]⟩ ![0, t₁, 0, 0] (transpose ⟨4, ![2, 4, 128, 128]⟩ [0, 1, 3, 2] W hT) hs₁) hc)
        (shapeCast ⟨3, ![2, 128, 128]⟩ (extractStridedSlice ⟨4, ![2, 1, 128, 128]⟩ ![0, t₂, 0, 0] (transpose ⟨4, ![2, 4, 128, 128]⟩ [0, 1, 3, 2] W hT) hs₂) hc)) hsl) hcl (ix2 k q)
      = wT W ⟨l, hl⟩ ⟨t₁, ht₁⟩ (ix2 k q) + wT W ⟨l, hl⟩ ⟨t₂, ht₂⟩ (ix2 k q) := by
  have hpart : ∀ (t : Nat) (ht : t < 4) (hs : (⟨4, ![2, 4, 128, 128]⟩ : Shape).Slices ![0, t, 0, 0] ⟨4, ![2, 1, 128, 128]⟩),
      shapeCast ⟨3, ![2, 128, 128]⟩ (extractStridedSlice ⟨4, ![2, 1, 128, 128]⟩ ![0, t, 0, 0] (transpose ⟨4, ![2, 4, 128, 128]⟩ [0, 1, 3, 2] W hT) hs) hc
        (ix3 (⟨l, hl⟩ : Fin 2) k q) = wT W ⟨l, hl⟩ ⟨t, ht⟩ (ix2 k q) := fun t ht hs => by
    rw [shapeCast_apply _ hc (ix3 (⟨l, hl⟩ : Fin 2) k q) (ix4 (⟨l, hl⟩ : Fin 2) (0 : Fin 1) k q) (by
        rw [Shape.rowMajor_val_three, Shape.rowMajor_val_four]
        show ((l * 1 + 0) * 128 + k.val) * 128 + q.val = (l * 128 + k.val) * 128 + q.val
        omega),
      extractStridedSlice_apply ![0, t, 0, 0] _ hs (ix4 (⟨l, hl⟩ : Fin 2) (0 : Fin 1) k q) (ix4 (⟨l, hl⟩ : Fin 2) (⟨t, ht⟩ : Fin 4) k q) (fun a => by
        match a with
        | ⟨0, _⟩ => show l = 0 + l; omega
        | ⟨1, _⟩ => show t = t + 0; rfl
        | ⟨2, _⟩ => show k.val = 0 + k.val; omega
        | ⟨3, _⟩ => show q.val = 0 + q.val; omega),
      transposed_apply, wT_apply]
  rw [shapeCast_apply _ hcl (ix2 k q) (ix3 (0 : Fin 1) k q) (by
      rw [Shape.rowMajor_val_two, Shape.rowMajor_val_three]
      show (0 * 128 + k.val) * 128 + q.val = k.val * 128 + q.val
      omega),
    extractStridedSlice_apply ![l, 0, 0] _ hsl (ix3 (0 : Fin 1) k q) (ix3 (⟨l, hl⟩ : Fin 2) k q) (fun a => by
      match a with
      | ⟨0, _⟩ => show l = l + 0; rfl
      | ⟨1, _⟩ => show k.val = 0 + k.val; omega
      | ⟨2, _⟩ => show q.val = 0 + q.val; omega),
    addf_apply, hpart t₁ ht₁ hs₁, hpart t₂ ht₂ hs₂]

/-- Two edge types' biases added for both layers, laid out as 2×1×128, then layer l cut out as a 1×128 row. -/
theorem slice_bias_sum (B : (⟨3, ![2, 4, 128]⟩ : Shape).Idx → EReal)
    (l t₁ t₂ : Nat) (hl : l < 2) (ht₁ : t₁ < 4) (ht₂ : t₂ < 4)
    (hs₁ : (⟨3, ![2, 4, 128]⟩ : Shape).Slices ![0, t₁, 0] ⟨3, ![2, 1, 128]⟩)
    (hs₂ : (⟨3, ![2, 4, 128]⟩ : Shape).Slices ![0, t₂, 0] ⟨3, ![2, 1, 128]⟩)
    (hc : (⟨3, ![2, 1, 128]⟩ : Shape).ShapeCasts ⟨2, ![2, 128]⟩)
    (hc' : (⟨2, ![2, 128]⟩ : Shape).ShapeCasts ⟨3, ![2, 1, 128]⟩)
    (hsl : (⟨3, ![2, 1, 128]⟩ : Shape).Slices ![l, 0, 0] ⟨3, ![1, 1, 128]⟩)
    (hcl : (⟨3, ![1, 1, 128]⟩ : Shape).ShapeCasts ⟨2, ![1, 128]⟩) (q : Fin 128) :
    shapeCast ⟨2, ![1, 128]⟩ (extractStridedSlice ⟨3, ![1, 1, 128]⟩ ![l, 0, 0]
      (shapeCast ⟨3, ![2, 1, 128]⟩ (addf (F := Ideal) (φ := .f32)
        (shapeCast ⟨2, ![2, 128]⟩ (extractStridedSlice ⟨3, ![2, 1, 128]⟩ ![0, t₁, 0] B hs₁) hc)
        (shapeCast ⟨2, ![2, 128]⟩ (extractStridedSlice ⟨3, ![2, 1, 128]⟩ ![0, t₂, 0] B hs₂) hc)) hc') hsl) hcl (ix2 (0 : Fin 1) q)
      = bV B ⟨l, hl⟩ ⟨t₁, ht₁⟩ (ix1 q) + bV B ⟨l, hl⟩ ⟨t₂, ht₂⟩ (ix1 q) := by
  have hpart : ∀ (t : Nat) (ht : t < 4) (hs : (⟨3, ![2, 4, 128]⟩ : Shape).Slices ![0, t, 0] ⟨3, ![2, 1, 128]⟩),
      shapeCast ⟨2, ![2, 128]⟩ (extractStridedSlice ⟨3, ![2, 1, 128]⟩ ![0, t, 0] B hs) hc (ix2 (⟨l, hl⟩ : Fin 2) q)
        = bV B ⟨l, hl⟩ ⟨t, ht⟩ (ix1 q) := fun t ht hs => by
    rw [shapeCast_apply _ hc (ix2 (⟨l, hl⟩ : Fin 2) q) (ix3 (⟨l, hl⟩ : Fin 2) (0 : Fin 1) q) (by
        rw [Shape.rowMajor_val_two, Shape.rowMajor_val_three]
        show (l * 1 + 0) * 128 + q.val = l * 128 + q.val
        omega),
      extractStridedSlice_apply ![0, t, 0] _ hs (ix3 (⟨l, hl⟩ : Fin 2) (0 : Fin 1) q) (ix3 (⟨l, hl⟩ : Fin 2) (⟨t, ht⟩ : Fin 4) q) (fun a => by
        match a with
        | ⟨0, _⟩ => show l = 0 + l; omega
        | ⟨1, _⟩ => show t = t + 0; rfl
        | ⟨2, _⟩ => show q.val = 0 + q.val; omega),
      bV_apply]
  rw [shapeCast_apply _ hcl (ix2 (0 : Fin 1) q) (ix3 (0 : Fin 1) (0 : Fin 1) q) (by
      rw [Shape.rowMajor_val_two, Shape.rowMajor_val_three]
      show (0 * 1 + 0) * 128 + q.val = 0 * 128 + q.val
      omega),
    extractStridedSlice_apply ![l, 0, 0] _ hsl (ix3 (0 : Fin 1) (0 : Fin 1) q) (ix3 (⟨l, hl⟩ : Fin 2) (0 : Fin 1) q) (fun a => by
      match a with
      | ⟨0, _⟩ => show l = l + 0; rfl
      | ⟨1, _⟩ => show 0 = 0 + 0; rfl
      | ⟨2, _⟩ => show q.val = 0 + q.val; omega),
    shapeCast_apply _ hc' (ix3 (⟨l, hl⟩ : Fin 2) (0 : Fin 1) q) (ix2 (⟨l, hl⟩ : Fin 2) q) (by
      rw [Shape.rowMajor_val_two, Shape.rowMajor_val_three]
      show l * 128 + q.val = (l * 1 + 0) * 128 + q.val
      omega),
    addf_apply, hpart t₁ ht₁ hs₁, hpart t₂ ht₂ hs₂]

/-- Four R×1 columns side by side, read at (r, j): column j at row r. -/
theorem concat4_cols_apply {α : Type} {R : Nat} (col : Fin 4 → ((⟨2, ![R, 1]⟩ : Shape).Idx → α))
    (h : Shape.Concatenates [(⟨2, ![R, 1]⟩ : Shape), (⟨2, ![R, 1]⟩ : Shape), (⟨2, ![R, 1]⟩ : Shape), (⟨2, ![R, 1]⟩ : Shape)] ⟨2, ![R, 4]⟩ (1 : Fin 2))
    (r : Fin R) (j : Fin 4) :
    concatenate ⟨2, ![R, 4]⟩ (1 : Fin 2)
      [⟨(⟨2, ![R, 1]⟩ : Shape), col 0⟩, ⟨(⟨2, ![R, 1]⟩ : Shape), col 1⟩, ⟨(⟨2, ![R, 1]⟩ : Shape), col 2⟩, ⟨(⟨2, ![R, 1]⟩ : Shape), col 3⟩] h (ix2 r j)
      = col j (ix2 r (0 : Fin 1)) :=
  concatenate_ofFn_unit_apply (t := ⟨2, ![R, 4]⟩) (s₁ := ⟨2, ![R, 1]⟩) (1 : Fin 2) col h rfl rfl (ix2 r j) j rfl
    (ix2 r (0 : Fin 1)) fun b hb => by
      match b with
      | ⟨0, _⟩ => rfl
      | ⟨1, _⟩ => exact absurd rfl hb

/-- The same with the four columns named one by one. -/
theorem concat4_vals_apply {α : Type} {R : Nat} (c0 c1 c2 c3 : (⟨2, ![R, 1]⟩ : Shape).Idx → α)
    (h : Shape.Concatenates [(⟨2, ![R, 1]⟩ : Shape), (⟨2, ![R, 1]⟩ : Shape), (⟨2, ![R, 1]⟩ : Shape), (⟨2, ![R, 1]⟩ : Shape)] ⟨2, ![R, 4]⟩ (1 : Fin 2))
    (r : Fin R) :
    concatenate ⟨2, ![R, 4]⟩ (1 : Fin 2) [⟨(⟨2, ![R, 1]⟩ : Shape), c0⟩, ⟨(⟨2, ![R, 1]⟩ : Shape), c1⟩, ⟨(⟨2, ![R, 1]⟩ : Shape), c2⟩, ⟨(⟨2, ![R, 1]⟩ : Shape), c3⟩] h (ix2 r (0 : Fin 4)) = c0 (ix2 r (0 : Fin 1))
    ∧ concatenate ⟨2, ![R, 4]⟩ (1 : Fin 2) [⟨(⟨2, ![R, 1]⟩ : Shape), c0⟩, ⟨(⟨2, ![R, 1]⟩ : Shape), c1⟩, ⟨(⟨2, ![R, 1]⟩ : Shape), c2⟩, ⟨(⟨2, ![R, 1]⟩ : Shape), c3⟩] h (ix2 r (1 : Fin 4)) = c1 (ix2 r (0 : Fin 1))
    ∧ concatenate ⟨2, ![R, 4]⟩ (1 : Fin 2) [⟨(⟨2, ![R, 1]⟩ : Shape), c0⟩, ⟨(⟨2, ![R, 1]⟩ : Shape), c1⟩, ⟨(⟨2, ![R, 1]⟩ : Shape), c2⟩, ⟨(⟨2, ![R, 1]⟩ : Shape), c3⟩] h (ix2 r (2 : Fin 4)) = c2 (ix2 r (0 : Fin 1))
    ∧ concatenate ⟨2, ![R, 4]⟩ (1 : Fin 2) [⟨(⟨2, ![R, 1]⟩ : Shape), c0⟩, ⟨(⟨2, ![R, 1]⟩ : Shape), c1⟩, ⟨(⟨2, ![R, 1]⟩ : Shape), c2⟩, ⟨(⟨2, ![R, 1]⟩ : Shape), c3⟩] h (ix2 r (3 : Fin 4)) = c3 (ix2 r (0 : Fin 1)) :=
  ⟨concat4_cols_apply ![c0, c1, c2, c3] h r 0, concat4_cols_apply ![c0, c1, c2, c3] h r 1,
    concat4_cols_apply ![c0, c1, c2, c3] h r 2, concat4_cols_apply ![c0, c1, c2, c3] h r 3⟩

/-- The reciprocal of a divisor vector, laid out as a column: 1 / m(p) at (p, 0). -/
theorem recip_col_apply {R : Nat} (m : (⟨1, ![R]⟩ : Shape).Idx → EReal)
    (hb1 : (⟨0, ![]⟩ : Shape).BroadcastsInDim ⟨1, ![R]⟩ ![]) (hbc : (⟨1, ![R]⟩ : Shape).BroadcastsInDim ⟨2, ![R, 1]⟩ ![0]) (p : Fin R) :
    broadcastInDim ⟨2, ![R, 1]⟩ ![0] hbc
      (Host.divf (F := Ideal) (φ := .f32) (broadcastInDim ⟨1, ![R]⟩ ![] hb1 (constant (F := Ideal) ⟨0, ![]⟩ .f32 0x3F800000#32)) m) (ix2 p (0 : Fin 1))
      = Ideal.div 1 (m (ix1 p)) := by
  rw [Cert.Lib.RowReductions.bcastInDim_col_apply]
  show Ideal.div (broadcastInDim ⟨1, ![R]⟩ ![] hb1 (constant (F := Ideal) ⟨0, ![]⟩ .f32 0x3F800000#32) (ix1 p)) (m (ix1 p)) = _
  rw [bcast_vec_apply]
  exact congrArg (fun z => Ideal.div z _) Cert.Sage.one_f32

end Cert.SageReads

end
-- ==== Proof.KernelStages0Sums.lean ====
/-
  Before the first region: the four neighbour sums are `segSum` of the argument arrays at the kernel's records,
  and no host operation writes an argument.
-/
import proofs.«123560_j36206574305716_2_alg».proof.Proof.Gen.KernelIdeal.Launch
import proofs.«123560_j36206574305716_2_alg».proof.Proof.KernelRecords
import proofs.«123560_j36206574305716_2_alg».proof.Proof.LibSageParts
import proofs.«123560_j36206574305716_2_alg».proof.Proof.LibSageReads
import Idealize.ShloMosaic.Lib.StableHlo.Run

set_option maxRecDepth 16384
set_option maxHeartbeats 4000000

noncomputable section

namespace Cert.KernelIdeal.Stages

open Cert.KernelIdeal Cert.KernelIdeal.Gen
open Idealize.ShloMosaic Idealize.ShloMosaic.TcCoe Idealize.ShloMosaic.ValueIdx Idealize.ShloMosaic.StableHlo
open Cert.HeteroSage Cert.SageParts Cert.SageReads
open Idealize.SL.Sem

variable (W : Valuation τ sig (Elt Ideal))

theorem s0_dd : (StableHlo.after (hostOps0 (F := Ideal)) W (Proc.devRef .tc main_v82) : S100000x128.Idx → EReal) = KS.sum bcast_S_S100000x128 (W (Proc.devRef .tc main_arg2)) (W (Proc.devRef .tc main_arg0)) := by
  after_results_simp; rfl
theorem s0_md : (StableHlo.after (hostOps0 (F := Ideal)) W (Proc.devRef .tc main_v96) : S100000x128.Idx → EReal) = KL.sum bcast_S_S100000x128 (W (Proc.devRef .tc main_arg5)) (W (Proc.devRef .tc main_arg1)) := by
  after_results_simp; rfl
theorem s0_mm : (StableHlo.after (hostOps0 (F := Ideal)) W (Proc.devRef .tc main_v110) : S100000x128.Idx → EReal) = KS.sum bcast_S_S100000x128 (W (Proc.devRef .tc main_arg3)) (W (Proc.devRef .tc main_arg1)) := by
  after_results_simp; rfl
theorem s0_dm : (StableHlo.after (hostOps0 (F := Ideal)) W (Proc.devRef .tc main_v124) : S100000x128.Idx → EReal) = KL.sum bcast_S_S100000x128 (W (Proc.devRef .tc main_arg4)) (W (Proc.devRef .tc main_arg0)) := by
  after_results_simp; rfl

theorem s0_arg0 : StableHlo.after (hostOps0 (F := Ideal)) W (Proc.devRef .tc main_arg0) = W (Proc.devRef .tc main_arg0) := by
  after_results_simp
theorem s0_arg1 : StableHlo.after (hostOps0 (F := Ideal)) W (Proc.devRef .tc main_arg1) = W (Proc.devRef .tc main_arg1) := by
  after_results_simp
theorem s0_arg2 : StableHlo.after (hostOps0 (F := Ideal)) W (Proc.devRef .tc main_arg2) = W (Proc.devRef .tc main_arg2) := by
  after_results_simp
theorem s0_arg3 : StableHlo.after (hostOps0 (F := Ideal)) W (Proc.devRef .tc main_arg3) = W (Proc.devRef .tc main_arg3) := by
  after_results_simp
theorem s0_arg4 : StableHlo.after (hostOps0 (F := Ideal)) W (Proc.devRef .tc main_arg4) = W (Proc.devRef .tc main_arg4) := by
  after_results_simp
theorem s0_arg5 : StableHlo.after (hostOps0 (F := Ideal)) W (Proc.devRef .tc main_arg5) = W (Proc.devRef .tc main_arg5) := by
  after_results_simp

end Cert.KernelIdeal.Stages

end
-- ==== Proof.KernelStages0Weights.lean ====
/-
  Before the first region: the weight matrices and bias rows the region reads, and the arrays the second region's
  host operations cut its own out of.
-/
import proofs.«123560_j36206574305716_2_alg».proof.Proof.Gen.KernelIdeal.Launch
import proofs.«123560_j36206574305716_2_alg».proof.Proof.KernelRecords
import proofs.«123560_j36206574305716_2_alg».proof.Proof.LibSageParts
import proofs.«123560_j36206574305716_2_alg».proof.Proof.LibSageReads
import Idealize.ShloMosaic.Lib.StableHlo.Run

set_option maxRecDepth 16384
set_option maxHeartbeats 4000000

noncomputable section

namespace Cert.KernelIdeal.Stages

open Cert.KernelIdeal Cert.KernelIdeal.Gen
open Idealize.ShloMosaic Idealize.ShloMosaic.TcCoe Idealize.ShloMosaic.ValueIdx Idealize.ShloMosaic.StableHlo
open Cert.HeteroSage Cert.SageParts Cert.SageReads
open Idealize.SL.Sem

variable (W : Valuation τ sig (Elt Ideal))

theorem s0_wl0 : (StableHlo.after (hostOps0 (F := Ideal)) W (Proc.devRef .tc main_v126) : S128x128.Idx → EReal) = wT (W (Proc.devRef .tc main_arg6)) 0 0 := by
  after_results_simp; exact slice_wT _ _ 0 0 (by decide) (by decide) _ _
theorem s0_wl3 : (StableHlo.after (hostOps0 (F := Ideal)) W (Proc.devRef .tc main_v128) : S128x128.Idx → EReal) = wT (W (Proc.devRef .tc main_arg6)) 0 3 := by
  after_results_simp; exact slice_wT _ _ 0 3 (by decide) (by decide) _ _
theorem s0_wl1 : (StableHlo.after (hostOps0 (F := Ideal)) W (Proc.devRef .tc main_v130) : S128x128.Idx → EReal) = wT (W (Proc.devRef .tc main_arg6)) 0 1 := by
  after_results_simp; exact slice_wT _ _ 0 1 (by decide) (by decide) _ _
theorem s0_wl2 : (StableHlo.after (hostOps0 (F := Ideal)) W (Proc.devRef .tc main_v132) : S128x128.Idx → EReal) = wT (W (Proc.devRef .tc main_arg6)) 0 2 := by
  after_results_simp; exact slice_wT _ _ 0 2 (by decide) (by decide) _ _

theorem s0_wrd (k q : Fin 128) : (StableHlo.after (hostOps0 (F := Ideal)) W (Proc.devRef .tc main_v134) : S128x128.Idx → EReal) (ix2 k q) = wT (W (Proc.devRef .tc main_arg8)) 0 0 (ix2 k q) + wT (W (Proc.devRef .tc main_arg8)) 0 3 (ix2 k q) := by
  after_results_simp; exact slice_wT_sum _ _ 0 0 3 (by decide) (by decide) (by decide) _ _ _ _ _ k q
theorem s0_wrm (k q : Fin 128) : (StableHlo.after (hostOps0 (F := Ideal)) W (Proc.devRef .tc main_v136) : S128x128.Idx → EReal) (ix2 k q) = wT (W (Proc.devRef .tc main_arg8)) 0 1 (ix2 k q) + wT (W (Proc.devRef .tc main_arg8)) 0 2 (ix2 k q) := by
  after_results_simp; exact slice_wT_sum _ _ 0 1 2 (by decide) (by decide) (by decide) _ _ _ _ _ k q

theorem s0_bd (q : Fin 128) : (StableHlo.after (hostOps0 (F := Ideal)) W (Proc.devRef .tc main_v138) : S1x128.Idx → EReal) (ix2 (0 : Fin 1) q) = bV (W (Proc.devRef .tc main_arg7)) 0 0 (ix1 q) + bV (W (Proc.devRef .tc main_arg7)) 0 3 (ix1 q) := by
  after_results_simp; exact slice_bias_sum _ 0 0 3 (by decide) (by decide) (by decide) _ _ _ _ _ _ q
theorem s0_bm (q : Fin 128) : (StableHlo.after (hostOps0 (F := Ideal)) W (Proc.devRef .tc main_v140) : S1x128.Idx → EReal) (ix2 (0 : Fin 1) q) = bV (W (Proc.devRef .tc main_arg7)) 0 1 (ix1 q) + bV (W (Proc.devRef .tc main_arg7)) 0 2 (ix1 q) := by
  after_results_simp; exact slice_bias_sum _ 0 1 2 (by decide) (by decide) (by decide) _ _ _ _ _ _ q

end Cert.KernelIdeal.Stages

end
-- ==== Proof.KernelStages0Carried.lean ====
/-
  Before the first region: the packed reciprocal counts, column by column; and the arrays computed once for both
  layers — the transposed weights, the two sums of own-feature weights, the two sums of biases — as terms of the
  argument arrays.
-/
import proofs.«123560_j36206574305716_2_alg».proof.Proof.Gen.KernelIdeal.Launch
import proofs.«123560_j36206574305716_2_alg».proof.Proof.KernelRecords
import proofs.«123560_j36206574305716_2_alg».proof.Proof.LibSageParts
import proofs.«123560_j36206574305716_2_alg».proof.Proof.LibSageReads
import Idealize.ShloMosaic.Lib.StableHlo.Run

set_option maxRecDepth 16384
set_option maxHeartbeats 4000000

noncomputable section

namespace Cert.KernelIdeal.Stages

open Cert.KernelIdeal Cert.KernelIdeal.Gen
open Idealize.ShloMosaic Idealize.ShloMosaic.TcCoe Idealize.ShloMosaic.ValueIdx Idealize.ShloMosaic.StableHlo
open Cert.HeteroSage Cert.SageParts Cert.SageReads
open Idealize.SL.Sem

variable (W : Valuation τ sig (Elt Ideal))

theorem s0_v0 : (StableHlo.after (hostOps0 (F := Ideal)) W (Proc.devRef .tc main_v0) : S2x4x128x128.Idx → EReal) = (transpose S2x4x128x128 [0, 1, 3, 2] (W (Proc.devRef .tc main_arg6)) transposes_S2x4x128x128_S2x4x128x128_0_1_3_2) := by
  after_results_simp <;> rfl
theorem s0_v51 : (StableHlo.after (hostOps0 (F := Ideal)) W (Proc.devRef .tc main_v51) : S2x128x128.Idx → EReal) = (addf (F := Ideal) (φ := .f32) (shapeCast S2x128x128 (extractStridedSlice S2x1x128x128 ![0, 0, 0, 0] (transpose S2x4x128x128 [0, 1, 3, 2] (W (Proc.devRef .tc main_arg8)) transposes_S2x4x128x128_S2x4x128x128_0_1_3_2) slices_S2x4x128x128_S2x1x128x128_0_0_0_0) shapeCasts_S2x1x128x128_S2x128x128) (shapeCast S2x128x128 (extractStridedSlice S2x1x128x128 ![0, 3, 0, 0] (transpose S2x4x128x128 [0, 1, 3, 2] (W (Proc.devRef .tc main_arg8)) transposes_S2x4x128x128_S2x4x128x128_0_1_3_2) slices_S2x4x128x128_S2x1x128x128_0_3_0_0) shapeCasts_S2x1x128x128_S2x128x128)) := by
  after_results_simp <;> rfl
theorem s0_v56 : (StableHlo.after (hostOps0 (F := Ideal)) W (Proc.devRef .tc main_v56) : S2x128x128.Idx → EReal) = (addf (F := Ideal) (φ := .f32) (shapeCast S2x128x128 (extractStridedSlice S2x1x128x128 ![0, 1, 0, 0] (transpose S2x4x128x128 [0, 1, 3, 2] (W (Proc.devRef .tc main_arg8)) transposes_S2x4x128x128_S2x4x128x128_0_1_3_2) slices_S2x4x128x128_S2x1x128x128_0_1_0_0) shapeCasts_S2x1x128x128_S2x128x128) (shapeCast S2x128x128 (extractStridedSlice S2x1x128x128 ![0, 2, 0, 0] (transpose S2x4x128x128 [0, 1, 3, 2] (W (Proc.devRef .tc main_arg8)) transposes_S2x4x128x128_S2x4x128x128_0_1_3_2) slices_S2x4x128x128_S2x1x128x128_0_2_0_0) shapeCasts_S2x1x128x128_S2x128x128)) := by
  after_results_simp <;> rfl
theorem s0_v62 : (StableHlo.after (hostOps0 (F := Ideal)) W (Proc.devRef .tc main_v62) : S2x1x128.Idx → EReal) = (shapeCast S2x1x128 (addf (F := Ideal) (φ := .f32) (shapeCast S2x128 (extractStridedSlice S2x1x128 ![0, 0, 0] (W (Proc.devRef .tc main_arg7)) slices_S2x4x128_S2x1x128_0_0_0) shapeCasts_S2x1x128_S2x128) (shapeCast S2x128 (extractStridedSlice S2x1x128 ![0, 3, 0] (W (Proc.devRef .tc main_arg7)) slices_S2x4x128_S2x1x128_0_3_0) shapeCasts_S2x1x128_S2x128)) shapeCasts_S2x128_S2x1x128) := by
  after_results_simp <;> rfl
theorem s0_v68 : (StableHlo.after (hostOps0 (F := Ideal)) W (Proc.devRef .tc main_v68) : S2x1x128.Idx → EReal) = (shapeCast S2x1x128 (addf (F := Ideal) (φ := .f32) (shapeCast S2x128 (extractStridedSlice S2x1x128 ![0, 1, 0] (W (Proc.devRef .tc main_arg7)) slices_S2x4x128_S2x1x128_0_1_0) shapeCasts_S2x1x128_S2x128) (shapeCast S2x128 (extractStridedSlice S2x1x128 ![0, 2, 0] (W (Proc.devRef .tc main_arg7)) slices_S2x4x128_S2x1x128_0_2_0) shapeCasts_S2x1x128_S2x128)) shapeCasts_S2x128_S2x1x128) := by
  after_results_simp <;> rfl

end Cert.KernelIdeal.Stages

end
-- ==== Proof.LibConcatCongr.lean ====
/-
  Concatenations with equal operands are equal. A concatenation takes, beside its list of operands, a proof about the
  operands' shapes, so a rewriting pass does not enter the operands by itself; these two congruences (two operands, four
  operands) let it. Nothing here mentions a program.
-/
import Idealize.ShloMosaic.Lib.Pipeline.Value

namespace Cert.Lib.ConcatCongr

open Idealize.ShloMosaic

/-- Two-operand concatenations with equal operands are equal. -/
theorem concatenate_pair_congr {α : Type} {t s₁ s₂ : Shape} (a : Fin t.rank) (x₁ : s₁.Idx → α) (x₂ : s₂.Idx → α)
    {x₁' : s₁.Idx → α} {x₂' : s₂.Idx → α}
    (h : Shape.Concatenates (([⟨s₁, x₁⟩, ⟨s₂, x₂⟩] : List ((s : Shape) × (s.Idx → α))).map (·.1)) t a)
    (e₁ : x₁ = x₁') (e₂ : x₂ = x₂') :
    concatenate t a [⟨s₁, x₁⟩, ⟨s₂, x₂⟩] h = concatenate t a [⟨s₁, x₁'⟩, ⟨s₂, x₂'⟩] h := by
  subst e₁ e₂; rfl

/-- Four-operand concatenations with equal operands are equal. -/
theorem concatenate_quad_congr {α : Type} {t s₁ s₂ s₃ s₄ : Shape} (a : Fin t.rank)
    (x₁ : s₁.Idx → α) (x₂ : s₂.Idx → α) (x₃ : s₃.Idx → α) (x₄ : s₄.Idx → α)
    {x₁' : s₁.Idx → α} {x₂' : s₂.Idx → α} {x₃' : s₃.Idx → α} {x₄' : s₄.Idx → α}
    (h : Shape.Concatenates (([⟨s₁, x₁⟩, ⟨s₂, x₂⟩, ⟨s₃, x₃⟩, ⟨s₄, x₄⟩] : List ((s : Shape) × (s.Idx → α))).map (·.1)) t a)
    (e₁ : x₁ = x₁') (e₂ : x₂ = x₂') (e₃ : x₃ = x₃') (e₄ : x₄ = x₄') :
    concatenate t a [⟨s₁, x₁⟩, ⟨s₂, x₂⟩, ⟨s₃, x₃⟩, ⟨s₄, x₄⟩] h
      = concatenate t a [⟨s₁, x₁'⟩, ⟨s₂, x₂'⟩, ⟨s₃, x₃'⟩, ⟨s₄, x₄'⟩] h := by
  subst e₁ e₂ e₃ e₄; rfl

end Cert.Lib.ConcatCongr
-- ==== Proof.KernelStages0Recips.lean ====
/-
  Before the first region: the packed reciprocal counts, column by column — column j of the 100000×4 array at row p
  is 1 over the j-th divisor at p, the edge types in the order dd, md, mm, dm.
-/
import proofs.«123560_j36206574305716_2_alg».proof.Proof.Gen.KernelIdeal.Launch
import proofs.«123560_j36206574305716_2_alg».proof.Proof.KernelRecords
import proofs.«123560_j36206574305716_2_alg».proof.Proof.LibSageParts
import proofs.«123560_j36206574305716_2_alg».proof.Proof.LibSageReads
import proofs.«123560_j36206574305716_2_alg».proof.Proof.LibConcatCongr
import Idealize.ShloMosaic.Lib.StableHlo.Run

set_option maxRecDepth 16384
set_option maxHeartbeats 4000000

noncomputable section

namespace Cert.KernelIdeal.Stages

open Cert.KernelIdeal Cert.KernelIdeal.Gen
open Idealize.ShloMosaic Idealize.ShloMosaic.TcCoe Idealize.ShloMosaic.ValueIdx Idealize.ShloMosaic.StableHlo
open Cert.HeteroSage Cert.SageParts Cert.SageReads
open Idealize.SL.Sem

variable (W : Valuation τ sig (Elt Ideal))

/-- The packed array is the four reciprocal columns side by side. -/
theorem s0_packed : (StableHlo.after (hostOps0 (F := Ideal)) W (Proc.devRef .tc main_v46) : S100000x4.Idx → EReal) = concatenate S100000x4 (1 : Fin 2)
      [⟨S100000x1, broadcastInDim S100000x1 ![0] bcast_S100000_S100000x1_0 (Host.divf (F := Ideal) (φ := .f32) (broadcastInDim S100000 ![] bcast_S_S100000 (constant (F := Ideal) S_ .f32 0x3F800000#32)) (KS.div bcast_S_S100000 (W (Proc.devRef .tc main_arg2))))⟩,
       ⟨S100000x1, broadcastInDim S100000x1 ![0] bcast_S100000_S100000x1_0 (Host.divf (F := Ideal) (φ := .f32) (broadcastInDim S100000 ![] bcast_S_S100000 (constant (F := Ideal) S_ .f32 0x3F800000#32)) (KL.div bcast_S_S100000 (W (Proc.devRef .tc main_arg5))))⟩,
       ⟨S100000x1, broadcastInDim S100000x1 ![0] bcast_S100000_S100000x1_0 (Host.divf (F := Ideal) (φ := .f32) (broadcastInDim S100000 ![] bcast_S_S100000 (constant (F := Ideal) S_ .f32 0x3F800000#32)) (KS.div bcast_S_S100000 (W (Proc.devRef .tc main_arg3))))⟩,
       ⟨S100000x1, broadcastInDim S100000x1 ![0] bcast_S100000_S100000x1_0 (Host.divf (F := Ideal) (φ := .f32) (broadcastInDim S100000 ![] bcast_S_S100000 (constant (F := Ideal) S_ .f32 0x3F800000#32)) (KL.div bcast_S_S100000 (W (Proc.devRef .tc main_arg4))))⟩]
      concatenates_S100000x1_S100000x1_S100000x1_S100000x1_S100000x4_d1 := by
  after_results_simp
  refine Cert.Lib.ConcatCongr.concatenate_quad_congr _ _ _ _ _ _ ?_ ?_ ?_ ?_ <;> (simp only [Matrix.cons_val] <;> after_results_simp <;> rfl)

/-- Column j of the packed array at row p is 1 over the j-th divisor at p: the edge types in the order dd, md, mm, dm. -/
theorem s0_inv (p : Fin 100000) :
    (StableHlo.after (hostOps0 (F := Ideal)) W (Proc.devRef .tc main_v46) : S100000x4.Idx → EReal) (ix2 p (0 : Fin 4)) = Ideal.div 1 (KS.div bcast_S_S100000 (W (Proc.devRef .tc main_arg2)) (ix1 p))
    ∧ (StableHlo.after (hostOps0 (F := Ideal)) W (Proc.devRef .tc main_v46) : S100000x4.Idx → EReal) (ix2 p (1 : Fin 4)) = Ideal.div 1 (KL.div bcast_S_S100000 (W (Proc.devRef .tc main_arg5)) (ix1 p))
    ∧ (StableHlo.after (hostOps0 (F := Ideal)) W (Proc.devRef .tc main_v46) : S100000x4.Idx → EReal) (ix2 p (2 : Fin 4)) = Ideal.div 1 (KS.div bcast_S_S100000 (W (Proc.devRef .tc main_arg3)) (ix1 p))
    ∧ (StableHlo.after (hostOps0 (F := Ideal)) W (Proc.devRef .tc main_v46) : S100000x4.Idx → EReal) (ix2 p (3 : Fin 4)) = Ideal.div 1 (KL.div bcast_S_S100000 (W (Proc.devRef .tc main_arg4)) (ix1 p)) := by
  rw [s0_packed]
  obtain ⟨h0, h1, h2, h3⟩ := concat4_vals_apply (broadcastInDim S100000x1 ![0] bcast_S100000_S100000x1_0 (Host.divf (F := Ideal) (φ := .f32) (broadcastInDim S100000 ![] bcast_S_S100000 (constant (F := Ideal) S_ .f32 0x3F800000#32)) (KS.div bcast_S_S100000 (W (Proc.devRef .tc main_arg2))))) (broadcastInDim S100000x1 ![0] bcast_S100000_S100000x1_0 (Host.divf (F := Ideal) (φ := .f32) (broadcastInDim S100000 ![] bcast_S_S100000 (constant (F := Ideal) S_ .f32 0x3F800000#32)) (KL.div bcast_S_S100000 (W (Proc.devRef .tc main_arg5))))) (broadcastInDim S100000x1 ![0] bcast_S100000_S100000x1_0 (Host.divf (F := Ideal) (φ := .f32) (broadcastInDim S100000 ![] bcast_S_S100000 (constant (F := Ideal) S_ .f32 0x3F800000#32)) (KS.div bcast_S_S100000 (W (Proc.devRef .tc main_arg3))))) (broadcastInDim S100000x1 ![0] bcast_S100000_S100000x1_0 (Host.divf (F := Ideal) (φ := .f32) (broadcastInDim S100000 ![] bcast_S_S100000 (constant (F := Ideal) S_ .f32 0x3F800000#32)) (KL.div bcast_S_S100000 (W (Proc.devRef .tc main_arg4)))))
    concatenates_S100000x1_S100000x1_S100000x1_S100000x1_S100000x4_d1 p
  exact ⟨h0.trans (recip_col_apply _ _ _ p), h1.trans (recip_col_apply _ _ _ p), h2.trans (recip_col_apply _ _ _ p), h3.trans (recip_col_apply _ _ _ p)⟩

end Cert.KernelIdeal.Stages

end
-- ==== Proof.KernelStages1.lean ====
/-
  Between the regions: the second layer's neighbour sums are `segSum` of the first region's two results; its
  weight matrices and bias rows are layer 1's cut of the arrays computed before the first region; the first region's
  results and the reciprocal counts pass through untouched.
-/
import proofs.«123560_j36206574305716_2_alg».proof.Proof.Gen.KernelIdeal.Launch
import proofs.«123560_j36206574305716_2_alg».proof.Proof.KernelRecords
import proofs.«123560_j36206574305716_2_alg».proof.Proof.LibSageParts
import proofs.«123560_j36206574305716_2_alg».proof.Proof.LibSageReads
import Idealize.ShloMosaic.Lib.StableHlo.Run

set_option maxRecDepth 16384
set_option maxHeartbeats 4000000

noncomputable section

namespace Cert.KernelIdeal.Stages

open Cert.KernelIdeal Cert.KernelIdeal.Gen
open Idealize.ShloMosaic Idealize.ShloMosaic.TcCoe Idealize.ShloMosaic.ValueIdx Idealize.ShloMosaic.StableHlo
open Cert.HeteroSage Cert.SageParts Cert.SageReads
open Idealize.SL.Sem

variable (W : Valuation τ sig (Elt Ideal))

theorem s1_dd : (StableHlo.after (hostOps1 (F := Ideal)) W (Proc.devRef .tc main_v155) : S100000x128.Idx → EReal) = KS.sum bcast_S_S100000x128 (W (Proc.devRef .tc main_arg2)) (W (Proc.devRef .tc main_v141_0)) := by
  after_results_simp; rfl
theorem s1_md : (StableHlo.after (hostOps1 (F := Ideal)) W (Proc.devRef .tc main_v169) : S100000x128.Idx → EReal) = KL.sum bcast_S_S100000x128 (W (Proc.devRef .tc main_arg5)) (W (Proc.devRef .tc main_v141_1)) := by
  after_results_simp; rfl
theorem s1_mm : (StableHlo.after (hostOps1 (F := Ideal)) W (Proc.devRef .tc main_v183) : S100000x128.Idx → EReal) = KS.sum bcast_S_S100000x128 (W (Proc.devRef .tc main_arg3)) (W (Proc.devRef .tc main_v141_1)) := by
  after_results_simp; rfl
theorem s1_dm : (StableHlo.after (hostOps1 (F := Ideal)) W (Proc.devRef .tc main_v197) : S100000x128.Idx → EReal) = KL.sum bcast_S_S100000x128 (W (Proc.devRef .tc main_arg4)) (W (Proc.devRef .tc main_v141_0)) := by
  after_results_simp; rfl

theorem s1_xd : StableHlo.after (hostOps1 (F := Ideal)) W (Proc.devRef .tc main_v141_0) = W (Proc.devRef .tc main_v141_0) := by
  after_results_simp
theorem s1_xm : StableHlo.after (hostOps1 (F := Ideal)) W (Proc.devRef .tc main_v141_1) = W (Proc.devRef .tc main_v141_1) := by
  after_results_simp
theorem s1_inv : StableHlo.after (hostOps1 (F := Ideal)) W (Proc.devRef .tc main_v46) = W (Proc.devRef .tc main_v46) := by
  after_results_simp

variable (Xl Xr : S2x4x128x128.Idx → EReal) (B : S2x4x128.Idx → EReal)

theorem s1_wl0 (h0 : (W (Proc.devRef .tc main_v0) : S2x4x128x128.Idx → EReal) = (transpose S2x4x128x128 [0, 1, 3, 2] Xl transposes_S2x4x128x128_S2x4x128x128_0_1_3_2)) :
    (StableHlo.after (hostOps1 (F := Ideal)) W (Proc.devRef .tc main_v199) : S128x128.Idx → EReal) = wT Xl 1 0 := by
  after_results_simp; rw [h0]; exact slice_wT _ _ 1 0 (by decide) (by decide) _ _
theorem s1_wl3 (h0 : (W (Proc.devRef .tc main_v0) : S2x4x128x128.Idx → EReal) = (transpose S2x4x128x128 [0, 1, 3, 2] Xl transposes_S2x4x128x128_S2x4x128x128_0_1_3_2)) :
    (StableHlo.after (hostOps1 (F := Ideal)) W (Proc.devRef .tc main_v201) : S128x128.Idx → EReal) = wT Xl 1 3 := by
  after_results_simp; rw [h0]; exact slice_wT _ _ 1 3 (by decide) (by decide) _ _
theorem s1_wl1 (h0 : (W (Proc.devRef .tc main_v0) : S2x4x128x128.Idx → EReal) = (transpose S2x4x128x128 [0, 1, 3, 2] Xl transposes_S2x4x128x128_S2x4x128x128_0_1_3_2)) :
    (StableHlo.after (hostOps1 (F := Ideal)) W (Proc.devRef .tc main_v203) : S128x128.Idx → EReal) = wT Xl 1 1 := by
  after_results_simp; rw [h0]; exact slice_wT _ _ 1 1 (by decide) (by decide) _ _
theorem s1_wl2 (h0 : (W (Proc.devRef .tc main_v0) : S2x4x128x128.Idx → EReal) = (transpose S2x4x128x128 [0, 1, 3, 2] Xl transposes_S2x4x128x128_S2x4x128x128_0_1_3_2)) :
    (StableHlo.after (hostOps1 (F := Ideal)) W (Proc.devRef .tc main_v205) : S128x128.Idx → EReal) = wT Xl 1 2 := by
  after_results_simp; rw [h0]; exact slice_wT _ _ 1 2 (by decide) (by decide) _ _

theorem s1_wrd (h : (W (Proc.devRef .tc main_v51) : S2x128x128.Idx → EReal) = (addf (F := Ideal) (φ := .f32) (shapeCast S2x128x128 (extractStridedSlice S2x1x128x128 ![0, 0, 0, 0] (transpose S2x4x128x128 [0, 1, 3, 2] Xr transposes_S2x4x128x128_S2x4x128x128_0_1_3_2) slices_S2x4x128x128_S2x1x128x128_0_0_0_0) shapeCasts_S2x1x128x128_S2x128x128) (shapeCast S2x128x128 (extractStridedSlice S2x1x128x128 ![0, 3, 0, 0] (transpose S2x4x128x128 [0, 1, 3, 2] Xr transposes_S2x4x128x128_S2x4x128x128_0_1_3_2) slices_S2x4x128x128_S2x1x128x128_0_3_0_0) shapeCasts_S2x1x128x128_S2x128x128))) (k q : Fin 128) :
    (StableHlo.after (hostOps1 (F := Ideal)) W (Proc.devRef .tc main_v207) : S128x128.Idx → EReal) (ix2 k q) = wT Xr 1 0 (ix2 k q) + wT Xr 1 3 (ix2 k q) := by
  after_results_simp; rw [h]; exact slice_wT_sum _ _ 1 0 3 (by decide) (by decide) (by decide) _ _ _ _ _ k q
theorem s1_wrm (h : (W (Proc.devRef .tc main_v56) : S2x128x128.Idx → EReal) = (addf (F := Ideal) (φ := .f32) (shapeCast S2x128x128 (extractStridedSlice S2x1x128x128 ![0, 1, 0, 0] (transpose S2x4x128x128 [0, 1, 3, 2] Xr transposes_S2x4x128x128_S2x4x128x128_0_1_3_2) slices_S2x4x128x128_S2x1x128x128_0_1_0_0) shapeCasts_S2x1x128x128_S2x128x128) (shapeCast S2x128x128 (extractStridedSlice S2x1x128x128 ![0, 2, 0, 0] (transpose S2x4x128x128 [0, 1, 3, 2] Xr transposes_S2x4x128x128_S2x4x128x128_0_1_3_2) slices_S2x4x128x128_S2x1x128x128_0_2_0_0) shapeCasts_S2x1x128x128_S2x128x128))) (k q : Fin 128) :
    (StableHlo.after (hostOps1 (F := Ideal)) W (Proc.devRef .tc main_v209) : S128x128.Idx → EReal) (ix2 k q) = wT Xr 1 1 (ix2 k q) + wT Xr 1 2 (ix2 k q) := by
  after_results_simp; rw [h]; exact slice_wT_sum _ _ 1 1 2 (by decide) (by decide) (by decide) _ _ _ _ _ k q

theorem s1_bd (h : (W (Proc.devRef .tc main_v62) : S2x1x128.Idx → EReal) = (shapeCast S2x1x128 (addf (F := Ideal) (φ := .f32) (shapeCast S2x128 (extractStridedSlice S2x1x128 ![0, 0, 0] B slices_S2x4x128_S2x1x128_0_0_0) shapeCasts_S2x1x128_S2x128) (shapeCast S2x128 (extractStridedSlice S2x1x128 ![0, 3, 0] B slices_S2x4x128_S2x1x128_0_3_0) shapeCasts_S2x1x128_S2x128)) shapeCasts_S2x128_S2x1x128)) (q : Fin 128) :
    (StableHlo.after (hostOps1 (F := Ideal)) W (Proc.devRef .tc main_v211) : S1x128.Idx → EReal) (ix2 (0 : Fin 1) q) = bV B 1 0 (ix1 q) + bV B 1 3 (ix1 q) := by
  after_results_simp; rw [h]; exact slice_bias_sum _ 1 0 3 (by decide) (by decide) (by decide) _ _ _ _ _ _ q
theorem s1_bm (h : (W (Proc.devRef .tc main_v68) : S2x1x128.Idx → EReal) = (shapeCast S2x1x128 (addf (F := Ideal) (φ := .f32) (shapeCast S2x128 (extractStridedSlice S2x1x128 ![0, 1, 0] B slices_S2x4x128_S2x1x128_0_1_0) shapeCasts_S2x1x128_S2x128) (shapeCast S2x128 (extractStridedSlice S2x1x128 ![0, 2, 0] B slices_S2x4x128_S2x1x128_0_2_0) shapeCasts_S2x1x128_S2x128)) shapeCasts_S2x128_S2x1x128)) (q : Fin 128) :
    (StableHlo.after (hostOps1 (F := Ideal)) W (Proc.devRef .tc main_v213) : S1x128.Idx → EReal) (ix2 (0 : Fin 1) q) = bV B 1 1 (ix1 q) + bV B 1 2 (ix1 q) := by
  after_results_simp; rw [h]; exact slice_bias_sum _ 1 1 2 (by decide) (by decide) (by decide) _ _ _ _ _ _ q

end Cert.KernelIdeal.Stages

end
-- ==== Proof.LibSageFused.lean ====
/-
  The two-layer network in its fused form: two fused layers (LibHeteroSage's `combine`), the first joined with the
  zero word, stacked, equal LibSageParts' `forward` over real features, weights and biases — the reciprocal counts
  packed in the order dd, md, mm, dm, each layer's own-feature weights and biases added per node type beforehand.
  Finiteness is used exactly where a feature entry multiplies a sum of two weights; the first layer's results are
  reals because every operation on the way keeps reals real. Nothing here mentions a program.
-/
import Idealize.ShloMosaic.PureOps.Ideal.Laws
import Idealize.ShloMosaic.Lib.ValueIdx
import proofs.«123560_j36206574305716_2_alg».proof.Proof.LibScatterScale
import proofs.«123560_j36206574305716_2_alg».proof.Proof.LibHeteroSage
import proofs.«123560_j36206574305716_2_alg».proof.Proof.LibSageParts

open scoped BigOperators

noncomputable section

namespace Cert.SageParts

open Idealize.ShloMosaic Idealize.ShloMosaic.ValueIdx Cert.LibScatterScale Cert.HeteroSage

section FusedNetwork
variable {E₁ E₂ : Nat} (S : Recs E₁) (L : Recs E₂)
  (hbN : (⟨0, ![]⟩ : Shape).BroadcastsInDim ⟨1, ![100000]⟩ ![])
  (hbz : (⟨0, ![]⟩ : Shape).BroadcastsInDim ⟨2, ![100000, 128]⟩ ![])

/-- Reals in all four columns of the packed reciprocals. -/
theorem isReal_packed (e_dd e_mm : IVec ⟨2, ![2, E₁]⟩ 32) (e_dm e_md : IVec ⟨2, ![2, E₂]⟩ 32) (s : Mat 100000 4)
    (hs0 : ∀ p : Fin 100000, s (ix2 p 0) = Ideal.div 1 (S.div hbN e_dd (ix1 p)))
    (hs1 : ∀ p : Fin 100000, s (ix2 p 1) = Ideal.div 1 (L.div hbN e_md (ix1 p)))
    (hs2 : ∀ p : Fin 100000, s (ix2 p 2) = Ideal.div 1 (S.div hbN e_mm (ix1 p)))
    (hs3 : ∀ p : Fin 100000, s (ix2 p 3) = Ideal.div 1 (L.div hbN e_dm (ix1 p)))
    (i : (⟨2, ![100000, 4]⟩ : Shape).Idx) : IsReal (s i) := by
  obtain ⟨p, j, rfl⟩ : ∃ (p : Fin 100000) (j : Fin 4), i = ix2 p j := ⟨i 0, i 1, eq_ix2 i⟩
  match j with
  | ⟨0, _⟩ => rw [show (⟨0, by omega⟩ : Fin 4) = 0 from rfl, hs0]; exact S.isReal_recip hbN e_dd p
  | ⟨1, _⟩ => rw [show (⟨1, by omega⟩ : Fin 4) = 1 from rfl, hs1]; exact L.isReal_recip hbN e_md p
  | ⟨2, _⟩ => rw [show (⟨2, by omega⟩ : Fin 4) = 2 from rfl, hs2]; exact S.isReal_recip hbN e_mm p
  | ⟨3, _⟩ => rw [show (⟨3, by omega⟩ : Fin 4) = 3 from rfl, hs3]; exact L.isReal_recip hbN e_dm p

/-- A sum of two transposed weight matrices of reals, given entry by entry, is real; so is a sum of two bias rows. -/
theorem isReal_of_wT_sum (Wr : (⟨4, ![2, 4, 128, 128]⟩ : Shape).Idx → EReal) (hWr : ∀ i, IsReal (Wr i)) (l : Fin 2) (t₁ t₂ : Fin 4)
    (Wc : Mat 128 128) (hWc : ∀ k q : Fin 128, Wc (ix2 k q) = wT Wr l t₁ (ix2 k q) + wT Wr l t₂ (ix2 k q))
    (i : (⟨2, ![128, 128]⟩ : Shape).Idx) : IsReal (Wc i) := by
  obtain ⟨k, q, rfl⟩ : ∃ (k q : Fin 128), i = ix2 k q := ⟨i 0, i 1, eq_ix2 i⟩
  rw [hWc]; exact (isReal_wT Wr hWr l t₁ _).add (isReal_wT Wr hWr l t₂ _)

theorem isReal_of_bV_sum (bl : (⟨3, ![2, 4, 128]⟩ : Shape).Idx → EReal) (hbl : ∀ i, IsReal (bl i)) (l : Fin 2) (t₁ t₂ : Fin 4)
    (b : Mat 1 128) (hb : ∀ q : Fin 128, b (ix2 0 q) = bV bl l t₁ (ix1 q) + bV bl l t₂ (ix1 q))
    (i : (⟨2, ![1, 128]⟩ : Shape).Idx) : IsReal (b i) := by
  obtain ⟨z, q, rfl⟩ : ∃ (z : Fin 1) (q : Fin 128), i = ix2 z q := ⟨i 0, i 1, eq_ix2 i⟩
  have hz : z = 0 := Subsingleton.elim _ _
  subst hz
  rw [hb]; exact (isReal_bV bl hbl l t₁ _).add (isReal_bV bl hbl l t₂ _)

/-- Two fused layers, the first joined with the zero word, stacked: the network — over real features, weights and
    biases, the reciprocal counts packed in the order dd, md, mm, dm, each layer's own-feature weights and biases
    added per node type. -/
theorem forward_of_fused (xd xm : Mat 100000 128) (e_dd e_mm : IVec ⟨2, ![2, E₁]⟩ 32) (e_dm e_md : IVec ⟨2, ![2, E₂]⟩ 32)
    (Wl : (⟨4, ![2, 4, 128, 128]⟩ : Shape).Idx → EReal) (bl : (⟨3, ![2, 4, 128]⟩ : Shape).Idx → EReal)
    (Wr : (⟨4, ![2, 4, 128, 128]⟩ : Shape).Idx → EReal)
    (hxd : ∀ i, IsReal (xd i)) (hxm : ∀ i, IsReal (xm i)) (hWl : ∀ i, IsReal (Wl i)) (hbl : ∀ i, IsReal (bl i)) (hWr : ∀ i, IsReal (Wr i))
    (s : Mat 100000 4)
    (hs0 : ∀ p : Fin 100000, s (ix2 p 0) = Ideal.div 1 (S.div hbN e_dd (ix1 p)))
    (hs1 : ∀ p : Fin 100000, s (ix2 p 1) = Ideal.div 1 (L.div hbN e_md (ix1 p)))
    (hs2 : ∀ p : Fin 100000, s (ix2 p 2) = Ideal.div 1 (S.div hbN e_mm (ix1 p)))
    (hs3 : ∀ p : Fin 100000, s (ix2 p 3) = Ideal.div 1 (L.div hbN e_dm (ix1 p)))
    (Wd Wm : Fin 2 → Mat 128 128) (bd bm : Fin 2 → Mat 1 128)
    (hWd : ∀ (l : Fin 2) (k q : Fin 128), Wd l (ix2 k q) = wT Wr l 0 (ix2 k q) + wT Wr l 3 (ix2 k q))
    (hWm : ∀ (l : Fin 2) (k q : Fin 128), Wm l (ix2 k q) = wT Wr l 1 (ix2 k q) + wT Wr l 2 (ix2 k q))
    (hbd : ∀ (l : Fin 2) (q : Fin 128), bd l (ix2 0 q) = bV bl l 0 (ix1 q) + bV bl l 3 (ix1 q))
    (hbm : ∀ (l : Fin 2) (q : Fin 128), bm l (ix2 0 q) = bV bl l 1 (ix1 q) + bV bl l 2 (ix1 q))
    (X1d X1m : Mat 100000 128)
    (hX1d : X1d = relu (combine (S.sum hbz e_dd xd) (L.sum hbz e_md xm) xd s 0 1 (wT Wl 0 0) (wT Wl 0 3) (Wd 0) (bd 0)))
    (hX1m : X1m = relu (combine (S.sum hbz e_mm xm) (L.sum hbz e_dm xd) xm s 2 3 (wT Wl 0 1) (wT Wl 0 2) (Wm 0) (bm 0))) :
    stack (combine (S.sum hbz e_dd X1d) (L.sum hbz e_md X1m) X1d s 0 1 (wT Wl 1 0) (wT Wl 1 3) (Wd 1) (bd 1))
        (combine (S.sum hbz e_mm X1m) (L.sum hbz e_dm X1d) X1m s 2 3 (wT Wl 1 1) (wT Wl 1 2) (Wm 1) (bm 1))
      = forward S L hbN hbz xd xm e_dd e_mm e_dm e_md Wl bl Wr := by
  have hs := isReal_packed S L hbN e_dd e_mm e_dm e_md s hs0 hs1 hs2 hs3
  have rX1d : ∀ i, IsReal (X1d i) := fun i => by
    rw [hX1d]
    exact isReal_relu _ (isReal_fused hbz S L e_dd e_md xd xm xd s 0 1 _ _ _ _ hxd hxm hxd hs (isReal_wT Wl hWl 0 0) (isReal_wT Wl hWl 0 3)
      (isReal_of_wT_sum Wr hWr 0 0 3 _ (hWd 0)) (isReal_of_bV_sum bl hbl 0 0 3 _ (hbd 0))) i
  have rX1m : ∀ i, IsReal (X1m i) := fun i => by
    rw [hX1m]
    exact isReal_relu _ (isReal_fused hbz S L e_mm e_dm xm xd xm s 2 3 _ _ _ _ hxm hxd hxm hs (isReal_wT Wl hWl 0 1) (isReal_wT Wl hWl 0 2)
      (isReal_of_wT_sum Wr hWr 0 1 2 _ (hWm 0)) (isReal_of_bV_sum bl hbl 0 1 2 _ (hbm 0))) i
  have d0 := fused_layerD S L hbN hbz e_dd e_md Wl bl Wr 0 xd xm s _ _ (Wd 0) (bd 0) hs0 hs1 rfl rfl (hWd 0) (hbd 0) hxd hWr
  have m0 := fused_layerM S L hbN hbz e_mm e_dm Wl bl Wr 0 xd xm s _ _ (Wm 0) (bm 0) hs2 hs3 rfl rfl (hWm 0) (hbm 0) hxm hWr
  have d1 := fused_layerD S L hbN hbz e_dd e_md Wl bl Wr 1 X1d X1m s _ _ (Wd 1) (bd 1) hs0 hs1 rfl rfl (hWd 1) (hbd 1) rX1d hWr
  have m1 := fused_layerM S L hbN hbz e_mm e_dm Wl bl Wr 1 X1d X1m s _ _ (Wm 1) (bm 1) hs2 hs3 rfl rfl (hWm 1) (hbm 1) rX1m hWr
  rw [d1, m1]
  rw [d0] at hX1d
  rw [m0] at hX1m
  subst hX1d hX1m
  rfl

/-- The same with each layer's summed own-feature weights and biases named one by one. -/
theorem forward_of_fused' (xd xm : Mat 100000 128) (e_dd e_mm : IVec ⟨2, ![2, E₁]⟩ 32) (e_dm e_md : IVec ⟨2, ![2, E₂]⟩ 32)
    (Wl : (⟨4, ![2, 4, 128, 128]⟩ : Shape).Idx → EReal) (bl : (⟨3, ![2, 4, 128]⟩ : Shape).Idx → EReal)
    (Wr : (⟨4, ![2, 4, 128, 128]⟩ : Shape).Idx → EReal)
    (hxd : ∀ i, IsReal (xd i)) (hxm : ∀ i, IsReal (xm i)) (hWl : ∀ i, IsReal (Wl i)) (hbl : ∀ i, IsReal (bl i)) (hWr : ∀ i, IsReal (Wr i))
    (s : Mat 100000 4)
    (hs0 : ∀ p : Fin 100000, s (ix2 p 0) = Ideal.div 1 (S.div hbN e_dd (ix1 p)))
    (hs1 : ∀ p : Fin 100000, s (ix2 p 1) = Ideal.div 1 (L.div hbN e_md (ix1 p)))
    (hs2 : ∀ p : Fin 100000, s (ix2 p 2) = Ideal.div 1 (S.div hbN e_mm (ix1 p)))
    (hs3 : ∀ p : Fin 100000, s (ix2 p 3) = Ideal.div 1 (L.div hbN e_dm (ix1 p)))
    (Wd0 Wd1 Wm0 Wm1 : Mat 128 128) (bd0 bd1 bm0 bm1 : Mat 1 128)
    (hWd0 : ∀ k q : Fin 128, Wd0 (ix2 k q) = wT Wr 0 0 (ix2 k q) + wT Wr 0 3 (ix2 k q))
    (hWd1 : ∀ k q : Fin 128, Wd1 (ix2 k q) = wT Wr 1 0 (ix2 k q) + wT Wr 1 3 (ix2 k q))
    (hWm0 : ∀ k q : Fin 128, Wm0 (ix2 k q) = wT Wr 0 1 (ix2 k q) + wT Wr 0 2 (ix2 k q))
    (hWm1 : ∀ k q : Fin 128, Wm1 (ix2 k q) = wT Wr 1 1 (ix2 k q) + wT Wr 1 2 (ix2 k q))
    (hbd0 : ∀ q : Fin 128, bd0 (ix2 0 q) = bV bl 0 0 (ix1 q) + bV bl 0 3 (ix1 q))
    (hbd1 : ∀ q : Fin 128, bd1 (ix2 0 q) = bV bl 1 0 (ix1 q) + bV bl 1 3 (ix1 q))
    (hbm0 : ∀ q : Fin 128, bm0 (ix2 0 q) = bV bl 0 1 (ix1 q) + bV bl 0 2 (ix1 q))
    (hbm1 : ∀ q : Fin 128, bm1 (ix2 0 q) = bV bl 1 1 (ix1 q) + bV bl 1 2 (ix1 q))
    (X1d X1m : Mat 100000 128)
    (hX1d : X1d = relu (combine (S.sum hbz e_dd xd) (L.sum hbz e_md xm) xd s 0 1 (wT Wl 0 0) (wT Wl 0 3) Wd0 bd0))
    (hX1m : X1m = relu (combine (S.sum hbz e_mm xm) (L.sum hbz e_dm xd) xm s 2 3 (wT Wl 0 1) (wT Wl 0 2) Wm0 bm0)) :
    stack (combine (S.sum hbz e_dd X1d) (L.sum hbz e_md X1m) X1d s 0 1 (wT Wl 1 0) (wT Wl 1 3) Wd1 bd1)
        (combine (S.sum hbz e_mm X1m) (L.sum hbz e_dm X1d) X1m s 2 3 (wT Wl 1 1) (wT Wl 1 2) Wm1 bm1)
      = forward S L hbN hbz xd xm e_dd e_mm e_dm e_md Wl bl Wr :=
  forward_of_fused S L hbN hbz xd xm e_dd e_mm e_dm e_md Wl bl Wr hxd hxm hWl hbl hWr s hs0 hs1 hs2 hs3
    (fun l => if l = 0 then Wd0 else Wd1) (fun l => if l = 0 then Wm0 else Wm1)
    (fun l => if l = 0 then bd0 else bd1) (fun l => if l = 0 then bm0 else bm1)
    (fun l => by fin_cases l <;> first | exact hWd0 | exact hWd1)
    (fun l => by fin_cases l <;> first | exact hWm0 | exact hWm1)
    (fun l => by fin_cases l <;> first | exact hbd0 | exact hbd1)
    (fun l => by fin_cases l <;> first | exact hbm0 | exact hbm1)
    X1d X1m hX1d hX1m

end FusedNetwork

end Cert.SageParts

end
-- ==== Proof.KernelValue.lean ====
/-
  The kernel program's result as ONE function of its arguments, on the extended reals.

  Reading the run back: the second region's result is the stack of its two fused layers of the arrays it finds; those
  are the neighbour sums of the first region's two results, the layer-1 cuts of the weights and biases, and the packed
  reciprocal counts; the first region's results are its fused layers, joined with the zero word, of the neighbour sums
  of the arguments, the layer-0 cuts and the same reciprocal counts. Over real arguments that composition is the
  network `forward` at the kernel's records.
-/
import proofs.«123560_j36206574305716_2_alg».proof.Proof.IdealRun
import proofs.«123560_j36206574305716_2_alg».proof.Proof.KernelBlocks0
import proofs.«123560_j36206574305716_2_alg».proof.Proof.KernelBlocks1
import proofs.«123560_j36206574305716_2_alg».proof.Proof.KernelStages0Sums
import proofs.«123560_j36206574305716_2_alg».proof.Proof.KernelStages0Weights
import proofs.«123560_j36206574305716_2_alg».proof.Proof.KernelStages0Carried
import proofs.«123560_j36206574305716_2_alg».proof.Proof.KernelStages0Recips
import proofs.«123560_j36206574305716_2_alg».proof.Proof.KernelStages1
import proofs.«123560_j36206574305716_2_alg».proof.Proof.LibSageFused

set_option maxRecDepth 16384
set_option maxHeartbeats 4000000

noncomputable section

namespace Cert.KernelIdeal.Result

open Cert.KernelIdeal Cert.KernelIdeal.Gen Cert.KernelIdeal.Regions Cert.KernelIdeal.Blocks Cert.KernelIdeal.Stages
open Idealize.ShloMosaic Idealize.ShloMosaic.TcCoe Idealize.ShloMosaic.ValueIdx Idealize.ShloMosaic.StableHlo
open Cert.HeteroSage Cert.SageParts Cert.LibScatterScale
open Idealize.SL.Sem
open Idealize.ShloMosaic.Pipeline (Dat Cfg Window)

variable (m : (ℓ : Loc nD τ sig) → Buf (Elt Ideal) ℓ) (ρ : Dev nD → PrngReg)

/-- No host operation before the first region and no write-back of the first region touches an edge list. -/
theorem W2_arg (c : Dev nD) (b : Ref sig .tc) (hb : ∀ w, Pipeline.arrRef spec0 w ≠ b)
    (h0 : StableHlo.after (hostOps0 (F := Ideal)) (W0 m ρ c) (Proc.devRef .tc b) = W0 m ρ c (Proc.devRef .tc b)) :
    W2 m ρ c (Proc.devRef .tc b) = m ((c : Thread nD τ).loc b) :=
  (W2_of_ne m ρ c b hb).trans h0

/-- The first region's two results, as the second region's host operations find them. -/
theorem W2_xd (c : Dev nD) : (W2 m ρ c (Proc.devRef .tc main_v141_0) : S100000x128.Idx → EReal) = G0d (V1 m ρ) c :=
  (W2_arr m ρ c 15).trans (final0_15 (V1 m ρ) c)
theorem W2_xm (c : Dev nD) : (W2 m ρ c (Proc.devRef .tc main_v141_1) : S100000x128.Idx → EReal) = G0m (V1 m ρ) c :=
  (W2_arr m ρ c 16).trans (final0_16 (V1 m ρ) c)

/-- The packed reciprocal counts pass through the first region unchanged (an input window's array). -/
theorem W2_inv (c : Dev nD) : W2 m ρ c (Proc.devRef .tc main_v46) = V1 m ρ c main_v46 :=
  (W2_arr m ρ c 6).trans ((dat0 (V1 m ρ) c).arrAt_in 6 rfl _)

/-- The arrays computed once for both layers are not the first region's: it leaves them alone. -/
theorem W2_other (c : Dev nD) (b : Ref sig .tc) (hb : ∀ w, Pipeline.arrRef spec0 w ≠ b) :
    W2 m ρ c (Proc.devRef .tc b) = StableHlo.after (hostOps0 (F := Ideal)) (W0 m ρ c) (Proc.devRef .tc b) :=
  W2_of_ne m ρ c b hb

theorem result_eq (c : Dev nD)
    (hxd : ∀ i, IsReal ((m ((c : Thread nD τ).loc main_arg0)) i)) (hxm : ∀ i, IsReal ((m ((c : Thread nD τ).loc main_arg1)) i))
    (hWl : ∀ i, IsReal ((m ((c : Thread nD τ).loc main_arg6)) i)) (hbl : ∀ i, IsReal ((m ((c : Thread nD τ).loc main_arg7)) i)) (hWr : ∀ i, IsReal ((m ((c : Thread nD τ).loc main_arg8)) i)) :
    (dat1 (V3 m ρ) c).arrAt 15 cfg1.N
      = forward KS KL bcast_S_S100000 bcast_S_S100000x128 (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7)) (m ((c : Thread nD τ).loc main_arg8)) := by
  rw [final1_15 (V3 m ρ) c]
  -- the edge lists, as the second stretch of host operations finds them
  have a2 : W2 m ρ c (Proc.devRef .tc main_arg2) = (m ((c : Thread nD τ).loc main_arg2)) := W2_arg m ρ c main_arg2 (by decide) (s0_arg2 _)
  have a3 : W2 m ρ c (Proc.devRef .tc main_arg3) = (m ((c : Thread nD τ).loc main_arg3)) := W2_arg m ρ c main_arg3 (by decide) (s0_arg3 _)
  have a4 : W2 m ρ c (Proc.devRef .tc main_arg4) = (m ((c : Thread nD τ).loc main_arg4)) := W2_arg m ρ c main_arg4 (by decide) (s0_arg4 _)
  have a5 : W2 m ρ c (Proc.devRef .tc main_arg5) = (m ((c : Thread nD τ).loc main_arg5)) := W2_arg m ρ c main_arg5 (by decide) (s0_arg5 _)
  -- the second region's arrays
  have v155 : (V3 m ρ c main_v155 : S100000x128.Idx → EReal) = KS.sum bcast_S_S100000x128 (m ((c : Thread nD τ).loc main_arg2)) (G0d (V1 m ρ) c) := by
    rw [← a2, ← W2_xd m ρ c]; exact s1_dd (W2 m ρ c)
  have v169 : (V3 m ρ c main_v169 : S100000x128.Idx → EReal) = KL.sum bcast_S_S100000x128 (m ((c : Thread nD τ).loc main_arg5)) (G0m (V1 m ρ) c) := by
    rw [← a5, ← W2_xm m ρ c]; exact s1_md (W2 m ρ c)
  have v183 : (V3 m ρ c main_v183 : S100000x128.Idx → EReal) = KS.sum bcast_S_S100000x128 (m ((c : Thread nD τ).loc main_arg3)) (G0m (V1 m ρ) c) := by
    rw [← a3, ← W2_xm m ρ c]; exact s1_mm (W2 m ρ c)
  have v197 : (V3 m ρ c main_v197 : S100000x128.Idx → EReal) = KL.sum bcast_S_S100000x128 (m ((c : Thread nD τ).loc main_arg4)) (G0d (V1 m ρ) c) := by
    rw [← a4, ← W2_xd m ρ c]; exact s1_dm (W2 m ρ c)
  have vxd : (V3 m ρ c main_v141_0 : S100000x128.Idx → EReal) = G0d (V1 m ρ) c := (s1_xd (W2 m ρ c)).trans (W2_xd m ρ c)
  have vxm : (V3 m ρ c main_v141_1 : S100000x128.Idx → EReal) = G0m (V1 m ρ) c := (s1_xm (W2 m ρ c)).trans (W2_xm m ρ c)
  have vinv : (V3 m ρ c main_v46 : S100000x4.Idx → EReal) = (V1 m ρ c main_v46 : S100000x4.Idx → EReal) :=
    (s1_inv (W2 m ρ c)).trans (W2_inv m ρ c)
  have t0 := (W2_other m ρ c main_v0 (by decide)).trans (s0_v0 (W0 m ρ c))
  have t51 := (W2_other m ρ c main_v51 (by decide)).trans (s0_v51 (W0 m ρ c))
  have t56 := (W2_other m ρ c main_v56 (by decide)).trans (s0_v56 (W0 m ρ c))
  have t62 := (W2_other m ρ c main_v62 (by decide)).trans (s0_v62 (W0 m ρ c))
  have t68 := (W2_other m ρ c main_v68 (by decide)).trans (s0_v68 (W0 m ρ c))
  have v199 : (V3 m ρ c main_v199 : S128x128.Idx → EReal) = wT (m ((c : Thread nD τ).loc main_arg6)) 1 0 := s1_wl0 (W2 m ρ c) _ t0
  have v201 : (V3 m ρ c main_v201 : S128x128.Idx → EReal) = wT (m ((c : Thread nD τ).loc main_arg6)) 1 3 := s1_wl3 (W2 m ρ c) _ t0
  have v203 : (V3 m ρ c main_v203 : S128x128.Idx → EReal) = wT (m ((c : Thread nD τ).loc main_arg6)) 1 1 := s1_wl1 (W2 m ρ c) _ t0
  have v205 : (V3 m ρ c main_v205 : S128x128.Idx → EReal) = wT (m ((c : Thread nD τ).loc main_arg6)) 1 2 := s1_wl2 (W2 m ρ c) _ t0
  -- the first region's arrays
  have v82 : (V1 m ρ c main_v82 : S100000x128.Idx → EReal) = KS.sum bcast_S_S100000x128 (m ((c : Thread nD τ).loc main_arg2)) (m ((c : Thread nD τ).loc main_arg0)) := s0_dd (W0 m ρ c)
  have v96 : (V1 m ρ c main_v96 : S100000x128.Idx → EReal) = KL.sum bcast_S_S100000x128 (m ((c : Thread nD τ).loc main_arg5)) (m ((c : Thread nD τ).loc main_arg1)) := s0_md (W0 m ρ c)
  have v110 : (V1 m ρ c main_v110 : S100000x128.Idx → EReal) = KS.sum bcast_S_S100000x128 (m ((c : Thread nD τ).loc main_arg3)) (m ((c : Thread nD τ).loc main_arg1)) := s0_mm (W0 m ρ c)
  have v124 : (V1 m ρ c main_v124 : S100000x128.Idx → EReal) = KL.sum bcast_S_S100000x128 (m ((c : Thread nD τ).loc main_arg4)) (m ((c : Thread nD τ).loc main_arg0)) := s0_dm (W0 m ρ c)
  have vx0 : (V1 m ρ c main_arg0 : S100000x128.Idx → EReal) = (m ((c : Thread nD τ).loc main_arg0)) := s0_arg0 (W0 m ρ c)
  have vx1 : (V1 m ρ c main_arg1 : S100000x128.Idx → EReal) = (m ((c : Thread nD τ).loc main_arg1)) := s0_arg1 (W0 m ρ c)
  have v126 : (V1 m ρ c main_v126 : S128x128.Idx → EReal) = wT (m ((c : Thread nD τ).loc main_arg6)) 0 0 := s0_wl0 (W0 m ρ c)
  have v128 : (V1 m ρ c main_v128 : S128x128.Idx → EReal) = wT (m ((c : Thread nD τ).loc main_arg6)) 0 3 := s0_wl3 (W0 m ρ c)
  have v130 : (V1 m ρ c main_v130 : S128x128.Idx → EReal) = wT (m ((c : Thread nD τ).loc main_arg6)) 0 1 := s0_wl1 (W0 m ρ c)
  have v132 : (V1 m ρ c main_v132 : S128x128.Idx → EReal) = wT (m ((c : Thread nD τ).loc main_arg6)) 0 2 := s0_wl2 (W0 m ρ c)
  have hX1d : G0d (V1 m ρ) c = relu (combine (KS.sum bcast_S_S100000x128 (m ((c : Thread nD τ).loc main_arg2)) (m ((c : Thread nD τ).loc main_arg0))) (KL.sum bcast_S_S100000x128 (m ((c : Thread nD τ).loc main_arg5)) (m ((c : Thread nD τ).loc main_arg1))) (m ((c : Thread nD τ).loc main_arg0))
      (V1 m ρ c main_v46 : S100000x4.Idx → EReal) 0 1 (wT (m ((c : Thread nD τ).loc main_arg6)) 0 0) (wT (m ((c : Thread nD τ).loc main_arg6)) 0 3) (V1 m ρ c main_v134 : S128x128.Idx → EReal) (V1 m ρ c main_v138 : S1x128.Idx → EReal)) := by
    show relu (combine (V1 m ρ c main_v82 : S100000x128.Idx → EReal) (V1 m ρ c main_v96 : S100000x128.Idx → EReal) (V1 m ρ c main_arg0 : S100000x128.Idx → EReal) _ _ _ (V1 m ρ c main_v126 : S128x128.Idx → EReal) (V1 m ρ c main_v128 : S128x128.Idx → EReal) _ _) = _
    rw [v82, v96, vx0, v126, v128]; rfl
  have hX1m : G0m (V1 m ρ) c = relu (combine (KS.sum bcast_S_S100000x128 (m ((c : Thread nD τ).loc main_arg3)) (m ((c : Thread nD τ).loc main_arg1))) (KL.sum bcast_S_S100000x128 (m ((c : Thread nD τ).loc main_arg4)) (m ((c : Thread nD τ).loc main_arg0))) (m ((c : Thread nD τ).loc main_arg1))
      (V1 m ρ c main_v46 : S100000x4.Idx → EReal) 2 3 (wT (m ((c : Thread nD τ).loc main_arg6)) 0 1) (wT (m ((c : Thread nD τ).loc main_arg6)) 0 2) (V1 m ρ c main_v136 : S128x128.Idx → EReal) (V1 m ρ c main_v140 : S1x128.Idx → EReal)) := by
    show relu (combine (V1 m ρ c main_v110 : S100000x128.Idx → EReal) (V1 m ρ c main_v124 : S100000x128.Idx → EReal) (V1 m ρ c main_arg1 : S100000x128.Idx → EReal) _ _ _ (V1 m ρ c main_v130 : S128x128.Idx → EReal) (V1 m ρ c main_v132 : S128x128.Idx → EReal) _ _) = _
    rw [v110, v124, vx1, v130, v132]; rfl
  show stack (combine (V3 m ρ c main_v155 : S100000x128.Idx → EReal) (V3 m ρ c main_v169 : S100000x128.Idx → EReal) (V3 m ρ c main_v141_0 : S100000x128.Idx → EReal) (V3 m ρ c main_v46 : S100000x4.Idx → EReal) _ _
        (V3 m ρ c main_v199 : S128x128.Idx → EReal) (V3 m ρ c main_v201 : S128x128.Idx → EReal) (V3 m ρ c main_v207 : S128x128.Idx → EReal) (V3 m ρ c main_v211 : S1x128.Idx → EReal))
      (combine (V3 m ρ c main_v183 : S100000x128.Idx → EReal) (V3 m ρ c main_v197 : S100000x128.Idx → EReal) (V3 m ρ c main_v141_1 : S100000x128.Idx → EReal) (V3 m ρ c main_v46 : S100000x4.Idx → EReal) _ _
        (V3 m ρ c main_v203 : S128x128.Idx → EReal) (V3 m ρ c main_v205 : S128x128.Idx → EReal) (V3 m ρ c main_v209 : S128x128.Idx → EReal) (V3 m ρ c main_v213 : S1x128.Idx → EReal)) = _
  rw [v155, v169, vxd, vinv, v199, v201, v183, v197, vxm, v203, v205]
  have hinv := fun p => s0_inv (W0 m ρ c) p
  exact forward_of_fused' KS KL bcast_S_S100000 bcast_S_S100000x128 _ _ _ _ _ _ _ _ _ hxd hxm hWl hbl hWr
    (V1 m ρ c main_v46 : S100000x4.Idx → EReal) (fun p => (hinv p).1) (fun p => (hinv p).2.1) (fun p => (hinv p).2.2.1) (fun p => (hinv p).2.2.2)
    (V1 m ρ c main_v134 : S128x128.Idx → EReal) (V3 m ρ c main_v207 : S128x128.Idx → EReal) (V1 m ρ c main_v136 : S128x128.Idx → EReal) (V3 m ρ c main_v209 : S128x128.Idx → EReal)
    (V1 m ρ c main_v138 : S1x128.Idx → EReal) (V3 m ρ c main_v211 : S1x128.Idx → EReal) (V1 m ρ c main_v140 : S1x128.Idx → EReal) (V3 m ρ c main_v213 : S1x128.Idx → EReal)
    (s0_wrd (W0 m ρ c)) (s1_wrd (W2 m ρ c) _ t51) (s0_wrm (W0 m ρ c)) (s1_wrm (W2 m ρ c) _ t56)
    (s0_bd (W0 m ρ c)) (s1_bd (W2 m ρ c) _ t62) (s0_bm (W0 m ρ c)) (s1_bm (W2 m ρ c) _ t68)
    (G0d (V1 m ρ) c) (G0m (V1 m ρ) c) hX1d hX1m

end Cert.KernelIdeal.Result

end
-- ==== Proof.LibFiniteInputs.lean ====
/-
  Reading a printed precondition "every entry is finite" / "every entry is ≥ 0" back on the extended reals.

  jnp.all(|x| < +inf) prints as a reduce by `and` (from the word 1) of the entrywise comparison of |x| with a
  broadcast of the word 0x7F800000 (+∞). If that reduce is 1 then every entry x i has |x i| = max (x i) (−x i) < ⊤,
  so x i is neither ⊤ nor ⊥: a real. jnp.all(x ≥ 0) prints the same way with the comparison x ≥ (the word 0); if it
  is 1 then every entry is ≥ 0. Nothing here mentions a program.
-/
import Idealize.ShloMosaic.PureOps.Ideal
import Idealize.ShloMosaic.PureOps.Ideal.Laws
import Idealize.ShloMosaic.Lib.ValueIdx
import Idealize.ShloMosaic.Lib.ReduceAll

noncomputable section

namespace Cert.Lib.FiniteInputs

open Idealize.ShloMosaic Idealize.ShloMosaic.ValueIdx

instance : Subsingleton (⟨0, ![]⟩ : Shape).Idx := ⟨fun a b => funext fun d => d.elim0⟩

/-- The single-precision word 7F800000 is +∞. -/
theorem ofBits_inf_f32 : Ideal.ofBits .f32 0x7F800000#32 = (⊤ : EReal) := by
  simp [Ideal.ofBits, Ideal.ieee]

/-- An extended real whose absolute value is below +∞ is a real. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- A comparison word that is 1 says the comparison holds: "less than". -/
theorem lt_of_cmp_olt (x y : EReal) (h : Ideal.cmp .olt x y = 1#1) : x < y := by
  unfold Ideal.cmp at h
  by_contra hn
  simp [hn] at h

/-- A comparison word that is 1 says the comparison holds: "at least". -/
theorem le_of_cmp_oge (x y : EReal) (h : Ideal.cmp .oge x y = 1#1) : y ≤ x := by
  unfold Ideal.cmp at h
  by_contra hn
  simp [hn] at h

variable {s u : Shape} {axes : List (Fin s.rank)}

/-- jnp.all(|x| < +inf) = true: every entry of x is a real. -/
theorem real_of_all_finite (x : s.Idx → EReal) (hb : (⟨0, ![]⟩ : Shape).BroadcastsInDim s ![])
    (init : u.Idx → BitVec 1) (hr : s.ReducesTo axes ⟨0, ![]⟩) (hu : 0 < u.numel)
    (e : Host.reduce IntOp.andi
        (cmpf .olt (Host.absf (F := Ideal) (φ := .f32) x)
          (broadcastInDim s ![] hb (constant (F := Ideal) ⟨0, ![]⟩ .f32 0x7F800000#32))) init hr hu ix0 = 1#1)
    (i : s.Idx) : ∃ r : ℝ, x i = (r : EReal) := by
  have hi := Host.reduce_andi_all _ init hr hu ix0 e i
  refine real_of_abs_lt_top (x i) ?_
  have := lt_of_cmp_olt _ _ hi
  rw [← ofBits_inf_f32]
  exact this

/-- jnp.all(x ≥ 0) = true: every entry of x is at least 0. -/
theorem nonneg_of_all_ge (x : s.Idx → EReal) (hb : (⟨0, ![]⟩ : Shape).BroadcastsInDim s ![])
    (init : u.Idx → BitVec 1) (hr : s.ReducesTo axes ⟨0, ![]⟩) (hu : 0 < u.numel)
    (e : Host.reduce IntOp.andi
        (cmpf .oge x (broadcastInDim s ![] hb (constant (F := Ideal) ⟨0, ![]⟩ .f32 0x00000000#32))) init hr hu ix0 = 1#1)
    (i : s.Idx) : 0 ≤ x i := by
  have hi := Host.reduce_andi_all _ init hr hu ix0 e i
  have := le_of_cmp_oge _ _ hi
  rw [← Ideal.ofBits_zero_f32]
  exact this

end Cert.Lib.FiniteInputs

end
-- ==== Proof.FiniteArgs.lean ====
/-
  The precondition read back: when every comparison |x| < +∞ over the five float arguments holds, every entry of
  the two feature arrays, the two weight arrays and the bias array is a real.
-/
import proofs.«123560_j36206574305716_2_alg».proof.Pre_finite_inputs
import proofs.«123560_j36206574305716_2_alg».proof.Proof.Gen.Pre_finite_inputs
import proofs.«123560_j36206574305716_2_alg».proof.Proof.LibFiniteInputs
import proofs.«123560_j36206574305716_2_alg».proof.Proof.LibScatterScale
import Idealize.ShloMosaic.Lib.Affine

noncomputable section

namespace Cert.FiniteArgs

open Idealize.ShloMosaic Idealize.ShloMosaic.ValueIdx Cert.Lib.FiniteInputs Cert.LibScatterScale
open Cert.Pre_finite_inputs Cert.Pre_finite_inputs.Gen

theorem reals_of_pre (x0 x1 : FVec Ideal S100000x128 .f32) (x2 x3 : IVec S2x100000 32) (x4 x5 : IVec S2x1000000 32)
    (x6 : FVec Ideal S2x4x128x128 .f32) (x7 : FVec Ideal S2x4x128 .f32) (x8 : FVec Ideal S2x4x128x128 .f32)
    (h : fn (F := Ideal) x0 x1 x2 x3 x4 x5 x6 x7 x8 = fun _ => 1#1) :
    (∀ i, IsReal (x0 i)) ∧ (∀ i, IsReal (x1 i)) ∧ (∀ i, IsReal (x6 i)) ∧ (∀ i, IsReal (x7 i)) ∧ (∀ i, IsReal (x8 i)) := by
  have h0 := congrFun h ix0
  dsimp only [fn, fn_part1] at h0
  obtain ⟨h1, e8⟩ := IntOp.andi_eq_one.1 h0
  obtain ⟨h2, e7⟩ := IntOp.andi_eq_one.1 h1
  obtain ⟨h3, e6⟩ := IntOp.andi_eq_one.1 h2
  obtain ⟨e0, e1⟩ := IntOp.andi_eq_one.1 h3
  exact ⟨real_of_all_finite x0 _ _ _ _ e0, real_of_all_finite x1 _ _ _ _ e1, real_of_all_finite x6 _ _ _ _ e6,
    real_of_all_finite x7 _ _ _ _ e7, real_of_all_finite x8 _ _ _ _ e8⟩

end Cert.FiniteArgs

end
-- ==== Proof.HostConvolution.lean ====
/-
  A host program's spelling of one mean-aggregation convolution, of the weight and bias accessors, of the join with
  the zero word and of the stacking of two arrays, each read once as the whole-array function it is.

  A host program divides an r×k array of summed neighbour features by a per-row divisor broadcast first into an r×1
  column and then across the k columns, multiplies by a k×n matrix, adds a bias vector broadcast first into a 1×n row
  and then down the r rows, and adds the product of the rows' own features with a second matrix: that is `conv`.
  It reads the matrix of layer l and edge type t out of a 2×4×128×128 array by a unit slice, a re-shaping to 128×128
  and a transposition: that is `wT`; and the bias vector out of a 2×4×128 array by a unit slice and a re-shaping:
  that is `bV`. Joining an array entry by entry with an array of zero words is `relu`. Two 100000×128 arrays given
  a leading unit axis each and joined along it are `stack`. Nothing here mentions a program.
-/
import Idealize.ShloMosaic.PureOps.Ideal.Laws
import Idealize.ShloMosaic.Lib.ValueIdx
import Idealize.ShloMosaic.Lib.IdealHost
import Idealize.ShloMosaic.Lib.Pipeline.Value
import proofs.«123560_j36206574305716_2_alg».proof.Proof.LibMatProd
import proofs.«123560_j36206574305716_2_alg».proof.Proof.LibRowReductions
import proofs.«123560_j36206574305716_2_alg».proof.Proof.LibRowVector
import proofs.«123560_j36206574305716_2_alg».proof.Proof.LibHeteroSage
import proofs.«123560_j36206574305716_2_alg».proof.Proof.LibSageParts

open scoped BigOperators

noncomputable section

namespace Cert.HostConvolution

open Idealize.ShloMosaic Idealize.ShloMosaic.ValueIdx Cert.Lib.MatProd Cert.HeteroSage Cert.SageParts

/-! ## One convolution -/

section Conv
variable {r k n : Nat}

/-- An array divided by a per-row divisor broadcast into a column and then across the columns is `divRows`. -/
theorem host_divRows (A : FVec Ideal ⟨2, ![r, k]⟩ .f32) (m : FVec Ideal ⟨1, ![r]⟩ .f32)
    (hcol : (⟨1, ![r]⟩ : Shape).BroadcastsInDim ⟨2, ![r, 1]⟩ ![0])
    (hcols : (⟨2, ![r, 1]⟩ : Shape).BroadcastsInDim ⟨2, ![r, k]⟩ ![0, 1]) :
    Host.divf A (broadcastInDim ⟨2, ![r, k]⟩ ![0, 1] hcols (broadcastInDim ⟨2, ![r, 1]⟩ ![0] hcol m)) = divRows A m := by
  funext i
  obtain ⟨p, c, rfl⟩ : ∃ (p : Fin r) (c : Fin k), i = ix2 p c := ⟨i 0, i 1, eq_ix2 i⟩
  rw [hostDivf_apply, Cert.Lib.RowReductions.bcastInDim_cols_apply, Cert.Lib.RowReductions.bcastInDim_col_apply,
    divRows_apply]

/-- A vector broadcast into a row and then down the rows reads its entry q at every (p, q). -/
theorem host_bias_apply (b : FVec Ideal ⟨1, ![n]⟩ .f32)
    (hrow : (⟨1, ![n]⟩ : Shape).BroadcastsInDim ⟨2, ![1, n]⟩ ![1])
    (hrows : (⟨2, ![1, n]⟩ : Shape).BroadcastsInDim ⟨2, ![r, n]⟩ ![0, 1]) (p : Fin r) (q : Fin n) :
    broadcastInDim ⟨2, ![r, n]⟩ ![0, 1] hrows (broadcastInDim ⟨2, ![1, n]⟩ ![1] hrow b) (ix2 p q) = b (ix1 q) := by
  rw [Cert.Lib.RowVector.bcastInDim_rows_apply, Cert.Lib.RowVector.bcastInDim_eq_asRow, Cert.Lib.RowVector.asRow_apply]

/-- The host's spelling of one convolution is `conv`. -/
theorem host_conv (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (A X : FVec Ideal ⟨2, ![r, k]⟩ .f32) (m : FVec Ideal ⟨1, ![r]⟩ .f32)
    (WlT WrT : FVec Ideal ⟨2, ![k, n]⟩ .f32) (b : FVec Ideal ⟨1, ![n]⟩ .f32)
    (hcol : (⟨1, ![r]⟩ : Shape).BroadcastsInDim ⟨2, ![r, 1]⟩ ![0])
    (hcols : (⟨2, ![r, 1]⟩ : Shape).BroadcastsInDim ⟨2, ![r, k]⟩ ![0, 1])
    (hrow : (⟨1, ![n]⟩ : Shape).BroadcastsInDim ⟨2, ![1, n]⟩ ![1])
    (hrows : (⟨2, ![1, n]⟩ : Shape).BroadcastsInDim ⟨2, ![r, n]⟩ ![0, 1]) :
    addf (addf (Host.dotGeneral (F := Ideal) d none
          (Host.divf A (broadcastInDim ⟨2, ![r, k]⟩ ![0, 1] hcols (broadcastInDim ⟨2, ![r, 1]⟩ ![0] hcol m))) WlT)
        (broadcastInDim ⟨2, ![r, n]⟩ ![0, 1] hrows (broadcastInDim ⟨2, ![1, n]⟩ ![1] hrow b)))
      (Host.dotGeneral (F := Ideal) d none X WrT)
      = conv A X m WlT WrT b := by
  rw [host_divRows]
  simp only [Host.dotGeneral]
  rw [dotGeneral_eq_matProd d hlc hrc hln hrn hlb hrb, dotGeneral_eq_matProd d hlc hrc hln hrn hlb hrb]
  funext i
  obtain ⟨p, q, rfl⟩ : ∃ (p : Fin r) (q : Fin n), i = ix2 p q := ⟨i 0, i 1, eq_ix2 i⟩
  rw [addf_apply, addf_apply, host_bias_apply, conv_apply]

end Conv

/-! ## The weights and the biases -/

/-- The unit slice at (l, t) of the weights, re-shaped to 128×128 and transposed, is `wT`. -/
theorem host_wT (W : FVec Ideal ⟨4, ![2, 4, 128, 128]⟩ .f32) (l t : Nat) (hl : l < 2) (ht : t < 4)
    (hs : (⟨4, ![2, 4, 128, 128]⟩ : Shape).Slices ![l, t, 0, 0] ⟨4, ![1, 1, 128, 128]⟩)
    (hc : (⟨4, ![1, 1, 128, 128]⟩ : Shape).ShapeCasts ⟨2, ![128, 128]⟩)
    (htr : (⟨2, ![128, 128]⟩ : Shape).Transposes [1, 0] ⟨2, ![128, 128]⟩) :
    transpose ⟨2, ![128, 128]⟩ [1, 0]
        (shapeCast ⟨2, ![128, 128]⟩ (extractStridedSlice ⟨4, ![1, 1, 128, 128]⟩ ![l, t, 0, 0] W hs) hc) htr
      = wT W ⟨l, hl⟩ ⟨t, ht⟩ := by
  funext i
  obtain ⟨a, q, rfl⟩ : ∃ (a : Fin 128) (q : Fin 128), i = ix2 a q := ⟨i 0, i 1, eq_ix2 i⟩
  refine (transpose_apply [1, 0] _ htr (ix2 a q) (ix2 q a) (fun b => match b with
    | ⟨0, _⟩ => rfl
    | ⟨1, _⟩ => rfl)).trans ?_
  refine (shapeCast_apply _ hc (ix2 q a) (ix4 (0 : Fin 1) (0 : Fin 1) q a) ?_).trans ?_
  · rw [Shape.rowMajor_val_four, Shape.rowMajor_val_two]
    show ((0 * 1 + 0) * 128 + q.val) * 128 + a.val = q.val * 128 + a.val
    omega
  · exact extractStridedSlice_apply ![l, t, 0, 0] W hs _ (ix4 (⟨l, hl⟩ : Fin 2) (⟨t, ht⟩ : Fin 4) q a) (fun b => match b with
      | ⟨0, _⟩ => by show l = l + 0; omega
      | ⟨1, _⟩ => by show t = t + 0; omega
      | ⟨2, _⟩ => by show q.val = 0 + q.val; omega
      | ⟨3, _⟩ => by show a.val = 0 + a.val; omega)

/-- The unit slice at (l, t) of the biases, re-shaped to a vector, is `bV`. -/
theorem host_bV (B : FVec Ideal ⟨3, ![2, 4, 128]⟩ .f32) (l t : Nat) (hl : l < 2) (ht : t < 4)
    (hs : (⟨3, ![2, 4, 128]⟩ : Shape).Slices ![l, t, 0] ⟨3, ![1, 1, 128]⟩)
    (hc : (⟨3, ![1, 1, 128]⟩ : Shape).ShapeCasts ⟨1, ![128]⟩) :
    shapeCast ⟨1, ![128]⟩ (extractStridedSlice ⟨3, ![1, 1, 128]⟩ ![l, t, 0] B hs) hc = bV B ⟨l, hl⟩ ⟨t, ht⟩ := by
  funext i
  obtain ⟨q, rfl⟩ : ∃ q : Fin 128, i = ix1 q := ⟨i 0, eq_ix1 i⟩
  refine (shapeCast_apply _ hc (ix1 q) (ix3 (0 : Fin 1) (0 : Fin 1) q) ?_).trans ?_
  · rw [Shape.rowMajor_val_three, Shape.rowMajor_val_one]
    show (0 * 1 + 0) * 128 + q.val = q.val
    omega
  · exact extractStridedSlice_apply ![l, t, 0] B hs _ (ix3 (⟨l, hl⟩ : Fin 2) (⟨t, ht⟩ : Fin 4) q) (fun b => match b with
      | ⟨0, _⟩ => by show l = l + 0; omega
      | ⟨1, _⟩ => by show t = t + 0; omega
      | ⟨2, _⟩ => by show q.val = 0 + q.val; omega)

/-! ## The join with zero, and the stack -/

/-- Joining an array entry by entry with an array of zero words is `relu`. -/
theorem host_relu {r n : Nat} (Y : FVec Ideal ⟨2, ![r, n]⟩ .f32)
    (hz : (⟨0, ![]⟩ : Shape).BroadcastsInDim ⟨2, ![r, n]⟩ ![]) :
    maximumf Y (broadcastInDim ⟨2, ![r, n]⟩ ![] hz (constant (F := Ideal) ⟨0, ![]⟩ .f32 0x00000000#32)) = relu Y := by
  funext i
  rw [maximumf_apply, Cert.Lib.RowReductions.bcastInDim_scalar_apply]
  rfl

/-- A 100000×128 array given a leading unit axis reads its entry (p, q) at (0, p, q). -/
theorem lead_apply (a : Mat 100000 128)
    (hb : (⟨2, ![100000, 128]⟩ : Shape).BroadcastsInDim ⟨3, ![1, 100000, 128]⟩ ![1, 2]) (p : Fin 100000) (q : Fin 128) :
    broadcastInDim ⟨3, ![1, 100000, 128]⟩ ![1, 2] hb a (ix3 (0 : Fin 1) p q) = a (ix2 p q) :=
  broadcastInDim_apply _ hb a _ _ fun ax => by
    match ax with
    | ⟨0, _⟩ => show p.val = if (100000 : Nat) = 1 then 0 else p.val; rw [if_neg (by decide)]
    | ⟨1, _⟩ => show q.val = if (128 : Nat) = 1 then 0 else q.val; rw [if_neg (by decide)]

/-- Two 100000×128 arrays given a leading unit axis each and joined along it are `stack`: slab 0 reads the first
    piece, slab 1 the second piece at its slab 0. -/
theorem host_stack (a b : Mat 100000 128)
    (hb : (⟨2, ![100000, 128]⟩ : Shape).BroadcastsInDim ⟨3, ![1, 100000, 128]⟩ ![1, 2])
    (hcat : Shape.Concatenates [(⟨3, ![1, 100000, 128]⟩ : Shape), ⟨3, ![1, 100000, 128]⟩] ⟨3, ![2, 100000, 128]⟩ 0) :
    concatenate ⟨3, ![2, 100000, 128]⟩ 0
        [⟨⟨3, ![1, 100000, 128]⟩, broadcastInDim ⟨3, ![1, 100000, 128]⟩ ![1, 2] hb a⟩,
         ⟨⟨3, ![1, 100000, 128]⟩, broadcastInDim ⟨3, ![1, 100000, 128]⟩ ![1, 2] hb b⟩] hcat
      = stack a b := by
  funext i
  obtain ⟨s, p, q, rfl⟩ : ∃ (s : Fin 2) (p : Fin 100000) (q : Fin 128), i = ix3 s p q := ⟨i 0, i 1, i 2, eq_ix3 i⟩
  match s with
  | ⟨0, h0⟩ =>
    refine (concatenate_pair_apply_left (t := ⟨3, ![2, 100000, 128]⟩) (s₁ := ⟨3, ![1, 100000, 128]⟩)
      (s₂ := ⟨3, ![1, 100000, 128]⟩) (0 : Fin 3) _ _ hcat (ix3 (⟨0, h0⟩ : Fin 2) p q) rfl (ix3 (0 : Fin 1) p q) (fun c => match c with
      | ⟨0, _⟩ => rfl
      | ⟨1, _⟩ => rfl
      | ⟨2, _⟩ => rfl)).trans ?_
    exact lead_apply a hb p q
  | ⟨1, h1⟩ =>
    refine (concatenate_pair_apply_right (t := ⟨3, ![2, 100000, 128]⟩) (s₁ := ⟨3, ![1, 100000, 128]⟩)
      (s₂ := ⟨3, ![1, 100000, 128]⟩) (0 : Fin 3) _ _ hcat (ix3 (⟨1, h1⟩ : Fin 2) p q) rfl rfl (ix3 (0 : Fin 1) p q) (fun c => match c with
      | ⟨0, _⟩ => fun h => absurd rfl h
      | ⟨1, _⟩ => fun _ => rfl
      | ⟨2, _⟩ => fun _ => rfl) rfl).trans ?_
    exact lead_apply b hb p q

end Cert.HostConvolution

end
-- ==== Proof.ReferenceRecords.lean ====
/-
  The reference program's dimension records and shape facts for its two edge-list lengths, bundled as the network's
  definition takes them: the short lists (100000 edges, within one node type) and the long lists (1000000 edges,
  across the node types). Each gathers rows of a 100000×128 array at an E×1 column of row indices, adds E×128 rows
  into a 100000×128 array and E ones into a vector of 100000, and takes the rows of a 2×E array of words apart.
-/
import proofs.«123560_j36206574305716_2_alg».proof.Proof.Gen.ReferenceIdeal
import proofs.«123560_j36206574305716_2_alg».proof.Proof.LibSageParts

noncomputable section

namespace Cert.ReferenceIdeal.RefValue

open Cert.ReferenceIdeal Cert.ReferenceIdeal.Gen Idealize.ShloMosaic

/-- The records of the reference's 100000-edge lists. -/
def RS : Cert.SageParts.Recs 100000 where
  gd := gather_S100000x128_S100000x1_S100000x128_1_0_n_n_0_1_1128
  sd := scatter_S100000x128_S100000x1_S100000x128_1_0_0_1
  cd := scatter_S100000_S100000x1_S100000_n_0_0_1
  hs0 := slices_S2x100000_S1x100000_0_0
  hs1 := slices_S2x100000_S1x100000_1_0
  hc := shapeCasts_S1x100000_S100000
  hbE := bcast_S_S100000
  hbc := bcast_S100000_S100000x1_0

/-- The records of the reference's 1000000-edge lists. -/
def RL : Cert.SageParts.Recs 1000000 where
  gd := gather_S100000x128_S1000000x1_S1000000x128_1_0_n_n_0_1_1128
  sd := scatter_S100000x128_S1000000x1_S1000000x128_1_0_0_1
  cd := scatter_S100000_S1000000x1_S1000000_n_0_0_1
  hs0 := slices_S2x1000000_S1x1000000_0_0
  hs1 := slices_S2x1000000_S1x1000000_1_0
  hc := shapeCasts_S1x1000000_S1000000
  hbE := bcast_S_S1000000
  hbc := bcast_S1000000_S1000000x1_0

end Cert.ReferenceIdeal.RefValue

end
-- ==== Proof.ReferenceStretches.lean ====
/-
  The reference's operation list cut into four stretches, each a literal list: the first layer's four
  convolutions and the two sums into the node types (through main_v157); the two joins with zero (main_v158,
  main_v159); the second layer (through main_v317); and the stacking of the two results (main_v320). What a stretch
  leaves in its result buffers is a term over whatever the buffers held before it, of modest size; the whole list's
  term over the arguments nests the first layer inside the second several times over.
-/
import proofs.«123560_j36206574305716_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The first layer: four convolutions and the two sums into the node types. -/
abbrev opsLayer0 : List (HloOp τ sig (Elt F)) :=
  [ unary main_arg6 main_v0 ((extractStridedSlice S1x1x128x128 ![0, 0, 0, 0] · slices_S2x4x128x128_S1x1x128x128_0_0_0_0) : (⟨S2x4x128x128, .f32⟩ : BufTy).Contents (Elt F) → (⟨S1x1x128x128, .f32⟩ : BufTy).Contents (Elt F)),
    reshape main_v0 main_v1 rfl shapeCasts_S1x1x128x128_S128x128,
    unary main_arg7 main_v2 ((extractStridedSlice S1x1x128 ![0, 0, 0] · slices_S2x4x128_S1x1x128_0_0_0) : (⟨S2x4x128, .f32⟩ : BufTy).Contents (Elt F) → (⟨S1x1x128, .f32⟩ : BufTy).Contents (Elt F)),
    reshape main_v2 main_v3 rfl shapeCasts_S1x1x128_S128,
    unary main_arg8 main_v4 ((extractStridedSlice S1x1x128x128 ![0, 0, 0, 0] · slices_S2x4x128x128_S1x1x128x128_0_0_0_0) : (⟨S2x4x128x128, .f32⟩ : BufTy).Contents (Elt F) → (⟨S1x1x128x128, .f32⟩ : BufTy).Contents (Elt F)),
    reshape main_v4 main_v5 rfl shapeCasts_S1x1x128x128_S128x128,
    unary main_arg2 main_v6 ((extractStridedSlice S1x100000 ![0, 0] · slices_S2x100000_S1x100000_0_0) : (⟨S2x100000, .i32⟩ : BufTy).Contents (Elt F) → (⟨S1x100000, .i32⟩ : BufTy).Contents (Elt F)),
    reshape main_v6 main_v7 rfl shapeCasts_S1x100000_S100000,
    nullary main_c (constantI S_ 32 0#32),
    unary main_c main_v8 (broadcastInDim S100000 ![] bcast_S_S100000 : (⟨S_, .i32⟩ : BufTy).Contents (Elt F) → (⟨S100000, .i32⟩ : BufTy).Contents (Elt F)),
    binary main_v7 main_v8 main_v9 (cmpi .slt : (⟨S100000, .i32⟩ : BufTy).Contents (Elt F) → (⟨S100000, .i32⟩ : BufTy).Contents (Elt F) → (⟨S100000, .i1⟩ : BufTy).Contents (Elt F)),
    nullary main_c_0 (constantI S_ 32 100000#32),
    unary main_c_0 main_v10 (broadcastInDim S100000 ![] bcast_S_S100000 : (⟨S_, .i32⟩ : BufTy).Contents (Elt F) → (⟨S100000, .i32⟩ : BufTy).Contents (Elt F)),
    binary main_v7 main_v10 main_v11 (addi : (⟨S100000, .i32⟩ : BufTy).Contents (Elt F) → (⟨S100000, .i32⟩ : BufTy).Contents (Elt F) → (⟨S100000, .i32⟩ : BufTy).Contents (Elt F)),
    ternary main_v9 main_v11 main_v7 main_v12 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v12 main_v13 (broadcastInDim S100000x1 ![0] bcast_S100000_S100000x1_0 : (⟨S100000, .i32⟩ : BufTy).Contents (Elt F) → (⟨S100000x1, .i32⟩ : BufTy).Contents (Elt F)),
    binary main_arg0 main_v13 main_v14 ((fun x i => Host.gather gather_S100000x128_S100000x1_S100000x128_1_0_n_n_0_1_1128 x i) : (⟨S100000x128, .f32⟩ : BufTy).Contents (Elt F) → (⟨S100000x1, .i32⟩ : BufTy).Contents (Elt F) → (⟨S100000x128, .f32⟩ : BufTy).Contents (Elt F)),
    unary main_arg2 main_v15 ((extractStridedSlice S1x100000 ![1, 0] · slices_S2x100000_S1x100000_1_0) : (⟨S2x100000, .i32⟩ : BufTy).Contents (Elt F) → (⟨S1x100000, .i32⟩ : BufTy).Contents (Elt F)),
    reshape main_v15 main_v16 rfl shapeCasts_S1x100000_S100000,
    nullary main_cst (constant S_ .f32 0x00000000#32),
    unary main_cst main_v17 (broadcastInDim S100000x128 ![] bcast_S_S100000x128 : (⟨S_, .f32⟩ : BufTy).Contents (Elt F) → (⟨S100000x128, .f32⟩ : BufTy).Contents (Elt F)),
    unary main_v16 main_v18 (broadcastInDim S100000x1 ![0] bcast_S100000_S100000x1_0 : (⟨S100000, .i32⟩ : BufTy).Contents (Elt F) → (⟨S100000x1, .i32⟩ : BufTy).Contents (Elt F)),
    ternary main_v17 main_v18 main_v14 main_v19 ((fun x i u => Host.scatterAdd scatter_S100000x128_S100000x1_S100000x128_1_0_0_1 x i u) : (⟨S100000x128, .f32⟩ : BufTy).Contents (Elt F) → (⟨S100000x1, .i32⟩ : BufTy).Contents (Elt F) → (⟨S100000x128, .f32⟩ : BufTy).Contents (Elt F) → (⟨S100000x128, .f32⟩ : BufTy).Contents (Elt F)),
    nullary main_cst_1 (constant S_ .f32 0x3F800000#32),
    unary main_cst_1 main_v20 (broadcastInDim S100000 ![] bcast_S_S100000 : (⟨S_, .f32⟩ : BufTy).Contents (Elt F) → (⟨S100000, .f32⟩ : BufTy).Contents (Elt F)),
    unary main_arg2 main_v21 ((extractStridedSlice S1x100000 ![1, 0] · slices_S2x100000_S1x100000_1_0) : (⟨S2x100000, .i32⟩ : BufTy).Contents (Elt F) → (⟨S1x100000, .i32⟩ : BufTy).Contents (Elt F)),
    reshape main_v21 main_v22 rfl shapeCasts_S1x100000_S100000,
    nullary main_cst_2 (constant S_ .f32 0x00000000#32),
    unary main_cst_2 main_v23 (broadcastInDim S100000 ![] bcast_S_S100000 : (⟨S_, .f32⟩ : BufTy).Contents (Elt F) → (⟨S100000, .f32⟩ : BufTy).Contents (Elt F)),
    unary main_v22 main_v24 (broadcastInDim S100000x1 ![0] bcast_S100000_S100000x1_0 : (⟨S100000, .i32⟩ : BufTy).Contents (Elt F) → (⟨S100000x1, .i32⟩ : BufTy).Contents (Elt F)),
    ternary main_v23 main_v24 main_v20 main_v25 ((fun x i u => Host.scatterAdd scatter_S100000_S100000x1_S100000_n_0_0_1 x i u) : (⟨S100000, .f32⟩ : BufTy).Contents (Elt F) → (⟨S100000x1, .i32⟩ : BufTy).Contents (Elt F) → (⟨S100000, .f32⟩ : BufTy).Contents (Elt F) → (⟨S100000, .f32⟩ : BufTy).Contents (Elt F)),
    nullary main_cst_3 (constant S_ .f32 0x3F800000#32),
    unary main_cst_3 main_v26 (broadcastInDim S100000 ![] bcast_S_S100000 : (⟨S_, .f32⟩ : BufTy).Contents (Elt F) → (⟨S100000, .f32⟩ : BufTy).Contents (Elt F)),
    binary main_v25 main_v26 main_v27 (maximumf : (⟨S100000, .f32⟩ : BufTy).Contents (Elt F) → (⟨S100000, .f32⟩ : BufTy).Contents (Elt F) → (⟨S100000, .f32⟩ : BufTy).Contents (Elt F)),
    unary main_v27 main_v28 (broadcastInDim S100000x1 ![0] bcast_S100000_S100000x1_0 : (⟨S100000, .f32⟩ : BufTy).Contents (Elt F) → (⟨S100000x1, .f32⟩ : BufTy).Contents (Elt F)),
    unary main_v28 main_v29 (broadcastInDim S100000x128 ![0, 1] bcast_S100000x1_S100000x128_0_1 : (⟨S100000x1, .f32⟩ : BufTy).Contents (Elt F) → (⟨S100000x128, .f32⟩ : BufTy).Contents (Elt F)),
    binary main_v19 main_v29 main_v30 (Host.divf : (⟨S100000x128, .f32⟩ : BufTy).Contents (Elt F) → (⟨S100000x128, .f32⟩ : BufTy).Contents (Elt F) → (⟨S100000x128, .f32⟩ : BufTy).Contents (Elt F)),
    unary main_v1 main_v31 ((transpose S128x128 [1, 0] · transposes_S128x128_S128x128_1_0) : (⟨S128x128, .f32⟩ : BufTy).Contents (Elt F) → (⟨S128x128, .f32⟩ : BufTy).Contents (Elt F)),
    binary main_v30 main_v31 main_v32 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v3 main_v33 (broadcastInDim S1x128 ![1] bcast_S128_S1x128_1 : (⟨S128, .f32⟩ : BufTy).Contents (Elt F) → (⟨S1x128, .f32⟩ : BufTy).Contents (Elt F)),
    unary main_v33 main_v34 (broadcastInDim S100000x128 ![0, 1] bcast_S1x128_S100000x128_0_1 : (⟨S1x128, .f32⟩ : BufTy).Contents (Elt F) → (⟨S100000x128, .f32⟩ : BufTy).Contents (Elt F)),
    binary main_v32 main_v34 main_v35 (addf : (⟨S100000x128, .f32⟩ : BufTy).Contents (Elt F) → (⟨S100000x128, .f32⟩ : BufTy).Contents (Elt F) → (⟨S100000x128, .f32⟩ : BufTy).Contents (Elt F)),
    unary main_v5 main_v36 ((transpose S128x128 [1, 0] · transposes_S128x128_S128x128_1_0) : (⟨S128x128, .f32⟩ : BufTy).Contents (Elt F) → (⟨S128x128, .f32⟩ : BufTy).Contents (Elt F)),
    binary main_arg0 main_v36 main_v37 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v35 main_v37 main_v38 (addf : (⟨S100000x128, .f32⟩ : BufTy).Contents (Elt F) → (⟨S100000x128, .f32⟩ : BufTy).Contents (Elt F) → (⟨S100000x128, .f32⟩ : BufTy).Contents (Elt F)),
    unary main_arg6 main_v39 ((extractStridedSlice S1x1x128x128 ![0, 3, 0, 0] · slices_S2x4x128x128_S1x1x128x128_0_3_0_0) : (⟨S2x4x128x128, .f32⟩ : BufTy).Contents (Elt F) → (⟨S1x1x128x128, .f32⟩ : BufTy).Contents (Elt F)),
    reshape main_v39 main_v40 rfl shapeCasts_S1x1x128x128_S128x128,
    unary main_arg7 main_v41 ((extractStridedSlice S1x1x128 ![0, 3, 0] · slices_S2x4x128_S1x1x128_0_3_0) : (⟨S2x4x128, .f32⟩ : BufTy).Contents (Elt F) → (⟨S1x1x128, .f32⟩ : BufTy).Contents (Elt F)),
    reshape main_v41 main_v42 rfl shapeCasts_S1x1x128_S128,
    unary main_arg8 main_v43 ((extractStridedSlice S1x1x128x128 ![0, 3, 0, 0] · slices_S2x4x128x128_S1x1x128x128_0_3_0_0) : (⟨S2x4x128x128, .f32⟩ : BufTy).Contents (Elt F) → (⟨S1x1x128x128, .f32⟩ : BufTy).Contents (Elt F)),
    reshape main_v43 main_v44 rfl shapeCasts_S1x1x128x128_S128x128,
    unary main_arg5 main_v45 ((extractStridedSlice S1x1000000 ![0, 0] · slices_S2x1000000_S1x1000000_0_0) : (⟨S2x1000000, .i32⟩ : BufTy).Contents (Elt F) → (⟨S1x1000000, .i32⟩ : BufTy).Contents (Elt F)),
    reshape main_v45 main_v46 rfl shapeCasts_S1x1000000_S1000000,
    nullary main_c_4 (constantI S_ 32 0#32),
    unary main_c_4 main_v47 (broadcastInDim S1000000 ![] bcast_S_S1000000 : (⟨S_, .i32⟩ : BufTy).Contents (Elt F) → (⟨S1000000, .i32⟩ : BufTy).Contents (Elt F)),
    binary main_v46 main_v47 main_v48 (cmpi .slt : (⟨S1000000, .i32⟩ : BufTy).Contents (Elt F) → (⟨S1000000, .i32⟩ : BufTy).Contents (Elt F) → (⟨S1000000, .i1⟩ : BufTy).Contents (Elt F)),
    nullary main_c_5 (constantI S_ 32 100000#32),
    unary main_c_5 main_v49 (broadcastInDim S1000000 ![] bcast_S_S1000000 : (⟨S_, .i32⟩ : BufTy).Contents (Elt F) → (⟨S1000000, .i32⟩ : BufTy).Contents (Elt F)),
    binary main_v46 main_v49 main_v50 (addi : (⟨S1000000, .i32⟩ : BufTy).Contents (Elt F) → (⟨S1000000, .i32⟩ : BufTy).Contents (Elt F) → (⟨S1000000, .i32⟩ : BufTy).Contents (Elt F)),
    ternary main_v48 main_v50 main_v46 main_v51 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v51 main_v52 (broadcastInDim S1000000x1 ![0] bcast_S1000000_S1000000x1_0 : (⟨S1000000, .i32⟩ : BufTy).Contents (Elt F) → (⟨S1000000x1, .i32⟩ : BufTy).Contents (Elt F)),
    binary main_arg1 main_v52 main_v53 ((fun x i => Host.gather gather_S100000x128_S1000000x1_S1000000x128_1_0_n_n_0_1_1128 x i) : (⟨S100000x128, .f32⟩ : BufTy).Contents (Elt F) → (⟨S1000000x1, .i32⟩ : BufTy).Contents (Elt F) → (⟨S1000000x128, .f32⟩ : BufTy).Contents (Elt F)),
    unary main_arg5 main_v54 ((extractStridedSlice S1x1000000 ![1, 0] · slices_S2x1000000_S1x1000000_1_0) : (⟨S2x1000000, .i32⟩ : BufTy).Contents (Elt F) → (⟨S1x1000000, .i32⟩ : BufTy).Contents (Elt F)),
    reshape main_v54 main_v55 rfl shapeCasts_S1x1000000_S1000000,
    nullary main_cst_6 (constant S_ .f32 0x00000000#32),
    unary main_cst_6 main_v56 (broadcastInDim S100000x128 ![] bcast_S_S100000x128 : (⟨S_, .f32⟩ : BufTy).Contents (Elt F) → (⟨S100000x128, .f32⟩ : BufTy).Contents (Elt F)),
    unary main_v55 main_v57 (broadcastInDim S1000000x1 ![0] bcast_S1000000_S1000000x1_0 : (⟨S1000000, .i32⟩ : BufTy).Contents (Elt F) → (⟨S1000000x1, .i32⟩ : BufTy).Contents (Elt F)),
    ternary main_v56 main_v57 main_v53 main_v58 ((fun x i u => Host.scatterAdd scatter_S100000x128_S1000000x1_S1000000x128_1_0_0_1 x i u) : (⟨S100000x128, .f32⟩ : BufTy).Contents (Elt F) → (⟨S1000000x1, .i32⟩ : BufTy).Contents (Elt F) → (⟨S1000000x128, .f32⟩ : BufTy).Contents (Elt F) → (⟨S100000x128, .f32⟩ : BufTy).Contents (Elt F)),
    nullary main_cst_7 (constant S_ .f32 0x3F800000#32),
    unary main_cst_7 main_v59 (broadcastInDim S1000000 ![] bcast_S_S1000000 : (⟨S_, .f32⟩ : BufTy).Contents (Elt F) → (⟨S1000000, .f32⟩ : BufTy).Contents (Elt F)),
    unary main_arg5 main_v60 ((extractStridedSlice S1x1000000 ![1, 0] · slices_S2x1000000_S1x1000000_1_0) : (⟨S2x1000000, .i32⟩ : BufTy).Contents (Elt F) → (⟨S1x1000000, .i32⟩ : BufTy).Contents (Elt F)),
    reshape main_v60 main_v61 rfl shapeCasts_S1x1000000_S1000000,
    nullary main_cst_8 (constant S_ .f32 0x00000000#32),
    unary main_cst_8 main_v62 (broadcastInDim S100000 ![] bcast_S_S100000 : (⟨S_, .f32⟩ : BufTy).Contents (Elt F) → (⟨S100000, .f32⟩ : BufTy).Contents (Elt F)),
    unary main_v61 main_v63 (broadcastInDim S1000000x1 ![0] bcast_S1000000_S1000000x1_0 : (⟨S1000000, .i32⟩ : BufTy).Contents (Elt F) → (⟨S1000000x1, .i32⟩ : BufTy).Contents (Elt F)),
    ternary main_v62 main_v63 main_v59 main_v64 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    nullary main_cst_9 (constant S_ .f32 0x3F800000#32),
    unary main_cst_9 main_v65 (broadcastInDim S100000 ![] bcast_S_S100000 : (⟨S_, .f32⟩ : BufTy).Contents (Elt F) → (⟨S100000, .f32⟩ : BufTy).Contents (Elt F)),
    binary main_v64 main_v65 main_v66 (maximumf : (⟨S100000, .f32⟩ : BufTy).Contents (Elt F) → (⟨S100000, .f32⟩ : BufTy).Contents (Elt F) → (⟨S100000, .f32⟩ : BufTy).Contents (Elt F)),
    unary main_v66 main_v67 (broadcastInDim S100000x1 ![0] bcast_S100000_S100000x1_0 : (⟨S100000, .f32⟩ : BufTy).Contents (Elt F) → (⟨S100000x1, .f32⟩ : BufTy).Contents (Elt F)),
    unary main_v67 main_v68 (broadcastInDim S100000x128 ![0, 1] bcast_S100000x1_S100000x128_0_1 : (⟨S100000x1, .f32⟩ : BufTy).Contents (Elt F) → (⟨S100000x128, .f32⟩ : BufTy).Contents (Elt F)),
    binary main_v58 main_v68 main_v69 (Host.divf : (⟨S100000x128, .f32⟩ : BufTy).Contents (Elt F) → (⟨S100000x128, .f32⟩ : BufTy).Contents (Elt F) → (⟨S100000x128, .f32⟩ : BufTy).Contents (Elt F)),
    unary main_v40 main_v70 ((transpose S128x128 [1, 0] · transposes_S128x128_S128x128_1_0) : (⟨S128x128, .f32⟩ : BufTy).Contents (Elt F) → (⟨S128x128, .f32⟩ : BufTy).Contents (Elt F)),
    binary main_v69 main_v70 main_v71 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v42 main_v72 (broadcastInDim S1x128 ![1] bcast_S128_S1x128_1 : (⟨S128, .f32⟩ : BufTy).Contents (Elt F) → (⟨S1x128, .f32⟩ : BufTy).Contents (Elt F)),
    unary main_v72 main_v73 (broadcastInDim S100000x128 ![0, 1] bcast_S1x128_S100000x128_0_1 : (⟨S1x128, .f32⟩ : BufTy).Contents (Elt F) → (⟨S100000x128, .f32⟩ : BufTy).Contents (Elt F)),
    binary main_v71 main_v73 main_v74 (addf : (⟨S100000x128, .f32⟩ : BufTy).Contents (Elt F) → (⟨S100000x128, .f32⟩ : BufTy).Contents (Elt F) → (⟨S100000x128, .f32⟩ : BufTy).Contents (Elt F)),
    unary main_v44 main_v75 ((transpose S128x128 [1, 0] · transposes_S128x128_S128x128_1_0) : (⟨S128x128, .f32⟩ : BufTy).Contents (Elt F) → (⟨S128x128, .f32⟩ : BufTy).Contents (Elt F)),
    binary main_arg0 main_v75 main_v76 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v74 main_v76 main_v77 (addf : (⟨S100000x128, .f32⟩ : BufTy).Contents (Elt F) → (⟨S100000x128, .f32⟩ : BufTy).Contents (Elt F) → (⟨S100000x128, .f32⟩ : BufTy).Contents (Elt F)),
    binary main_v38 main_v77 main_v78 (addf : (⟨S100000x128, .f32⟩ : BufTy).Contents (Elt F) → (⟨S100000x128, .f32⟩ : BufTy).Contents (Elt F) → (⟨S100000x128, .f32⟩ : BufTy).Contents (Elt F)),
    unary main_arg6 main_v79 ((extractStridedSlice S1x1x128x128 ![0, 1, 0, 0] · slices_S2x4x128x128_S1x1x128x128_0_1_0_0) : (⟨S2x4x128x128, .f32⟩ : BufTy).Contents (Elt F) → (⟨S1x1x128x128, .f32⟩ : BufTy).Contents (Elt F)),
    reshape main_v79 main_v80 rfl shapeCasts_S1x1x128x128_S128x128,
    unary main_arg7 main_v81 ((extractStridedSlice S1x1x128 ![0, 1, 0] · slices_S2x4x128_S1x1x128_0_1_0) : (⟨S2x4x128, .f32⟩ : BufTy).Contents (Elt F) → (⟨S1x1x128, .f32⟩ : BufTy).Contents (Elt F)),
    reshape main_v81 main_v82 rfl shapeCasts_S1x1x128_S128,
    unary main_arg8 main_v83 ((extractStridedSlice S1x1x128x128 ![0, 1, 0, 0] · slices_S2x4x128x128_S1x1x128x128_0_1_0_0) : (⟨S2x4x128x128, .f32⟩ : BufTy).Contents (Elt F) → (⟨S1x1x128x128, .f32⟩ : BufTy).Contents (Elt F)),
    reshape main_v83 main_v84 rfl shapeCasts_S1x1x128x128_S128x128,
    unary main_arg3 main_v85 ((extractStridedSlice S1x100000 ![0, 0] · slices_S2x100000_S1x100000_0_0) : (⟨S2x100000, .i32⟩ : BufTy).Contents (Elt F) → (⟨S1x100000, .i32⟩ : BufTy).Contents (Elt F)),
    reshape main_v85 main_v86 rfl shapeCasts_S1x100000_S100000,
    nullary main_c_10 (constantI S_ 32 0#32),
    unary main_c_10 main_v87 (broadcastInDim S100000 ![] bcast_S_S100000 : (⟨S_, .i32⟩ : BufTy).Contents (Elt F) → (⟨S100000, .i32⟩ : BufTy).Contents (Elt F)),
    binary main_v86 main_v87 main_v88 (cmpi .slt : (⟨S100000, .i32⟩ : BufTy).Contents (Elt F) → (⟨S100000, .i32⟩ : BufTy).Contents (Elt F) → (⟨S100000, .i1⟩ : BufTy).Contents (Elt F)),
    nullary main_c_11 (constantI S_ 32 100000#32),
    unary main_c_11 main_v89 (broadcastInDim S100000 ![] bcast_S_S100000 : (⟨S_, .i32⟩ : BufTy).Contents (Elt F) → (⟨S100000, .i32⟩ : BufTy).Contents (Elt F)),
    binary main_v86 main_v89 main_v90 (addi : (⟨S100000, .i32⟩ : BufTy).Contents (Elt F) → (⟨S100000, .i32⟩ : BufTy).Contents (Elt F) → (⟨S100000, .i32⟩ : BufTy).Contents (Elt F)),
    ternary main_v88 main_v90 main_v86 main_v91 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v91 main_v92 (broadcastInDim S100000x1 ![0] bcast_S100000_S100000x1_0 : (⟨S100000, .i32⟩ : BufTy).Contents (Elt F) → (⟨S100000x1, .i32⟩ : BufTy).Contents (Elt F)),
    binary main_arg1 main_v92 main_v93 ((fun x i => Host.gather gather_S100000x128_S100000x1_S100000x128_1_0_n_n_0_1_1128 x i) : (⟨S100000x128, .f32⟩ : BufTy).Contents (Elt F) → (⟨S100000x1, .i32⟩ : BufTy).Contents (Elt F) → (⟨S100000x128, .f32⟩ : BufTy).Contents (Elt F)),
    unary main_arg3 main_v94 ((extractStridedSlice S1x100000 ![1, 0] · slices_S2x100000_S1x100000_1_0) : (⟨S2x100000, .i32⟩ : BufTy).Contents (Elt F) → (⟨S1x100000, .i32⟩ : BufTy).Contents (Elt F)),
    reshape main_v94 main_v95 rfl shapeCasts_S1x100000_S100000,
    nullary main_cst_12 (constant S_ .f32 0x00000000#32),
    unary main_cst_12 main_v96 (broadcastInDim S100000x128 ![] bcast_S_S100000x128 : (⟨S_, .f32⟩ : BufTy).Contents (Elt F) → (⟨S100000x128, .f32⟩ : BufTy).Contents (Elt F)),
    unary main_v95 main_v97 (broadcastInDim S100000x1 ![0] bcast_S100000_S100000x1_0 : (⟨S100000, .i32⟩ : BufTy).Contents (Elt F) → (⟨S100000x1, .i32⟩ : BufTy).Contents (Elt F)),
    ternary main_v96 main_v97 main_v93 main_v98 ((fun x i u => Host.scatterAdd scatter_S100000x128_S100000x1_S100000x128_1_0_0_1 x i u) : (⟨S100000x128, .f32⟩ : BufTy).Contents (Elt F) → (⟨S100000x1, .i32⟩ : BufTy).Contents (Elt F) → (⟨S100000x128, .f32⟩ : BufTy).Contents (Elt F) → (⟨S100000x128, .f32⟩ : BufTy).Contents (Elt F)),
    nullary main_cst_13 (constant S_ .f32 0x3F800000#32),
    unary main_cst_13 main_v99 (broadcastInDim S100000 ![] bcast_S_S100000 : (⟨S_, .f32⟩ : BufTy).Contents (Elt F) → (⟨S100000, .f32⟩ : BufTy).Contents (Elt F)),
    unary main_arg3 main_v100 ((extractStridedSlice S1x100000 ![1, 0] · slices_S2x100000_S1x100000_1_0) : (⟨S2x100000, .i32⟩ : BufTy).Contents (Elt F) → (⟨S1x100000, .i32⟩ : BufTy).Contents (Elt F)),
    reshape main_v100 main_v101 rfl shapeCasts_S1x100000_S100000,
    nullary main_cst_14 (constant S_ .f32 0x00000000#32),
    unary main_cst_14 main_v102 (broadcastInDim S100000 ![] bcast_S_S100000 : (⟨S_, .f32⟩ : BufTy).Contents (Elt F) → (⟨S100000, .f32⟩ : BufTy).Contents (Elt F)),
    unary main_v101 main_v103 (broadcastInDim S100000x1 ![0] bcast_S100000_S100000x1_0 : (⟨S100000, .i32⟩ : BufTy).Contents (Elt F) → (⟨S100000x1, .i32⟩ : BufTy).Contents (Elt F)),
    ternary main_v102 main_v103 main_v99 main_v104 ((fun x i u => Host.scatterAdd scatter_S100000_S100000x1_S100000_n_0_0_1 x i u) : (⟨S100000, .f32⟩ : BufTy).Contents (Elt F) → (⟨S100000x1, .i32⟩ : BufTy).Contents (Elt F) → (⟨S100000, .f32⟩ : BufTy).Contents (Elt F) → (⟨S100000, .f32⟩ : BufTy).Contents (Elt F)),
    nullary main_cst_15 (constant S_ .f32 0x3F800000#32),
    unary main_cst_15 main_v105 (broadcastInDim S100000 ![] bcast_S_S100000 : (⟨S_, .f32⟩ : BufTy).Contents (Elt F) → (⟨S100000, .f32⟩ : BufTy).Contents (Elt F)),
    binary main_v104 main_v105 main_v106 (maximumf : (⟨S100000, .f32⟩ : BufTy).Contents (Elt F) → (⟨S100000, .f32⟩ : BufTy).Contents (Elt F) → (⟨S100000, .f32⟩ : BufTy).Contents (Elt F)),
    unary main_v106 main_v107 (broadcastInDim S100000x1 ![0] bcast_S100000_S100000x1_0 : (⟨S100000, .f32⟩ : BufTy).Contents (Elt F) → (⟨S100000x1, .f32⟩ : BufTy).Contents (Elt F)),
    unary main_v107 main_v108 (broadcastInDim S100000x128 ![0, 1] bcast_S100000x1_S100000x128_0_1 : (⟨S100000x1, .f32⟩ : BufTy).Contents (Elt F) → (⟨S100000x128, .f32⟩ : BufTy).Contents (Elt F)),
    binary main_v98 main_v108 main_v109 (Host.divf : (⟨S100000x128, .f32⟩ : BufTy).Contents (Elt F) → (⟨S100000x128, .f32⟩ : BufTy).Contents (Elt F) → (⟨S100000x128, .f32⟩ : BufTy).Contents (Elt F)),
    unary main_v80 main_v110 ((transpose S128x128 [1, 0] · transposes_S128x128_S128x128_1_0) : (⟨S128x128, .f32⟩ : BufTy).Contents (Elt F) → (⟨S128x128, .f32⟩ : BufTy).Contents (Elt F)),
    binary main_v109 main_v110 main_v111 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v82 main_v112 (broadcastInDim S1x128 ![1] bcast_S128_S1x128_1 : (⟨S128, .f32⟩ : BufTy).Contents (Elt F) → (⟨S1x128, .f32⟩ : BufTy).Contents (Elt F)),
    unary main_v112 main_v113 (broadcastInDim S100000x128 ![0, 1] bcast_S1x128_S100000x128_0_1 : (⟨S1x128, .f32⟩ : BufTy).Contents (Elt F) → (⟨S100000x128, .f32⟩ : BufTy).Contents (Elt F)),
    binary main_v111 main_v113 main_v114 (addf : (⟨S100000x128, .f32⟩ : BufTy).Contents (Elt F) → (⟨S100000x128, .f32⟩ : BufTy).Contents (Elt F) → (⟨S100000x128, .f32⟩ : BufTy).Contents (Elt F)),
    unary main_v84 main_v115 ((transpose S128x128 [1, 0] · transposes_S128x128_S128x128_1_0) : (⟨S128x128, .f32⟩ : BufTy).Contents (Elt F) → (⟨S128x128, .f32⟩ : BufTy).Contents (Elt F)),
    binary main_arg1 main_v115 main_v116 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v114 main_v116 main_v117 (addf : (⟨S100000x128, .f32⟩ : BufTy).Contents (Elt F) → (⟨S100000x128, .f32⟩ : BufTy).Contents (Elt F) → (⟨S100000x128, .f32⟩ : BufTy).Contents (Elt F)),
    unary main_arg6 main_v118 ((extractStridedSlice S1x1x128x128 ![0, 2, 0, 0] · slices_S2x4x128x128_S1x1x128x128_0_2_0_0) : (⟨S2x4x128x128, .f32⟩ : BufTy).Contents (Elt F) → (⟨S1x1x128x128, .f32⟩ : BufTy).Contents (Elt F)),
    reshape main_v118 main_v119 rfl shapeCasts_S1x1x128x128_S128x128,
    unary main_arg7 main_v120 ((extractStridedSlice S1x1x128 ![0, 2, 0] · slices_S2x4x128_S1x1x128_0_2_0) : (⟨S2x4x128, .f32⟩ : BufTy).Contents (Elt F) → (⟨S1x1x128, .f32⟩ : BufTy).Contents (Elt F)),
    reshape main_v120 main_v121 rfl shapeCasts_S1x1x128_S128,
    unary main_arg8 main_v122 ((extractStridedSlice S1x1x128x128 ![0, 2, 0, 0] · slices_S2x4x128x128_S1x1x128x128_0_2_0_0) : (⟨S2x4x128x128, .f32⟩ : BufTy).Contents (Elt F) → (⟨S1x1x128x128, .f32⟩ : BufTy).Contents (Elt F)),
    reshape main_v122 main_v123 rfl shapeCasts_S1x1x128x128_S128x128,
    unary main_arg4 main_v124 ((extractStridedSlice S1x1000000 ![0, 0] · slices_S2x1000000_S1x1000000_0_0) : (⟨S2x1000000, .i32⟩ : BufTy).Contents (Elt F) → (⟨S1x1000000, .i32⟩ : BufTy).Contents (Elt F)),
    reshape main_v124 main_v125 rfl shapeCasts_S1x1000000_S1000000,
    nullary main_c_16 (constantI S_ 32 0#32),
    unary main_c_16 main_v126 (broadcastInDim S1000000 ![] bcast_S_S1000000 : (⟨S_, .i32⟩ : BufTy).Contents (Elt F) → (⟨S1000000, .i32⟩ : BufTy).Contents (Elt F)),
    binary main_v125 main_v126 main_v127 (cmpi .slt : (⟨S1000000, .i32⟩ : BufTy).Contents (Elt F) → (⟨S1000000, .i32⟩ : BufTy).Contents (Elt F) → (⟨S1000000, .i1⟩ : BufTy).Contents (Elt F)),
    nullary main_c_17 (constantI S_ 32 100000#32),
    unary main_c_17 main_v128 (broadcastInDim S1000000 ![] bcast_S_S1000000 : (⟨S_, .i32⟩ : BufTy).Contents (Elt F) → (⟨S1000000, .i32⟩ : BufTy).Contents (Elt F)),
    binary main_v125 main_v128 main_v129 (addi : (⟨S1000000, .i32⟩ : BufTy).Contents (Elt F) → (⟨S1000000, .i32⟩ : BufTy).Contents (Elt F) → (⟨S1000000, .i32⟩ : BufTy).Contents (Elt F)),
    ternary main_v127 main_v129 main_v125 main_v130 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v130 main_v131 (broadcastInDim S1000000x1 ![0] bcast_S1000000_S1000000x1_0 : (⟨S1000000, .i32⟩ : BufTy).Contents (Elt F) → (⟨S1000000x1, .i32⟩ : BufTy).Contents (Elt F)),
    binary main_arg0 main_v131 main_v132 ((fun x i => Host.gather gather_S100000x128_S1000000x1_S1000000x128_1_0_n_n_0_1_1128 x i) : (⟨S100000x128, .f32⟩ : BufTy).Contents (Elt F) → (⟨S1000000x1, .i32⟩ : BufTy).Contents (Elt F) → (⟨S1000000x128, .f32⟩ : BufTy).Contents (Elt F)),
    unary main_arg4 main_v133 ((extractStridedSlice S1x1000000 ![1, 0] · slices_S2x1000000_S1x1000000_1_0) : (⟨S2x1000000, .i32⟩ : BufTy).Contents (Elt F) → (⟨S1x1000000, .i32⟩ : BufTy).Contents (Elt F)),
    reshape main_v133 main_v134 rfl shapeCasts_S1x1000000_S1000000,
    nullary main_cst_18 (constant S_ .f32 0x00000000#32),
    unary main_cst_18 main_v135 (broadcastInDim S100000x128 ![] bcast_S_S100000x128 : (⟨S_, .f32⟩ : BufTy).Contents (Elt F) → (⟨S100000x128, .f32⟩ : BufTy).Contents (Elt F)),
    unary main_v134 main_v136 (broadcastInDim S1000000x1 ![0] bcast_S1000000_S1000000x1_0 : (⟨S1000000, .i32⟩ : BufTy).Contents (Elt F) → (⟨S1000000x1, .i32⟩ : BufTy).Contents (Elt F)),
    ternary main_v135 main_v136 main_v132 main_v137 ((fun x i u => Host.scatterAdd scatter_S100000x128_S1000000x1_S1000000x128_1_0_0_1 x i u) : (⟨S100000x128, .f32⟩ : BufTy).Contents (Elt F) → (⟨S1000000x1, .i32⟩ : BufTy).Contents (Elt F) → (⟨S1000000x128, .f32⟩ : BufTy).Contents (Elt F) → (⟨S100000x128, .f32⟩ : BufTy).Contents (Elt F)),
    nullary main_cst_19 (constant S_ .f32 0x3F800000#32),
    unary main_cst_19 main_v138 (broadcastInDim S1000000 ![] bcast_S_S1000000 : (⟨S_, .f32⟩ : BufTy).Contents (Elt F) → (⟨S1000000, .f32⟩ : BufTy).Contents (Elt F)),
    unary main_arg4 main_v139 ((extractStridedSlice S1x1000000 ![1, 0] · slices_S2x1000000_S1x1000000_1_0) : (⟨S2x1000000, .i32⟩ : BufTy).Contents (Elt F) → (⟨S1x1000000, .i32⟩ : BufTy).Contents (Elt F)),
    reshape main_v139 main_v140 rfl shapeCasts_S1x1000000_S1000000,
    nullary main_cst_20 (constant S_ .f32 0x00000000#32),
    unary main_cst_20 main_v141 (broadcastInDim S100000 ![] bcast_S_S100000 : (⟨S_, .f32⟩ : BufTy).Contents (Elt F) → (⟨S100000, .f32⟩ : BufTy).Contents (Elt F)),
    unary main_v140 main_v142 (broadcastInDim S1000000x1 ![0] bcast_S1000000_S1000000x1_0 : (⟨S1000000, .i32⟩ : BufTy).Contents (Elt F) → (⟨S1000000x1, .i32⟩ : BufTy).Contents (Elt F)),
    ternary main_v141 main_v142 main_v138 main_v143 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    nullary main_cst_21 (constant S_ .f32 0x3F800000#32),
    unary main_cst_21 main_v144 (broadcastInDim S100000 ![] bcast_S_S100000 : (⟨S_, .f32⟩ : BufTy).Contents (Elt F) → (⟨S100000, .f32⟩ : BufTy).Contents (Elt F)),
    binary main_v143 main_v144 main_v145 (maximumf : (⟨S100000, .f32⟩ : BufTy).Contents (Elt F) → (⟨S100000, .f32⟩ : BufTy).Contents (Elt F) → (⟨S100000, .f32⟩ : BufTy).Contents (Elt F)),
    unary main_v145 main_v146 (broadcastInDim S100000x1 ![0] bcast_S100000_S100000x1_0 : (⟨S100000, .f32⟩ : BufTy).Contents (Elt F) → (⟨S100000x1, .f32⟩ : BufTy).Contents (Elt F)),
    unary main_v146 main_v147 (broadcastInDim S100000x128 ![0, 1] bcast_S100000x1_S100000x128_0_1 : (⟨S100000x1, .f32⟩ : BufTy).Contents (Elt F) → (⟨S100000x128, .f32⟩ : BufTy).Contents (Elt F)),
    binary main_v137 main_v147 main_v148 (Host.divf : (⟨S100000x128, .f32⟩ : BufTy).Contents (Elt F) → (⟨S100000x128, .f32⟩ : BufTy).Contents (Elt F) → (⟨S100000x128, .f32⟩ : BufTy).Contents (Elt F)),
    unary main_v119 main_v149 ((transpose S128x128 [1, 0] · transposes_S128x128_S128x128_1_0) : (⟨S128x128, .f32⟩ : BufTy).Contents (Elt F) → (⟨S128x128, .f32⟩ : BufTy).Contents (Elt F)),
    binary main_v148 main_v149 main_v150 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v121 main_v151 (broadcastInDim S1x128 ![1] bcast_S128_S1x128_1 : (⟨S128, .f32⟩ : BufTy).Contents (Elt F) → (⟨S1x128, .f32⟩ : BufTy).Contents (Elt F)),
    unary main_v151 main_v152 (broadcastInDim S100000x128 ![0, 1] bcast_S1x128_S100000x128_0_1 : (⟨S1x128, .f32⟩ : BufTy).Contents (Elt F) → (⟨S100000x128, .f32⟩ : BufTy).Contents (Elt F)),
    binary main_v150 main_v152 main_v153 (addf : (⟨S100000x128, .f32⟩ : BufTy).Contents (Elt F) → (⟨S100000x128, .f32⟩ : BufTy).Contents (Elt F) → (⟨S100000x128, .f32⟩ : BufTy).Contents (Elt F)),
    unary main_v123 main_v154 ((transpose S128x128 [1, 0] · transposes_S128x128_S128x128_1_0) : (⟨S128x128, .f32⟩ : BufTy).Contents (Elt F) → (⟨S128x128, .f32⟩ : BufTy).Contents (Elt F)),
    binary main_arg1 main_v154 main_v155 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v153 main_v155 main_v156 (addf : (⟨S100000x128, .f32⟩ : BufTy).Contents (Elt F) → (⟨S100000x128, .f32⟩ : BufTy).Contents (Elt F) → (⟨S100000x128, .f32⟩ : BufTy).Contents (Elt F)),
    binary main_v117 main_v156 main_v157 (addf : (⟨S100000x128, .f32⟩ : BufTy).Contents (Elt F) → (⟨S100000x128, .f32⟩ : BufTy).Contents (Elt F) → (⟨S100000x128, .f32⟩ : BufTy).Contents (Elt F)) ]

/-- The two joins with zero. -/
abbrev opsJoin : List (HloOp τ sig (Elt F)) :=
  [ TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v78) (TRef.of (T := ⟨S100000x128, .f32⟩) main_call0_v0) (TRef.of (T := ⟨S100000x128, .f32⟩) main_v158) maximumf,
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v157) (TRef.of (T := ⟨S100000x128, .f32⟩) main_call1_v0) (TRef.of (T := ⟨S100000x128, .f32⟩) main_v159) maximumf ]

/-- The second layer, over the joined results. -/
abbrev opsLayer1 : List (HloOp τ sig (Elt F)) :=
  [ unary main_arg6 main_v160 ((extractStridedSlice S1x1x128x128 ![1, 0, 0, 0] · slices_S2x4x128x128_S1x1x128x128_1_0_0_0) : (⟨S2x4x128x128, .f32⟩ : BufTy).Contents (Elt F) → (⟨S1x1x128x128, .f32⟩ : BufTy).Contents (Elt F)),
    reshape main_v160 main_v161 rfl shapeCasts_S1x1x128x128_S128x128,
    unary main_arg7 main_v162 ((extractStridedSlice S1x1x128 ![1, 0, 0] · slices_S2x4x128_S1x1x128_1_0_0) : (⟨S2x4x128, .f32⟩ : BufTy).Contents (Elt F) → (⟨S1x1x128, .f32⟩ : BufTy).Contents (Elt F)),
    reshape main_v162 main_v163 rfl shapeCasts_S1x1x128_S128,
    unary main_arg8 main_v164 ((extractStridedSlice S1x1x128x128 ![1, 0, 0, 0] · slices_S2x4x128x128_S1x1x128x128_1_0_0_0) : (⟨S2x4x128x128, .f32⟩ : BufTy).Contents (Elt F) → (⟨S1x1x128x128, .f32⟩ : BufTy).Contents (Elt F)),
    reshape main_v164 main_v165 rfl shapeCasts_S1x1x128x128_S128x128,
    unary main_arg2 main_v166 ((extractStridedSlice S1x100000 ![0, 0] · slices_S2x100000_S1x100000_0_0) : (⟨S2x100000, .i32⟩ : BufTy).Contents (Elt F) → (⟨S1x100000, .i32⟩ : BufTy).Contents (Elt F)),
    reshape main_v166 main_v167 rfl shapeCasts_S1x100000_S100000,
    nullary main_c_22 (constantI S_ 32 0#32),
    unary main_c_22 main_v168 (broadcastInDim S100000 ![] bcast_S_S100000 : (⟨S_, .i32⟩ : BufTy).Contents (Elt F) → (⟨S100000, .i32⟩ : BufTy).Contents (Elt F)),
    binary main_v167 main_v168 main_v169 (cmpi .slt : (⟨S100000, .i32⟩ : BufTy).Contents (Elt F) → (⟨S100000, .i32⟩ : BufTy).Contents (Elt F) → (⟨S100000, .i1⟩ : BufTy).Contents (Elt F)),
    nullary main_c_23 (constantI S_ 32 100000#32),
    unary main_c_23 main_v170 (broadcastInDim S100000 ![] bcast_S_S100000 : (⟨S_, .i32⟩ : BufTy).Contents (Elt F) → (⟨S100000, .i32⟩ : BufTy).Contents (Elt F)),
    binary main_v167 main_v170 main_v171 (addi : (⟨S100000, .i32⟩ : BufTy).Contents (Elt F) → (⟨S100000, .i32⟩ : BufTy).Contents (Elt F) → (⟨S100000, .i32⟩ : BufTy).Contents (Elt F)),
    ternary main_v169 main_v171 main_v167 main_v172 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v172 main_v173 (broadcastInDim S100000x1 ![0] bcast_S100000_S100000x1_0 : (⟨S100000, .i32⟩ : BufTy).Contents (Elt F) → (⟨S100000x1, .i32⟩ : BufTy).Contents (Elt F)),
    binary main_v158 main_v173 main_v174 ((fun x i => Host.gather gather_S100000x128_S100000x1_S100000x128_1_0_n_n_0_1_1128 x i) : (⟨S100000x128, .f32⟩ : BufTy).Contents (Elt F) → (⟨S100000x1, .i32⟩ : BufTy).Contents (Elt F) → (⟨S100000x128, .f32⟩ : BufTy).Contents (Elt F)),
    unary main_arg2 main_v175 ((extractStridedSlice S1x100000 ![1, 0] · slices_S2x100000_S1x100000_1_0) : (⟨S2x100000, .i32⟩ : BufTy).Contents (Elt F) → (⟨S1x100000, .i32⟩ : BufTy).Contents (Elt F)),
    reshape main_v175 main_v176 rfl shapeCasts_S1x100000_S100000,
    nullary main_cst_24 (constant S_ .f32 0x00000000#32),
    unary main_cst_24 main_v177 (broadcastInDim S100000x128 ![] bcast_S_S100000x128 : (⟨S_, .f32⟩ : BufTy).Contents (Elt F) → (⟨S100000x128, .f32⟩ : BufTy).Contents (Elt F)),
    unary main_v176 main_v178 (broadcastInDim S100000x1 ![0] bcast_S100000_S100000x1_0 : (⟨S100000, .i32⟩ : BufTy).Contents (Elt F) → (⟨S100000x1, .i32⟩ : BufTy).Contents (Elt F)),
    ternary main_v177 main_v178 main_v174 main_v179 ((fun x i u => Host.scatterAdd scatter_S100000x128_S100000x1_S100000x128_1_0_0_1 x i u) : (⟨S100000x128, .f32⟩ : BufTy).Contents (Elt F) → (⟨S100000x1, .i32⟩ : BufTy).Contents (Elt F) → (⟨S100000x128, .f32⟩ : BufTy).Contents (Elt F) → (⟨S100000x128, .f32⟩ : BufTy).Contents (Elt F)),
    nullary main_cst_25 (constant S_ .f32 0x3F800000#32),
    unary main_cst_25 main_v180 (broadcastInDim S100000 ![] bcast_S_S100000 : (⟨S_, .f32⟩ : BufTy).Contents (Elt F) → (⟨S100000, .f32⟩ : BufTy).Contents (Elt F)),
    unary main_arg2 main_v181 ((extractStridedSlice S1x100000 ![1, 0] · slices_S2x100000_S1x100000_1_0) : (⟨S2x100000, .i32⟩ : BufTy).Contents (Elt F) → (⟨S1x100000, .i32⟩ : BufTy).Contents (Elt F)),
    reshape main_v181 main_v182 rfl shapeCasts_S1x100000_S100000,
    nullary main_cst_26 (constant S_ .f32 0x00000000#32),
    unary main_cst_26 main_v183 (broadcastInDim S100000 ![] bcast_S_S100000 : (⟨S_, .f32⟩ : BufTy).Contents (Elt F) → (⟨S100000, .f32⟩ : BufTy).Contents (Elt F)),
    unary main_v182 main_v184 (broadcastInDim S100000x1 ![0] bcast_S100000_S100000x1_0 : (⟨S100000, .i32⟩ : BufTy).Contents (Elt F) → (⟨S100000x1, .i32⟩ : BufTy).Contents (Elt F)),
    ternary main_v183 main_v184 main_v180 main_v185 ((fun x i u => Host.scatterAdd scatter_S100000_S100000x1_S100000_n_0_0_1 x i u) : (⟨S100000, .f32⟩ : BufTy).Contents (Elt F) → (⟨S100000x1, .i32⟩ : BufTy).Contents (Elt F) → (⟨S100000, .f32⟩ : BufTy).Contents (Elt F) → (⟨S100000, .f32⟩ : BufTy).Contents (Elt F)),
    nullary main_cst_27 (constant S_ .f32 0x3F800000#32),
    unary main_cst_27 main_v186 (broadcastInDim S100000 ![] bcast_S_S100000 : (⟨S_, .f32⟩ : BufTy).Contents (Elt F) → (⟨S100000, .f32⟩ : BufTy).Contents (Elt F)),
    binary main_v185 main_v186 main_v187 (maximumf : (⟨S100000, .f32⟩ : BufTy).Contents (Elt F) → (⟨S100000, .f32⟩ : BufTy).Contents (Elt F) → (⟨S100000, .f32⟩ : BufTy).Contents (Elt F)),
    unary main_v187 main_v188 (broadcastInDim S100000x1 ![0] bcast_S100000_S100000x1_0 : (⟨S100000, .f32⟩ : BufTy).Contents (Elt F) → (⟨S100000x1, .f32⟩ : BufTy).Contents (Elt F)),
    unary main_v188 main_v189 (broadcastInDim S100000x128 ![0, 1] bcast_S100000x1_S100000x128_0_1 : (⟨S100000x1, .f32⟩ : BufTy).Contents (Elt F) → (⟨S100000x128, .f32⟩ : BufTy).Contents (Elt F)),
    binary main_v179 main_v189 main_v190 (Host.divf : (⟨S100000x128, .f32⟩ : BufTy).Contents (Elt F) → (⟨S100000x128, .f32⟩ : BufTy).Contents (Elt F) → (⟨S100000x128, .f32⟩ : BufTy).Contents (Elt F)),
    unary main_v161 main_v191 ((transpose S128x128 [1, 0] · transposes_S128x128_S128x128_1_0) : (⟨S128x128, .f32⟩ : BufTy).Contents (Elt F) → (⟨S128x128, .f32⟩ : BufTy).Contents (Elt F)),
    binary main_v190 main_v191 main_v192 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v163 main_v193 (broadcastInDim S1x128 ![1] bcast_S128_S1x128_1 : (⟨S128, .f32⟩ : BufTy).Contents (Elt F) → (⟨S1x128, .f32⟩ : BufTy).Contents (Elt F)),
    unary main_v193 main_v194 (broadcastInDim S100000x128 ![0, 1] bcast_S1x128_S100000x128_0_1 : (⟨S1x128, .f32⟩ : BufTy).Contents (Elt F) → (⟨S100000x128, .f32⟩ : BufTy).Contents (Elt F)),
    binary main_v192 main_v194 main_v195 (addf : (⟨S100000x128, .f32⟩ : BufTy).Contents (Elt F) → (⟨S100000x128, .f32⟩ : BufTy).Contents (Elt F) → (⟨S100000x128, .f32⟩ : BufTy).Contents (Elt F)),
    unary main_v165 main_v196 ((transpose S128x128 [1, 0] · transposes_S128x128_S128x128_1_0) : (⟨S128x128, .f32⟩ : BufTy).Contents (Elt F) → (⟨S128x128, .f32⟩ : BufTy).Contents (Elt F)),
    binary main_v158 main_v196 main_v197 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v195 main_v197 main_v198 (addf : (⟨S100000x128, .f32⟩ : BufTy).Contents (Elt F) → (⟨S100000x128, .f32⟩ : BufTy).Contents (Elt F) → (⟨S100000x128, .f32⟩ : BufTy).Contents (Elt F)),
    unary main_arg6 main_v199 ((extractStridedSlice S1x1x128x128 ![1, 3, 0, 0] · slices_S2x4x128x128_S1x1x128x128_1_3_0_0) : (⟨S2x4x128x128, .f32⟩ : BufTy).Contents (Elt F) → (⟨S1x1x128x128, .f32⟩ : BufTy).Contents (Elt F)),
    reshape main_v199 main_v200 rfl shapeCasts_S1x1x128x128_S128x128,
    unary main_arg7 main_v201 ((extractStridedSlice S1x1x128 ![1, 3, 0] · slices_S2x4x128_S1x1x128_1_3_0) : (⟨S2x4x128, .f32⟩ : BufTy).Contents (Elt F) → (⟨S1x1x128, .f32⟩ : BufTy).Contents (Elt F)),
    reshape main_v201 main_v202 rfl shapeCasts_S1x1x128_S128,
    unary main_arg8 main_v203 ((extractStridedSlice S1x1x128x128 ![1, 3, 0, 0] · slices_S2x4x128x128_S1x1x128x128_1_3_0_0) : (⟨S2x4x128x128, .f32⟩ : BufTy).Contents (Elt F) → (⟨S1x1x128x128, .f32⟩ : BufTy).Contents (Elt F)),
    reshape main_v203 main_v204 rfl shapeCasts_S1x1x128x128_S128x128,
    unary main_arg5 main_v205 ((extractStridedSlice S1x1000000 ![0, 0] · slices_S2x1000000_S1x1000000_0_0) : (⟨S2x1000000, .i32⟩ : BufTy).Contents (Elt F) → (⟨S1x1000000, .i32⟩ : BufTy).Contents (Elt F)),
    reshape main_v205 main_v206 rfl shapeCasts_S1x1000000_S1000000,
    nullary main_c_28 (constantI S_ 32 0#32),
    unary main_c_28 main_v207 (broadcastInDim S1000000 ![] bcast_S_S1000000 : (⟨S_, .i32⟩ : BufTy).Contents (Elt F) → (⟨S1000000, .i32⟩ : BufTy).Contents (Elt F)),
    binary main_v206 main_v207 main_v208 (cmpi .slt : (⟨S1000000, .i32⟩ : BufTy).Contents (Elt F) → (⟨S1000000, .i32⟩ : BufTy).Contents (Elt F) → (⟨S1000000, .i1⟩ : BufTy).Contents (Elt F)),
    nullary main_c_29 (constantI S_ 32 100000#32),
    unary main_c_29 main_v209 (broadcastInDim S1000000 ![] bcast_S_S1000000 : (⟨S_, .i32⟩ : BufTy).Contents (Elt F) → (⟨S1000000, .i32⟩ : BufTy).Contents (Elt F)),
    binary main_v206 main_v209 main_v210 (addi : (⟨S1000000, .i32⟩ : BufTy).Contents (Elt F) → (⟨S1000000, .i32⟩ : BufTy).Contents (Elt F) → (⟨S1000000, .i32⟩ : BufTy).Contents (Elt F)),
    ternary main_v208 main_v210 main_v206 main_v211 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v211 main_v212 (broadcastInDim S1000000x1 ![0] bcast_S1000000_S1000000x1_0 : (⟨S1000000, .i32⟩ : BufTy).Contents (Elt F) → (⟨S1000000x1, .i32⟩ : BufTy).Contents (Elt F)),
    binary main_v159 main_v212 main_v213 ((fun x i => Host.gather gather_S100000x128_S1000000x1_S1000000x128_1_0_n_n_0_1_1128 x i) : (⟨S100000x128, .f32⟩ : BufTy).Contents (Elt F) → (⟨S1000000x1, .i32⟩ : BufTy).Contents (Elt F) → (⟨S1000000x128, .f32⟩ : BufTy).Contents (Elt F)),
    unary main_arg5 main_v214 ((extractStridedSlice S1x1000000 ![1, 0] · slices_S2x1000000_S1x1000000_1_0) : (⟨S2x1000000, .i32⟩ : BufTy).Contents (Elt F) → (⟨S1x1000000, .i32⟩ : BufTy).Contents (Elt F)),
    reshape main_v214 main_v215 rfl shapeCasts_S1x1000000_S1000000,
    nullary main_cst_30 (constant S_ .f32 0x00000000#32),
    unary main_cst_30 main_v216 (broadcastInDim S100000x128 ![] bcast_S_S100000x128 : (⟨S_, .f32⟩ : BufTy).Contents (Elt F) → (⟨S100000x128, .f32⟩ : BufTy).Contents (Elt F)),
    unary main_v215 main_v217 (broadcastInDim S1000000x1 ![0] bcast_S1000000_S1000000x1_0 : (⟨S1000000, .i32⟩ : BufTy).Contents (Elt F) → (⟨S1000000x1, .i32⟩ : BufTy).Contents (Elt F)),
    ternary main_v216 main_v217 main_v213 main_v218 ((fun x i u => Host.scatterAdd scatter_S100000x128_S1000000x1_S1000000x128_1_0_0_1 x i u) : (⟨S100000x128, .f32⟩ : BufTy).Contents (Elt F) → (⟨S1000000x1, .i32⟩ : BufTy).Contents (Elt F) → (⟨S1000000x128, .f32⟩ : BufTy).Contents (Elt F) → (⟨S100000x128, .f32⟩ : BufTy).Contents (Elt F)),
    nullary main_cst_31 (constant S_ .f32 0x3F800000#32),
    unary main_cst_31 main_v219 (broadcastInDim S1000000 ![] bcast_S_S1000000 : (⟨S_, .f32⟩ : BufTy).Contents (Elt F) → (⟨S1000000, .f32⟩ : BufTy).Contents (Elt F)),
    unary main_arg5 main_v220 ((extractStridedSlice S1x1000000 ![1, 0] · slices_S2x1000000_S1x1000000_1_0) : (⟨S2x1000000, .i32⟩ : BufTy).Contents (Elt F) → (⟨S1x1000000, .i32⟩ : BufTy).Contents (Elt F)),
    reshape main_v220 main_v221 rfl shapeCasts_S1x1000000_S1000000,
    nullary main_cst_32 (constant S_ .f32 0x00000000#32),
    unary main_cst_32 main_v222 (broadcastInDim S100000 ![] bcast_S_S100000 : (⟨S_, .f32⟩ : BufTy).Contents (Elt F) → (⟨S100000, .f32⟩ : BufTy).Contents (Elt F)),
    unary main_v221 main_v223 (broadcastInDim S1000000x1 ![0] bcast_S1000000_S1000000x1_0 : (⟨S1000000, .i32⟩ : BufTy).Contents (Elt F) → (⟨S1000000x1, .i32⟩ : BufTy).Contents (Elt F)),
    ternary main_v222 main_v223 main_v219 main_v224 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    nullary main_cst_33 (constant S_ .f32 0x3F800000#32),
    unary main_cst_33 main_v225 (broadcastInDim S100000 ![] bcast_S_S100000 : (⟨S_, .f32⟩ : BufTy).Contents (Elt F) → (⟨S100000, .f32⟩ : BufTy).Contents (Elt F)),
    binary main_v224 main_v225 main_v226 (maximumf : (⟨S100000, .f32⟩ : BufTy).Contents (Elt F) → (⟨S100000, .f32⟩ : BufTy).Contents (Elt F) → (⟨S100000, .f32⟩ : BufTy).Contents (Elt F)),
    unary main_v226 main_v227 (broadcastInDim S100000x1 ![0] bcast_S100000_S100000x1_0 : (⟨S100000, .f32⟩ : BufTy).Contents (Elt F) → (⟨S100000x1, .f32⟩ : BufTy).Contents (Elt F)),
    unary main_v227 main_v228 (broadcastInDim S100000x128 ![0, 1] bcast_S100000x1_S100000x128_0_1 : (⟨S100000x1, .f32⟩ : BufTy).Contents (Elt F) → (⟨S100000x128, .f32⟩ : BufTy).Contents (Elt F)),
    binary main_v218 main_v228 main_v229 (Host.divf : (⟨S100000x128, .f32⟩ : BufTy).Contents (Elt F) → (⟨S100000x128, .f32⟩ : BufTy).Contents (Elt F) → (⟨S100000x128, .f32⟩ : BufTy).Contents (Elt F)),
    unary main_v200 main_v230 ((transpose S128x128 [1, 0] · transposes_S128x128_S128x128_1_0) : (⟨S128x128, .f32⟩ : BufTy).Contents (Elt F) → (⟨S128x128, .f32⟩ : BufTy).Contents (Elt F)),
    binary main_v229 main_v230 main_v231 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v202 main_v232 (broadcastInDim S1x128 ![1] bcast_S128_S1x128_1 : (⟨S128, .f32⟩ : BufTy).Contents (Elt F) → (⟨S1x128, .f32⟩ : BufTy).Contents (Elt F)),
    unary main_v232 main_v233 (broadcastInDim S100000x128 ![0, 1] bcast_S1x128_S100000x128_0_1 : (⟨S1x128, .f32⟩ : BufTy).Contents (Elt F) → (⟨S100000x128, .f32⟩ : BufTy).Contents (Elt F)),
    binary main_v231 main_v233 main_v234 (addf : (⟨S100000x128, .f32⟩ : BufTy).Contents (Elt F) → (⟨S100000x128, .f32⟩ : BufTy).Contents (Elt F) → (⟨S100000x128, .f32⟩ : BufTy).Contents (Elt F)),
    unary main_v204 main_v235 ((transpose S128x128 [1, 0] · transposes_S128x128_S128x128_1_0) : (⟨S128x128, .f32⟩ : BufTy).Contents (Elt F) → (⟨S128x128, .f32⟩ : BufTy).Contents (Elt F)),
    binary main_v158 main_v235 main_v236 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v234 main_v236 main_v237 (addf : (⟨S100000x128, .f32⟩ : BufTy).Contents (Elt F) → (⟨S100000x128, .f32⟩ : BufTy).Contents (Elt F) → (⟨S100000x128, .f32⟩ : BufTy).Contents (Elt F)),
    binary main_v198 main_v237 main_v238 (addf : (⟨S100000x128, .f32⟩ : BufTy).Contents (Elt F) → (⟨S100000x128, .f32⟩ : BufTy).Contents (Elt F) → (⟨S100000x128, .f32⟩ : BufTy).Contents (Elt F)),
    unary main_arg6 main_v239 ((extractStridedSlice S1x1x128x128 ![1, 1, 0, 0] · slices_S2x4x128x128_S1x1x128x128_1_1_0_0) : (⟨S2x4x128x128, .f32⟩ : BufTy).Contents (Elt F) → (⟨S1x1x128x128, .f32⟩ : BufTy).Contents (Elt F)),
    reshape main_v239 main_v240 rfl shapeCasts_S1x1x128x128_S128x128,
    unary main_arg7 main_v241 ((extractStridedSlice S1x1x128 ![1, 1, 0] · slices_S2x4x128_S1x1x128_1_1_0) : (⟨S2x4x128, .f32⟩ : BufTy).Contents (Elt F) → (⟨S1x1x128, .f32⟩ : BufTy).Contents (Elt F)),
    reshape main_v241 main_v242 rfl shapeCasts_S1x1x128_S128,
    unary main_arg8 main_v243 ((extractStridedSlice S1x1x128x128 ![1, 1, 0, 0] · slices_S2x4x128x128_S1x1x128x128_1_1_0_0) : (⟨S2x4x128x128, .f32⟩ : BufTy).Contents (Elt F) → (⟨S1x1x128x128, .f32⟩ : BufTy).Contents (Elt F)),
    reshape main_v243 main_v244 rfl shapeCasts_S1x1x128x128_S128x128,
    unary main_arg3 main_v245 ((extractStridedSlice S1x100000 ![0, 0] · slices_S2x100000_S1x100000_0_0) : (⟨S2x100000, .i32⟩ : BufTy).Contents (Elt F) → (⟨S1x100000, .i32⟩ : BufTy).Contents (Elt F)),
    reshape main_v245 main_v246 rfl shapeCasts_S1x100000_S100000,
    nullary main_c_34 (constantI S_ 32 0#32),
    unary main_c_34 main_v247 (broadcastInDim S100000 ![] bcast_S_S100000 : (⟨S_, .i32⟩ : BufTy).Contents (Elt F) → (⟨S100000, .i32⟩ : BufTy).Contents (Elt F)),
    binary main_v246 main_v247 main_v248 (cmpi .slt : (⟨S100000, .i32⟩ : BufTy).Contents (Elt F) → (⟨S100000, .i32⟩ : BufTy).Contents (Elt F) → (⟨S100000, .i1⟩ : BufTy).Contents (Elt F)),
    nullary main_c_35 (constantI S_ 32 100000#32),
    unary main_c_35 main_v249 (broadcastInDim S100000 ![] bcast_S_S100000 : (⟨S_, .i32⟩ : BufTy).Contents (Elt F) → (⟨S100000, .i32⟩ : BufTy).Contents (Elt F)),
    binary main_v246 main_v249 main_v250 (addi : (⟨S100000, .i32⟩ : BufTy).Contents (Elt F) → (⟨S100000, .i32⟩ : BufTy).Contents (Elt F) → (⟨S100000, .i32⟩ : BufTy).Contents (Elt F)),
    ternary main_v248 main_v250 main_v246 main_v251 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v251 main_v252 (broadcastInDim S100000x1 ![0] bcast_S100000_S100000x1_0 : (⟨S100000, .i32⟩ : BufTy).Contents (Elt F) → (⟨S100000x1, .i32⟩ : BufTy).Contents (Elt F)),
    binary main_v159 main_v252 main_v253 ((fun x i => Host.gather gather_S100000x128_S100000x1_S100000x128_1_0_n_n_0_1_1128 x i) : (⟨S100000x128, .f32⟩ : BufTy).Contents (Elt F) → (⟨S100000x1, .i32⟩ : BufTy).Contents (Elt F) → (⟨S100000x128, .f32⟩ : BufTy).Contents (Elt F)),
    unary main_arg3 main_v254 ((extractStridedSlice S1x100000 ![1, 0] · slices_S2x100000_S1x100000_1_0) : (⟨S2x100000, .i32⟩ : BufTy).Contents (Elt F) → (⟨S1x100000, .i32⟩ : BufTy).Contents (Elt F)),
    reshape main_v254 main_v255 rfl shapeCasts_S1x100000_S100000,
    nullary main_cst_36 (constant S_ .f32 0x00000000#32),
    unary main_cst_36 main_v256 (broadcastInDim S100000x128 ![] bcast_S_S100000x128 : (⟨S_, .f32⟩ : BufTy).Contents (Elt F) → (⟨S100000x128, .f32⟩ : BufTy).Contents (Elt F)),
    unary main_v255 main_v257 (broadcastInDim S100000x1 ![0] bcast_S100000_S100000x1_0 : (⟨S100000, .i32⟩ : BufTy).Contents (Elt F) → (⟨S100000x1, .i32⟩ : BufTy).Contents (Elt F)),
    ternary main_v256 main_v257 main_v253 main_v258 ((fun x i u => Host.scatterAdd scatter_S100000x128_S100000x1_S100000x128_1_0_0_1 x i u) : (⟨S100000x128, .f32⟩ : BufTy).Contents (Elt F) → (⟨S100000x1, .i32⟩ : BufTy).Contents (Elt F) → (⟨S100000x128, .f32⟩ : BufTy).Contents (Elt F) → (⟨S100000x128, .f32⟩ : BufTy).Contents (Elt F)),
    nullary main_cst_37 (constant S_ .f32 0x3F800000#32),
    unary main_cst_37 main_v259 (broadcastInDim S100000 ![] bcast_S_S100000 : (⟨S_, .f32⟩ : BufTy).Contents (Elt F) → (⟨S100000, .f32⟩ : BufTy).Contents (Elt F)),
    unary main_arg3 main_v260 ((extractStridedSlice S1x100000 ![1, 0] · slices_S2x100000_S1x100000_1_0) : (⟨S2x100000, .i32⟩ : BufTy).Contents (Elt F) → (⟨S1x100000, .i32⟩ : BufTy).Contents (Elt F)),
    reshape main_v260 main_v261 rfl shapeCasts_S1x100000_S100000,
    nullary main_cst_38 (constant S_ .f32 0x00000000#32),
    unary main_cst_38 main_v262 (broadcastInDim S100000 ![] bcast_S_S100000 : (⟨S_, .f32⟩ : BufTy).Contents (Elt F) → (⟨S100000, .f32⟩ : BufTy).Contents (Elt F)),
    unary main_v261 main_v263 (broadcastInDim S100000x1 ![0] bcast_S100000_S100000x1_0 : (⟨S100000, .i32⟩ : BufTy).Contents (Elt F) → (⟨S100000x1, .i32⟩ : BufTy).Contents (Elt F)),
    ternary main_v262 main_v263 main_v259 main_v264 ((fun x i u => Host.scatterAdd scatter_S100000_S100000x1_S100000_n_0_0_1 x i u) : (⟨S100000, .f32⟩ : BufTy).Contents (Elt F) → (⟨S100000x1, .i32⟩ : BufTy).Contents (Elt F) → (⟨S100000, .f32⟩ : BufTy).Contents (Elt F) → (⟨S100000, .f32⟩ : BufTy).Contents (Elt F)),
    nullary main_cst_39 (constant S_ .f32 0x3F800000#32),
    unary main_cst_39 main_v265 (broadcastInDim S100000 ![] bcast_S_S100000 : (⟨S_, .f32⟩ : BufTy).Contents (Elt F) → (⟨S100000, .f32⟩ : BufTy).Contents (Elt F)),
    binary main_v264 main_v265 main_v266 (maximumf : (⟨S100000, .f32⟩ : BufTy).Contents (Elt F) → (⟨S100000, .f32⟩ : BufTy).Contents (Elt F) → (⟨S100000, .f32⟩ : BufTy).Contents (Elt F)),
    unary main_v266 main_v267 (broadcastInDim S100000x1 ![0] bcast_S100000_S100000x1_0 : (⟨S100000, .f32⟩ : BufTy).Contents (Elt F) → (⟨S100000x1, .f32⟩ : BufTy).Contents (Elt F)),
    unary main_v267 main_v268 (broadcastInDim S100000x128 ![0, 1] bcast_S100000x1_S100000x128_0_1 : (⟨S100000x1, .f32⟩ : BufTy).Contents (Elt F) → (⟨S100000x128, .f32⟩ : BufTy).Contents (Elt F)),
    binary main_v258 main_v268 main_v269 (Host.divf : (⟨S100000x128, .f32⟩ : BufTy).Contents (Elt F) → (⟨S100000x128, .f32⟩ : BufTy).Contents (Elt F) → (⟨S100000x128, .f32⟩ : BufTy).Contents (Elt F)),
    unary main_v240 main_v270 ((transpose S128x128 [1, 0] · transposes_S128x128_S128x128_1_0) : (⟨S128x128, .f32⟩ : BufTy).Contents (Elt F) → (⟨S128x128, .f32⟩ : BufTy).Contents (Elt F)),
    binary main_v269 main_v270 main_v271 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v242 main_v272 (broadcastInDim S1x128 ![1] bcast_S128_S1x128_1 : (⟨S128, .f32⟩ : BufTy).Contents (Elt F) → (⟨S1x128, .f32⟩ : BufTy).Contents (Elt F)),
    unary main_v272 main_v273 (broadcastInDim S100000x128 ![0, 1] bcast_S1x128_S100000x128_0_1 : (⟨S1x128, .f32⟩ : BufTy).Contents (Elt F) → (⟨S100000x128, .f32⟩ : BufTy).Contents (Elt F)),
    binary main_v271 main_v273 main_v274 (addf : (⟨S100000x128, .f32⟩ : BufTy).Contents (Elt F) → (⟨S100000x128, .f32⟩ : BufTy).Contents (Elt F) → (⟨S100000x128, .f32⟩ : BufTy).Contents (Elt F)),
    unary main_v244 main_v275 ((transpose S128x128 [1, 0] · transposes_S128x128_S128x128_1_0) : (⟨S128x128, .f32⟩ : BufTy).Contents (Elt F) → (⟨S128x128, .f32⟩ : BufTy).Contents (Elt F)),
    binary main_v159 main_v275 main_v276 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v274 main_v276 main_v277 (addf : (⟨S100000x128, .f32⟩ : BufTy).Contents (Elt F) → (⟨S100000x128, .f32⟩ : BufTy).Contents (Elt F) → (⟨S100000x128, .f32⟩ : BufTy).Contents (Elt F)),
    unary main_arg6 main_v278 ((extractStridedSlice S1x1x128x128 ![1, 2, 0, 0] · slices_S2x4x128x128_S1x1x128x128_1_2_0_0) : (⟨S2x4x128x128, .f32⟩ : BufTy).Contents (Elt F) → (⟨S1x1x128x128, .f32⟩ : BufTy).Contents (Elt F)),
    reshape main_v278 main_v279 rfl shapeCasts_S1x1x128x128_S128x128,
    unary main_arg7 main_v280 ((extractStridedSlice S1x1x128 ![1, 2, 0] · slices_S2x4x128_S1x1x128_1_2_0) : (⟨S2x4x128, .f32⟩ : BufTy).Contents (Elt F) → (⟨S1x1x128, .f32⟩ : BufTy).Contents (Elt F)),
    reshape main_v280 main_v281 rfl shapeCasts_S1x1x128_S128,
    unary main_arg8 main_v282 ((extractStridedSlice S1x1x128x128 ![1, 2, 0, 0] · slices_S2x4x128x128_S1x1x128x128_1_2_0_0) : (⟨S2x4x128x128, .f32⟩ : BufTy).Contents (Elt F) → (⟨S1x1x128x128, .f32⟩ : BufTy).Contents (Elt F)),
    reshape main_v282 main_v283 rfl shapeCasts_S1x1x128x128_S128x128,
    unary main_arg4 main_v284 ((extractStridedSlice S1x1000000 ![0, 0] · slices_S2x1000000_S1x1000000_0_0) : (⟨S2x1000000, .i32⟩ : BufTy).Contents (Elt F) → (⟨S1x1000000, .i32⟩ : BufTy).Contents (Elt F)),
    reshape main_v284 main_v285 rfl shapeCasts_S1x1000000_S1000000,
    nullary main_c_40 (constantI S_ 32 0#32),
    unary main_c_40 main_v286 (broadcastInDim S1000000 ![] bcast_S_S1000000 : (⟨S_, .i32⟩ : BufTy).Contents (Elt F) → (⟨S1000000, .i32⟩ : BufTy).Contents (Elt F)),
    binary main_v285 main_v286 main_v287 (cmpi .slt : (⟨S1000000, .i32⟩ : BufTy).Contents (Elt F) → (⟨S1000000, .i32⟩ : BufTy).Contents (Elt F) → (⟨S1000000, .i1⟩ : BufTy).Contents (Elt F)),
    nullary main_c_41 (constantI S_ 32 100000#32),
    unary main_c_41 main_v288 (broadcastInDim S1000000 ![] bcast_S_S1000000 : (⟨S_, .i32⟩ : BufTy).Contents (Elt F) → (⟨S1000000, .i32⟩ : BufTy).Contents (Elt F)),
    binary main_v285 main_v288 main_v289 (addi : (⟨S1000000, .i32⟩ : BufTy).Contents (Elt F) → (⟨S1000000, .i32⟩ : BufTy).Contents (Elt F) → (⟨S1000000, .i32⟩ : BufTy).Contents (Elt F)),
    ternary main_v287 main_v289 main_v285 main_v290 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v290 main_v291 (broadcastInDim S1000000x1 ![0] bcast_S1000000_S1000000x1_0 : (⟨S1000000, .i32⟩ : BufTy).Contents (Elt F) → (⟨S1000000x1, .i32⟩ : BufTy).Contents (Elt F)),
    binary main_v158 main_v291 main_v292 ((fun x i => Host.gather gather_S100000x128_S1000000x1_S1000000x128_1_0_n_n_0_1_1128 x i) : (⟨S100000x128, .f32⟩ : BufTy).Contents (Elt F) → (⟨S1000000x1, .i32⟩ : BufTy).Contents (Elt F) → (⟨S1000000x128, .f32⟩ : BufTy).Contents (Elt F)),
    unary main_arg4 main_v293 ((extractStridedSlice S1x1000000 ![1, 0] · slices_S2x1000000_S1x1000000_1_0) : (⟨S2x1000000, .i32⟩ : BufTy).Contents (Elt F) → (⟨S1x1000000, .i32⟩ : BufTy).Contents (Elt F)),
    reshape main_v293 main_v294 rfl shapeCasts_S1x1000000_S1000000,
    nullary main_cst_42 (constant S_ .f32 0x00000000#32),
    unary main_cst_42 main_v295 (broadcastInDim S100000x128 ![] bcast_S_S100000x128 : (⟨S_, .f32⟩ : BufTy).Contents (Elt F) → (⟨S100000x128, .f32⟩ : BufTy).Contents (Elt F)),
    unary main_v294 main_v296 (broadcastInDim S1000000x1 ![0] bcast_S1000000_S1000000x1_0 : (⟨S1000000, .i32⟩ : BufTy).Contents (Elt F) → (⟨S1000000x1, .i32⟩ : BufTy).Contents (Elt F)),
    ternary main_v295 main_v296 main_v292 main_v297 ((fun x i u => Host.scatterAdd scatter_S100000x128_S1000000x1_S1000000x128_1_0_0_1 x i u) : (⟨S100000x128, .f32⟩ : BufTy).Contents (Elt F) → (⟨S1000000x1, .i32⟩ : BufTy).Contents (Elt F) → (⟨S1000000x128, .f32⟩ : BufTy).Contents (Elt F) → (⟨S100000x128, .f32⟩ : BufTy).Contents (Elt F)),
    nullary main_cst_43 (constant S_ .f32 0x3F800000#32),
    unary main_cst_43 main_v298 (broadcastInDim S1000000 ![] bcast_S_S1000000 : (⟨S_, .f32⟩ : BufTy).Contents (Elt F) → (⟨S1000000, .f32⟩ : BufTy).Contents (Elt F)),
    unary main_arg4 main_v299 ((extractStridedSlice S1x1000000 ![1, 0] · slices_S2x1000000_S1x1000000_1_0) : (⟨S2x1000000, .i32⟩ : BufTy).Contents (Elt F) → (⟨S1x1000000, .i32⟩ : BufTy).Contents (Elt F)),
    reshape main_v299 main_v300 rfl shapeCasts_S1x1000000_S1000000,
    nullary main_cst_44 (constant S_ .f32 0x00000000#32),
    unary main_cst_44 main_v301 (broadcastInDim S100000 ![] bcast_S_S100000 : (⟨S_, .f32⟩ : BufTy).Contents (Elt F) → (⟨S100000, .f32⟩ : BufTy).Contents (Elt F)),
    unary main_v300 main_v302 (broadcastInDim S1000000x1 ![0] bcast_S1000000_S1000000x1_0 : (⟨S1000000, .i32⟩ : BufTy).Contents (Elt F) → (⟨S1000000x1, .i32⟩ : BufTy).Contents (Elt F)),
    ternary main_v301 main_v302 main_v298 main_v303 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    nullary main_cst_45 (constant S_ .f32 0x3F800000#32),
    unary main_cst_45 main_v304 (broadcastInDim S100000 ![] bcast_S_S100000 : (⟨S_, .f32⟩ : BufTy).Contents (Elt F) → (⟨S100000, .f32⟩ : BufTy).Contents (Elt F)),
    binary main_v303 main_v304 main_v305 (maximumf : (⟨S100000, .f32⟩ : BufTy).Contents (Elt F) → (⟨S100000, .f32⟩ : BufTy).Contents (Elt F) → (⟨S100000, .f32⟩ : BufTy).Contents (Elt F)),
    unary main_v305 main_v306 (broadcastInDim S100000x1 ![0] bcast_S100000_S100000x1_0 : (⟨S100000, .f32⟩ : BufTy).Contents (Elt F) → (⟨S100000x1, .f32⟩ : BufTy).Contents (Elt F)),
    unary main_v306 main_v307 (broadcastInDim S100000x128 ![0, 1] bcast_S100000x1_S100000x128_0_1 : (⟨S100000x1, .f32⟩ : BufTy).Contents (Elt F) → (⟨S100000x128, .f32⟩ : BufTy).Contents (Elt F)),
    binary main_v297 main_v307 main_v308 (Host.divf : (⟨S100000x128, .f32⟩ : BufTy).Contents (Elt F) → (⟨S100000x128, .f32⟩ : BufTy).Contents (Elt F) → (⟨S100000x128, .f32⟩ : BufTy).Contents (Elt F)),
    unary main_v279 main_v309 ((transpose S128x128 [1, 0] · transposes_S128x128_S128x128_1_0) : (⟨S128x128, .f32⟩ : BufTy).Contents (Elt F) → (⟨S128x128, .f32⟩ : BufTy).Contents (Elt F)),
    binary main_v308 main_v309 main_v310 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v281 main_v311 (broadcastInDim S1x128 ![1] bcast_S128_S1x128_1 : (⟨S128, .f32⟩ : BufTy).Contents (Elt F) → (⟨S1x128, .f32⟩ : BufTy).Contents (Elt F)),
    unary main_v311 main_v312 (broadcastInDim S100000x128 ![0, 1] bcast_S1x128_S100000x128_0_1 : (⟨S1x128, .f32⟩ : BufTy).Contents (Elt F) → (⟨S100000x128, .f32⟩ : BufTy).Contents (Elt F)),
    binary main_v310 main_v312 main_v313 (addf : (⟨S100000x128, .f32⟩ : BufTy).Contents (Elt F) → (⟨S100000x128, .f32⟩ : BufTy).Contents (Elt F) → (⟨S100000x128, .f32⟩ : BufTy).Contents (Elt F)),
    unary main_v283 main_v314 ((transpose S128x128 [1, 0] · transposes_S128x128_S128x128_1_0) : (⟨S128x128, .f32⟩ : BufTy).Contents (Elt F) → (⟨S128x128, .f32⟩ : BufTy).Contents (Elt F)),
    binary main_v159 main_v314 main_v315 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v313 main_v315 main_v316 (addf : (⟨S100000x128, .f32⟩ : BufTy).Contents (Elt F) → (⟨S100000x128, .f32⟩ : BufTy).Contents (Elt F) → (⟨S100000x128, .f32⟩ : BufTy).Contents (Elt F)),
    binary main_v277 main_v316 main_v317 (addf : (⟨S100000x128, .f32⟩ : BufTy).Contents (Elt F) → (⟨S100000x128, .f32⟩ : BufTy).Contents (Elt F) → (⟨S100000x128, .f32⟩ : BufTy).Contents (Elt F)) ]

/-- The two results given a leading unit axis and joined along it. -/
abbrev opsStack : List (HloOp τ sig (Elt F)) :=
  [ unary main_v238 main_v318 (broadcastInDim S1x100000x128 ![1, 2] bcast_S100000x128_S1x100000x128_1_2 : (⟨S100000x128, .f32⟩ : BufTy).Contents (Elt F) → (⟨S1x100000x128, .f32⟩ : BufTy).Contents (Elt F)),
    unary main_v317 main_v319 (broadcastInDim S1x100000x128 ![1, 2] bcast_S100000x128_S1x100000x128_1_2 : (⟨S100000x128, .f32⟩ : BufTy).Contents (Elt F) → (⟨S1x100000x128, .f32⟩ : BufTy).Contents (Elt F)),
    binary main_v318 main_v319 main_v320 ((fun a b => concatenate S2x100000x128 0 [⟨S1x100000x128, a⟩, ⟨S1x100000x128, b⟩] concatenates_S1x100000x128_S1x100000x128_S2x100000x128_d0) : (⟨S1x100000x128, .f32⟩ : BufTy).Contents (Elt F) → (⟨S1x100000x128, .f32⟩ : BufTy).Contents (Elt F) → (⟨S2x100000x128, .f32⟩ : BufTy).Contents (Elt F)) ]

end Cert.ReferenceIdeal.RefValue

end
-- ==== Proof.ReferenceOps.lean ====
/-
  The reference program's @main as the list of its 373 host operations, in order: its four stretches one after the
  other.
-/
import proofs.«123560_j36206574305716_2_alg».proof.Proof.Gen.ReferenceIdeal
import Idealize.ShloMosaic.Lib.StableHlo.Run
import proofs.«123560_j36206574305716_2_alg».proof.Proof.ReferenceStretches

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's 373 operations, in order. -/
abbrev ops : List (HloOp τ sig (Elt F)) := opsLayer0 ++ (opsJoin ++ (opsLayer1 ++ opsStack))

/-- The buffers after a list of operations followed by another are those after the second from those after the
    first. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

end Cert.ReferenceIdeal.RefValue

end
-- ==== Proof.ReferenceOpsMain.lean ====
/-
  @main is its list of operations run in order, and the signature scopes no buffer and no semaphore of the
  TensorCore: what the run of a straight line asks of the program.
-/
import proofs.«123560_j36206574305716_2_alg».proof.Proof.Gen.ReferenceIdeal
import Idealize.ShloMosaic.Lib.StableHlo.Run
import proofs.«123560_j36206574305716_2_alg».proof.Proof.ReferenceStretches
import proofs.«123560_j36206574305716_2_alg».proof.Proof.ReferenceOps

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

end Cert.ReferenceIdeal.RefValue

end
-- ==== Proof.ReferenceOpsBufs.lean ====
/-
  Every operation of the reference's list touches TensorCore buffers only and determines its results: stretch by
  stretch over the literal lists, then over the whole list, an operation of which is in one of the stretches.
-/
import proofs.«123560_j36206574305716_2_alg».proof.Proof.Gen.ReferenceIdeal
import Idealize.ShloMosaic.Lib.StableHlo.Run
import proofs.«123560_j36206574305716_2_alg».proof.Proof.ReferenceStretches
import proofs.«123560_j36206574305716_2_alg».proof.Proof.ReferenceOps

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
theorem layer0_sub : (opsLayer0 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., unary_bufs_sub .., ternary_bufs_sub .., nullary_bufs_sub .., unary_bufs_sub .., unary_bufs_sub .., reshape_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., unary_bufs_sub .., ternary_bufs_sub .., nullary_bufs_sub .., unary_bufs_sub .., unary_bufs_sub .., reshape_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub .., binary_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., unary_bufs_sub .., ternary_bufs_sub .., nullary_bufs_sub .., unary_bufs_sub .., unary_bufs_sub .., reshape_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., unary_bufs_sub .., ternary_bufs_sub .., nullary_bufs_sub .., unary_bufs_sub .., unary_bufs_sub .., reshape_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub .., binary_bufs_sub ..⟩
set_option maxRecDepth 8192 in
theorem layer0_fresh : (opsLayer0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem join_sub : (opsJoin : List (HloOp τ sig (Elt F))).Forall fun op => op.bufs ⊆ tcRefs τ sig :=
  ⟨nullary_bufs_sub .., unary_bufs_sub .., binary_bufs_sub .., nullary_bufs_sub .., unary_bufs_sub .., binary_bufs_sub ..⟩
set_option maxRecDepth 8192 in
theorem join_fresh : (opsJoin : List (HloOp τ sig (Elt F))).Forall fun op => op.fresh = ∅ :=
  ⟨rfl, rfl, rfl, rfl, rfl, rfl⟩

set_option maxRecDepth 8192 in
theorem layer1_sub : (opsLayer1 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., unary_bufs_sub .., ternary_bufs_sub .., nullary_bufs_sub .., unary_bufs_sub .., unary_bufs_sub .., reshape_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., unary_bufs_sub .., ternary_bufs_sub .., nullary_bufs_sub .., unary_bufs_sub .., unary_bufs_sub .., reshape_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub .., binary_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., unary_bufs_sub .., ternary_bufs_sub .., nullary_bufs_sub .., unary_bufs_sub .., unary_bufs_sub .., reshape_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., unary_bufs_sub .., ternary_bufs_sub .., nullary_bufs_sub .., unary_bufs_sub .., unary_bufs_sub .., reshape_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub .., binary_bufs_sub ..⟩
set_option maxRecDepth 8192 in
theorem layer1_fresh : (opsLayer1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem stack_sub : (opsStack : List (HloOp τ sig (Elt F))).Forall fun op => op.bufs ⊆ tcRefs τ sig :=
  ⟨unary_bufs_sub .., unary_bufs_sub .., binary_bufs_sub ..⟩
set_option maxRecDepth 8192 in
theorem stack_fresh : (opsStack : List (HloOp τ sig (Elt F))).Forall fun op => op.fresh = ∅ :=
  ⟨rfl, rfl, rfl⟩

/-- An operation of the whole list is in one of the four stretches. -/
theorem mem_ops {op : HloOp τ sig (Elt F)} (h : op ∈ (ops : List (HloOp τ sig (Elt F)))) :
    op ∈ (opsLayer0 : List (HloOp τ sig (Elt F))) ∨ op ∈ (opsJoin : List (HloOp τ sig (Elt F)))
      ∨ op ∈ (opsLayer1 : List (HloOp τ sig (Elt F))) ∨ op ∈ (opsStack : List (HloOp τ sig (Elt F))) := by
  rcases List.mem_append.1 h with h | h
  · exact Or.inl h
  rcases List.mem_append.1 h with h | h
  · exact Or.inr (Or.inl h)
  rcases List.mem_append.1 h with h | h
  · exact Or.inr (Or.inr (Or.inl h))
  · exact Or.inr (Or.inr (Or.inr h))

theorem ops_sub : (ops : List (HloOp τ sig (Elt F))).Forall fun op => op.bufs ⊆ tcRefs τ sig :=
  List.forall_iff_forall_mem.2 fun op h => by
    rcases mem_ops h with h | h | h | h
    · exact List.forall_iff_forall_mem.1 layer0_sub op h
    · exact List.forall_iff_forall_mem.1 join_sub op h
    · exact List.forall_iff_forall_mem.1 layer1_sub op h
    · exact List.forall_iff_forall_mem.1 stack_sub op h

theorem ops_fresh (op : HloOp τ sig (Elt F)) (h : op ∈ (ops : List (HloOp τ sig (Elt F)))) : op.fresh = ∅ := by
  rcases mem_ops h with h | h | h | h
  · exact List.forall_iff_forall_mem.1 layer0_fresh op h
  · exact List.forall_iff_forall_mem.1 join_fresh op h
  · exact List.forall_iff_forall_mem.1 layer1_fresh op h
  · exact List.forall_iff_forall_mem.1 stack_fresh op h

end Cert.ReferenceIdeal.RefValue

end
-- ==== Proof.HostLayers.lean ====
/-
  A host program's spelling of one layer into a node type — two convolutions, each at the neighbour sums and divisors
  of its own edge list and at its own slices of the weight and bias arrays, added — is `layerD` or `layerM`.
  Nothing here mentions a program.
-/
import Idealize.ShloMosaic.PureOps.Ideal.Laws
import Idealize.ShloMosaic.Lib.ValueIdx
import Idealize.ShloMosaic.Lib.Pipeline.Value
import proofs.«123560_j36206574305716_2_alg».proof.Proof.LibHeteroSage
import proofs.«123560_j36206574305716_2_alg».proof.Proof.LibSageParts
import proofs.«123560_j36206574305716_2_alg».proof.Proof.HostConvolution

noncomputable section

namespace Cert.HostConvolution

open Idealize.ShloMosaic Idealize.ShloMosaic.ValueIdx Cert.HeteroSage Cert.SageParts

section Layers
variable {E E₁ E₂ : Nat}
  (hbN : (⟨0, ![]⟩ : Shape).BroadcastsInDim ⟨1, ![100000]⟩ ![])
  (hbz : (⟨0, ![]⟩ : Shape).BroadcastsInDim ⟨2, ![100000, 128]⟩ ![])
  (d : DotDims ⟨2, ![100000, 128]⟩ ⟨2, ![128, 128]⟩ ⟨2, ![100000, 128]⟩)
  (hlc : d.lhsContracting = [1]) (hrc : d.rhsContracting = [0]) (hln : d.lhsNonContracting = [0])
  (hrn : d.rhsNonContracting = [1]) (hlb : d.lhsBatch = []) (hrb : d.rhsBatch = [])
  (Wl : FVec Ideal ⟨4, ![2, 4, 128, 128]⟩ .f32) (bl : FVec Ideal ⟨3, ![2, 4, 128]⟩ .f32)
  (Wr : FVec Ideal ⟨4, ![2, 4, 128, 128]⟩ .f32)
  (hcW : (⟨4, ![1, 1, 128, 128]⟩ : Shape).ShapeCasts ⟨2, ![128, 128]⟩)
  (htr : (⟨2, ![128, 128]⟩ : Shape).Transposes [1, 0] ⟨2, ![128, 128]⟩)
  (hcB : (⟨3, ![1, 1, 128]⟩ : Shape).ShapeCasts ⟨1, ![128]⟩)
  (hcol : (⟨1, ![100000]⟩ : Shape).BroadcastsInDim ⟨2, ![100000, 1]⟩ ![0])
  (hcols : (⟨2, ![100000, 1]⟩ : Shape).BroadcastsInDim ⟨2, ![100000, 128]⟩ ![0, 1])
  (hrow : (⟨1, ![128]⟩ : Shape).BroadcastsInDim ⟨2, ![1, 128]⟩ ![1])
  (hrows : (⟨2, ![1, 128]⟩ : Shape).BroadcastsInDim ⟨2, ![100000, 128]⟩ ![0, 1])

/-- The host's spelling of the convolution of layer l along edge type t, over an edge list e with records R: the
    neighbour sums of x_src divided by the divisors, through the transposed slice of Wl, plus the slice of bl, plus
    x_dst through the transposed slice of Wr. -/
def convAt (R : Recs E) (e : IVec ⟨2, ![2, E]⟩ 32) (xsrc xdst : FVec Ideal ⟨2, ![100000, 128]⟩ .f32) (l t : Nat)
    (hsW : (⟨4, ![2, 4, 128, 128]⟩ : Shape).Slices ![l, t, 0, 0] ⟨4, ![1, 1, 128, 128]⟩)
    (hsB : (⟨3, ![2, 4, 128]⟩ : Shape).Slices ![l, t, 0] ⟨3, ![1, 1, 128]⟩) : FVec Ideal ⟨2, ![100000, 128]⟩ .f32 :=
  addf (F := Ideal) (φ := .f32) (addf (F := Ideal) (φ := .f32) (Host.dotGeneral (F := Ideal) (φ₁ := .f32) (φ₂ := .f32) d none
        (Host.divf (F := Ideal) (φ := .f32) (R.sum hbz e xsrc)
          (broadcastInDim ⟨2, ![100000, 128]⟩ ![0, 1] hcols (broadcastInDim ⟨2, ![100000, 1]⟩ ![0] hcol (R.div hbN e : FVec Ideal ⟨1, ![100000]⟩ .f32))))
        (transpose ⟨2, ![128, 128]⟩ [1, 0]
          (shapeCast ⟨2, ![128, 128]⟩ (extractStridedSlice ⟨4, ![1, 1, 128, 128]⟩ ![l, t, 0, 0] Wl hsW) hcW) htr))
      (broadcastInDim ⟨2, ![100000, 128]⟩ ![0, 1] hrows (broadcastInDim ⟨2, ![1, 128]⟩ ![1] hrow
        (shapeCast ⟨1, ![128]⟩ (extractStridedSlice ⟨3, ![1, 1, 128]⟩ ![l, t, 0] bl hsB) hcB : FVec Ideal ⟨1, ![128]⟩ .f32))))
    (Host.dotGeneral (F := Ideal) (φ₁ := .f32) (φ₂ := .f32) d none xdst
      (transpose ⟨2, ![128, 128]⟩ [1, 0]
        (shapeCast ⟨2, ![128, 128]⟩ (extractStridedSlice ⟨4, ![1, 1, 128, 128]⟩ ![l, t, 0, 0] Wr hsW) hcW) htr))

include hlc hrc hln hrn hlb hrb in
/-- It is `conv` at the transposed weights and the bias of layer l and edge type t. -/
theorem convAt_eq (R : Recs E) (e : IVec ⟨2, ![2, E]⟩ 32) (xsrc xdst : Mat 100000 128) (l t : Nat) (hl : l < 2) (ht : t < 4)
    (hsW : (⟨4, ![2, 4, 128, 128]⟩ : Shape).Slices ![l, t, 0, 0] ⟨4, ![1, 1, 128, 128]⟩)
    (hsB : (⟨3, ![2, 4, 128]⟩ : Shape).Slices ![l, t, 0] ⟨3, ![1, 1, 128]⟩) :
    convAt hbN hbz d Wl bl Wr hcW htr hcB hcol hcols hrow hrows R e xsrc xdst l t hsW hsB
      = conv (R.sum hbz e xsrc) xdst (R.div hbN e) (wT Wl ⟨l, hl⟩ ⟨t, ht⟩) (wT Wr ⟨l, hl⟩ ⟨t, ht⟩) (bV bl ⟨l, hl⟩ ⟨t, ht⟩) := by
  unfold convAt
  rw [host_wT Wl l t hl ht, host_wT Wr l t hl ht, host_bV bl l t hl ht]
  exact host_conv d hlc hrc hln hrn hlb hrb _ _ _ _ _ _ _ _ _ _

include hlc hrc hln hrn hlb hrb in
/-- Layer l into d: along the edge types 0 (short list) and 3 (long list). -/
theorem layerD_eq (S : Recs E₁) (L : Recs E₂) (e_dd : IVec ⟨2, ![2, E₁]⟩ 32) (e_md : IVec ⟨2, ![2, E₂]⟩ 32)
    (xd xm : Mat 100000 128) (l : Nat) (hl : l < 2)
    (hsW0 : (⟨4, ![2, 4, 128, 128]⟩ : Shape).Slices ![l, 0, 0, 0] ⟨4, ![1, 1, 128, 128]⟩)
    (hsB0 : (⟨3, ![2, 4, 128]⟩ : Shape).Slices ![l, 0, 0] ⟨3, ![1, 1, 128]⟩)
    (hsW3 : (⟨4, ![2, 4, 128, 128]⟩ : Shape).Slices ![l, 3, 0, 0] ⟨4, ![1, 1, 128, 128]⟩)
    (hsB3 : (⟨3, ![2, 4, 128]⟩ : Shape).Slices ![l, 3, 0] ⟨3, ![1, 1, 128]⟩) :
    addf (convAt hbN hbz d Wl bl Wr hcW htr hcB hcol hcols hrow hrows S e_dd xd xd l 0 hsW0 hsB0)
        (convAt hbN hbz d Wl bl Wr hcW htr hcB hcol hcols hrow hrows L e_md xm xd l 3 hsW3 hsB3)
      = layerD S L hbN hbz e_dd e_md Wl bl Wr ⟨l, hl⟩ xd xm := by
  rw [convAt_eq hbN hbz d hlc hrc hln hrn hlb hrb Wl bl Wr hcW htr hcB hcol hcols hrow hrows S e_dd xd xd l 0 hl (by decide),
    convAt_eq hbN hbz d hlc hrc hln hrn hlb hrb Wl bl Wr hcW htr hcB hcol hcols hrow hrows L e_md xm xd l 3 hl (by decide)]
  rfl

include hlc hrc hln hrn hlb hrb in
/-- Layer l into m: along the edge types 1 (short list) and 2 (long list). -/
theorem layerM_eq (S : Recs E₁) (L : Recs E₂) (e_mm : IVec ⟨2, ![2, E₁]⟩ 32) (e_dm : IVec ⟨2, ![2, E₂]⟩ 32)
    (xd xm : Mat 100000 128) (l : Nat) (hl : l < 2)
    (hsW1 : (⟨4, ![2, 4, 128, 128]⟩ : Shape).Slices ![l, 1, 0, 0] ⟨4, ![1, 1, 128, 128]⟩)
    (hsB1 : (⟨3, ![2, 4, 128]⟩ : Shape).Slices ![l, 1, 0] ⟨3, ![1, 1, 128]⟩)
    (hsW2 : (⟨4, ![2, 4, 128, 128]⟩ : Shape).Slices ![l, 2, 0, 0] ⟨4, ![1, 1, 128, 128]⟩)
    (hsB2 : (⟨3, ![2, 4, 128]⟩ : Shape).Slices ![l, 2, 0] ⟨3, ![1, 1, 128]⟩) :
    addf (convAt hbN hbz d Wl bl Wr hcW htr hcB hcol hcols hrow hrows S e_mm xm xm l 1 hsW1 hsB1)
        (convAt hbN hbz d Wl bl Wr hcW htr hcB hcol hcols hrow hrows L e_dm xd xm l 2 hsW2 hsB2)
      = layerM S L hbN hbz e_mm e_dm Wl bl Wr ⟨l, hl⟩ xd xm := by
  rw [convAt_eq hbN hbz d hlc hrc hln hrn hlb hrb Wl bl Wr hcW htr hcB hcol hcols hrow hrows S e_mm xm xm l 1 hl (by decide),
    convAt_eq hbN hbz d hlc hrc hln hrn hlb hrb Wl bl Wr hcW htr hcB hcol hcols hrow hrows L e_dm xd xm l 2 hl (by decide)]
  rfl

end Layers

end Cert.HostConvolution

end
-- ==== Proof.ReferenceLayer0.lean ====
/-
  What the reference's first stretch leaves in its buffers, from any contents W before it: the sum of the two
  convolutions into d is `layerD` and the sum of the two into m is `layerM`, of layer 0, at the reference's own
  gather and scatter records and at W's argument buffers; the nine argument buffers are as W had them. The neighbour
  sums and counts are compared as whole arrays, never read at an index. And what the two joins with zero leave:
  `relu` of what the two sums' buffers held, the argument buffers as they were.
-/
import proofs.«123560_j36206574305716_2_alg».proof.Proof.Gen.ReferenceIdeal
import Idealize.ShloMosaic.Lib.StableHlo.Run
import proofs.«123560_j36206574305716_2_alg».proof.Proof.LibHeteroSage
import proofs.«123560_j36206574305716_2_alg».proof.Proof.LibSageParts
import proofs.«123560_j36206574305716_2_alg».proof.Proof.HostConvolution
import proofs.«123560_j36206574305716_2_alg».proof.Proof.HostLayers
import proofs.«123560_j36206574305716_2_alg».proof.Proof.ReferenceRecords
import proofs.«123560_j36206574305716_2_alg».proof.Proof.ReferenceStretches

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.HeteroSage Cert.SageParts Cert.HostConvolution

/-! ## The first layer -/

set_option maxRecDepth 8192 in
set_option maxHeartbeats 4000000 in
/-- Into d. -/
theorem layer0_d (W : Valuation τ sig (Elt Ideal)) :
    after (opsLayer0 (F := Ideal)) W (Proc.devRef .tc main_v78)
      = layerD RS RL bcast_S_S100000 bcast_S_S100000x128 (W (Proc.devRef .tc main_arg2)) (W (Proc.devRef .tc main_arg5)) (W (Proc.devRef .tc main_arg6)) (W (Proc.devRef .tc main_arg7)) (W (Proc.devRef .tc main_arg8)) 0 (W (Proc.devRef .tc main_arg0)) (W (Proc.devRef .tc main_arg1)) := by
  after_results_simp
  exact layerD_eq bcast_S_S100000 bcast_S_S100000x128 dot_S100000x128_S128x128_S100000x128_1_0_0_1_n_n rfl rfl rfl rfl rfl rfl
    (W (Proc.devRef .tc main_arg6)) (W (Proc.devRef .tc main_arg7)) (W (Proc.devRef .tc main_arg8))
    shapeCasts_S1x1x128x128_S128x128 transposes_S128x128_S128x128_1_0 shapeCasts_S1x1x128_S128
    bcast_S100000_S100000x1_0 bcast_S100000x1_S100000x128_0_1 bcast_S128_S1x128_1 bcast_S1x128_S100000x128_0_1
    RS RL (W (Proc.devRef .tc main_arg2)) (W (Proc.devRef .tc main_arg5)) (W (Proc.devRef .tc main_arg0)) (W (Proc.devRef .tc main_arg1)) 0 (by decide)
    slices_S2x4x128x128_S1x1x128x128_0_0_0_0 slices_S2x4x128_S1x1x128_0_0_0
    slices_S2x4x128x128_S1x1x128x128_0_3_0_0 slices_S2x4x128_S1x1x128_0_3_0

set_option maxRecDepth 8192 in
set_option maxHeartbeats 4000000 in
/-- Into m. -/
theorem layer0_m (W : Valuation τ sig (Elt Ideal)) :
    after (opsLayer0 (F := Ideal)) W (Proc.devRef .tc main_v157)
      = layerM RS RL bcast_S_S100000 bcast_S_S100000x128 (W (Proc.devRef .tc main_arg3)) (W (Proc.devRef .tc main_arg4)) (W (Proc.devRef .tc main_arg6)) (W (Proc.devRef .tc main_arg7)) (W (Proc.devRef .tc main_arg8)) 0 (W (Proc.devRef .tc main_arg0)) (W (Proc.devRef .tc main_arg1)) := by
  after_results_simp
  exact layerM_eq bcast_S_S100000 bcast_S_S100000x128 dot_S100000x128_S128x128_S100000x128_1_0_0_1_n_n rfl rfl rfl rfl rfl rfl
    (W (Proc.devRef .tc main_arg6)) (W (Proc.devRef .tc main_arg7)) (W (Proc.devRef .tc main_arg8))
    shapeCasts_S1x1x128x128_S128x128 transposes_S128x128_S128x128_1_0 shapeCasts_S1x1x128_S128
    bcast_S100000_S100000x1_0 bcast_S100000x1_S100000x128_0_1 bcast_S128_S1x128_1 bcast_S1x128_S100000x128_0_1
    RS RL (W (Proc.devRef .tc main_arg3)) (W (Proc.devRef .tc main_arg4)) (W (Proc.devRef .tc main_arg0)) (W (Proc.devRef .tc main_arg1)) 0 (by decide)
    slices_S2x4x128x128_S1x1x128x128_0_1_0_0 slices_S2x4x128_S1x1x128_0_1_0
    slices_S2x4x128x128_S1x1x128x128_0_2_0_0 slices_S2x4x128_S1x1x128_0_2_0

set_option maxRecDepth 8192 in
set_option maxHeartbeats 4000000 in
/-- The argument buffers are not written. -/
theorem layer0_args (W : Valuation τ sig (Elt Ideal)) :
    after (opsLayer0 (F := Ideal)) W (Proc.devRef .tc main_arg0) = W (Proc.devRef .tc main_arg0)
      ∧ after (opsLayer0 (F := Ideal)) W (Proc.devRef .tc main_arg1) = W (Proc.devRef .tc main_arg1)
      ∧ after (opsLayer0 (F := Ideal)) W (Proc.devRef .tc main_arg2) = W (Proc.devRef .tc main_arg2)
      ∧ after (opsLayer0 (F := Ideal)) W (Proc.devRef .tc main_arg3) = W (Proc.devRef .tc main_arg3)
      ∧ after (opsLayer0 (F := Ideal)) W (Proc.devRef .tc main_arg4) = W (Proc.devRef .tc main_arg4)
      ∧ after (opsLayer0 (F := Ideal)) W (Proc.devRef .tc main_arg5) = W (Proc.devRef .tc main_arg5)
      ∧ after (opsLayer0 (F := Ideal)) W (Proc.devRef .tc main_arg6) = W (Proc.devRef .tc main_arg6)
      ∧ after (opsLayer0 (F := Ideal)) W (Proc.devRef .tc main_arg7) = W (Proc.devRef .tc main_arg7)
      ∧ after (opsLayer0 (F := Ideal)) W (Proc.devRef .tc main_arg8) = W (Proc.devRef .tc main_arg8) := by
  after_results_simp
  exact ⟨trivial, trivial, trivial, trivial, trivial, trivial, trivial, trivial, trivial⟩

/-! ## The joins with zero -/

/-- The d features the second layer reads. -/
theorem join_d (W : Valuation τ sig (Elt Ideal)) :
    after (opsJoin (F := Ideal)) W (Proc.devRef .tc main_v158) = relu (W (Proc.devRef .tc main_v78)) := by
  after_results_simp
  exact host_relu (W (Proc.devRef .tc main_v78)) bcast_S_S100000x128

/-- The m features the second layer reads. -/
theorem join_m (W : Valuation τ sig (Elt Ideal)) :
    after (opsJoin (F := Ideal)) W (Proc.devRef .tc main_v159) = relu (W (Proc.devRef .tc main_v157)) := by
  after_results_simp
  exact host_relu (W (Proc.devRef .tc main_v157)) bcast_S_S100000x128

/-- The argument buffers are not written. -/
theorem join_args (W : Valuation τ sig (Elt Ideal)) :
    after (opsJoin (F := Ideal)) W (Proc.devRef .tc main_arg0) = W (Proc.devRef .tc main_arg0)
      ∧ after (opsJoin (F := Ideal)) W (Proc.devRef .tc main_arg1) = W (Proc.devRef .tc main_arg1)
      ∧ after (opsJoin (F := Ideal)) W (Proc.devRef .tc main_arg2) = W (Proc.devRef .tc main_arg2)
      ∧ after (opsJoin (F := Ideal)) W (Proc.devRef .tc main_arg3) = W (Proc.devRef .tc main_arg3)
      ∧ after (opsJoin (F := Ideal)) W (Proc.devRef .tc main_arg4) = W (Proc.devRef .tc main_arg4)
      ∧ after (opsJoin (F := Ideal)) W (Proc.devRef .tc main_arg5) = W (Proc.devRef .tc main_arg5)
      ∧ after (opsJoin (F := Ideal)) W (Proc.devRef .tc main_arg6) = W (Proc.devRef .tc main_arg6)
      ∧ after (opsJoin (F := Ideal)) W (Proc.devRef .tc main_arg7) = W (Proc.devRef .tc main_arg7)
      ∧ after (opsJoin (F := Ideal)) W (Proc.devRef .tc main_arg8) = W (Proc.devRef .tc main_arg8) := by
  after_results_simp
  exact ⟨trivial, trivial, trivial, trivial, trivial, trivial, trivial, trivial, trivial⟩

end Cert.ReferenceIdeal.RefValue

end
-- ==== Proof.ReferenceLayer1.lean ====
/-
  What the reference's second-layer stretch leaves in its buffers, from any contents W before it: the sum of the two
  convolutions into d is `layerD` and the sum of the two into m is `layerM`, of layer 1, over what W holds in the
  two joined results' buffers; the nine argument buffers are as W had them.
-/
import proofs.«123560_j36206574305716_2_alg».proof.Proof.Gen.ReferenceIdeal
import Idealize.ShloMosaic.Lib.StableHlo.Run
import proofs.«123560_j36206574305716_2_alg».proof.Proof.LibHeteroSage
import proofs.«123560_j36206574305716_2_alg».proof.Proof.LibSageParts
import proofs.«123560_j36206574305716_2_alg».proof.Proof.HostConvolution
import proofs.«123560_j36206574305716_2_alg».proof.Proof.HostLayers
import proofs.«123560_j36206574305716_2_alg».proof.Proof.ReferenceRecords
import proofs.«123560_j36206574305716_2_alg».proof.Proof.ReferenceStretches

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.HeteroSage Cert.SageParts Cert.HostConvolution

set_option maxRecDepth 8192 in
set_option maxHeartbeats 4000000 in
/-- Into d. -/
theorem layer1_d (W : Valuation τ sig (Elt Ideal)) :
    after (opsLayer1 (F := Ideal)) W (Proc.devRef .tc main_v238)
      = layerD RS RL bcast_S_S100000 bcast_S_S100000x128 (W (Proc.devRef .tc main_arg2)) (W (Proc.devRef .tc main_arg5)) (W (Proc.devRef .tc main_arg6)) (W (Proc.devRef .tc main_arg7)) (W (Proc.devRef .tc main_arg8)) 1 (W (Proc.devRef .tc main_v158)) (W (Proc.devRef .tc main_v159)) := by
  after_results_simp
  exact layerD_eq bcast_S_S100000 bcast_S_S100000x128 dot_S100000x128_S128x128_S100000x128_1_0_0_1_n_n rfl rfl rfl rfl rfl rfl
    (W (Proc.devRef .tc main_arg6)) (W (Proc.devRef .tc main_arg7)) (W (Proc.devRef .tc main_arg8))
    shapeCasts_S1x1x128x128_S128x128 transposes_S128x128_S128x128_1_0 shapeCasts_S1x1x128_S128
    bcast_S100000_S100000x1_0 bcast_S100000x1_S100000x128_0_1 bcast_S128_S1x128_1 bcast_S1x128_S100000x128_0_1
    RS RL (W (Proc.devRef .tc main_arg2)) (W (Proc.devRef .tc main_arg5)) (W (Proc.devRef .tc main_v158)) (W (Proc.devRef .tc main_v159)) 1 (by decide)
    slices_S2x4x128x128_S1x1x128x128_1_0_0_0 slices_S2x4x128_S1x1x128_1_0_0
    slices_S2x4x128x128_S1x1x128x128_1_3_0_0 slices_S2x4x128_S1x1x128_1_3_0

set_option maxRecDepth 8192 in
set_option maxHeartbeats 4000000 in
/-- Into m. -/
theorem layer1_m (W : Valuation τ sig (Elt Ideal)) :
    after (opsLayer1 (F := Ideal)) W (Proc.devRef .tc main_v317)
      = layerM RS RL bcast_S_S100000 bcast_S_S100000x128 (W (Proc.devRef .tc main_arg3)) (W (Proc.devRef .tc main_arg4)) (W (Proc.devRef .tc main_arg6)) (W (Proc.devRef .tc main_arg7)) (W (Proc.devRef .tc main_arg8)) 1 (W (Proc.devRef .tc main_v158)) (W (Proc.devRef .tc main_v159)) := by
  after_results_simp
  exact layerM_eq bcast_S_S100000 bcast_S_S100000x128 dot_S100000x128_S128x128_S100000x128_1_0_0_1_n_n rfl rfl rfl rfl rfl rfl
    (W (Proc.devRef .tc main_arg6)) (W (Proc.devRef .tc main_arg7)) (W (Proc.devRef .tc main_arg8))
    shapeCasts_S1x1x128x128_S128x128 transposes_S128x128_S128x128_1_0 shapeCasts_S1x1x128_S128
    bcast_S100000_S100000x1_0 bcast_S100000x1_S100000x128_0_1 bcast_S128_S1x128_1 bcast_S1x128_S100000x128_0_1
    RS RL (W (Proc.devRef .tc main_arg3)) (W (Proc.devRef .tc main_arg4)) (W (Proc.devRef .tc main_v158)) (W (Proc.devRef .tc main_v159)) 1 (by decide)
    slices_S2x4x128x128_S1x1x128x128_1_1_0_0 slices_S2x4x128_S1x1x128_1_1_0
    slices_S2x4x128x128_S1x1x128x128_1_2_0_0 slices_S2x4x128_S1x1x128_1_2_0

set_option maxRecDepth 8192 in
set_option maxHeartbeats 4000000 in
/-- The argument buffers are not written. -/
theorem layer1_args (W : Valuation τ sig (Elt Ideal)) :
    after (opsLayer1 (F := Ideal)) W (Proc.devRef .tc main_arg0) = W (Proc.devRef .tc main_arg0)
      ∧ after (opsLayer1 (F := Ideal)) W (Proc.devRef .tc main_arg1) = W (Proc.devRef .tc main_arg1)
      ∧ after (opsLayer1 (F := Ideal)) W (Proc.devRef .tc main_arg2) = W (Proc.devRef .tc main_arg2)
      ∧ after (opsLayer1 (F := Ideal)) W (Proc.devRef .tc main_arg3) = W (Proc.devRef .tc main_arg3)
      ∧ after (opsLayer1 (F := Ideal)) W (Proc.devRef .tc main_arg4) = W (Proc.devRef .tc main_arg4)
      ∧ after (opsLayer1 (F := Ideal)) W (Proc.devRef .tc main_arg5) = W (Proc.devRef .tc main_arg5)
      ∧ after (opsLayer1 (F := Ideal)) W (Proc.devRef .tc main_arg6) = W (Proc.devRef .tc main_arg6)
      ∧ after (opsLayer1 (F := Ideal)) W (Proc.devRef .tc main_arg7) = W (Proc.devRef .tc main_arg7)
      ∧ after (opsLayer1 (F := Ideal)) W (Proc.devRef .tc main_arg8) = W (Proc.devRef .tc main_arg8) := by
  after_results_simp
  exact ⟨trivial, trivial, trivial, trivial, trivial, trivial, trivial, trivial, trivial⟩

end Cert.ReferenceIdeal.RefValue

end
-- ==== Proof.ReferenceForward.lean ====
/-
  The reference program's run: from any launch contents every weakly fair execution of @main terminates with the
  result buffer at the network of the nine arguments and the arguments unchanged. The last stretch joins the two
  second-layer results, each given a leading unit axis, along that axis: `stack`. The buffers after the whole list
  are those after its four stretches in turn, so the result is `stack` of the second layer's `layerD` and `layerM`
  over the first layer's joined `layerD` and `layerM` over the arguments: `forward` at the reference's own gather and
  scatter records.
-/
import proofs.«123560_j36206574305716_2_alg».proof.Proof.Gen.ReferenceIdeal
import Idealize.ShloMosaic.Lib.StableHlo.Run
import proofs.«123560_j36206574305716_2_alg».proof.Proof.LibHeteroSage
import proofs.«123560_j36206574305716_2_alg».proof.Proof.LibSageParts
import proofs.«123560_j36206574305716_2_alg».proof.Proof.HostConvolution
import proofs.«123560_j36206574305716_2_alg».proof.Proof.ReferenceRecords
import proofs.«123560_j36206574305716_2_alg».proof.Proof.ReferenceOps
import proofs.«123560_j36206574305716_2_alg».proof.Proof.ReferenceStretches
import proofs.«123560_j36206574305716_2_alg».proof.Proof.ReferenceOpsMain
import proofs.«123560_j36206574305716_2_alg».proof.Proof.ReferenceOpsBufs
import proofs.«123560_j36206574305716_2_alg».proof.Proof.ReferenceLayer0
import proofs.«123560_j36206574305716_2_alg».proof.Proof.ReferenceLayer1

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.HeteroSage Cert.SageParts Cert.HostConvolution

/-! ## The last stretch -/

/-- The two results, each given a leading unit axis, joined along it. -/
theorem stack_result (W : Valuation τ sig (Elt Ideal)) :
    after (opsStack (F := Ideal)) W (Proc.devRef .tc main_v320) = stack (W (Proc.devRef .tc main_v238)) (W (Proc.devRef .tc main_v317)) := by
  after_results
  exact host_stack _ _ _ _

/-- The argument buffers are not written. -/
theorem stack_args (W : Valuation τ sig (Elt Ideal)) :
    after (opsStack (F := Ideal)) W (Proc.devRef .tc main_arg0) = W (Proc.devRef .tc main_arg0)
      ∧ after (opsStack (F := Ideal)) W (Proc.devRef .tc main_arg1) = W (Proc.devRef .tc main_arg1)
      ∧ after (opsStack (F := Ideal)) W (Proc.devRef .tc main_arg2) = W (Proc.devRef .tc main_arg2)
      ∧ after (opsStack (F := Ideal)) W (Proc.devRef .tc main_arg3) = W (Proc.devRef .tc main_arg3)
      ∧ after (opsStack (F := Ideal)) W (Proc.devRef .tc main_arg4) = W (Proc.devRef .tc main_arg4)
      ∧ after (opsStack (F := Ideal)) W (Proc.devRef .tc main_arg5) = W (Proc.devRef .tc main_arg5)
      ∧ after (opsStack (F := Ideal)) W (Proc.devRef .tc main_arg6) = W (Proc.devRef .tc main_arg6)
      ∧ after (opsStack (F := Ideal)) W (Proc.devRef .tc main_arg7) = W (Proc.devRef .tc main_arg7)
      ∧ after (opsStack (F := Ideal)) W (Proc.devRef .tc main_arg8) = W (Proc.devRef .tc main_arg8) := by
  after_results_simp
  exact ⟨trivial, trivial, trivial, trivial, trivial, trivial, trivial, trivial, trivial⟩

/-! ## The whole list -/

/-- The result buffer after the whole list is the network of the argument buffers' contents. -/
theorem result_eq (V : Valuation τ sig (Elt Ideal)) :
    after (ops (F := Ideal)) V (Proc.devRef .tc main_v320)
      = forward RS RL bcast_S_S100000 bcast_S_S100000x128 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  show after (opsLayer0 ++ (opsJoin ++ (opsLayer1 ++ opsStack))) V _ = _
  rw [after_append, after_append, after_append, stack_result, layer1_d, layer1_m, join_d, join_m,
    (join_args _).2.2.1, (join_args _).2.2.2.1, (join_args _).2.2.2.2.1, (join_args _).2.2.2.2.2.1, (join_args _).2.2.2.2.2.2.1, (join_args _).2.2.2.2.2.2.2.1, (join_args _).2.2.2.2.2.2.2.2,
    layer0_d, layer0_m,
    (layer0_args _).2.2.1, (layer0_args _).2.2.2.1, (layer0_args _).2.2.2.2.1, (layer0_args _).2.2.2.2.2.1, (layer0_args _).2.2.2.2.2.2.1, (layer0_args _).2.2.2.2.2.2.2.1, (layer0_args _).2.2.2.2.2.2.2.2]
  rfl

/-- Argument 0 is unchanged by the whole list. -/
theorem arg0_eq (V : Valuation τ sig (Elt Ideal)) :
    after (ops (F := Ideal)) V (Proc.devRef .tc main_arg0) = V (Proc.devRef .tc main_arg0) := by
  show after (opsLayer0 ++ (opsJoin ++ (opsLayer1 ++ opsStack))) V _ = _
  rw [after_append, after_append, after_append, (stack_args _).1, (layer1_args _).1, (join_args _).1, (layer0_args _).1]

/-- Argument 1 is unchanged by the whole list. -/
theorem arg1_eq (V : Valuation τ sig (Elt Ideal)) :
    after (ops (F := Ideal)) V (Proc.devRef .tc main_arg1) = V (Proc.devRef .tc main_arg1) := by
  show after (opsLayer0 ++ (opsJoin ++ (opsLayer1 ++ opsStack))) V _ = _
  rw [after_append, after_append, after_append, (stack_args _).2.1, (layer1_args _).2.1, (join_args _).2.1, (layer0_args _).2.1]

/-- Argument 2 is unchanged by the whole list. -/
theorem arg2_eq (V : Valuation τ sig (Elt Ideal)) :
    after (ops (F := Ideal)) V (Proc.devRef .tc main_arg2) = V (Proc.devRef .tc main_arg2) := by
  show after (opsLayer0 ++ (opsJoin ++ (opsLayer1 ++ opsStack))) V _ = _
  rw [after_append, after_append, after_append, (stack_args _).2.2.1, (layer1_args _).2.2.1, (join_args _).2.2.1, (layer0_args _).2.2.1]

/-- Argument 3 is unchanged by the whole list. -/
theorem arg3_eq (V : Valuation τ sig (Elt Ideal)) :
    after (ops (F := Ideal)) V (Proc.devRef .tc main_arg3) = V (Proc.devRef .tc main_arg3) := by
  show after (opsLayer0 ++ (opsJoin ++ (opsLayer1 ++ opsStack))) V _ = _
  rw [after_append, after_append, after_append, (stack_args _).2.2.2.1, (layer1_args _).2.2.2.1, (join_args _).2.2.2.1, (layer0_args _).2.2.2.1]

/-- Argument 4 is unchanged by the whole list. -/
theorem arg4_eq (V : Valuation τ sig (Elt Ideal)) :
    after (ops (F := Ideal)) V (Proc.devRef .tc main_arg4) = V (Proc.devRef .tc main_arg4) := by
  show after (opsLayer0 ++ (opsJoin ++ (opsLayer1 ++ opsStack))) V _ = _
  rw [after_append, after_append, after_append, (stack_args _).2.2.2.2.1, (layer1_args _).2.2.2.2.1, (join_args _).2.2.2.2.1, (layer0_args _).2.2.2.2.1]

/-- Argument 5 is unchanged by the whole list. -/
theorem arg5_eq (V : Valuation τ sig (Elt Ideal)) :
    after (ops (F := Ideal)) V (Proc.devRef .tc main_arg5) = V (Proc.devRef .tc main_arg5) := by
  show after (opsLayer0 ++ (opsJoin ++ (opsLayer1 ++ opsStack))) V _ = _
  rw [after_append, after_append, after_append, (stack_args _).2.2.2.2.2.1, (layer1_args _).2.2.2.2.2.1, (join_args _).2.2.2.2.2.1, (layer0_args _).2.2.2.2.2.1]

/-- Argument 6 is unchanged by the whole list. -/
theorem arg6_eq (V : Valuation τ sig (Elt Ideal)) :
    after (ops (F := Ideal)) V (Proc.devRef .tc main_arg6) = V (Proc.devRef .tc main_arg6) := by
  show after (opsLayer0 ++ (opsJoin ++ (opsLayer1 ++ opsStack))) V _ = _
  rw [after_append, after_append, after_append, (stack_args _).2.2.2.2.2.2.1, (layer1_args _).2.2.2.2.2.2.1, (join_args _).2.2.2.2.2.2.1, (layer0_args _).2.2.2.2.2.2.1]

/-- Argument 7 is unchanged by the whole list. -/
theorem arg7_eq (V : Valuation τ sig (Elt Ideal)) :
    after (ops (F := Ideal)) V (Proc.devRef .tc main_arg7) = V (Proc.devRef .tc main_arg7) := by
  show after (opsLayer0 ++ (opsJoin ++ (opsLayer1 ++ opsStack))) V _ = _
  rw [after_append, after_append, after_append, (stack_args _).2.2.2.2.2.2.2.1, (layer1_args _).2.2.2.2.2.2.2.1, (join_args _).2.2.2.2.2.2.2.1, (layer0_args _).2.2.2.2.2.2.2.1]

/-- Argument 8 is unchanged by the whole list. -/
theorem arg8_eq (V : Valuation τ sig (Elt Ideal)) :
    after (ops (F := Ideal)) V (Proc.devRef .tc main_arg8) = V (Proc.devRef .tc main_arg8) := by
  show after (opsLayer0 ++ (opsJoin ++ (opsLayer1 ++ opsStack))) V _ = _
  rw [after_append, after_append, after_append, (stack_args _).2.2.2.2.2.2.2.2, (layer1_args _).2.2.2.2.2.2.2.2, (join_args _).2.2.2.2.2.2.2.2, (layer0_args _).2.2.2.2.2.2.2.2]

/-! ## The run -/

/-- On every device, from any memory with zero counters: every weakly fair execution of @main terminates with the
    result at the network of the arguments' launch contents and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v320)
          = forward RS RL bcast_S_S100000 bcast_S_S100000x128 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v320).trans (result_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c)),
      (h c main_arg7).trans (arg7_eq (launchContents m c)),
      (h c main_arg8).trans (arg8_eq (launchContents m c))⟩)
    (run_seq scopedRefs_eq scopedSems_eq defs main (fun _ => ops) main_eq (fun _ => ops_sub) m ρ
      (fun _ op hop => ops_fresh op hop))

end Cert.ReferenceIdeal.RefValue

end
-- ==== Proof.lean ====
/-
  The certificate of a fused two-layer heterogeneous mean-aggregation network against its plain reference.

  The kernel program runs the gathers and scatter-adds on the host and, per layer, ONE fused kernel region that
  multiplies each neighbour sum by a packed reciprocal count, applies the weights (the two own-feature matrices and
  the two biases of a node type added beforehand) and, in the first layer, joins with zero. The reference divides
  each neighbour sum by max(count, 1), applies each edge type's weights separately and adds. On the extended reals
  the two agree for finite inputs: dividing by a nonzero y is multiplying by 1 / y, sums regroup freely, and
  x·(u + v) = x·u + x·v holds where x, u, v are reals — which the first layer's results are, since every operation
  on the way keeps reals real. Each program's frame is its run with the result forgotten; the idealization rewrote
  nothing.
-/
import proofs.«123560_j36206574305716_2_alg».proof.Defs
import proofs.«123560_j36206574305716_2_alg».proof.Proof.Gen.Kernel
import proofs.«123560_j36206574305716_2_alg».proof.Proof.Gen.KernelIdeal
import proofs.«123560_j36206574305716_2_alg».proof.Proof.Gen.ReferenceIdeal
import proofs.«123560_j36206574305716_2_alg».proof.Proof.Gen.Pre_finite_inputs
import proofs.«123560_j36206574305716_2_alg».proof.Proof.BitsRun
import proofs.«123560_j36206574305716_2_alg».proof.Proof.IdealRun
import proofs.«123560_j36206574305716_2_alg».proof.Proof.KernelValue
import proofs.«123560_j36206574305716_2_alg».proof.Proof.FiniteArgs
import proofs.«123560_j36206574305716_2_alg».proof.Proof.ReferenceForward
import Idealize.ShloMosaic.Adequacy
import Idealize.ShloMosaic.Init

set_option maxRecDepth 16384

noncomputable section

namespace Cert.Proof

open Idealize.ShloMosaic Idealize.SL.Sem

theorem frame_k : Cert.frame_Kernel := fun m ρ _ =>
  (θ_run Cert.Kernel.defs _ _).mono (fun _ h c => (h c).2) (Cert.Kernel.Regions.run (F := Bits) m ρ)

theorem frame_ki : Cert.frame_KernelIdeal := fun m ρ _ =>
  (θ_run Cert.KernelIdeal.defs _ _).mono (fun _ h c => (h c).2) (Cert.KernelIdeal.Regions.run (F := Ideal) m ρ)

theorem frame_ri : Cert.frame_ReferenceIdeal := fun m ρ _ =>
  (θ_run Cert.ReferenceIdeal.defs _ _).mono (fun _ h c => (h c).2) (Cert.ReferenceIdeal.RefValue.run m ρ)

/-- The two programs' gather and scatter records are the same records: the network at the one is the network at the other. -/
theorem forward_records (xd xm : Cert.HeteroSage.Mat 100000 128) (e_dd e_mm : IVec ⟨2, ![2, 100000]⟩ 32) (e_dm e_md : IVec ⟨2, ![2, 1000000]⟩ 32)
    (Wl : (⟨4, ![2, 4, 128, 128]⟩ : Shape).Idx → EReal) (bl : (⟨3, ![2, 4, 128]⟩ : Shape).Idx → EReal)
    (Wr : (⟨4, ![2, 4, 128, 128]⟩ : Shape).Idx → EReal) :
    Cert.SageParts.forward Cert.ReferenceIdeal.RefValue.RS Cert.ReferenceIdeal.RefValue.RL Cert.ReferenceIdeal.Gen.bcast_S_S100000 Cert.ReferenceIdeal.Gen.bcast_S_S100000x128 xd xm e_dd e_mm e_dm e_md Wl bl Wr
      = Cert.SageParts.forward Cert.KernelIdeal.Stages.KS Cert.KernelIdeal.Stages.KL Cert.KernelIdeal.Gen.bcast_S_S100000 Cert.KernelIdeal.Gen.bcast_S_S100000x128 xd xm e_dd e_mm e_dm e_md Wl bl Wr := rfl

theorem algebraic : Cert.algebraic_KernelIdeal_ReferenceIdeal := by
  intro m ρ m' ρ' hpre hagree
  refine ⟨fun c => Cert.SageParts.forward Cert.KernelIdeal.Stages.KS Cert.KernelIdeal.Stages.KL Cert.KernelIdeal.Gen.bcast_S_S100000 Cert.KernelIdeal.Gen.bcast_S_S100000x128
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · refine (θ_run Cert.KernelIdeal.defs _ _).mono (fun _ h c => ⟨(h c).1.trans ?_, (h c).2⟩) (Cert.KernelIdeal.Regions.run (F := Ideal) m ρ)
    obtain ⟨h0, h1, h6, h7, h8⟩ := Cert.FiniteArgs.reals_of_pre _ _ _ _ _ _ _ _ _ (hpre c)
    exact Cert.KernelIdeal.Result.result_eq m ρ c h0 h1 h6 h7 h8
  · refine (θ_run Cert.ReferenceIdeal.defs _ _).mono (fun _ h c => ⟨(h c).1.trans ?_, (h c).2⟩) (Cert.ReferenceIdeal.RefValue.run m' ρ')
    obtain ⟨e0, e1, e2, e3, e4, e5, e6, e7, e8⟩ := hagree c
    rw [e0, e1, e2, e3, e4, e5, e6, e7, e8]
    exact forward_records _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
